-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v233) = v1 c
          ∧ r.2.mem ((c.tc : Thread Cert.ReferenceIdeal.nD Cert.ReferenceIdeal.τ).loc Cert.ReferenceIdeal.main_v350) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S9x512x1024 : Shape := ⟨3, ![9, 512, 1024]⟩
abbrev S9x512 : Shape := ⟨2, ![9, 512]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S9x512x1024 : S_.BroadcastsInDim S9x512x1024 (![] : Fin 0 → Fin S9x512x1024.rank)
  reducesTo_S9x512x1024_S_d0_1_2 : S9x512x1024.ReducesTo [0, 1, 2] S_
  bcast_S_S9x512 : S_.BroadcastsInDim S9x512 (![] : Fin 0 → Fin S9x512.rank)
  reducesTo_S9x512_S_d0_1 : S9x512.ReducesTo [0, 1] S_

variable [Facts]

def fn_part1 {F : FTy → Type} [FloatOps F] (main_arg4 : FVec F S9x512 .f32) (main_arg5 : FVec F S9x512 .f32) (main_arg6 : FVec F S9x512 .f32) (main_v13 : IVec S_ 1) (main_v16 : IVec S9x512x1024 1) : IVec S_ 1 :=
  let main_c_5 : IVec S_ 1 := constantI S_ 1 1#1
  let main_v17 : IVec S_ 1 := (fun x v => Host.reduce IntOp.andi x v reducesTo_S9x512x1024_S_d0_1_2 h_S_) main_v16 main_c_5
  let main_v18 : IVec S_ 1 := andi main_v13 main_v17
  let main_v19 : FVec F S9x512 .f32 := Host.absf main_arg4
  let main_cst_6 : FVec F S_ .f32 := constant S_ .f32 0x7F800000#32
  let main_v20 : FVec F S9x512 .f32 := broadcastInDim S9x512 ![] bcast_S_S9x512 main_cst_6
  let main_v21 : IVec S9x512 1 := cmpf .olt main_v19 main_v20
  let main_c_7 : IVec S_ 1 := constantI S_ 1 1#1
  let main_v22 : IVec S_ 1 := (fun x v => Host.reduce IntOp.andi x v reducesTo_S9x512_S_d0_1 h_S_) main_v21 main_c_7
  let main_v23 : IVec S_ 1 := andi main_v18 main_v22
  let main_v24 : FVec F S9x512 .f32 := Host.absf main_arg5
  let main_cst_8 : FVec F S_ .f32 := constant S_ .f32 0x7F800000#32
  let main_v25 : FVec F S9x512 .f32 := broadcastInDim S9x512 ![] bcast_S_S9x512 main_cst_8
  let main_v26 : IVec S9x512 1 := cmpf .olt main_v24 main_v25
  let main_c_9 : IVec S_ 1 := constantI S_ 1 1#1
  let main_v27 : IVec S_ 1 := (fun x v => Host.reduce IntOp.andi x v reducesTo_S9x512_S_d0_1 h_S_) main_v26 main_c_9
  let main_v28 : IVec S_ 1 := andi main_v23 main_v27
  let main_v29 : FVec F S9x512 .f32 := Host.absf main_arg6
  let main_cst_10 : FVec F S_ .f32 := constant S_ .f32 0x7F800000#32
  let main_v30 : FVec F S9x512 .f32 := broadcastInDim S9x512 ![] bcast_S_S9x512 main_cst_10
  let main_v31 : IVec S9x512 1 := cmpf .olt main_v29 main_v30
  let main_c_11 : IVec S_ 1 := constantI S_ 1 1#1
  let main_v32 : IVec S_ 1 := (fun x v => Host.reduce IntOp.andi x v reducesTo_S9x512_S_d0_1 h_S_) main_v31 main_c_11
  let main_v33 : IVec S_ 1 := andi main_v28 main_v32
  main_v33

def fn {F : FTy → Type} [FloatOps F] (main_arg0 : FVec F S32768x1024 .f32) (main_arg1 : FVec F S32768x1024 .f32) (main_arg2 : FVec F S32768x1024 .f32) (main_arg3 : FVec F S9x512x1024 .f32) (main_arg4 : FVec F S9x512 .f32) (main_arg5 : FVec F S9x512 .f32) (main_arg6 : FVec F S9x512 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S9x512x1024 .f32 := Host.absf main_arg3
  let main_cst_4 : FVec F S_ .f32 := constant S_ .f32 0x7F800000#32
  let main_v15 : FVec F S9x512x1024 .f32 := broadcastInDim S9x512x1024 ![] bcast_S_S9x512x1024 main_cst_4
  let main_v16 : IVec S9x512x1024 1 := cmpf .olt main_v14 main_v15
  fn_part1 (F := F) main_arg4 main_arg5 main_arg6 main_v13 main_v16
-- ==== Kernel.lean ====
abbrev S32768x1024 : Shape := ⟨2, ![32768, 1024]⟩
abbrev S9x512x1024 : Shape := ⟨3, ![9, 512, 1024]⟩
abbrev S9x512 : Shape := ⟨2, ![9, 512]⟩
abbrev S9 : Shape := ⟨1, ![9]⟩
abbrev S1x32768x1024 : Shape := ⟨3, ![1, 32768, 1024]⟩
abbrev S3x32768x1024 : Shape := ⟨3, ![3, 32768, 1024]⟩
abbrev S9x1x512 : Shape := ⟨3, ![9, 1, 512]⟩
abbrev S9x32768x512 : Shape := ⟨3, ![9, 32768, 512]⟩
abbrev S1x1024x1024 : Shape := ⟨3, ![1, 1024, 1024]⟩
abbrev S1 : Shape := ⟨1, ![1]⟩
abbrev S1x512x1024 : Shape := ⟨3, ![1, 512, 1024]⟩
abbrev S1x1x512 : Shape := ⟨3, ![1, 1, 512]⟩
abbrev S1x1024x512 : Shape := ⟨3, ![1, 1024, 512]⟩
abbrev S1x512 : Shape := ⟨2, ![1, 512]⟩
abbrev S1024x1024 : Shape := ⟨2, ![1024, 1024]⟩
abbrev S512x1024 : Shape := ⟨2, ![512, 1024]⟩
abbrev S1024x512 : Shape := ⟨2, ![1024, 512]⟩
abbrev S512 : Shape := ⟨1, ![512]⟩
abbrev S_ : Shape := ⟨0, ![]⟩
abbrev S3x512x512 : Shape := ⟨3, ![3, 512, 512]⟩
abbrev S1x2048x256 : Shape := ⟨3, ![1, 2048, 256]⟩
abbrev S1x2048x512 : Shape := ⟨3, ![1, 2048, 512]⟩
abbrev S1x1x256 : Shape := ⟨3, ![1, 1, 256]⟩
abbrev S1x256x512 : Shape := ⟨3, ![1, 256, 512]⟩
abbrev S256x512 : Shape := ⟨2, ![256, 512]⟩
abbrev S2048x256 : Shape := ⟨2, ![2048, 256]⟩
abbrev S1x256 : Shape := ⟨2, ![1, 256]⟩
abbrev S2048x512 : Shape := ⟨2, ![2048, 512]⟩
abbrev S256 : Shape := ⟨1, ![256]⟩
abbrev S256x1 : Shape := ⟨2, ![256, 1]⟩
abbrev S3x32768x512 : Shape := ⟨3, ![3, 32768, 512]⟩
abbrev S1x512x512 : Shape := ⟨3, ![1, 512, 512]⟩
abbrev S512x512 : Shape := ⟨2, ![512, 512]⟩
abbrev S1x32768x512 : Shape := ⟨3, ![1, 32768, 512]⟩
abbrev S32768x512 : Shape := ⟨2, ![32768, 512]⟩

abbrev nBuf : Space → Nat
  | .hbm => 42
  | .vmem => 37
  | .smem => 1
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S9x512x1024, .f32⟩
  | .hbm, ⟨4, _⟩ => ⟨S9x512, .f32⟩
  | .hbm, ⟨5, _⟩ => ⟨S9x512, .f32⟩
  | .hbm, ⟨6, _⟩ => ⟨S9x512, .f32⟩
  | .hbm, ⟨7, _⟩ => ⟨S1x32768x1024, .f32⟩
  | .hbm, ⟨8, _⟩ => ⟨S1x32768x1024, .f32⟩
  | .hbm, ⟨9, _⟩ => ⟨S1x32768x1024, .f32⟩
  | .hbm, ⟨10, _⟩ => ⟨S3x32768x1024, .f32⟩
  | .hbm, ⟨11, _⟩ => ⟨S3x32768x1024, .bf16⟩
  | .hbm, ⟨12, _⟩ => ⟨S9x512x1024, .bf16⟩
  | .hbm, ⟨13, _⟩ => ⟨S9x1x512, .f32⟩
  | .hbm, ⟨14, _⟩ => ⟨S9x32768x512, .bf16⟩
  | .hbm, ⟨15, _⟩ => ⟨S9x1x512, .f32⟩
  | .hbm, ⟨16, _⟩ => ⟨S9x1x512, .f32⟩
  | .hbm, ⟨17, _⟩ => ⟨S_, .f32⟩
  | .hbm, ⟨18, _⟩ => ⟨S9x1x512, .f32⟩
  | .hbm, ⟨19, _⟩ => ⟨S9x1x512, .f32⟩
  | .hbm, ⟨20, _⟩ => ⟨S_, .f32⟩
  | .hbm, ⟨21, _⟩ => ⟨S9x1x512, .f32⟩
  | .hbm, ⟨22, _⟩ => ⟨S9x1x512, .f32⟩
  | .hbm, ⟨23, _⟩ => ⟨S9x1x512, .f32⟩
  | .hbm, ⟨24, _⟩ => ⟨S9x1x512, .f32⟩
  | .hbm, ⟨25, _⟩ => ⟨S_, .f32⟩
  | .hbm, ⟨26, _⟩ => ⟨S9x1x512, .f32⟩
  | .hbm, ⟨27, _⟩ => ⟨S9x1x512, .f32⟩
  | .hbm, ⟨28, _⟩ => ⟨S9x1x512, .f32⟩
  | .hbm, ⟨29, _⟩ => ⟨S9x1x512, .f32⟩
  | .hbm, ⟨30, _⟩ => ⟨S9x1x512, .f32⟩
  | .hbm, ⟨31, _⟩ => ⟨S9x1x512, .f32⟩
  | .hbm, ⟨32, _⟩ => ⟨S9x1x512, .f32⟩
  | .hbm, ⟨33, _⟩ => ⟨S9x1x512, .f32⟩
  | .hbm, ⟨34, _⟩ => ⟨S3x512x512, .bf16⟩
  | .hbm, ⟨35, _⟩ => ⟨S3x32768x512, .f32⟩
  | .hbm, ⟨36, _⟩ => ⟨S1x32768x512, .f32⟩
  | .hbm, ⟨37, _⟩ => ⟨S32768x512, .f32⟩
  | .hbm, ⟨38, _⟩ => ⟨S1x32768x512, .f32⟩
  | .hbm, ⟨39, _⟩ => ⟨S32768x512, .f32⟩
  | .hbm, ⟨40, _⟩ => ⟨S1x32768x512, .f32⟩
  | .hbm, ⟨41, _⟩ => ⟨S32768x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x512, .f32⟩
  | .local _ .vmem, ⟨5, _⟩ => ⟨S1x1x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x256x512, .bf16⟩
  | .local _ .vmem, ⟨25, _⟩ => ⟨S1x256x512, .bf16⟩
  | .local _ .vmem, ⟨26, _⟩ => ⟨S256x512, .f32⟩
  | .local _ .vmem, ⟨27, _⟩ => ⟨S1x2048x512, .bf16⟩
  | .local _ .vmem, ⟨28, _⟩ => ⟨S1x2048x512, .bf16⟩
  | .local _ .vmem, ⟨29, _⟩ => ⟨S1x1x512, .f32⟩
  | .local _ .vmem, ⟨30, _⟩ => ⟨S1x1x512, .f32⟩
  | .local _ .vmem, ⟨31, _⟩ => ⟨S1x1x512, .f32⟩
  | .local _ .vmem, ⟨32, _⟩ => ⟨S1x1x512, .f32⟩
  | .local _ .vmem, ⟨33, _⟩ => ⟨S1x512x512, .bf16⟩
  | .local _ .vmem, ⟨34, _⟩ => ⟨S1x512x512, .bf16⟩
  | .local _ .vmem, ⟨35, _⟩ => ⟨S1x2048x512, .f32⟩
  | .local _ .vmem, ⟨36, _⟩ => ⟨S1x2048x512, .f32⟩
  | .local _ .smem, ⟨0, _⟩ => ⟨S9, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨2, ![9, 32], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S9) ![v0.toNat] S1.size (k0_off1_inb i)) numel1_S1
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨3, ![3, 2, 16], ![false, false, false]⟩

def k1_cond2 (i : grid1.Coords) : BitVec 1 :=
  let arg2 : BitVec 32 := BitVec.ofNat 32 (i 2).val
  let c15_i32 : BitVec 32 := 15#32
  let v37 : BitVec 1 := Scalar.cmpi .eq arg2 c15_i32
  let v38 : BitVec 32 := Scalar.extui v37
  let c0_i32_24 : BitVec 32 := 0#32
  let v39 : BitVec 1 := Scalar.cmpi .ne v38 c0_i32_24
  v39

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg0
  let c0_i32 : BitVec 32 := 0#32
  ![v0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  let c0_i32_0 : BitVec 32 := 0#32
  ![v1.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg0
  let c0_i32 : BitVec 32 := 0#32
  let c0_i32_0 : BitVec 32 := 0#32
  ![v0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg0
  let c0_i32 : BitVec 32 := 0#32
  let c0_i32_0 : BitVec 32 := 0#32
  ![v0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S1x256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨2, ![3, 16], ![false, false]⟩

def cc2_transform_0 (i : grid2.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  let c0_i32_0 : BitVec 32 := 0#32
  ![v1.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  bcast_S32768x1024_S1x32768x1024_1_2 : S32768x1024.BroadcastsInDim S1x32768x1024 (![1, 2] : Fin 2 → Fin S1x32768x1024.rank)
  concatenates_S1x32768x1024_S1x32768x1024_S1x32768x1024_S3x32768x1024_d0 : Shape.Concatenates [S1x32768x1024, S1x32768x1024, S1x32768x1024] S3x32768x1024 0
  bitsLt_bf16_f32 : FTy.bits .bf16 < FTy.bits .f32
  shapeCasts_S9x512_S9x1x512 : S9x512.ShapeCasts S9x1x512
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x512_S1024x512 : S1x512.Broadcasts S1024x512
  reduces_S1024x512_S512 : S1024x512.Reduces [0] S512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  bcast_S_S9x1x512 : S_.BroadcastsInDim S9x1x512 (![] : Fin 0 → Fin S9x1x512.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x512_S2048x512 : S1x512.Broadcasts S2048x512
  reduces_S256x512_S256 : S256x512.Reduces [1] S256
  shapeCasts_S256_S256x1 : S256.ShapeCasts S256x1
  broadcasts_S256x1_S256x512 : S256x1.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  packedbf16_S1x256x512_S1x256x512_0_0_0 : (Rect.unit (s := S1x256x512) ![0, 0, 0] S1x256x512.size inb_S1x256x512_S1x256x512_0_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S2048x512_S1x2048x512 : S2048x512.ShapeCasts S1x2048x512
  slices_S3x32768x512_S1x32768x512_0_0_0 : S3x32768x512.Slices ![0, 0, 0] S1x32768x512
  shapeCasts_S1x32768x512_S32768x512 : S1x32768x512.ShapeCasts S32768x512
  slices_S3x32768x512_S1x32768x512_1_0_0 : S3x32768x512.Slices ![1, 0, 0] S1x32768x512
  slices_S3x32768x512_S1x32768x512_2_0_0 : S3x32768x512.Slices ![2, 0, 0] S1x32768x512
  dot_S1024x1024_S512x1024_S1024x512_1_1_0_0_n_n_wf : DotDims.WF S1024x1024 S512x1024 S1024x512 [1] [1] [0] [0] [] []
  dot_S2048x256_S2048x512_S256x512_0_0_1_1_n_n_wf : DotDims.WF S2048x256 S2048x512 S256x512 [0] [0] [1] [1] [] []
  dot_S2048x512_S512x512_S2048x512_1_1_0_0_n_n_wf : DotDims.WF S2048x512 S512x512 S2048x512 [1] [1] [0] [0] [] []
  hrank0 : 0 < grid0.rank
  k0_off1_inb : ∀ i : grid0.Coords, ∀ a, (k0_off1 i) a + S1.size a ≤ S9.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S9x512x1024.size a
  hwx0_1 : ∀ i : grid0.Coords, EltTy.bits .bf16 = 32 ∨ (Rect.block (s := S9x512x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S9x1x512.size a
  hwx0_2 : ∀ i : grid0.Coords, EltTy.bits .f32 = 32 ∨ (Rect.block (s := S9x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S9x32768x512.size a
  hwx0_3 : ∀ i : grid0.Coords, EltTy.bits .bf16 = 32 ∨ (Rect.block (s := S9x32768x512) S1x1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S9x1x512.size a
  hwx0_4 : ∀ i : grid0.Coords, EltTy.bits .f32 = 32 ∨ (Rect.block (s := S9x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S9x1x512.size a
  hwx0_5 : ∀ i : grid0.Coords, EltTy.bits .f32 = 32 ∨ (Rect.block (s := S9x1x512) S1x1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S9x32768x512.size a
  hwx1_0 : ∀ i : grid1.Coords, EltTy.bits .bf16 = 32 ∨ (Rect.block (s := S9x32768x512) S1x2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S9x32768x512.size a
  hwx1_1 : ∀ i : grid1.Coords, EltTy.bits .bf16 = 32 ∨ (Rect.block (s := S9x32768x512) S1x2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S9x1x512.size a
  hwx1_2 : ∀ i : grid1.Coords, EltTy.bits .f32 = 32 ∨ (Rect.block (s := S9x1x512) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S9x1x512.size a
  hwx1_3 : ∀ i : grid1.Coords, EltTy.bits .f32 = 32 ∨ (Rect.block (s := S9x1x512) S1x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S9x1x512.size a
  hwx1_4 : ∀ i : grid1.Coords, EltTy.bits .f32 = 32 ∨ (Rect.block (s := S9x1x512) S1x1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x512.size a ≤ S9x1x512.size a
  hwx1_5 : ∀ i : grid1.Coords, EltTy.bits .f32 = 32 ∨ (Rect.block (s := S9x1x512) S1x1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x512.size a ≤ S3x512x512.size a
  hwx1_6 : ∀ i : grid1.Coords, EltTy.bits .bf16 = 32 ∨ (Rect.block (s := S3x512x512) S1x256x512.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x512.size a ≤ S9x32768x512.size a
  hwx2_0 : ∀ i : grid2.Coords, EltTy.bits .bf16 = 32 ∨ (Rect.block (s := S9x32768x512) S1x2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x512.size a ≤ S9x1x512.size a
  hwx2_1 : ∀ i : grid2.Coords, EltTy.bits .f32 = 32 ∨ (Rect.block (s := S9x1x512) S1x1x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S9x1x512.size a
  hwx2_2 : ∀ i : grid2.Coords, EltTy.bits .f32 = 32 ∨ (Rect.block (s := S9x1x512) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S3x512x512.size a
  hwx2_3 : ∀ i : grid2.Coords, EltTy.bits .bf16 = 32 ∨ (Rect.block (s := S3x512x512) S1x512x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x512.size a ≤ S3x32768x512.size a
  hwx2_4 : ∀ i : grid2.Coords, EltTy.bits .f32 = 32 ∨ (Rect.block (s := S3x32768x512) S1x2048x512.size (cc2_transform_4 i) (hinb2_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S2048x256_S2048x512_S256x512_0_0_1_1_n_n : DotDims S2048x256 S2048x512 S256x512 where
  lhsContracting := [0]
  rhsContracting := [0]
  lhsNonContracting := [1]
  rhsNonContracting := [1]
  lhsBatch := []
  rhsBatch := []
  wf := dot_S2048x256_S2048x512_S256x512_0_0_1_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev spec0_0 : Pipeline.WinSpec sig grid0.rank :=
  Pipeline.WinSpec.ofSpec (Memref.whole main_v4) S1x1024x1024.size reads0_0 false false 2 stage0_0 sem0_0 nbuf0_0 hstage0_0

abbrev spec0_1 : Pipeline.WinSpec sig grid0.rank :=
  Pipeline.WinSpec.ofSpec (Memref.whole main_v5) S1x512x1024.size reads0_1 false false 2 stage0_1 sem0_1 nbuf0_1 hstage0_1

abbrev spec0_2 : Pipeline.WinSpec sig grid0.rank :=
  Pipeline.WinSpec.ofSpec (Memref.whole main_v6) S1x1x512.size reads0_2 false false 2 stage0_2 sem0_2 nbuf0_2 hstage0_2

abbrev spec0_3 : Pipeline.WinSpec sig grid0.rank :=
  Pipeline.WinSpec.ofSpec (Memref.whole main_v7_0) S1x1024x512.size reads0_3 true false 2 stage0_3 sem0_3 nbuf0_3 hstage0_3

abbrev spec0_4 : Pipeline.WinSpec sig grid0.rank :=
  Pipeline.WinSpec.ofSpec (Memref.whole main_v7_1) S1x1x512.size reads0_4 true false 2 stage0_4 sem0_4 nbuf0_4 hstage0_4

abbrev spec0_5 : Pipeline.WinSpec sig grid0.rank :=
  Pipeline.WinSpec.ofSpec (Memref.whole main_v7_2) S1x1x512.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 k0_off1_inb numel1_S1 pf | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x1024.size a ≤ S3x32768x1024.size a), EltTy.bits .bf16 = 32 ∨ (Rect.block (s := S3x32768x1024) S1x1024x1024.size (cc0_transform_0 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | ⟨_ + 6, h⟩ => absurd h (Nat.not_lt.2 (Nat.le_add_left _ _))
abbrev win1_0 : Pipeline.Window sig grid1 :=
  Pipeline.Window.ofSpec (Memref.whole main_v7_0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x256x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v7_0) S1x2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x1x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x512x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where
  harr0 : ∀ w, (spec0 w).arr.IsWhole

variable [Facts]
-- ==== ReferenceIdeal.lean ====
abbrev S32768x1024 : Shape := ⟨2, ![32768, 1024]⟩
abbrev S9x512x1024 : Shape := ⟨3, ![9, 512, 1024]⟩
abbrev S9x512 : Shape := ⟨2, ![9, 512]⟩
abbrev S1x512x1024 : Shape := ⟨3, ![1, 512, 1024]⟩
abbrev S512x1024 : Shape := ⟨2, ![512, 1024]⟩
abbrev S1x512 : Shape := ⟨2, ![1, 512]⟩
abbrev S512 : Shape := ⟨1, ![512]⟩
abbrev S1024x512 : Shape := ⟨2, ![1024, 512]⟩
abbrev S32768x512 : Shape := ⟨2, ![32768, 512]⟩
abbrev S_ : Shape := ⟨0, ![]⟩
abbrev S512x32768 : Shape := ⟨2, ![512, 32768]⟩
abbrev S512x512 : Shape := ⟨2, ![512, 512]⟩
abbrev S512x1 : Shape := ⟨2, ![512, 1]⟩

abbrev nBuf : Space → Nat
  | .hbm => 613
  | .vmem => 0
  | .smem => 0
  | _ => 0

abbrev hbmTy0_0 (i : Nat) : BufTy := match i % 128 with
  | 0 => ⟨S32768x1024, .f32⟩
  | 1 => ⟨S32768x1024, .f32⟩
  | 2 => ⟨S32768x1024, .f32⟩
  | 3 => ⟨S9x512x1024, .f32⟩
  | 4 => ⟨S9x512, .f32⟩
  | 5 => ⟨S9x512, .f32⟩
  | 6 => ⟨S9x512, .f32⟩
  | 7 => ⟨S1x512x1024, .f32⟩
  | 8 => ⟨S512x1024, .f32⟩
  | 9 => ⟨S1x512, .f32⟩
  | 10 => ⟨S512, .f32⟩
  | 11 => ⟨S1x512, .f32⟩
  | 12 => ⟨S512, .f32⟩
  | 13 => ⟨S1x512, .f32⟩
  | 14 => ⟨S512, .f32⟩
  | 15 => ⟨S1024x512, .f32⟩
  | 16 => ⟨S32768x512, .f32⟩
  | 17 => ⟨S1x512, .f32⟩
  | 18 => ⟨S32768x512, .f32⟩
  | 19 => ⟨S32768x512, .f32⟩
  | 20 => ⟨S_, .f32⟩
  | 21 => ⟨S512, .f32⟩
  | 22 => ⟨S_, .f32⟩
  | 23 => ⟨S512, .f32⟩
  | 24 => ⟨S512, .f32⟩
  | 25 => ⟨S_, .i32⟩
  | 26 => ⟨S_, .f32⟩
  | 27 => ⟨S512, .f32⟩
  | 28 => ⟨S1x512, .f32⟩
  | 29 => ⟨S_, .f32⟩
  | 30 => ⟨S1x512, .f32⟩
  | 31 => ⟨S1x512, .f32⟩
  | 32 => ⟨S32768x512, .f32⟩
  | 33 => ⟨S32768x512, .f32⟩
  | 34 => ⟨S32768x512, .f32⟩
  | 35 => ⟨S_, .f32⟩
  | 36 => ⟨S_, .f32⟩
  | 37 => ⟨S_, .f32⟩
  | 38 => ⟨S_, .f32⟩
  | 39 => ⟨S512, .f32⟩
  | 40 => ⟨S512, .f32⟩
  | 41 => ⟨S512, .f32⟩
  | 42 => ⟨S_, .f32⟩
  | 43 => ⟨S_, .i1⟩
  | 44 => ⟨S_, .f32⟩
  | 45 => ⟨S_, .f32⟩
  | 46 => ⟨S512, .f32⟩
  | 47 => ⟨S512, .f32⟩
  | 48 => ⟨S1x512, .f32⟩
  | 49 => ⟨S32768x512, .f32⟩
  | 50 => ⟨S32768x512, .f32⟩
  | 51 => ⟨S_, .f32⟩
  | 52 => ⟨S512, .f32⟩
  | 53 => ⟨S512, .f32⟩
  | 54 => ⟨S512, .f32⟩
  | 55 => ⟨S1x512, .f32⟩
  | 56 => ⟨S32768x512, .f32⟩
  | 57 => ⟨S32768x512, .f32⟩
  | 58 => ⟨S1x512, .f32⟩
  | 59 => ⟨S32768x512, .f32⟩
  | 60 => ⟨S32768x512, .f32⟩
  | 61 => ⟨S1x512, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S1x512x1024, .f32⟩
  | 68 => ⟨S512x1024, .f32⟩
  | 69 => ⟨S1x512, .f32⟩
  | 70 => ⟨S512, .f32⟩
  | 71 => ⟨S1x512, .f32⟩
  | 72 => ⟨S512, .f32⟩
  | 73 => ⟨S1x512, .f32⟩
  | 74 => ⟨S512, .f32⟩
  | 75 => ⟨S1024x512, .f32⟩
  | 76 => ⟨S32768x512, .f32⟩
  | 77 => ⟨S1x512, .f32⟩
  | 78 => ⟨S32768x512, .f32⟩
  | 79 => ⟨S32768x512, .f32⟩
  | 80 => ⟨S_, .f32⟩
  | 81 => ⟨S512, .f32⟩
  | 82 => ⟨S_, .f32⟩
  | 83 => ⟨S512, .f32⟩
  | 84 => ⟨S512, .f32⟩
  | 85 => ⟨S_, .i32⟩
  | 86 => ⟨S_, .f32⟩
  | 87 => ⟨S512, .f32⟩
  | 88 => ⟨S1x512, .f32⟩
  | 89 => ⟨S_, .f32⟩
  | 90 => ⟨S1x512, .f32⟩
  | 91 => ⟨S1x512, .f32⟩
  | 92 => ⟨S32768x512, .f32⟩
  | 93 => ⟨S32768x512, .f32⟩
  | 94 => ⟨S32768x512, .f32⟩
  | 95 => ⟨S_, .f32⟩
  | 96 => ⟨S_, .f32⟩
  | 97 => ⟨S_, .f32⟩
  | 98 => ⟨S_, .f32⟩
  | 99 => ⟨S512, .f32⟩
  | 100 => ⟨S512, .f32⟩
  | 101 => ⟨S512, .f32⟩
  | 102 => ⟨S_, .f32⟩
  | 103 => ⟨S_, .i1⟩
  | 104 => ⟨S_, .f32⟩
  | 105 => ⟨S_, .f32⟩
  | 106 => ⟨S512, .f32⟩
  | 107 => ⟨S512, .f32⟩
  | 108 => ⟨S1x512, .f32⟩
  | 109 => ⟨S32768x512, .f32⟩
  | 110 => ⟨S32768x512, .f32⟩
  | 111 => ⟨S_, .f32⟩
  | 112 => ⟨S512, .f32⟩
  | 113 => ⟨S512, .f32⟩
  | 114 => ⟨S512, .f32⟩
  | 115 => ⟨S1x512, .f32⟩
  | 116 => ⟨S32768x512, .f32⟩
  | 117 => ⟨S32768x512, .f32⟩
  | 118 => ⟨S1x512, .f32⟩
  | 119 => ⟨S32768x512, .f32⟩
  | 120 => ⟨S32768x512, .f32⟩
  | 121 => ⟨S1x512, .f32⟩
  | 122 => ⟨S32768x512, .f32⟩
  | 123 => ⟨S32768x512, .f32⟩
  | 124 => ⟨S_, .f32⟩
  | 125 => ⟨S32768x512, .f32⟩
  | 126 => ⟨S32768x512, .f32⟩
  | 127 => ⟨S1x512x1024, .f32⟩
  | _ => ⟨S32768x1024, .f32⟩

abbrev hbmTy0_1 (i : Nat) : BufTy := match i % 128 with
  | 0 => ⟨S512x1024, .f32⟩
  | 1 => ⟨S1x512, .f32⟩
  | 2 => ⟨S512, .f32⟩
  | 3 => ⟨S1x512, .f32⟩
  | 4 => ⟨S512, .f32⟩
  | 5 => ⟨S1x512, .f32⟩
  | 6 => ⟨S512, .f32⟩
  | 7 => ⟨S1024x512, .f32⟩
  | 8 => ⟨S32768x512, .f32⟩
  | 9 => ⟨S1x512, .f32⟩
  | 10 => ⟨S32768x512, .f32⟩
  | 11 => ⟨S32768x512, .f32⟩
  | 12 => ⟨S_, .f32⟩
  | 13 => ⟨S512, .f32⟩
  | 14 => ⟨S_, .f32⟩
  | 15 => ⟨S512, .f32⟩
  | 16 => ⟨S512, .f32⟩
  | 17 => ⟨S_, .i32⟩
  | 18 => ⟨S_, .f32⟩
  | 19 => ⟨S512, .f32⟩
  | 20 => ⟨S1x512, .f32⟩
  | 21 => ⟨S_, .f32⟩
  | 22 => ⟨S1x512, .f32⟩
  | 23 => ⟨S1x512, .f32⟩
  | 24 => ⟨S32768x512, .f32⟩
  | 25 => ⟨S32768x512, .f32⟩
  | 26 => ⟨S32768x512, .f32⟩
  | 27 => ⟨S_, .f32⟩
  | 28 => ⟨S_, .f32⟩
  | 29 => ⟨S_, .f32⟩
  | 30 => ⟨S_, .f32⟩
  | 31 => ⟨S512, .f32⟩
  | 32 => ⟨S512, .f32⟩
  | 33 => ⟨S512, .f32⟩
  | 34 => ⟨S_, .f32⟩
  | 35 => ⟨S_, .i1⟩
  | 36 => ⟨S_, .f32⟩
  | 37 => ⟨S_, .f32⟩
  | 38 => ⟨S512, .f32⟩
  | 39 => ⟨S512, .f32⟩
  | 40 => ⟨S1x512, .f32⟩
  | 41 => ⟨S32768x512, .f32⟩
  | 42 => ⟨S32768x512, .f32⟩
  | 43 => ⟨S_, .f32⟩
  | 44 => ⟨S512, .f32⟩
  | 45 => ⟨S512, .f32⟩
  | 46 => ⟨S512, .f32⟩
  | 47 => ⟨S1x512, .f32⟩
  | 48 => ⟨S32768x512, .f32⟩
  | 49 => ⟨S32768x512, .f32⟩
  | 50 => ⟨S1x512, .f32⟩
  | 51 => ⟨S32768x512, .f32⟩
  | 52 => ⟨S32768x512, .f32⟩
  | 53 => ⟨S1x512, .f32⟩
  | 54 => ⟨S32768x512, .f32⟩
  | 55 => ⟨S32768x512, .f32⟩
  | 56 => ⟨S_, .f32⟩
  | 57 => ⟨S32768x512, .f32⟩
  | 58 => ⟨S32768x512, .f32⟩
  | 59 => ⟨S512x32768, .f32⟩
  | 60 => ⟨S512x512, .f32⟩
  | 61 => ⟨S_, .f32⟩
  | 62 => ⟨S_, .f32⟩
  | 63 => ⟨S512x512, .f32⟩
  | 64 => ⟨S512x512, .f32⟩
  | 65 => ⟨S_, .f32⟩
  | 66 => ⟨S512, .f32⟩
  | 67 => ⟨S_, .f32⟩
  | 68 => ⟨S512, .f32⟩
  | 69 => ⟨S512, .f32⟩
  | 70 => ⟨S512x1, .f32⟩
  | 71 => ⟨S512x512, .f32⟩
  | 72 => ⟨S512x512, .f32⟩
  | 73 => ⟨S512x512, .f32⟩
  | 74 => ⟨S_, .f32⟩
  | 75 => ⟨S512, .f32⟩
  | 76 => ⟨S512x1, .f32⟩
  | 77 => ⟨S512x512, .f32⟩
  | 78 => ⟨S512x512, .f32⟩
  | 79 => ⟨S512x512, .f32⟩
  | 80 => ⟨S32768x512, .f32⟩
  | 81 => ⟨S1x512x1024, .f32⟩
  | 82 => ⟨S512x1024, .f32⟩
  | 83 => ⟨S1x512, .f32⟩
  | 84 => ⟨S512, .f32⟩
  | 85 => ⟨S1x512, .f32⟩
  | 86 => ⟨S512, .f32⟩
  | 87 => ⟨S1x512, .f32⟩
  | 88 => ⟨S512, .f32⟩
  | 89 => ⟨S1024x512, .f32⟩
  | 90 => ⟨S32768x512, .f32⟩
  | 91 => ⟨S1x512, .f32⟩
  | 92 => ⟨S32768x512, .f32⟩
  | 93 => ⟨S32768x512, .f32⟩
  | 94 => ⟨S_, .f32⟩
  | 95 => ⟨S512, .f32⟩
  | 96 => ⟨S_, .f32⟩
  | 97 => ⟨S512, .f32⟩
  | 98 => ⟨S512, .f32⟩
  | 99 => ⟨S_, .i32⟩
  | 100 => ⟨S_, .f32⟩
  | 101 => ⟨S512, .f32⟩
  | 102 => ⟨S1x512, .f32⟩
  | 103 => ⟨S_, .f32⟩
  | 104 => ⟨S1x512, .f32⟩
  | 105 => ⟨S1x512, .f32⟩
  | 106 => ⟨S32768x512, .f32⟩
  | 107 => ⟨S32768x512, .f32⟩
  | 108 => ⟨S32768x512, .f32⟩
  | 109 => ⟨S_, .f32⟩
  | 110 => ⟨S_, .f32⟩
  | 111 => ⟨S_, .f32⟩
  | 112 => ⟨S_, .f32⟩
  | 113 => ⟨S512, .f32⟩
  | 114 => ⟨S512, .f32⟩
  | 115 => ⟨S512, .f32⟩
  | 116 => ⟨S_, .f32⟩
  | 117 => ⟨S_, .i1⟩
  | 118 => ⟨S_, .f32⟩
  | 119 => ⟨S_, .f32⟩
  | 120 => ⟨S512, .f32⟩
  | 121 => ⟨S512, .f32⟩
  | 122 => ⟨S1x512, .f32⟩
  | 123 => ⟨S32768x512, .f32⟩
  | 124 => ⟨S32768x512, .f32⟩
  | 125 => ⟨S_, .f32⟩
  | 126 => ⟨S512, .f32⟩
  | 127 => ⟨S512, .f32⟩
  | _ => ⟨S32768x1024, .f32⟩

abbrev hbmTy0_2 (i : Nat) : BufTy := match i % 128 with
  | 0 => ⟨S512, .f32⟩
  | 1 => ⟨S1x512, .f32⟩
  | 2 => ⟨S32768x512, .f32⟩
  | 3 => ⟨S32768x512, .f32⟩
  | 4 => ⟨S1x512, .f32⟩
  | 5 => ⟨S32768x512, .f32⟩
  | 6 => ⟨S32768x512, .f32⟩
  | 7 => ⟨S1x512, .f32⟩
  | 8 => ⟨S32768x512, .f32⟩
  | 9 => ⟨S32768x512, .f32⟩
  | 10 => ⟨S_, .f32⟩
  | 11 => ⟨S32768x512, .f32⟩
  | 12 => ⟨S32768x512, .f32⟩
  | 13 => ⟨S1x512x1024, .f32⟩
  | 14 => ⟨S512x1024, .f32⟩
  | 15 => ⟨S1x512, .f32⟩
  | 16 => ⟨S512, .f32⟩
  | 17 => ⟨S1x512, .f32⟩
  | 18 => ⟨S512, .f32⟩
  | 19 => ⟨S1x512, .f32⟩
  | 20 => ⟨S512, .f32⟩
  | 21 => ⟨S1024x512, .f32⟩
  | 22 => ⟨S32768x512, .f32⟩
  | 23 => ⟨S1x512, .f32⟩
  | 24 => ⟨S32768x512, .f32⟩
  | 25 => ⟨S32768x512, .f32⟩
  | 26 => ⟨S_, .f32⟩
  | 27 => ⟨S512, .f32⟩
  | 28 => ⟨S_, .f32⟩
  | 29 => ⟨S512, .f32⟩
  | 30 => ⟨S512, .f32⟩
  | 31 => ⟨S_, .i32⟩
  | 32 => ⟨S_, .f32⟩
  | 33 => ⟨S512, .f32⟩
  | 34 => ⟨S1x512, .f32⟩
  | 35 => ⟨S_, .f32⟩
  | 36 => ⟨S1x512, .f32⟩
  | 37 => ⟨S1x512, .f32⟩
  | 38 => ⟨S32768x512, .f32⟩
  | 39 => ⟨S32768x512, .f32⟩
  | 40 => ⟨S32768x512, .f32⟩
  | 41 => ⟨S_, .f32⟩
  | 42 => ⟨S_, .f32⟩
  | 43 => ⟨S_, .f32⟩
  | 44 => ⟨S_, .f32⟩
  | 45 => ⟨S512, .f32⟩
  | 46 => ⟨S512, .f32⟩
  | 47 => ⟨S512, .f32⟩
  | 48 => ⟨S_, .f32⟩
  | 49 => ⟨S_, .i1⟩
  | 50 => ⟨S_, .f32⟩
  | 51 => ⟨S_, .f32⟩
  | 52 => ⟨S512, .f32⟩
  | 53 => ⟨S512, .f32⟩
  | 54 => ⟨S1x512, .f32⟩
  | 55 => ⟨S32768x512, .f32⟩
  | 56 => ⟨S32768x512, .f32⟩
  | 57 => ⟨S_, .f32⟩
  | 58 => ⟨S512, .f32⟩
  | 59 => ⟨S512, .f32⟩
  | 60 => ⟨S512, .f32⟩
  | 61 => ⟨S1x512, .f32⟩
  | 62 => ⟨S32768x512, .f32⟩
  | 63 => ⟨S32768x512, .f32⟩
  | 64 => ⟨S1x512, .f32⟩
  | 65 => ⟨S32768x512, .f32⟩
  | 66 => ⟨S32768x512, .f32⟩
  | 67 => ⟨S1x512, .f32⟩
  | 68 => ⟨S32768x512, .f32⟩
  | 69 => ⟨S32768x512, .f32⟩
  | 70 => ⟨S_, .f32⟩
  | 71 => ⟨S32768x512, .f32⟩
  | 72 => ⟨S32768x512, .f32⟩
  | 73 => ⟨S1x512x1024, .f32⟩
  | 74 => ⟨S512x1024, .f32⟩
  | 75 => ⟨S1x512, .f32⟩
  | 76 => ⟨S512, .f32⟩
  | 77 => ⟨S1x512, .f32⟩
  | 78 => ⟨S512, .f32⟩
  | 79 => ⟨S1x512, .f32⟩
  | 80 => ⟨S512, .f32⟩
  | 81 => ⟨S1024x512, .f32⟩
  | 82 => ⟨S32768x512, .f32⟩
  | 83 => ⟨S1x512, .f32⟩
  | 84 => ⟨S32768x512, .f32⟩
  | 85 => ⟨S32768x512, .f32⟩
  | 86 => ⟨S_, .f32⟩
  | 87 => ⟨S512, .f32⟩
  | 88 => ⟨S_, .f32⟩
  | 89 => ⟨S512, .f32⟩
  | 90 => ⟨S512, .f32⟩
  | 91 => ⟨S_, .i32⟩
  | 92 => ⟨S_, .f32⟩
  | 93 => ⟨S512, .f32⟩
  | 94 => ⟨S1x512, .f32⟩
  | 95 => ⟨S_, .f32⟩
  | 96 => ⟨S1x512, .f32⟩
  | 97 => ⟨S1x512, .f32⟩
  | 98 => ⟨S32768x512, .f32⟩
  | 99 => ⟨S32768x512, .f32⟩
  | 100 => ⟨S32768x512, .f32⟩
  | 101 => ⟨S_, .f32⟩
  | 102 => ⟨S_, .f32⟩
  | 103 => ⟨S_, .f32⟩
  | 104 => ⟨S_, .f32⟩
  | 105 => ⟨S512, .f32⟩
  | 106 => ⟨S512, .f32⟩
  | 107 => ⟨S512, .f32⟩
  | 108 => ⟨S_, .f32⟩
  | 109 => ⟨S_, .i1⟩
  | 110 => ⟨S_, .f32⟩
  | 111 => ⟨S_, .f32⟩
  | 112 => ⟨S512, .f32⟩
  | 113 => ⟨S512, .f32⟩
  | 114 => ⟨S1x512, .f32⟩
  | 115 => ⟨S32768x512, .f32⟩
  | 116 => ⟨S32768x512, .f32⟩
  | 117 => ⟨S_, .f32⟩
  | 118 => ⟨S512, .f32⟩
  | 119 => ⟨S512, .f32⟩
  | 120 => ⟨S512, .f32⟩
  | 121 => ⟨S1x512, .f32⟩
  | 122 => ⟨S32768x512, .f32⟩
  | 123 => ⟨S32768x512, .f32⟩
  | 124 => ⟨S1x512, .f32⟩
  | 125 => ⟨S32768x512, .f32⟩
  | 126 => ⟨S32768x512, .f32⟩
  | 127 => ⟨S1x512, .f32⟩
  | _ => ⟨S32768x1024, .f32⟩

abbrev hbmTy0_3 (i : Nat) : BufTy := match i % 128 with
  | 0 => ⟨S32768x512, .f32⟩
  | 1 => ⟨S32768x512, .f32⟩
  | 2 => ⟨S_, .f32⟩
  | 3 => ⟨S32768x512, .f32⟩
  | 4 => ⟨S32768x512, .f32⟩
  | 5 => ⟨S512x32768, .f32⟩
  | 6 => ⟨S512x512, .f32⟩
  | 7 => ⟨S_, .f32⟩
  | 8 => ⟨S_, .f32⟩
  | 9 => ⟨S512x512, .f32⟩
  | 10 => ⟨S512x512, .f32⟩
  | 11 => ⟨S_, .f32⟩
  | 12 => ⟨S512, .f32⟩
  | 13 => ⟨S_, .f32⟩
  | 14 => ⟨S512, .f32⟩
  | 15 => ⟨S512, .f32⟩
  | 16 => ⟨S512x1, .f32⟩
  | 17 => ⟨S512x512, .f32⟩
  | 18 => ⟨S512x512, .f32⟩
  | 19 => ⟨S512x512, .f32⟩
  | 20 => ⟨S_, .f32⟩
  | 21 => ⟨S512, .f32⟩
  | 22 => ⟨S512x1, .f32⟩
  | 23 => ⟨S512x512, .f32⟩
  | 24 => ⟨S512x512, .f32⟩
  | 25 => ⟨S512x512, .f32⟩
  | 26 => ⟨S32768x512, .f32⟩
  | 27 => ⟨S1x512x1024, .f32⟩
  | 28 => ⟨S512x1024, .f32⟩
  | 29 => ⟨S1x512, .f32⟩
  | 30 => ⟨S512, .f32⟩
  | 31 => ⟨S1x512, .f32⟩
  | 32 => ⟨S512, .f32⟩
  | 33 => ⟨S1x512, .f32⟩
  | 34 => ⟨S512, .f32⟩
  | 35 => ⟨S1024x512, .f32⟩
  | 36 => ⟨S32768x512, .f32⟩
  | 37 => ⟨S1x512, .f32⟩
  | 38 => ⟨S32768x512, .f32⟩
  | 39 => ⟨S32768x512, .f32⟩
  | 40 => ⟨S_, .f32⟩
  | 41 => ⟨S512, .f32⟩
  | 42 => ⟨S_, .f32⟩
  | 43 => ⟨S512, .f32⟩
  | 44 => ⟨S512, .f32⟩
  | 45 => ⟨S_, .i32⟩
  | 46 => ⟨S_, .f32⟩
  | 47 => ⟨S512, .f32⟩
  | 48 => ⟨S1x512, .f32⟩
  | 49 => ⟨S_, .f32⟩
  | 50 => ⟨S1x512, .f32⟩
  | 51 => ⟨S1x512, .f32⟩
  | 52 => ⟨S32768x512, .f32⟩
  | 53 => ⟨S32768x512, .f32⟩
  | 54 => ⟨S32768x512, .f32⟩
  | 55 => ⟨S_, .f32⟩
  | 56 => ⟨S_, .f32⟩
  | 57 => ⟨S_, .f32⟩
  | 58 => ⟨S_, .f32⟩
  | 59 => ⟨S512, .f32⟩
  | 60 => ⟨S512, .f32⟩
  | 61 => ⟨S512, .f32⟩
  | 62 => ⟨S_, .f32⟩
  | 63 => ⟨S_, .i1⟩
  | 64 => ⟨S_, .f32⟩
  | 65 => ⟨S_, .f32⟩
  | 66 => ⟨S512, .f32⟩
  | 67 => ⟨S512, .f32⟩
  | 68 => ⟨S1x512, .f32⟩
  | 69 => ⟨S32768x512, .f32⟩
  | 70 => ⟨S32768x512, .f32⟩
  | 71 => ⟨S_, .f32⟩
  | 72 => ⟨S512, .f32⟩
  | 73 => ⟨S512, .f32⟩
  | 74 => ⟨S512, .f32⟩
  | 75 => ⟨S1x512, .f32⟩
  | 76 => ⟨S32768x512, .f32⟩
  | 77 => ⟨S32768x512, .f32⟩
  | 78 => ⟨S1x512, .f32⟩
  | 79 => ⟨S32768x512, .f32⟩
  | 80 => ⟨S32768x512, .f32⟩
  | 81 => ⟨S1x512, .f32⟩
  | 82 => ⟨S32768x512, .f32⟩
  | 83 => ⟨S32768x512, .f32⟩
  | 84 => ⟨S_, .f32⟩
  | 85 => ⟨S32768x512, .f32⟩
  | 86 => ⟨S32768x512, .f32⟩
  | 87 => ⟨S1x512x1024, .f32⟩
  | 88 => ⟨S512x1024, .f32⟩
  | 89 => ⟨S1x512, .f32⟩
  | 90 => ⟨S512, .f32⟩
  | 91 => ⟨S1x512, .f32⟩
  | 92 => ⟨S512, .f32⟩
  | 93 => ⟨S1x512, .f32⟩
  | 94 => ⟨S512, .f32⟩
  | 95 => ⟨S1024x512, .f32⟩
  | 96 => ⟨S32768x512, .f32⟩
  | 97 => ⟨S1x512, .f32⟩
  | 98 => ⟨S32768x512, .f32⟩
  | 99 => ⟨S32768x512, .f32⟩
  | 100 => ⟨S_, .f32⟩
  | 101 => ⟨S512, .f32⟩
  | 102 => ⟨S_, .f32⟩
  | 103 => ⟨S512, .f32⟩
  | 104 => ⟨S512, .f32⟩
  | 105 => ⟨S_, .i32⟩
  | 106 => ⟨S_, .f32⟩
  | 107 => ⟨S512, .f32⟩
  | 108 => ⟨S1x512, .f32⟩
  | 109 => ⟨S_, .f32⟩
  | 110 => ⟨S1x512, .f32⟩
  | 111 => ⟨S1x512, .f32⟩
  | 112 => ⟨S32768x512, .f32⟩
  | 113 => ⟨S32768x512, .f32⟩
  | 114 => ⟨S32768x512, .f32⟩
  | 115 => ⟨S_, .f32⟩
  | 116 => ⟨S_, .f32⟩
  | 117 => ⟨S_, .f32⟩
  | 118 => ⟨S_, .f32⟩
  | 119 => ⟨S512, .f32⟩
  | 120 => ⟨S512, .f32⟩
  | 121 => ⟨S512, .f32⟩
  | 122 => ⟨S_, .f32⟩
  | 123 => ⟨S_, .i1⟩
  | 124 => ⟨S_, .f32⟩
  | 125 => ⟨S_, .f32⟩
  | 126 => ⟨S512, .f32⟩
  | 127 => ⟨S512, .f32⟩
  | _ => ⟨S32768x1024, .f32⟩

abbrev hbmTy0_4 (i : Nat) : BufTy := match i % 128 with
  | 0 => ⟨S1x512, .f32⟩
  | 1 => ⟨S32768x512, .f32⟩
  | 2 => ⟨S32768x512, .f32⟩
  | 3 => ⟨S_, .f32⟩
  | 4 => ⟨S512, .f32⟩
  | 5 => ⟨S512, .f32⟩
  | 6 => ⟨S512, .f32⟩
  | 7 => ⟨S1x512, .f32⟩
  | 8 => ⟨S32768x512, .f32⟩
  | 9 => ⟨S32768x512, .f32⟩
  | 10 => ⟨S1x512, .f32⟩
  | 11 => ⟨S32768x512, .f32⟩
  | 12 => ⟨S32768x512, .f32⟩
  | 13 => ⟨S1x512, .f32⟩
  | 14 => ⟨S32768x512, .f32⟩
  | 15 => ⟨S32768x512, .f32⟩
  | 16 => ⟨S_, .f32⟩
  | 17 => ⟨S32768x512, .f32⟩
  | 18 => ⟨S32768x512, .f32⟩
  | 19 => ⟨S1x512x1024, .f32⟩
  | 20 => ⟨S512x1024, .f32⟩
  | 21 => ⟨S1x512, .f32⟩
  | 22 => ⟨S512, .f32⟩
  | 23 => ⟨S1x512, .f32⟩
  | 24 => ⟨S512, .f32⟩
  | 25 => ⟨S1x512, .f32⟩
  | 26 => ⟨S512, .f32⟩
  | 27 => ⟨S1024x512, .f32⟩
  | 28 => ⟨S32768x512, .f32⟩
  | 29 => ⟨S1x512, .f32⟩
  | 30 => ⟨S32768x512, .f32⟩
  | 31 => ⟨S32768x512, .f32⟩
  | 32 => ⟨S_, .f32⟩
  | 33 => ⟨S512, .f32⟩
  | 34 => ⟨S_, .f32⟩
  | 35 => ⟨S512, .f32⟩
  | 36 => ⟨S512, .f32⟩
  | 37 => ⟨S_, .i32⟩
  | 38 => ⟨S_, .f32⟩
  | 39 => ⟨S512, .f32⟩
  | 40 => ⟨S1x512, .f32⟩
  | 41 => ⟨S_, .f32⟩
  | 42 => ⟨S1x512, .f32⟩
  | 43 => ⟨S1x512, .f32⟩
  | 44 => ⟨S32768x512, .f32⟩
  | 45 => ⟨S32768x512, .f32⟩
  | 46 => ⟨S32768x512, .f32⟩
  | 47 => ⟨S_, .f32⟩
  | 48 => ⟨S_, .f32⟩
  | 49 => ⟨S_, .f32⟩
  | 50 => ⟨S_, .f32⟩
  | 51 => ⟨S512, .f32⟩
  | 52 => ⟨S512, .f32⟩
  | 53 => ⟨S512, .f32⟩
  | 54 => ⟨S_, .f32⟩
  | 55 => ⟨S_, .i1⟩
  | 56 => ⟨S_, .f32⟩
  | 57 => ⟨S_, .f32⟩
  | 58 => ⟨S512, .f32⟩
  | 59 => ⟨S512, .f32⟩
  | 60 => ⟨S1x512, .f32⟩
  | 61 => ⟨S32768x512, .f32⟩
  | 62 => ⟨S32768x512, .f32⟩
  | 63 => ⟨S_, .f32⟩
  | 64 => ⟨S512, .f32⟩
  | 65 => ⟨S512, .f32⟩
  | 66 => ⟨S512, .f32⟩
  | 67 => ⟨S1x512, .f32⟩
  | 68 => ⟨S32768x512, .f32⟩
  | 69 => ⟨S32768x512, .f32⟩
  | 70 => ⟨S1x512, .f32⟩
  | 71 => ⟨S32768x512, .f32⟩
  | 72 => ⟨S32768x512, .f32⟩
  | 73 => ⟨S1x512, .f32⟩
  | 74 => ⟨S32768x512, .f32⟩
  | 75 => ⟨S32768x512, .f32⟩
  | 76 => ⟨S_, .f32⟩
  | 77 => ⟨S32768x512, .f32⟩
  | 78 => ⟨S32768x512, .f32⟩
  | 79 => ⟨S512x32768, .f32⟩
  | 80 => ⟨S512x512, .f32⟩
  | 81 => ⟨S_, .f32⟩
  | 82 => ⟨S_, .f32⟩
  | 83 => ⟨S512x512, .f32⟩
  | 84 => ⟨S512x512, .f32⟩
  | 85 => ⟨S_, .f32⟩
  | 86 => ⟨S512, .f32⟩
  | 87 => ⟨S_, .f32⟩
  | 88 => ⟨S512, .f32⟩
  | 89 => ⟨S512, .f32⟩
  | 90 => ⟨S512x1, .f32⟩
  | 91 => ⟨S512x512, .f32⟩
  | 92 => ⟨S512x512, .f32⟩
  | 93 => ⟨S512x512, .f32⟩
  | 94 => ⟨S_, .f32⟩
  | 95 => ⟨S512, .f32⟩
  | 96 => ⟨S512x1, .f32⟩
  | 97 => ⟨S512x512, .f32⟩
  | 98 => ⟨S512x512, .f32⟩
  | 99 => ⟨S512x512, .f32⟩
  | 100 => ⟨S32768x512, .f32⟩
  | _ => ⟨S32768x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call1_cst : Ref sig .tc := ⟨.hbm, 64, rfl⟩
abbrev main_call1_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_2 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_v48 : Ref sig .tc := ⟨.hbm, 84, rfl⟩
abbrev main_c_4 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_cst_5 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_call3_cst : Ref sig .tc := ⟨.hbm, 124, rfl⟩
abbrev main_call3_v0 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_6 : Ref sig .tc := ⟨.hbm, 140, rfl⟩
abbrev main_v79 : Ref sig .tc := ⟨.hbm, 141, rfl⟩
abbrev main_cst_7 : Ref sig .tc := ⟨.hbm, 142, rfl⟩
abbrev main_v80 : Ref sig .tc := ⟨.hbm, 143, rfl⟩
abbrev main_v81 : Ref sig .tc := ⟨.hbm, 144, rfl⟩
abbrev main_c_8 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_cst_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_cst_1 : Ref sig .tc := ⟨.hbm, 156, rfl⟩
abbrev main_call4_v8 : Ref sig .tc := ⟨.hbm, 157, rfl⟩
abbrev main_call4_cst_2 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_cst_3 : Ref sig .tc := ⟨.hbm, 162, rfl⟩
abbrev main_call4_v12 : Ref sig .tc := ⟨.hbm, 163, rfl⟩
abbrev main_call4_cst_4 : Ref sig .tc := ⟨.hbm, 164, rfl⟩
abbrev main_call4_call0_v0 : Ref sig .tc := ⟨.hbm, 165, rfl⟩
abbrev main_call4_call0_v1 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_cst_9 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_call5_cst : Ref sig .tc := ⟨.hbm, 184, rfl⟩
abbrev main_call5_v0 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_cst_10 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_cst_11 : Ref sig .tc := ⟨.hbm, 193, rfl⟩
abbrev main_v104 : Ref sig .tc := ⟨.hbm, 194, rfl⟩
abbrev main_cst_12 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_cst_13 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_cst_14 : Ref sig .tc := ⟨.hbm, 222, rfl⟩
abbrev main_v130 : Ref sig .tc := ⟨.hbm, 223, rfl⟩
abbrev main_cst_15 : Ref sig .tc := ⟨.hbm, 224, rfl⟩
abbrev main_v131 : Ref sig .tc := ⟨.hbm, 225, rfl⟩
abbrev main_v132 : Ref sig .tc := ⟨.hbm, 226, rfl⟩
abbrev main_c_16 : Ref sig .tc := ⟨.hbm, 227, rfl⟩
abbrev main_call6_cst : Ref sig .tc := ⟨.hbm, 228, rfl⟩
abbrev main_call6_v0 : Ref sig .tc := ⟨.hbm, 229, rfl⟩
abbrev main_call6_v1 : Ref sig .tc := ⟨.hbm, 230, rfl⟩
abbrev main_call6_cst_0 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_v5 : Ref sig .tc := ⟨.hbm, 235, rfl⟩
abbrev main_call6_v6 : Ref sig .tc := ⟨.hbm, 236, rfl⟩
abbrev main_call6_v7 : Ref sig .tc := ⟨.hbm, 237, rfl⟩
abbrev main_call6_cst_1 : Ref sig .tc := ⟨.hbm, 238, rfl⟩
abbrev main_call6_v8 : Ref sig .tc := ⟨.hbm, 239, rfl⟩
abbrev main_call6_cst_2 : Ref sig .tc := ⟨.hbm, 240, rfl⟩
abbrev main_call6_v9 : Ref sig .tc := ⟨.hbm, 241, rfl⟩
abbrev main_call6_v10 : Ref sig .tc := ⟨.hbm, 242, rfl⟩
abbrev main_call6_v11 : Ref sig .tc := ⟨.hbm, 243, rfl⟩
abbrev main_call6_cst_3 : Ref sig .tc := ⟨.hbm, 244, rfl⟩
abbrev main_call6_v12 : Ref sig .tc := ⟨.hbm, 245, rfl⟩
abbrev main_call6_cst_4 : Ref sig .tc := ⟨.hbm, 246, rfl⟩
abbrev main_call6_call0_v0 : Ref sig .tc := ⟨.hbm, 247, rfl⟩
abbrev main_call6_call0_v1 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_cst_17 : Ref sig .tc := ⟨.hbm, 253, rfl⟩
abbrev main_v137 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_call7_cst : Ref sig .tc := ⟨.hbm, 266, rfl⟩
abbrev main_call7_v0 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_v160 : Ref sig .tc := ⟨.hbm, 279, rfl⟩
abbrev main_v161 : Ref sig .tc := ⟨.hbm, 280, rfl⟩
abbrev main_v162 : Ref sig .tc := ⟨.hbm, 281, rfl⟩
abbrev main_cst_18 : Ref sig .tc := ⟨.hbm, 282, rfl⟩
abbrev main_v163 : Ref sig .tc := ⟨.hbm, 283, rfl⟩
abbrev main_cst_19 : Ref sig .tc := ⟨.hbm, 284, rfl⟩
abbrev main_v164 : Ref sig .tc := ⟨.hbm, 285, rfl⟩
abbrev main_v165 : Ref sig .tc := ⟨.hbm, 286, rfl⟩
abbrev main_c_20 : Ref sig .tc := ⟨.hbm, 287, rfl⟩
abbrev main_call8_cst : Ref sig .tc := ⟨.hbm, 288, rfl⟩
abbrev main_call8_v0 : Ref sig .tc := ⟨.hbm, 289, rfl⟩
abbrev main_call8_v1 : Ref sig .tc := ⟨.hbm, 290, rfl⟩
abbrev main_call8_cst_0 : Ref sig .tc := ⟨.hbm, 291, rfl⟩
abbrev main_call8_v2 : Ref sig .tc := ⟨.hbm, 292, rfl⟩
abbrev main_call8_v3 : Ref sig .tc := ⟨.hbm, 293, rfl⟩
abbrev main_call8_v4 : Ref sig .tc := ⟨.hbm, 294, rfl⟩
abbrev main_call8_v5 : Ref sig .tc := ⟨.hbm, 295, rfl⟩
abbrev main_call8_v6 : Ref sig .tc := ⟨.hbm, 296, rfl⟩
abbrev main_call8_v7 : Ref sig .tc := ⟨.hbm, 297, rfl⟩
abbrev main_call8_cst_1 : Ref sig .tc := ⟨.hbm, 298, rfl⟩
abbrev main_call8_v8 : Ref sig .tc := ⟨.hbm, 299, rfl⟩
abbrev main_call8_cst_2 : Ref sig .tc := ⟨.hbm, 300, rfl⟩
abbrev main_call8_v9 : Ref sig .tc := ⟨.hbm, 301, rfl⟩
abbrev main_call8_v10 : Ref sig .tc := ⟨.hbm, 302, rfl⟩
abbrev main_call8_v11 : Ref sig .tc := ⟨.hbm, 303, rfl⟩
abbrev main_call8_cst_3 : Ref sig .tc := ⟨.hbm, 304, rfl⟩
abbrev main_call8_v12 : Ref sig .tc := ⟨.hbm, 305, rfl⟩
abbrev main_call8_cst_4 : Ref sig .tc := ⟨.hbm, 306, rfl⟩
abbrev main_call8_call0_v0 : Ref sig .tc := ⟨.hbm, 307, rfl⟩
abbrev main_call8_call0_v1 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_cst_21 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_call9_cst : Ref sig .tc := ⟨.hbm, 326, rfl⟩
abbrev main_call9_v0 : Ref sig .tc := ⟨.hbm, 327, rfl⟩
abbrev main_v182 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_v189 : Ref sig .tc := ⟨.hbm, 335, rfl⟩
abbrev main_v190 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_cst_22 : Ref sig .tc := ⟨.hbm, 342, rfl⟩
abbrev main_v196 : Ref sig .tc := ⟨.hbm, 343, rfl⟩
abbrev main_cst_23 : Ref sig .tc := ⟨.hbm, 344, rfl⟩
abbrev main_v197 : Ref sig .tc := ⟨.hbm, 345, rfl⟩
abbrev main_v198 : Ref sig .tc := ⟨.hbm, 346, rfl⟩
abbrev main_c_24 : Ref sig .tc := ⟨.hbm, 347, rfl⟩
abbrev main_call10_cst : Ref sig .tc := ⟨.hbm, 348, rfl⟩
abbrev main_call10_v0 : Ref sig .tc := ⟨.hbm, 349, rfl⟩
abbrev main_call10_v1 : Ref sig .tc := ⟨.hbm, 350, rfl⟩
abbrev main_call10_cst_0 : Ref sig .tc := ⟨.hbm, 351, rfl⟩
abbrev main_call10_v2 : Ref sig .tc := ⟨.hbm, 352, rfl⟩
abbrev main_call10_v3 : Ref sig .tc := ⟨.hbm, 353, rfl⟩
abbrev main_call10_v4 : Ref sig .tc := ⟨.hbm, 354, rfl⟩
abbrev main_call10_v5 : Ref sig .tc := ⟨.hbm, 355, rfl⟩
abbrev main_call10_v6 : Ref sig .tc := ⟨.hbm, 356, rfl⟩
abbrev main_call10_v7 : Ref sig .tc := ⟨.hbm, 357, rfl⟩
abbrev main_call10_cst_1 : Ref sig .tc := ⟨.hbm, 358, rfl⟩
abbrev main_call10_v8 : Ref sig .tc := ⟨.hbm, 359, rfl⟩
abbrev main_call10_cst_2 : Ref sig .tc := ⟨.hbm, 360, rfl⟩
abbrev main_call10_v9 : Ref sig .tc := ⟨.hbm, 361, rfl⟩
abbrev main_call10_v10 : Ref sig .tc := ⟨.hbm, 362, rfl⟩
abbrev main_call10_v11 : Ref sig .tc := ⟨.hbm, 363, rfl⟩
abbrev main_call10_cst_3 : Ref sig .tc := ⟨.hbm, 364, rfl⟩
abbrev main_call10_v12 : Ref sig .tc := ⟨.hbm, 365, rfl⟩
abbrev main_call10_cst_4 : Ref sig .tc := ⟨.hbm, 366, rfl⟩
abbrev main_call10_call0_v0 : Ref sig .tc := ⟨.hbm, 367, rfl⟩
abbrev main_call10_call0_v1 : Ref sig .tc := ⟨.hbm, 368, rfl⟩
abbrev main_v199 : Ref sig .tc := ⟨.hbm, 369, rfl⟩
abbrev main_v200 : Ref sig .tc := ⟨.hbm, 370, rfl⟩
abbrev main_v201 : Ref sig .tc := ⟨.hbm, 371, rfl⟩
abbrev main_v202 : Ref sig .tc := ⟨.hbm, 372, rfl⟩
abbrev main_cst_25 : Ref sig .tc := ⟨.hbm, 373, rfl⟩
abbrev main_v203 : Ref sig .tc := ⟨.hbm, 374, rfl⟩
abbrev main_v204 : Ref sig .tc := ⟨.hbm, 375, rfl⟩
abbrev main_v205 : Ref sig .tc := ⟨.hbm, 376, rfl⟩
abbrev main_v206 : Ref sig .tc := ⟨.hbm, 377, rfl⟩
abbrev main_v207 : Ref sig .tc := ⟨.hbm, 378, rfl⟩
abbrev main_v208 : Ref sig .tc := ⟨.hbm, 379, rfl⟩
abbrev main_v209 : Ref sig .tc := ⟨.hbm, 380, rfl⟩
abbrev main_v210 : Ref sig .tc := ⟨.hbm, 381, rfl⟩
abbrev main_v211 : Ref sig .tc := ⟨.hbm, 382, rfl⟩
abbrev main_v212 : Ref sig .tc := ⟨.hbm, 383, rfl⟩
abbrev main_v213 : Ref sig .tc := ⟨.hbm, 384, rfl⟩
abbrev main_v214 : Ref sig .tc := ⟨.hbm, 385, rfl⟩
abbrev main_call11_cst : Ref sig .tc := ⟨.hbm, 386, rfl⟩
abbrev main_call11_v0 : Ref sig .tc := ⟨.hbm, 387, rfl⟩
abbrev main_v215 : Ref sig .tc := ⟨.hbm, 388, rfl⟩
abbrev main_v216 : Ref sig .tc := ⟨.hbm, 389, rfl⟩
abbrev main_v217 : Ref sig .tc := ⟨.hbm, 390, rfl⟩
abbrev main_cst_26 : Ref sig .tc := ⟨.hbm, 391, rfl⟩
abbrev main_v218 : Ref sig .tc := ⟨.hbm, 392, rfl⟩
abbrev main_v219 : Ref sig .tc := ⟨.hbm, 393, rfl⟩
abbrev main_v220 : Ref sig .tc := ⟨.hbm, 394, rfl⟩
abbrev main_cst_27 : Ref sig .tc := ⟨.hbm, 395, rfl⟩
abbrev main_v221 : Ref sig .tc := ⟨.hbm, 396, rfl⟩
abbrev main_cst_28 : Ref sig .tc := ⟨.hbm, 397, rfl⟩
abbrev main_v222 : Ref sig .tc := ⟨.hbm, 398, rfl⟩
abbrev main_v223 : Ref sig .tc := ⟨.hbm, 399, rfl⟩
abbrev main_v224 : Ref sig .tc := ⟨.hbm, 400, rfl⟩
abbrev main_v225 : Ref sig .tc := ⟨.hbm, 401, rfl⟩
abbrev main_v226 : Ref sig .tc := ⟨.hbm, 402, rfl⟩
abbrev main_v227 : Ref sig .tc := ⟨.hbm, 403, rfl⟩
abbrev main_cst_29 : Ref sig .tc := ⟨.hbm, 404, rfl⟩
abbrev main_v228 : Ref sig .tc := ⟨.hbm, 405, rfl⟩
abbrev main_v229 : Ref sig .tc := ⟨.hbm, 406, rfl⟩
abbrev main_v230 : Ref sig .tc := ⟨.hbm, 407, rfl⟩
abbrev main_v231 : Ref sig .tc := ⟨.hbm, 408, rfl⟩
abbrev main_v232 : Ref sig .tc := ⟨.hbm, 409, rfl⟩
abbrev main_v233 : Ref sig .tc := ⟨.hbm, 410, rfl⟩
abbrev main_v234 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_v238 : Ref sig .tc := ⟨.hbm, 415, rfl⟩
abbrev main_v239 : Ref sig .tc := ⟨.hbm, 416, rfl⟩
abbrev main_v240 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_v245 : Ref sig .tc := ⟨.hbm, 422, rfl⟩
abbrev main_v246 : Ref sig .tc := ⟨.hbm, 423, rfl⟩
abbrev main_cst_30 : Ref sig .tc := ⟨.hbm, 424, rfl⟩
abbrev main_v247 : Ref sig .tc := ⟨.hbm, 425, rfl⟩
abbrev main_cst_31 : Ref sig .tc := ⟨.hbm, 426, rfl⟩
abbrev main_v248 : Ref sig .tc := ⟨.hbm, 427, rfl⟩
abbrev main_v249 : Ref sig .tc := ⟨.hbm, 428, rfl⟩
abbrev main_c_32 : Ref sig .tc := ⟨.hbm, 429, rfl⟩
abbrev main_call12_cst : Ref sig .tc := ⟨.hbm, 430, rfl⟩
abbrev main_call12_v0 : Ref sig .tc := ⟨.hbm, 431, rfl⟩
abbrev main_call12_v1 : Ref sig .tc := ⟨.hbm, 432, rfl⟩
abbrev main_call12_cst_0 : Ref sig .tc := ⟨.hbm, 433, rfl⟩
abbrev main_call12_v2 : Ref sig .tc := ⟨.hbm, 434, rfl⟩
abbrev main_call12_v3 : Ref sig .tc := ⟨.hbm, 435, rfl⟩
abbrev main_call12_v4 : Ref sig .tc := ⟨.hbm, 436, rfl⟩
abbrev main_call12_v5 : Ref sig .tc := ⟨.hbm, 437, rfl⟩
abbrev main_call12_v6 : Ref sig .tc := ⟨.hbm, 438, rfl⟩
abbrev main_call12_v7 : Ref sig .tc := ⟨.hbm, 439, rfl⟩
abbrev main_call12_cst_1 : Ref sig .tc := ⟨.hbm, 440, rfl⟩
abbrev main_call12_v8 : Ref sig .tc := ⟨.hbm, 441, rfl⟩
abbrev main_call12_cst_2 : Ref sig .tc := ⟨.hbm, 442, rfl⟩
abbrev main_call12_v9 : Ref sig .tc := ⟨.hbm, 443, rfl⟩
abbrev main_call12_v10 : Ref sig .tc := ⟨.hbm, 444, rfl⟩
abbrev main_call12_v11 : Ref sig .tc := ⟨.hbm, 445, rfl⟩
abbrev main_call12_cst_3 : Ref sig .tc := ⟨.hbm, 446, rfl⟩
abbrev main_call12_v12 : Ref sig .tc := ⟨.hbm, 447, rfl⟩
abbrev main_call12_cst_4 : Ref sig .tc := ⟨.hbm, 448, rfl⟩
abbrev main_call12_call0_v0 : Ref sig .tc := ⟨.hbm, 449, rfl⟩
abbrev main_call12_call0_v1 : Ref sig .tc := ⟨.hbm, 450, rfl⟩
abbrev main_v250 : Ref sig .tc := ⟨.hbm, 451, rfl⟩
abbrev main_v251 : Ref sig .tc := ⟨.hbm, 452, rfl⟩
abbrev main_v252 : Ref sig .tc := ⟨.hbm, 453, rfl⟩
abbrev main_v253 : Ref sig .tc := ⟨.hbm, 454, rfl⟩
abbrev main_cst_33 : Ref sig .tc := ⟨.hbm, 455, rfl⟩
abbrev main_v254 : Ref sig .tc := ⟨.hbm, 456, rfl⟩
abbrev main_v255 : Ref sig .tc := ⟨.hbm, 457, rfl⟩
abbrev main_v256 : Ref sig .tc := ⟨.hbm, 458, rfl⟩
abbrev main_v257 : Ref sig .tc := ⟨.hbm, 459, rfl⟩
abbrev main_v258 : Ref sig .tc := ⟨.hbm, 460, rfl⟩
abbrev main_v259 : Ref sig .tc := ⟨.hbm, 461, rfl⟩
abbrev main_v260 : Ref sig .tc := ⟨.hbm, 462, rfl⟩
abbrev main_v261 : Ref sig .tc := ⟨.hbm, 463, rfl⟩
abbrev main_v262 : Ref sig .tc := ⟨.hbm, 464, rfl⟩
abbrev main_v263 : Ref sig .tc := ⟨.hbm, 465, rfl⟩
abbrev main_v264 : Ref sig .tc := ⟨.hbm, 466, rfl⟩
abbrev main_v265 : Ref sig .tc := ⟨.hbm, 467, rfl⟩
abbrev main_call13_cst : Ref sig .tc := ⟨.hbm, 468, rfl⟩
abbrev main_call13_v0 : Ref sig .tc := ⟨.hbm, 469, rfl⟩
abbrev main_v266 : Ref sig .tc := ⟨.hbm, 470, rfl⟩
abbrev main_v267 : Ref sig .tc := ⟨.hbm, 471, rfl⟩
abbrev main_v268 : Ref sig .tc := ⟨.hbm, 472, rfl⟩
abbrev main_v269 : Ref sig .tc := ⟨.hbm, 473, rfl⟩
abbrev main_v270 : Ref sig .tc := ⟨.hbm, 474, rfl⟩
abbrev main_v271 : Ref sig .tc := ⟨.hbm, 475, rfl⟩
abbrev main_v272 : Ref sig .tc := ⟨.hbm, 476, rfl⟩
abbrev main_v273 : Ref sig .tc := ⟨.hbm, 477, rfl⟩
abbrev main_v274 : Ref sig .tc := ⟨.hbm, 478, rfl⟩
abbrev main_v275 : Ref sig .tc := ⟨.hbm, 479, rfl⟩
abbrev main_v276 : Ref sig .tc := ⟨.hbm, 480, rfl⟩
abbrev main_v277 : Ref sig .tc := ⟨.hbm, 481, rfl⟩
abbrev main_v278 : Ref sig .tc := ⟨.hbm, 482, rfl⟩
abbrev main_v279 : Ref sig .tc := ⟨.hbm, 483, rfl⟩
abbrev main_cst_34 : Ref sig .tc := ⟨.hbm, 484, rfl⟩
abbrev main_v280 : Ref sig .tc := ⟨.hbm, 485, rfl⟩
abbrev main_cst_35 : Ref sig .tc := ⟨.hbm, 486, rfl⟩
abbrev main_v281 : Ref sig .tc := ⟨.hbm, 487, rfl⟩
abbrev main_v282 : Ref sig .tc := ⟨.hbm, 488, rfl⟩
abbrev main_c_36 : Ref sig .tc := ⟨.hbm, 489, rfl⟩
abbrev main_call14_cst : Ref sig .tc := ⟨.hbm, 490, rfl⟩
abbrev main_call14_v0 : Ref sig .tc := ⟨.hbm, 491, rfl⟩
abbrev main_call14_v1 : Ref sig .tc := ⟨.hbm, 492, rfl⟩
abbrev main_call14_cst_0 : Ref sig .tc := ⟨.hbm, 493, rfl⟩
abbrev main_call14_v2 : Ref sig .tc := ⟨.hbm, 494, rfl⟩
abbrev main_call14_v3 : Ref sig .tc := ⟨.hbm, 495, rfl⟩
abbrev main_call14_v4 : Ref sig .tc := ⟨.hbm, 496, rfl⟩
abbrev main_call14_v5 : Ref sig .tc := ⟨.hbm, 497, rfl⟩
abbrev main_call14_v6 : Ref sig .tc := ⟨.hbm, 498, rfl⟩
abbrev main_call14_v7 : Ref sig .tc := ⟨.hbm, 499, rfl⟩
abbrev main_call14_cst_1 : Ref sig .tc := ⟨.hbm, 500, rfl⟩
abbrev main_call14_v8 : Ref sig .tc := ⟨.hbm, 501, rfl⟩
abbrev main_call14_cst_2 : Ref sig .tc := ⟨.hbm, 502, rfl⟩
abbrev main_call14_v9 : Ref sig .tc := ⟨.hbm, 503, rfl⟩
abbrev main_call14_v10 : Ref sig .tc := ⟨.hbm, 504, rfl⟩
abbrev main_call14_v11 : Ref sig .tc := ⟨.hbm, 505, rfl⟩
abbrev main_call14_cst_3 : Ref sig .tc := ⟨.hbm, 506, rfl⟩
abbrev main_call14_v12 : Ref sig .tc := ⟨.hbm, 507, rfl⟩
abbrev main_call14_cst_4 : Ref sig .tc := ⟨.hbm, 508, rfl⟩
abbrev main_call14_call0_v0 : Ref sig .tc := ⟨.hbm, 509, rfl⟩
abbrev main_call14_call0_v1 : Ref sig .tc := ⟨.hbm, 510, rfl⟩
abbrev main_v283 : Ref sig .tc := ⟨.hbm, 511, rfl⟩
abbrev main_v284 : Ref sig .tc := ⟨.hbm, 512, rfl⟩
abbrev main_v285 : Ref sig .tc := ⟨.hbm, 513, rfl⟩
abbrev main_v286 : Ref sig .tc := ⟨.hbm, 514, rfl⟩
abbrev main_cst_37 : Ref sig .tc := ⟨.hbm, 515, rfl⟩
abbrev main_v287 : Ref sig .tc := ⟨.hbm, 516, rfl⟩
abbrev main_v288 : Ref sig .tc := ⟨.hbm, 517, rfl⟩
abbrev main_v289 : Ref sig .tc := ⟨.hbm, 518, rfl⟩
abbrev main_v290 : Ref sig .tc := ⟨.hbm, 519, rfl⟩
abbrev main_v291 : Ref sig .tc := ⟨.hbm, 520, rfl⟩
abbrev main_v292 : Ref sig .tc := ⟨.hbm, 521, rfl⟩
abbrev main_v293 : Ref sig .tc := ⟨.hbm, 522, rfl⟩
abbrev main_v294 : Ref sig .tc := ⟨.hbm, 523, rfl⟩
abbrev main_v295 : Ref sig .tc := ⟨.hbm, 524, rfl⟩
abbrev main_v296 : Ref sig .tc := ⟨.hbm, 525, rfl⟩
abbrev main_v297 : Ref sig .tc := ⟨.hbm, 526, rfl⟩
abbrev main_v298 : Ref sig .tc := ⟨.hbm, 527, rfl⟩
abbrev main_call15_cst : Ref sig .tc := ⟨.hbm, 528, rfl⟩
abbrev main_call15_v0 : Ref sig .tc := ⟨.hbm, 529, rfl⟩
abbrev main_v299 : Ref sig .tc := ⟨.hbm, 530, rfl⟩
abbrev main_v300 : Ref sig .tc := ⟨.hbm, 531, rfl⟩
abbrev main_v301 : Ref sig .tc := ⟨.hbm, 532, rfl⟩
abbrev main_v302 : Ref sig .tc := ⟨.hbm, 533, rfl⟩
abbrev main_v303 : Ref sig .tc := ⟨.hbm, 534, rfl⟩
abbrev main_v304 : Ref sig .tc := ⟨.hbm, 535, rfl⟩
abbrev main_v305 : Ref sig .tc := ⟨.hbm, 536, rfl⟩
abbrev main_v306 : Ref sig .tc := ⟨.hbm, 537, rfl⟩
abbrev main_v307 : Ref sig .tc := ⟨.hbm, 538, rfl⟩
abbrev main_v308 : Ref sig .tc := ⟨.hbm, 539, rfl⟩
abbrev main_v309 : Ref sig .tc := ⟨.hbm, 540, rfl⟩
abbrev main_v310 : Ref sig .tc := ⟨.hbm, 541, rfl⟩
abbrev main_v311 : Ref sig .tc := ⟨.hbm, 542, rfl⟩
abbrev main_v312 : Ref sig .tc := ⟨.hbm, 543, rfl⟩
abbrev main_cst_38 : Ref sig .tc := ⟨.hbm, 544, rfl⟩
abbrev main_v313 : Ref sig .tc := ⟨.hbm, 545, rfl⟩
abbrev main_cst_39 : Ref sig .tc := ⟨.hbm, 546, rfl⟩
abbrev main_v314 : Ref sig .tc := ⟨.hbm, 547, rfl⟩
abbrev main_v315 : Ref sig .tc := ⟨.hbm, 548, rfl⟩
abbrev main_c_40 : Ref sig .tc := ⟨.hbm, 549, rfl⟩
abbrev main_call16_cst : Ref sig .tc := ⟨.hbm, 550, rfl⟩
abbrev main_call16_v0 : Ref sig .tc := ⟨.hbm, 551, rfl⟩
abbrev main_call16_v1 : Ref sig .tc := ⟨.hbm, 552, rfl⟩
abbrev main_call16_cst_0 : Ref sig .tc := ⟨.hbm, 553, rfl⟩
abbrev main_call16_v2 : Ref sig .tc := ⟨.hbm, 554, rfl⟩
abbrev main_call16_v3 : Ref sig .tc := ⟨.hbm, 555, rfl⟩
abbrev main_call16_v4 : Ref sig .tc := ⟨.hbm, 556, rfl⟩
abbrev main_call16_v5 : Ref sig .tc := ⟨.hbm, 557, rfl⟩
abbrev main_call16_v6 : Ref sig .tc := ⟨.hbm, 558, rfl⟩
abbrev main_call16_v7 : Ref sig .tc := ⟨.hbm, 559, rfl⟩
abbrev main_call16_cst_1 : Ref sig .tc := ⟨.hbm, 560, rfl⟩
abbrev main_call16_v8 : Ref sig .tc := ⟨.hbm, 561, rfl⟩
abbrev main_call16_cst_2 : Ref sig .tc := ⟨.hbm, 562, rfl⟩
abbrev main_call16_v9 : Ref sig .tc := ⟨.hbm, 563, rfl⟩
abbrev main_call16_v10 : Ref sig .tc := ⟨.hbm, 564, rfl⟩
abbrev main_call16_v11 : Ref sig .tc := ⟨.hbm, 565, rfl⟩
abbrev main_call16_cst_3 : Ref sig .tc := ⟨.hbm, 566, rfl⟩
abbrev main_call16_v12 : Ref sig .tc := ⟨.hbm, 567, rfl⟩
abbrev main_call16_cst_4 : Ref sig .tc := ⟨.hbm, 568, rfl⟩
abbrev main_call16_call0_v0 : Ref sig .tc := ⟨.hbm, 569, rfl⟩
abbrev main_call16_call0_v1 : Ref sig .tc := ⟨.hbm, 570, rfl⟩
abbrev main_v316 : Ref sig .tc := ⟨.hbm, 571, rfl⟩
abbrev main_v317 : Ref sig .tc := ⟨.hbm, 572, rfl⟩
abbrev main_v318 : Ref sig .tc := ⟨.hbm, 573, rfl⟩
abbrev main_v319 : Ref sig .tc := ⟨.hbm, 574, rfl⟩
abbrev main_cst_41 : Ref sig .tc := ⟨.hbm, 575, rfl⟩
abbrev main_v320 : Ref sig .tc := ⟨.hbm, 576, rfl⟩
abbrev main_v321 : Ref sig .tc := ⟨.hbm, 577, rfl⟩
abbrev main_v322 : Ref sig .tc := ⟨.hbm, 578, rfl⟩
abbrev main_v323 : Ref sig .tc := ⟨.hbm, 579, rfl⟩
abbrev main_v324 : Ref sig .tc := ⟨.hbm, 580, rfl⟩
abbrev main_v325 : Ref sig .tc := ⟨.hbm, 581, rfl⟩
abbrev main_v326 : Ref sig .tc := ⟨.hbm, 582, rfl⟩
abbrev main_v327 : Ref sig .tc := ⟨.hbm, 583, rfl⟩
abbrev main_v328 : Ref sig .tc := ⟨.hbm, 584, rfl⟩
abbrev main_v329 : Ref sig .tc := ⟨.hbm, 585, rfl⟩
abbrev main_v330 : Ref sig .tc := ⟨.hbm, 586, rfl⟩
abbrev main_v331 : Ref sig .tc := ⟨.hbm, 587, rfl⟩
abbrev main_call17_cst : Ref sig .tc := ⟨.hbm, 588, rfl⟩
abbrev main_call17_v0 : Ref sig .tc := ⟨.hbm, 589, rfl⟩
abbrev main_v332 : Ref sig .tc := ⟨.hbm, 590, rfl⟩
abbrev main_v333 : Ref sig .tc := ⟨.hbm, 591, rfl⟩
abbrev main_v334 : Ref sig .tc := ⟨.hbm, 592, rfl⟩
abbrev main_cst_42 : Ref sig .tc := ⟨.hbm, 593, rfl⟩
abbrev main_v335 : Ref sig .tc := ⟨.hbm, 594, rfl⟩
abbrev main_v336 : Ref sig .tc := ⟨.hbm, 595, rfl⟩
abbrev main_v337 : Ref sig .tc := ⟨.hbm, 596, rfl⟩
abbrev main_cst_43 : Ref sig .tc := ⟨.hbm, 597, rfl⟩
abbrev main_v338 : Ref sig .tc := ⟨.hbm, 598, rfl⟩
abbrev main_cst_44 : Ref sig .tc := ⟨.hbm, 599, rfl⟩
abbrev main_v339 : Ref sig .tc := ⟨.hbm, 600, rfl⟩
abbrev main_v340 : Ref sig .tc := ⟨.hbm, 601, rfl⟩
abbrev main_v341 : Ref sig .tc := ⟨.hbm, 602, rfl⟩
abbrev main_v342 : Ref sig .tc := ⟨.hbm, 603, rfl⟩
abbrev main_v343 : Ref sig .tc := ⟨.hbm, 604, rfl⟩
abbrev main_v344 : Ref sig .tc := ⟨.hbm, 605, rfl⟩
abbrev main_cst_45 : Ref sig .tc := ⟨.hbm, 606, rfl⟩
abbrev main_v345 : Ref sig .tc := ⟨.hbm, 607, rfl⟩
abbrev main_v346 : Ref sig .tc := ⟨.hbm, 608, rfl⟩
abbrev main_v347 : Ref sig .tc := ⟨.hbm, 609, rfl⟩
abbrev main_v348 : Ref sig .tc := ⟨.hbm, 610, rfl⟩
abbrev main_v349 : Ref sig .tc := ⟨.hbm, 611, rfl⟩
abbrev main_v350 : Ref sig .tc := ⟨.hbm, 612, rfl⟩

abbrev nD : Nat := 1
abbrev τ : Topo := Topo.v7x

variable {F : FTy → Type} [FloatOps F]

class Facts₀ : Prop where
  slices_S9x512x1024_S1x512x1024_0_0_0 : S9x512x1024.Slices ![0, 0, 0] S1x512x1024
  shapeCasts_S1x512x1024_S512x1024 : S1x512x1024.ShapeCasts S512x1024
  slices_S9x512_S1x512_0_0 : S9x512.Slices ![0, 0] S1x512
  shapeCasts_S1x512_S512 : S1x512.ShapeCasts S512
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S512_d0 : S32768x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S32768x512 : S_.BroadcastsInDim S32768x512 (![] : Fin 0 → Fin S32768x512.rank)
  slices_S9x512x1024_S1x512x1024_1_0_0 : S9x512x1024.Slices ![1, 0, 0] S1x512x1024
  slices_S9x512_S1x512_1_0 : S9x512.Slices ![1, 0] S1x512
  slices_S9x512x1024_S1x512x1024_2_0_0 : S9x512x1024.Slices ![2, 0, 0] S1x512x1024
  slices_S9x512_S1x512_2_0 : S9x512.Slices ![2, 0] S1x512
  transposes_S32768x512_S512x32768_1_0 : S32768x512.Transposes [1, 0] S512x32768
  bcast_S_S512x512 : S_.BroadcastsInDim S512x512 (![] : Fin 0 → Fin S512x512.rank)
  reducesTo_S512x512_S512_d1 : S512x512.ReducesTo [1] S512
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S512x512_S512x512_1_0 : S512x512.Transposes [1, 0] S512x512
  slices_S9x512x1024_S1x512x1024_3_0_0 : S9x512x1024.Slices ![3, 0, 0] S1x512x1024
  slices_S9x512_S1x512_3_0 : S9x512.Slices ![3, 0] S1x512
  slices_S9x512x1024_S1x512x1024_4_0_0 : S9x512x1024.Slices ![4, 0, 0] S1x512x1024
  slices_S9x512_S1x512_4_0 : S9x512.Slices ![4, 0] S1x512
  slices_S9x512x1024_S1x512x1024_5_0_0 : S9x512x1024.Slices ![5, 0, 0] S1x512x1024
  slices_S9x512_S1x512_5_0 : S9x512.Slices ![5, 0] S1x512
  slices_S9x512x1024_S1x512x1024_6_0_0 : S9x512x1024.Slices ![6, 0, 0] S1x512x1024
  slices_S9x512_S1x512_6_0 : S9x512.Slices ![6, 0] S1x512
  slices_S9x512x1024_S1x512x1024_7_0_0 : S9x512x1024.Slices ![7, 0, 0] S1x512x1024
  slices_S9x512_S1x512_7_0 : S9x512.Slices ![7, 0] S1x512
  slices_S9x512x1024_S1x512x1024_8_0_0 : S9x512x1024.Slices ![8, 0, 0] S1x512x1024
  slices_S9x512_S1x512_8_0 : S9x512.Slices ![8, 0] S1x512
  dot_S32768x1024_S1024x512_S32768x512_1_0_0_1_n_n_wf : DotDims.WF S32768x1024 S1024x512 S32768x512 [1] [0] [0] [1] [] []
  dot_S512x32768_S32768x512_S512x512_1_0_0_1_n_n_wf : DotDims.WF S512x32768 S32768x512 S512x512 [1] [0] [0] [1] [] []
  dot_S32768x512_S512x512_S32768x512_1_0_0_1_n_n_wf : DotDims.WF S32768x512 S512x512 S32768x512 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S512x32768_S32768x512_S512x512_1_0_0_1_n_n : DotDims S512x32768 S32768x512 S512x512 where
  lhsContracting := [1]
  rhsContracting := [0]
  lhsNonContracting := [0]
  rhsNonContracting := [1]
  lhsBatch := []
  rhsBatch := []
  wf := dot_S512x32768_S32768x512_S512x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.K.Reg0Sched.lean ====
import proofs.«100284_j64536178590158_2_alg».proof.Proof.Gen.Kernel.Launch
import proofs.«100284_j64536178590158_2_alg».proof.Proof.Gen.Kernel.Skeleton
import proofs.«100284_j64536178590158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projections-and-statistics region: its schedule, at any admissible contents of the index table

The grid is 9 × 32: point `t = 32·j + bi`. The two statistics blocks (windows 4 and 5) have block index `(j, 0, 0)`,
which moves only when `j` does: they are written back after the points with `bi = 31` and kept in between. The body
resets them when `bi = 0`. None of this reads the table; only window 0's block index does. -/

variable (a0 : (pcfg0 (F := F)).Adm)

/-- The statistics windows are written back exactly after the last row tile of a projection. -/
theorem flush0_4 : ∀ t : Fin (cfg0 a0).N, ((cfg0 a0).win 4).flush t = true ↔ t.val % 32 = 31 :=
  (by decide +kernel : ∀ t : Fin grid0.N, Pipeline.Window.flushOf grid0 true cc0_transform_4 t = true ↔ t.val % 32 = 31)
theorem flush0_5 : ∀ t : Fin (cfg0 a0).N, ((cfg0 a0).win 5).flush t = true ↔ t.val % 32 = 31 :=
  (by decide +kernel : ∀ t : Fin grid0.N, Pipeline.Window.flushOf grid0 true cc0_transform_5 t = true ↔ t.val % 32 = 31)

/-- The body's reset condition, from the grid coordinates: the row-tile coordinate is zero. -/
abbrev isFirst (i : grid0.Coords) : Prop :=
  (Scalar.cmpi .ne (Scalar.extui (Scalar.cmpi .eq (BitVec.ofNat 32 (i 1).val) 0#32)) 0#32) = 1#1
/-- It holds at the points `t ≡ 0 (mod 32)`. -/
theorem isFirst_iff : ∀ t : Fin (cfg0 a0).N, isFirst (grid0.coords t) ↔ t.val % 32 = 0 :=
  (by decide +kernel : ∀ t : Fin grid0.N, isFirst (grid0.coords t) ↔ t.val % 32 = 0)

/-- Each window's current staging memref at point `t`, as the pipeline passes it to the body, and its wholeness. -/
abbrev ms0_0 (t : Fin (cfg0 a0).N) : Memref sig .tc .vmem S1x1024x1024 .bf16 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x512x1024 .bf16 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x1x512 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S1x1024x512 .bf16 := spec0_3.stage ((cfg0 a0).slots t 3)
abbrev hs0_3 (t : Fin (cfg0 a0).N) : (ms0_3 a0 t).IsWhole := hstage0_3 (((cfg0 a0).slots t 3).cast nbuf0_3)
abbrev ms0_4 (t : Fin (cfg0 a0).N) : Memref sig .tc .vmem S1x1x512 .f32 := spec0_4.stage ((cfg0 a0).slots t 4)
abbrev hs0_4 (t : Fin (cfg0 a0).N) : (ms0_4 a0 t).IsWhole := hstage0_4 (((cfg0 a0).slots t 4).cast nbuf0_4)
abbrev ms0_5 (t : Fin (cfg0 a0).N) : Memref sig .tc .vmem S1x1x512 .f32 := spec0_5.stage ((cfg0 a0).slots t 5)
abbrev hs0_5 (t : Fin (cfg0 a0).N) : (ms0_5 a0 t).IsWhole := hstage0_5 (((cfg0 a0).slots t 5).cast nbuf0_5)

/-- The kernel body at point `t`, on what the pipeline calls it with. -/
abbrev bodyAt0 (t : Fin (cfg0 a0).N) : Prog (TpuEff nD τ sig (Elt F) Λ₀ .tc) PUnit :=
  cc0__linear_stats_kernel (grid0.coords t) (Memref.whole main_c) (Memref.isWhole_whole _)
    (ms0_0 a0 t) (hs0_0 a0 t) (ms0_1 a0 t) (hs0_1 a0 t) (ms0_2 a0 t) (hs0_2 a0 t)
    (ms0_3 a0 t) (hs0_3 a0 t) (ms0_4 a0 t) (hs0_4 a0 t) (ms0_5 a0 t) (hs0_5 a0 t)

/-- One staging buffer of each output window, through which its contents are stated. -/
abbrev VO0_3 : View sig .tc .vmem S1x1024x512 .bf16 := (Memref.whole cc0_stg3_0 : Memref sig .tc .vmem S1x1024x512 .bf16).view
abbrev VO0_4 : View sig .tc .vmem S1x1x512 .f32 := (Memref.whole cc0_stg4_0 : Memref sig .tc .vmem S1x1x512 .f32).view
abbrev VO0_5 : View sig .tc .vmem S1x1x512 .f32 := (Memref.whole cc0_stg5_0 : Memref sig .tc .vmem S1x1x512 .f32).view

/-! ## The windows' blocks, read off the arrays as the region finds them -/

variable (V : (c : Dev nD) → (b : Ref sig .tc) → Buf (Elt F) ((c : Thread nD τ).loc b))

/-- Window `w`'s block at point `t`, read off its array at the region-entry contents `V` (window 0's block index is the
    table's word at `j`). -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (Pipeline.UD sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a0) c) (hA : dat.A 2 = V c (Pipeline.arrRef spec0 2))
    (hafter : ∀ t, dat.after 2 t = iblk0 a0 V c 2 t) (t : Fin (cfg0 a0).N) (d) : dat.before 2 t d = iblk0 a0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.K.Reg0RunA.lean ====
import proofs.«100284_j64536178590158_2_alg».proof.Proof.K.Reg0Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The body at a first row tile (`bi = 0`): the two statistics blocks are zeroed, then read back and added to -/

set_option maxHeartbeats 1000000 in
/-- What the body's stores leave in the three output staging memrefs, as pieces (last first), when the row-tile
    coordinate is zero; with the proof that on whole staging memrefs — the inputs' at their contents, the outputs' at
    anything — the body runs to the continuation holding the inputs' as they were and each output's buffer with its
    pieces written. -/
noncomputable def kernelRun0_A (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i)
    (x0 : Vec F S1x1024x1024 .bf16) (x1 : Vec F S1x512x1024 .bf16) (x2 : Vec F S1x1x512 .f32) :
    Σ' (L3 : List (View.Piece (Elt F) S1x1024x512 .bf16)) (L4 : List (View.Piece (Elt F) S1x1x512 .f32)), { L5 : List (View.Piece (Elt F) S1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)) -∗ K ⟨⟩))
          ⊢ wp frame (wpE (defs₀ (F := F)) Variants.none c none) E (cc0__linear_stats_kernel i arg2 harg2 arg3 harg3 arg4 harg4 arg5 harg5 arg6 harg6 arg7 harg7 arg8 harg8) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.Kernel.Hand

end
-- ==== Proof.K.Reg0RunB.lean ====
import proofs.«100284_j64536178590158_2_alg».proof.Proof.K.Reg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The body at a later row tile (`bi > 0`): the two statistics blocks are read as the tile before left them and added to -/

set_option maxHeartbeats 1000000 in
/-- What the body's stores leave in the three output staging memrefs, as pieces (last first), when the row-tile
    coordinate is not zero; with the proof that on whole staging memrefs — the inputs' at their contents, the two
    statistics outputs' at their running contents, the projection output's at anything — the body runs to the
    continuation holding the inputs' as they were and each output's buffer with its pieces written. -/
noncomputable def kernelRun0_B (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i)
    (x0 : Vec F S1x1024x1024 .bf16) (x1 : Vec F S1x512x1024 .bf16) (x2 : Vec F S1x1x512 .f32) (xo4 : Vec F S1x1x512 .f32) (xo5 : Vec F S1x1x512 .f32) :
    Σ' (L3 : List (View.Piece (Elt F) S1x1024x512 .bf16)) (L4 : List (View.Piece (Elt F) S1x1x512 .f32)), { L5 : List (View.Piece (Elt F) S1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xo4 ∗ owns (c : Thread nD τ) arg8 fullShare xo5
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)) -∗ K ⟨⟩))
          ⊢ wp frame (wpE (defs₀ (F := F)) Variants.none c none) E (cc0__linear_stats_kernel i arg2 harg2 arg3 harg3 arg4 harg4 arg5 harg5 arg6 harg6 arg7 harg7 arg8 harg8) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg3.eq_unread hf0; obtain rfl := harg4.eq_unread hf1; obtain rfl := harg5.eq_unread hf2
    obtain rfl := harg7.eq_unread hf4; obtain rfl := harg8.eq_unread hf5
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.Kernel.Hand

end
-- ==== Proof.K.Reg0Dat.lean ====
import proofs.«100284_j64536178590158_2_alg».proof.Proof.K.Reg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projections-and-statistics region: its proof data, at any admissible table contents -/

/-! ## What each case leaves in the output staging buffers -/

/-- At a first row tile each output's pieces tile its block, so they cover it. -/
theorem cover0_A_3 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) (y : S1x1024x512.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x1024x512.size (by sl_kernel_rfl) y
theorem cover0_A_4 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) (y : S1x1x512.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S1x1x512.size (by sl_kernel_rfl) y
theorem cover0_A_5 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) (y : S1x1x512.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S1x1x512.size (by sl_kernel_rfl) y

/-- What a first row tile leaves in the three output staging buffers: its pieces read back over junk. -/
def out0_A (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) : Vec F S1x1024x512 .bf16 × Vec F S1x1x512 .f32 × Vec F S1x1x512 .f32 :=
  (VO0_3.read (Elt F) (VO0_3.writes (Elt F) VO0_3.junk (kernelRun0_A c i arg2 harg2 arg3 harg3 arg4 harg4 arg5 harg5 arg6 harg6 arg7 harg7 arg8 harg8 hc0 x0 x1 x2).1),
   VO0_4.read (Elt F) (VO0_4.writes (Elt F) VO0_4.junk (kernelRun0_A c i arg2 harg2 arg3 harg3 arg4 harg4 arg5 harg5 arg6 harg6 arg7 harg7 arg8 harg8 hc0 x0 x1 x2).2.1),
   VO0_5.read (Elt F) (VO0_5.writes (Elt F) VO0_5.junk (kernelRun0_A c i arg2 harg2 arg3 harg3 arg4 harg4 arg5 harg5 arg6 harg6 arg7 harg7 arg8 harg8 hc0 x0 x1 x2).2.2.1))

/-- At a later row tile likewise. -/
theorem cover0_B_3 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) (y : S1x1024x512.Idx) :
    ∃ pc ∈ (kernelRun0_B c i arg2 harg2 arg3 harg3 arg4 harg4 arg5 harg5 arg6 harg6 arg7 harg7 arg8 harg8 hc0 x0 x1 x2 xo4 xo5).1, y ∈ pc.1.set :=
  View.cover_of_tiledL (kernelRun0_B c i arg2 harg2 arg3 harg3 arg4 harg4 arg5 harg5 arg6 harg6 arg7 harg7 arg8 harg8 hc0 x0 x1 x2 xo4 xo5).1 S1x1024x512.size (by sl_kernel_rfl) y
theorem cover0_B_4 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) (y : S1x1x512.Idx) :
    ∃ pc ∈ (kernelRun0_B c i arg2 harg2 arg3 harg3 arg4 harg4 arg5 harg5 arg6 harg6 arg7 harg7 arg8 harg8 hc0 x0 x1 x2 xo4 xo5).2.1, y ∈ pc.1.set :=
  View.cover_of_tiledL (kernelRun0_B c i arg2 harg2 arg3 harg3 arg4 harg4 arg5 harg5 arg6 harg6 arg7 harg7 arg8 harg8 hc0 x0 x1 x2 xo4 xo5).2.1 S1x1x512.size (by sl_kernel_rfl) y
theorem cover0_B_5 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) (y : S1x1x512.Idx) :
    ∃ pc ∈ (kernelRun0_B c i arg2 harg2 arg3 harg3 arg4 harg4 arg5 harg5 arg6 harg6 arg7 harg7 arg8 harg8 hc0 x0 x1 x2 xo4 xo5).2.2.1, y ∈ pc.1.set :=
  View.cover_of_tiledL (kernelRun0_B c i arg2 harg2 arg3 harg3 arg4 harg4 arg5 harg5 arg6 harg6 arg7 harg7 arg8 harg8 hc0 x0 x1 x2 xo4 xo5).2.2.1 S1x1x512.size (by sl_kernel_rfl) y

/-- What a later row tile leaves in the three output staging buffers, over the statistics the tile before left. -/
def out0_B (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) : Vec F S1x1024x512 .bf16 × Vec F S1x1x512 .f32 × Vec F S1x1x512 .f32 :=
  (VO0_3.read (Elt F) (VO0_3.writes (Elt F) VO0_3.junk (kernelRun0_B c i arg2 harg2 arg3 harg3 arg4 harg4 arg5 harg5 arg6 harg6 arg7 harg7 arg8 harg8 hc0 x0 x1 x2 xo4 xo5).1),
   VO0_4.read (Elt F) (VO0_4.writes (Elt F) VO0_4.junk (kernelRun0_B c i arg2 harg2 arg3 harg3 arg4 harg4 arg5 harg5 arg6 harg6 arg7 harg7 arg8 harg8 hc0 x0 x1 x2 xo4 xo5).2.1),
   VO0_5.read (Elt F) (VO0_5.writes (Elt F) VO0_5.junk (kernelRun0_B c i arg2 harg2 arg3 harg3 arg4 harg4 arg5 harg5 arg6 harg6 arg7 harg7 arg8 harg8 hc0 x0 x1 x2 xo4 xo5).2.2.1))

variable (a0 : (pcfg0 (F := F)).Adm)
variable (V : (c : Dev nD) → (b : Ref sig .tc) → Buf (Elt F) ((c : Thread nD τ).loc b))

/-! ## What the outputs hold after each point -/

/-- THE ACCUMULATION. What the three output staging buffers hold after the body at position `n`: at a first row tile
    (`n ≡ 0 mod 32`) the reset case, run at the point's memrefs and input blocks; otherwise the adding case, over the
    statistics position `n - 1` left (the two statistics buffers are not written back in between). -/
def outsAt0 (c : Dev nD) : (n : ℕ) → n < (cfg0 a0).N → Vec F S1x1024x512 .bf16 × Vec F S1x1x512 .f32 × Vec F S1x1x512 .f32
  | 0, hn => out0_A c (grid0.coords ⟨0, hn⟩) (Memref.whole main_c) (Memref.isWhole_whole _) (ms0_0 a0 ⟨0, hn⟩) (hs0_0 a0 ⟨0, hn⟩) (ms0_1 a0 ⟨0, hn⟩) (hs0_1 a0 ⟨0, hn⟩) (ms0_2 a0 ⟨0, hn⟩) (hs0_2 a0 ⟨0, hn⟩) (ms0_3 a0 ⟨0, hn⟩) (hs0_3 a0 ⟨0, hn⟩) (ms0_4 a0 ⟨0, hn⟩) (hs0_4 a0 ⟨0, hn⟩) (ms0_5 a0 ⟨0, hn⟩) (hs0_5 a0 ⟨0, hn⟩) ((isFirst_iff a0 ⟨0, hn⟩).mpr (Nat.zero_mod _)) (iblk0 a0 V c 0 ⟨0, hn⟩) (iblk0 a0 V c 1 ⟨0, hn⟩) (iblk0 a0 V c 2 ⟨0, hn⟩)
  | n + 1, hn =>
    if h0 : (n + 1) % 32 = 0 then
      out0_A c (grid0.coords ⟨n + 1, hn⟩) (Memref.whole main_c) (Memref.isWhole_whole _) (ms0_0 a0 ⟨n + 1, hn⟩) (hs0_0 a0 ⟨n + 1, hn⟩) (ms0_1 a0 ⟨n + 1, hn⟩) (hs0_1 a0 ⟨n + 1, hn⟩) (ms0_2 a0 ⟨n + 1, hn⟩) (hs0_2 a0 ⟨n + 1, hn⟩) (ms0_3 a0 ⟨n + 1, hn⟩) (hs0_3 a0 ⟨n + 1, hn⟩) (ms0_4 a0 ⟨n + 1, hn⟩) (hs0_4 a0 ⟨n + 1, hn⟩) (ms0_5 a0 ⟨n + 1, hn⟩) (hs0_5 a0 ⟨n + 1, hn⟩) ((isFirst_iff a0 ⟨n + 1, hn⟩).mpr h0) (iblk0 a0 V c 0 ⟨n + 1, hn⟩) (iblk0 a0 V c 1 ⟨n + 1, hn⟩) (iblk0 a0 V c 2 ⟨n + 1, hn⟩)
    else
      out0_B c (grid0.coords ⟨n + 1, hn⟩) (Memref.whole main_c) (Memref.isWhole_whole _) (ms0_0 a0 ⟨n + 1, hn⟩) (hs0_0 a0 ⟨n + 1, hn⟩) (ms0_1 a0 ⟨n + 1, hn⟩) (hs0_1 a0 ⟨n + 1, hn⟩) (ms0_2 a0 ⟨n + 1, hn⟩) (hs0_2 a0 ⟨n + 1, hn⟩) (ms0_3 a0 ⟨n + 1, hn⟩) (hs0_3 a0 ⟨n + 1, hn⟩) (ms0_4 a0 ⟨n + 1, hn⟩) (hs0_4 a0 ⟨n + 1, hn⟩) (ms0_5 a0 ⟨n + 1, hn⟩) (hs0_5 a0 ⟨n + 1, hn⟩) (fun h => h0 ((isFirst_iff a0 ⟨n + 1, hn⟩).mp h)) (iblk0 a0 V c 0 ⟨n + 1, hn⟩) (iblk0 a0 V c 1 ⟨n + 1, hn⟩) (iblk0 a0 V c 2 ⟨n + 1, hn⟩)
        (outsAt0 c n (Nat.lt_of_succ_lt hn)).2.1 (outsAt0 c n (Nat.lt_of_succ_lt hn)).2.2

/-- `outsAt0` at a first row tile. -/
theorem outsAt0_A (c : Dev nD) (t : Fin (cfg0 a0).N) (h0 : t.val % 32 = 0) :
    outsAt0 a0 V c t.val t.isLt = out0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t) := by
  obtain ⟨n, hn⟩ := t
  cases n with
  | zero => exact rfl
  | succ n => exact (dif_pos h0).trans rfl

/-- `outsAt0` at a later row tile. -/
theorem outsAt0_B (c : Dev nD) (t : Fin (cfg0 a0).N) (h0 : ¬t.val % 32 = 0) :
    outsAt0 a0 V c t.val t.isLt = out0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t)
      (outsAt0 a0 V c (t.val - 1) (Nat.lt_of_le_of_lt (Nat.sub_le _ _) t.isLt)).2.1 (outsAt0 a0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The proof data of the region on core `c`: the arrays as the region finds them; after the body at point `t` each
    input's buffer at its block and the outputs' at `outsAt0`; the invariant: the scoped buffers that are no staging
    buffer, the generator register, and the index table held whole at its contents (the body never touches it);
    nothing owed; full shares. -/
def dat0 (c : Dev nD) : Dat τ (Elt F) Unit ℕ (Pipeline.UD sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => iblk0 a0 V c 2 t
    | ⟨3, _⟩ => (outsAt0 a0 V c t.val t.isLt).1
    | ⟨4, _⟩ => (outsAt0 a0 V c t.val t.isLt).2.1
    | ⟨5, _⟩ => (outsAt0 a0 V c t.val t.isLt).2.2
  Φ _ := iprop(Pipeline.ΦA spec0 c ∗ Pipeline.prefHeld (Ix := Unit) (Name := ℕ) (U := Pipeline.UD sig nD τ) (Lvl := ℕ) pre0 c (fun _ => fullShare) a0.1)
  q _ := fullShare
  owed _ := 0

/-- The proof data's arrays are the region-entry contents. -/
theorem A_eq0 (c : Dev nD) (w : Fin (cfg0 a0).W) : (dat0 a0 V c).A w = V c (Pipeline.arrRef spec0 w) := by
  dsimp only [dat0]

/-- What the body leaves, window by window. -/
theorem after0_0 (c : Dev nD) (t : Fin (cfg0 a0).N) : (dat0 a0 V c).after 0 t = iblk0 a0 V c 0 t := by dsimp only [dat0]; try rfl
theorem after0_1 (c : Dev nD) (t : Fin (cfg0 a0).N) : (dat0 a0 V c).after 1 t = iblk0 a0 V c 1 t := by dsimp only [dat0]; try rfl
theorem after0_2 (c : Dev nD) (t : Fin (cfg0 a0).N) : (dat0 a0 V c).after 2 t = iblk0 a0 V c 2 t := by dsimp only [dat0]; try rfl
theorem after0_3 (c : Dev nD) (t : Fin (cfg0 a0).N) : (dat0 a0 V c).after 3 t = (outsAt0 a0 V c t.val t.isLt).1 := by dsimp only [dat0]; try rfl
theorem after0_4 (c : Dev nD) (t : Fin (cfg0 a0).N) : (dat0 a0 V c).after 4 t = (outsAt0 a0 V c t.val t.isLt).2.1 := by dsimp only [dat0]; try rfl
theorem after0_5 (c : Dev nD) (t : Fin (cfg0 a0).N) : (dat0 a0 V c).after 5 t = (outsAt0 a0 V c t.val t.isLt).2.2 := by dsimp only [dat0]; try rfl

/-- Each input's current staging buffer holds its block at every point, fetched there or not. -/
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d
theorem before0_2 (c : Dev nD) (t : Fin (cfg0 a0).N) (d) : (dat0 a0 V c).before 2 t d = iblk0 a0 V c 2 t :=
  before0_2_of a0 V (dat0 a0 V c) (A_eq0 a0 V c 2) (after0_2 a0 V c) t d

/-- At a later row tile each statistics window's current staging buffer holds what the body left at the point before:
    the point is not the first, the buffer was not written back in between, the window is live and uncut. -/
theorem before0_4_B (c : Dev nD) (t : Fin (cfg0 a0).N) (h0 : ¬t.val % 32 = 0) (d) :
    (dat0 a0 V c).before 4 t d = (outsAt0 a0 V c (t.val - 1) (Nat.lt_of_le_of_lt (Nat.sub_le _ _) t.isLt)).2.1 := by
  have hN : t.val < 288 := lt_of_lt_of_eq t.isLt (show (cfg0 a0).N = 288 from N_0)
  rw [Dat.before_out_kept _ 4 rfl t (by omega) (Bool.eq_false_iff.mpr fun h => by have := (flush0_4 a0 _).mp h; dsimp only at this; omega)
    (fun _ => rfl) (fun _ _ => rfl)]
  exact after0_4 a0 V c _
theorem before0_5_B (c : Dev nD) (t : Fin (cfg0 a0).N) (h0 : ¬t.val % 32 = 0) (d) :
    (dat0 a0 V c).before 5 t d = (outsAt0 a0 V c (t.val - 1) (Nat.lt_of_le_of_lt (Nat.sub_le _ _) t.isLt)).2.2 := by
  have hN : t.val < 288 := lt_of_lt_of_eq t.isLt (show (cfg0 a0).N = 288 from N_0)
  rw [Dat.before_out_kept _ 5 rfl t (by omega) (Bool.eq_false_iff.mpr fun h => by have := (flush0_5 a0 _).mp h; dsimp only at this; omega)
    (fun _ => rfl) (fun _ _ => rfl)]
  exact after0_5 a0 V c _

end Cert.Kernel.Hand

end
-- ==== Proof.K.Reg0Tbl.lean ====
import proofs.«100284_j64536178590158_2_alg».proof.Proof.K.Reg0Sched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The index table's literal contents -/

/-- The table says which of the three stacked inputs feeds projection `j`: 0, 1, 1, 1, 2, 2, 2, 0, 0. -/
def tbl : pre0.Contents (Elt F) := fun
  | ⟨0, _⟩ => fun i => lit0 (S9.rowMajor i)

/-- Every word of the table, read signed, lies in 0..2. -/
theorem lit0_range : ∀ k : Fin 9, 0 ≤ (lit0 k).toInt ∧ (lit0 k).toInt + 1 ≤ 3 := by decide

set_option maxHeartbeats 400000 in
/-- The table's word at any point is a block index inside the stacked input array. -/
theorem inb_tbl (i : grid0.Coords) : ∀ a, (cc0_transform_0 k0_off1_inb numel1_S1 (tbl (F := F)) i a + 1) * S1x1024x1024.size a ≤ S3x32768x1024.size a := by
  have r_i1 : (i 1).val < 32 := (i 1).isLt
  have h_arg1 : Affine.IsInt (BitVec.ofNat 32 (i 1).val) (((i 1).val : Int)) := Affine.ofNat _ (by omega)
  have h_c0 : Affine.IsInt 0#32 (0) := Affine.ofNat _ (by omega)
  have hx : ∀ x : BitVec 32, (0 ≤ x.toInt ∧ x.toInt + 1 ≤ 3) →
      ∀ a, (![x.toNat, (BitVec.ofNat 32 (i 1).val).toNat, (0#32 : BitVec 32).toNat] a + 1) * S1x1024x1024.size a ≤ S3x32768x1024.size a := fun x hx =>
    Affine.blk_cons (Affine.word x) (by omega) <| Affine.blk_cons h_arg1 (by omega) <| Affine.blk_cons h_c0 (by omega) <| Affine.blk_nil
  exact hx _ (lit0_range _)

/-- The literal table is admissible: window 0's block lies inside its array at every point, its transfers word-exact. -/
theorem ok_tbl : ok0 (F := F) tbl := fun i => ⟨inb_tbl i, .inr (Affine.block_words_dvd (of_decide_eq_true rfl) (by decide))⟩

/-- The literal table as admissible contents. -/
def adm0 : (pcfg0 (F := F)).Adm := ⟨tbl, ok_tbl⟩

/-- A memory whose table buffer holds the constant the program's first host operation writes hands the region the
    literal table. -/
theorem tbl_of_V (V : (c : Dev nD) → (b : Ref sig .tc) → Buf (Elt F) ((c : Thread nD τ).loc b)) (c : Dev nD)
    (hV : V c main_c = fun i => lit0 (S9.rowMajor i)) : (fun k => V c (pre0.ref k)) = (adm0 (F := F)).1 := by
  funext k
  match k with
  | ⟨0, _⟩ => exact hV

end Cert.Kernel.Hand

end
-- ==== Proof.K.Reg0.lean ====
import proofs.«100284_j64536178590158_2_alg».proof.Proof.K.Reg0Dat
import proofs.«100284_j64536178590158_2_alg».proof.Proof.K.Reg0Tbl

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projections-and-statistics region: its body obligation and the invariant at its ends -/

/-- The components of a triple. -/
theorem fst3 {α β γ : Type} (a : α) (b : β) (c : γ) : (a, b, c).1 = a := rfl
theorem snd3 {α β γ : Type} (a : α) (b : β) (c : γ) : (a, b, c).2.1 = b := rfl
theorem trd3 {α β γ : Type} (a : α) (b : β) (c : γ) : (a, b, c).2.2 = c := rfl

variable (a0 : (pcfg0 (F := F)).Adm)
variable (V : (c : Dev nD) → (b : Ref sig .tc) → Buf (Elt F) ((c : Thread nD τ).loc b))

/-- What each output's staging buffer holds after a first row tile, component by component, -/
theorem outsAt0_A_3 (c : Dev nD) (t : Fin (cfg0 a0).N) (h0 : t.val % 32 = 0) :
    (outsAt0 a0 V c t.val t.isLt).1 = VO0_3.read (Elt F) (VO0_3.writes (Elt F) VO0_3.junk (kernelRun0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t)).1) :=
  by rw [outsAt0_A a0 V c t h0]; exact fst3 _ _ _
theorem outsAt0_A_4 (c : Dev nD) (t : Fin (cfg0 a0).N) (h0 : t.val % 32 = 0) :
    (outsAt0 a0 V c t.val t.isLt).2.1 = VO0_4.read (Elt F) (VO0_4.writes (Elt F) VO0_4.junk (kernelRun0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t)).2.1) :=
  by rw [outsAt0_A a0 V c t h0]; exact snd3 _ _ _
theorem outsAt0_A_5 (c : Dev nD) (t : Fin (cfg0 a0).N) (h0 : t.val % 32 = 0) :
    (outsAt0 a0 V c t.val t.isLt).2.2 = VO0_5.read (Elt F) (VO0_5.writes (Elt F) VO0_5.junk (kernelRun0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t)).2.2.1) :=
  by rw [outsAt0_A a0 V c t h0]; exact trd3 _ _ _
/-- and after a later one. -/
theorem outsAt0_B_3 (c : Dev nD) (t : Fin (cfg0 a0).N) (h0 : ¬t.val % 32 = 0) :
    (outsAt0 a0 V c t.val t.isLt).1 = VO0_3.read (Elt F) (VO0_3.writes (Elt F) VO0_3.junk (kernelRun0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t) (outsAt0 a0 V c (t.val - 1) (Nat.lt_of_le_of_lt (Nat.sub_le _ _) t.isLt)).2.1 (outsAt0 a0 V c (t.val - 1) (Nat.lt_of_le_of_lt (Nat.sub_le _ _) t.isLt)).2.2).1) :=
  by rw [outsAt0_B a0 V c t h0]; exact fst3 _ _ _
theorem outsAt0_B_4 (c : Dev nD) (t : Fin (cfg0 a0).N) (h0 : ¬t.val % 32 = 0) :
    (outsAt0 a0 V c t.val t.isLt).2.1 = VO0_4.read (Elt F) (VO0_4.writes (Elt F) VO0_4.junk (kernelRun0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t) (outsAt0 a0 V c (t.val - 1) (Nat.lt_of_le_of_lt (Nat.sub_le _ _) t.isLt)).2.1 (outsAt0 a0 V c (t.val - 1) (Nat.lt_of_le_of_lt (Nat.sub_le _ _) t.isLt)).2.2).2.1) :=
  by rw [outsAt0_B a0 V c t h0]; exact snd3 _ _ _
theorem outsAt0_B_5 (c : Dev nD) (t : Fin (cfg0 a0).N) (h0 : ¬t.val % 32 = 0) :
    (outsAt0 a0 V c t.val t.isLt).2.2 = VO0_5.read (Elt F) (VO0_5.writes (Elt F) VO0_5.junk (kernelRun0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t) (outsAt0 a0 V c (t.val - 1) (Nat.lt_of_le_of_lt (Nat.sub_le _ _) t.isLt)).2.1 (outsAt0 a0 V c (t.val - 1) (Nat.lt_of_le_of_lt (Nat.sub_le _ _) t.isLt)).2.2).2.2.1) :=
  by rw [outsAt0_B a0 V c t h0]; exact trd3 _ _ _

/-! ## The body obligation, at a generic point -/

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (ms0_0 a0 t) fullShare ((dat0 a0 V c).before 0 t d))
    ∗ (∃ d, owns (c : Thread nD τ) (ms0_1 a0 t) fullShare ((dat0 a0 V c).before 1 t d))
    ∗ (∃ d, owns (c : Thread nD τ) (ms0_2 a0 t) fullShare ((dat0 a0 V c).before 2 t d))
    ∗ (∃ d, owns (c : Thread nD τ) (ms0_3 a0 t) fullShare ((dat0 a0 V c).before 3 t d))
    ∗ (∃ d, owns (c : Thread nD τ) (ms0_4 a0 t) fullShare ((dat0 a0 V c).before 4 t d))
    ∗ (∃ d, owns (c : Thread nD τ) (ms0_5 a0 t) fullShare ((dat0 a0 V c).before 5 t d)))

/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (ms0_0 a0 t) fullShare ((dat0 a0 V c).after 0 t)
    ∗ owns (c : Thread nD τ) (ms0_1 a0 t) fullShare ((dat0 a0 V c).after 1 t)
    ∗ owns (c : Thread nD τ) (ms0_2 a0 t) fullShare ((dat0 a0 V c).after 2 t)
    ∗ owns (c : Thread nD τ) (ms0_3 a0 t) fullShare ((dat0 a0 V c).after 3 t)
    ∗ owns (c : Thread nD τ) (ms0_4 a0 t) fullShare ((dat0 a0 V c).after 4 t)
    ∗ owns (c : Thread nD τ) (ms0_5 a0 t) fullShare ((dat0 a0 V c).after 5 t))

set_option maxHeartbeats 1000000 in
/-- The body at a first row tile: the inputs' memrefs hold their blocks, the outputs' anything; the reset case's run
    applies. The invariant passes through unread; the core owes nothing throughout. -/
theorem sound_body0_A (c : Dev nD) (t : Fin (cfg0 a0).N) (h0 : t.val % 32 = 0) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1, before0_2]
  rw [show (dat0 a0 V c).Φ t.succ = (dat0 a0 V c).Φ t.castSucc from rfl,
    show (dat0 a0 V c).owesAt () t.succ = (dat0 a0 V c).owesAt () t.castSucc from rfl,
    after0_0, after0_1, after0_2, after0_3, after0_4, after0_5]
  rw [outsAt0_A_3 a0 V c t h0, outsAt0_A_4 a0 V c t h0, outsAt0_A_5 a0 V c t h0]
  · iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((isFirst_iff a0 t).mpr h0) (iblk0 a0 V c 0 t) (iblk0 a0 V c 1 t) (iblk0 a0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _)

set_option maxHeartbeats 1000000 in
/-- The body at a later row tile: the statistics buffers hold what the point before left; the adding case's run
    applies. -/
theorem sound_body0_B (c : Dev nD) (t : Fin (cfg0 a0).N) (h0 : ¬t.val % 32 = 0) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1, before0_2]
  rw [show (dat0 a0 V c).Φ t.succ = (dat0 a0 V c).Φ t.castSucc from rfl,
    show (dat0 a0 V c).owesAt () t.succ = (dat0 a0 V c).owesAt () t.castSucc from rfl,
    after0_0, after0_1, after0_2, after0_3, after0_4, after0_5]
  rw [outsAt0_B_3 a0 V c t h0, outsAt0_B_4 a0 V c t h0, outsAt0_B_5 a0 V c t h0]
  simp only [before0_4_B a0 V c t h0, before0_5_B a0 V c t h0]
  · iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((isFirst_iff a0 t).mp h)) (iblk0 a0 V c 0 t) (iblk0 a0 V c 1 t) (iblk0 a0 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _)

/-- The body at any point: the row-tile coordinate says which case the point is in. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  by_cases h0 : t.val % 32 = 0
  · exact sound_body0_A a0 V c t h0
  · exact sound_body0_B a0 V c t h0

/-- The body obligation, at every point. -/
theorem body_obligation0 (c : Dev nD) : BodyObligation (dat0 (F := F) a0 V c) (defs₀ (F := F)) Variants.none () Set.univ := fun t => by
  rw [bigSep_W0, bigSep_W0]
  exact sound_body0 a0 V c t

/-! ## The invariant at the region's ends -/

/-- The invariant at the first point, from the generator register, the table and the scoped buffers no window stages. -/
theorem hin0 (c : Dev nD) :
    iprop((∃ r, prngReg c r) ∗ Pipeline.prefHeld pre0 c (fun _ => fullShare) a0.1
        ∗ Pipeline.scopedRest (Ix := Unit) (Name := ℕ) (U := Pipeline.UD sig nD τ) (Lvl := ℕ) (Val := Elt F) spec0 c)
      ⊢ ((dat0 a0 V c).Φ 0 : sProp 𝕄) := by
  rw [show (dat0 a0 V c).Φ 0 = iprop(Pipeline.ΦA spec0 c ∗ Pipeline.prefHeld (Ix := Unit) (Name := ℕ) (U := Pipeline.UD sig nD τ) (Lvl := ℕ) pre0 c (fun _ => fullShare) a0.1) from rfl]
  unfold Pipeline.ΦA
  iintro ⟨Hp, Ht, Hr⟩
  isplitl [Hp Hr]
  · isplitl [Hr]; · iexact Hr
    iexact Hp
  iexact Ht

/-- The invariant at the last point gives them back. -/
theorem hout0 (c : Dev nD) :
    ((dat0 a0 V c).Φ (Fin.last (cfg0 a0).N) : sProp 𝕄)
      ⊢ iprop(((∃ r, prngReg c r) ∗ Pipeline.prefHeld pre0 c (fun _ => fullShare) a0.1)
        ∗ Pipeline.scopedRest (Ix := Unit) (Name := ℕ) (U := Pipeline.UD sig nD τ) (Lvl := ℕ) (Val := Elt F) spec0 c) := by
  rw [show (dat0 a0 V c).Φ (Fin.last (cfg0 a0).N) = iprop(Pipeline.ΦA spec0 c ∗ Pipeline.prefHeld (Ix := Unit) (Name := ℕ) (U := Pipeline.UD sig nD τ) (Lvl := ℕ) pre0 c (fun _ => fullShare) a0.1) from rfl]
  unfold Pipeline.ΦA
  iintro ⟨⟨Hr, Hp⟩, Ht⟩
  isplitl [Hp Ht]
  · isplitl [Hp]; · iexact Hp
    iexact Ht
  iexact Hr

end Cert.Kernel.Hand

end
-- ==== Proof.K.Reg1Run.lean ====
import proofs.«100284_j64536178590158_2_alg».proof.Proof.Gen.Kernel.Launch
import proofs.«100284_j64536178590158_2_alg».proof.Proof.Gen.Kernel.Skeleton
import proofs.«100284_j64536178590158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses: every load and store is of a whole buffer -/

abbrev rQ : Rect S1x2048x256 := Rect.unit (s := S1x2048x256) ![0, 0, 0] S1x2048x256.size inb_S1x2048x256_S1x2048x256_0_0_0
abbrev rK : Rect S1x2048x512 := Rect.unit (s := S1x2048x512) ![0, 0, 0] S1x2048x512.size inb_S1x2048x512_S1x2048x512_0_0_0
abbrev rq : Rect S1x1x256 := Rect.unit (s := S1x1x256) ![0, 0, 0] S1x1x256.size inb_S1x1x256_S1x1x256_0_0_0
abbrev rk : Rect S1x1x512 := Rect.unit (s := S1x1x512) ![0, 0, 0] S1x1x512.size inb_S1x1x512_S1x1x512_0_0_0
abbrev rS : Rect S256x512 := Rect.unit (s := S256x512) ![0, 0] S256x512.size inb_S256x512_S256x512_0_0
abbrev rO : Rect S1x256x512 := Rect.unit (s := S1x256x512) ![0, 0, 0] S1x256x512.size inb_S1x256x512_S1x256x512_0_0_0

/-- The accumulator after one point: the product of this point's normalised, rectified query and key tiles added to
    what the accumulator held. -/
def step1 (x0 : Vec F S1x2048x256 .bf16) (x1 : Vec F S1x2048x512 .bf16) (x2 x3 : Vec F S1x1x256 .f32) (x4 x5 : Vec F S1x1x512 .f32)
    (s : Vec F S256x512 .f32) : Vec F S256x512 .f32 :=
  View.canon [⟨rS, k1_pay1 (k1_pay4 (View.ld x0 rQ) (View.ld x2 rq) (View.ld x3 rq)) (k1_pay5 (View.ld x1 rK) (View.ld x4 rk) (View.ld x5 rk)) (View.ld s rS)⟩]

/-- The accumulator reset at the first point of a run. -/
def zero1 : Vec F S256x512 .f32 := View.canon [⟨rS, k1_pay3 (F := F)⟩]

/-- The output block the last point of a run stores: the row softmax of the scaled accumulator. -/
def fin1 (s : Vec F S256x512 .f32) : Vec F S1x256x512 .bf16 := View.canon [⟨rO, k1_pay2 (View.ld s rS)⟩]

/-- The body's two branch conditions, from the grid coordinates: the batch tile is the first; is the last. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

/-- A whole-buffer store covers the buffer. -/
theorem coverS (p : Vec F S256x512 .f32) (L : List (View.Piece (Elt F) S256x512 .f32)) (y : S256x512.Idx) :
    ∃ pc ∈ (⟨rS, p⟩ :: L : List (View.Piece (Elt F) S256x512 .f32)), y ∈ pc.1.set := by
  obtain ⟨pc, hm, hy⟩ := View.cover_of_tiled ([⟨rS, p⟩] : List (View.Piece (Elt F) S256x512 .f32)) S256x512.size (by rfl) y
  rw [List.mem_singleton] at hm; subst hm
  exact ⟨_, List.mem_cons_self, hy⟩
theorem coverO (p : Vec F S1x256x512 .bf16) (y : S1x256x512.Idx) :
    ∃ pc ∈ ([⟨rO, p⟩] : List (View.Piece (Elt F) S1x256x512 .bf16)), y ∈ pc.1.set :=
  View.cover_of_tiled [⟨rO, p⟩] S1x256x512.size (by rfl) y
theorem mem_rS (y : S256x512.Idx) : y ∈ rS.set := by
  obtain ⟨pc, hm, hy⟩ := View.cover_of_tiled ([⟨rS, fun _ => ()⟩] : List (View.Piece (fun _ => Unit) S256x512 .f32)) S256x512.size (by rfl) y
  rw [List.mem_singleton] at hm; subst hm; exact hy
/-- Under a whole-buffer store the earlier stores do not show. -/
theorem canon_whole (p : Vec F S256x512 .f32) (L : List (View.Piece (Elt F) S256x512 .f32)) :
    View.canon (⟨rS, p⟩ :: L) = View.canon [⟨rS, p⟩] := funext fun y => by
  obtain ⟨x, rfl⟩ := rS.exists_idx_of_mem (mem_rS y)
  exact (View.canon_cons_emb rS p L x).trans (View.canon_cons_emb rS p [] x).symm

set_option maxHeartbeats 1000000 in
/-- A point that begins a run (the first batch tile): the accumulator is reset, then this point's product is added; the
    output buffer is untouched. -/
theorem run1_A (c : Dev nD) (E : Set ℕ) (i : grid1.Coords)
    (arg3 : Memref sig .tc .vmem S1x2048x256 .bf16) (harg3 : arg3.IsWhole) (arg4 : Memref sig .tc .vmem S1x2048x512 .bf16) (harg4 : arg4.IsWhole)
    (arg5 : Memref sig .tc .vmem S1x1x256 .f32) (harg5 : arg5.IsWhole) (arg6 : Memref sig .tc .vmem S1x1x256 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S1x256x512 .bf16) (harg9 : arg9.IsWhole) (arg10 : Memref sig .tc .vmem S256x512 .f32) (harg10 : arg10.IsWhole)
    (hc0 : cond1_0 i) (hc1 : ¬cond1_1 i)
    (x0 : Vec F S1x2048x256 .bf16) (x1 : Vec F S1x2048x512 .bf16) (x2 x3 : Vec F S1x1x256 .f32) (x4 x5 : Vec F S1x1x512 .f32)
    (xo : Vec F S1x256x512 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xo ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare xo ∗ owns (c : Thread nD τ) arg10 fullShare (step1 x0 x1 x2 x3 x4 x5 zero1)) -∗ K ⟨⟩))
      ⊢ wp frame (wpE (defs₀ (F := F)) Variants.none c none) E (cc1__qk_kernel i arg3 harg3 arg4 harg4 arg5 harg5 arg6 harg6 arg7 harg7 arg8 harg8 arg9 harg9 arg10 harg10) K := by
  simp only [cc1__qk_kernel_eq_skeleton]; unfold cc1__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0 hf1 hf2 hf3 hf4 hf5 hf6
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  iexists _; isplitr
  swap; · iexact HS
  ipureintro
  refine (View.read_writes_eq_canon _ _ _ (coverS _ _)).trans ((canon_whole _ _).trans ?_)
  have hv : run1_A.sl.v31 c arg10 = View.ld (zero1 (F := F)) rS := View.readCov_eq_canon_ld _ _ _ (coverS _ _)
  rw [hv]; rfl

set_option maxHeartbeats 1000000 in
/-- A point inside a run: this point's product is added to the accumulator; the output buffer is untouched. -/
theorem run1_B (c : Dev nD) (E : Set ℕ) (i : grid1.Coords)
    (arg3 : Memref sig .tc .vmem S1x2048x256 .bf16) (harg3 : arg3.IsWhole) (arg4 : Memref sig .tc .vmem S1x2048x512 .bf16) (harg4 : arg4.IsWhole)
    (arg5 : Memref sig .tc .vmem S1x1x256 .f32) (harg5 : arg5.IsWhole) (arg6 : Memref sig .tc .vmem S1x1x256 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S1x256x512 .bf16) (harg9 : arg9.IsWhole) (arg10 : Memref sig .tc .vmem S256x512 .f32) (harg10 : arg10.IsWhole)
    (hc0 : ¬cond1_0 i) (hc1 : ¬cond1_1 i)
    (x0 : Vec F S1x2048x256 .bf16) (x1 : Vec F S1x2048x512 .bf16) (x2 x3 : Vec F S1x1x256 .f32) (x4 x5 : Vec F S1x1x512 .f32)
    (xo : Vec F S1x256x512 .bf16) (s : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xo ∗ owns (c : Thread nD τ) arg10 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare xo ∗ owns (c : Thread nD τ) arg10 fullShare (step1 x0 x1 x2 x3 x4 x5 s)) -∗ K ⟨⟩))
      ⊢ wp frame (wpE (defs₀ (F := F)) Variants.none c none) E (cc1__qk_kernel i arg3 harg3 arg4 harg4 arg5 harg5 arg6 harg6 arg7 harg7 arg8 harg8 arg9 harg9 arg10 harg10) K := by
  simp only [cc1__qk_kernel_eq_skeleton]; unfold cc1__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  iexists _; isplitr
  swap; · iexact HS
  ipureintro
  exact (View.read_writes_eq_canon _ _ _ (coverS _ _)).trans (canon_whole _ _)

set_option maxHeartbeats 1000000 in
/-- The last point of a run: this point's product is added, and the output buffer receives the row softmax of the
    scaled accumulator. -/
theorem run1_C (c : Dev nD) (E : Set ℕ) (i : grid1.Coords)
    (arg3 : Memref sig .tc .vmem S1x2048x256 .bf16) (harg3 : arg3.IsWhole) (arg4 : Memref sig .tc .vmem S1x2048x512 .bf16) (harg4 : arg4.IsWhole)
    (arg5 : Memref sig .tc .vmem S1x1x256 .f32) (harg5 : arg5.IsWhole) (arg6 : Memref sig .tc .vmem S1x1x256 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S1x256x512 .bf16) (harg9 : arg9.IsWhole) (arg10 : Memref sig .tc .vmem S256x512 .f32) (harg10 : arg10.IsWhole)
    (hc0 : ¬cond1_0 i) (hc1 : cond1_1 i)
    (x0 : Vec F S1x2048x256 .bf16) (x1 : Vec F S1x2048x512 .bf16) (x2 x3 : Vec F S1x1x256 .f32) (x4 x5 : Vec F S1x1x512 .f32)
    (s : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ owns (c : Thread nD τ) arg10 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (fin1 (step1 x0 x1 x2 x3 x4 x5 s)) ∗ owns (c : Thread nD τ) arg10 fullShare (step1 x0 x1 x2 x3 x4 x5 s)) -∗ K ⟨⟩))
      ⊢ wp frame (wpE (defs₀ (F := F)) Variants.none c none) E (cc1__qk_kernel i arg3 harg3 arg4 harg4 arg5 harg5 arg6 harg6 arg7 harg7 arg8 harg8 arg9 harg9 arg10 harg10) K := by
  simp only [cc1__qk_kernel_eq_skeleton]; unfold cc1__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap; · iexact H6
    ipureintro
    refine (View.read_writes_eq_canon _ _ _ (coverO _)).trans ?_
    have hv : run1_C.sl.v40 c arg3 arg4 arg5 arg6 arg7 arg8 arg10 f0 f1 f2 f3 f4 f5 fs
        = View.ld (step1 (arg3.view.read (Elt F) f0) (arg4.view.read (Elt F) f1) (arg5.view.read (Elt F) f2) (arg6.view.read (Elt F) f3)
            (arg7.view.read (Elt F) f4) (arg8.view.read (Elt F) f5) (arg10.view.read (Elt F) fs)) rS :=
      View.readCov_eq_canon_ld _ _ _ (coverS _ _)
    rw [hv]; rfl
  iexists _; isplitr
  swap; · iexact HS
  ipureintro
  exact (View.read_writes_eq_canon _ _ _ (coverS _ _)).trans (canon_whole _ _)

end Cert.Kernel.Hand
end
-- ==== Proof.K.Reg1.lean ====
import proofs.«100284_j64536178590158_2_alg».proof.Proof.K.Reg1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the logits of each attention accumulated over the batch tiles, then the row softmax -/

/-- The two halves of the full share, dealt to the two windows that read one array. -/
def lh : PosShare TreeShare := (fullShare : PosShare TreeShare).left
def rh : PosShare TreeShare := (fullShare : PosShare TreeShare).right

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current buffer holds its block at every point, fetched there or not: where it is not
    fetched the block index has not moved. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- One point's step of the accumulator at position `n` of the grid (nothing beyond the grid). -/
def stepAt (c : Dev nD) (n : ℕ) (s : Vec F S256x512 .f32) : Vec F S256x512 .f32 :=
  if h : n < cfg1.N then step1 (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) s else s

/-- The accumulator after the point at position `n`: reset where a run of sixteen batch tiles begins, then this
    point's product added to what the point before left. -/
def accN (c : Dev nD) : ℕ → Vec F S256x512 .f32
  | 0 => stepAt V c 0 zero1
  | n + 1 => stepAt V c (n + 1) (if (n + 1) % 16 = 0 then zero1 else accN c n)

/-- The scratch accumulator after point `t`. -/
def acc1 (c : Dev nD) (t : Fin cfg1.N) : Vec F S256x512 .f32 := accN V c t.val

/-- The output buffer after point `t`: the row softmax of the scaled accumulator there (stored, and written back, at the
    last point of a run only; elsewhere the window is idle and this is not consulted). -/
def out1_6 (c : Dev nD) (t : Fin cfg1.N) : Vec F S1x256x512 .bf16 := fin1 (acc1 V c t)

theorem stepAt_lt (c : Dev nD) (t : Fin cfg1.N) (s : Vec F S256x512 .f32) :
    stepAt V c t.val s = step1 (iblk1 V c 0 t) (iblk1 V c 1 t) (iblk1 V c 2 t) (iblk1 V c 3 t) (iblk1 V c 4 t) (iblk1 V c 5 t) s := dif_pos t.isLt

theorem accN_first (c : Dev nD) (n : ℕ) (h : n % 16 = 0) : accN V c n = stepAt V c n zero1 := by
  cases n with
  | zero => rfl
  | succ n => show stepAt V c (n + 1) (if (n + 1) % 16 = 0 then zero1 else accN V c n) = _; rw [if_pos h]

theorem accN_next (c : Dev nD) (n : ℕ) (h : ¬n % 16 = 0) : accN V c n = stepAt V c n (accN V c (n - 1)) := by
  cases n with
  | zero => exact absurd (Nat.zero_mod _) h
  | succ n => show stepAt V c (n + 1) (if (n + 1) % 16 = 0 then zero1 else accN V c n) = _; rw [if_neg h]; rfl

theorem accN_val_first (c : Dev nD) (t : Fin cfg1.N) (h : t.val % 16 = 0) :
    accN V c t.val = step1 (iblk1 V c 0 t) (iblk1 V c 1 t) (iblk1 V c 2 t) (iblk1 V c 3 t) (iblk1 V c 4 t) (iblk1 V c 5 t) zero1 := (accN_first V c _ h).trans (stepAt_lt V c t _)

theorem accN_val_next (c : Dev nD) (t : Fin cfg1.N) (h : ¬t.val % 16 = 0) :
    accN V c t.val = step1 (iblk1 V c 0 t) (iblk1 V c 1 t) (iblk1 V c 2 t) (iblk1 V c 3 t) (iblk1 V c 4 t) (iblk1 V c 5 t) (accN V c (t.val - 1)) := (accN_next V c _ h).trans (stepAt_lt V c t _)

theorem acc1_first (c : Dev nD) (t : Fin cfg1.N) (h : t.val % 16 = 0) :
    acc1 V c t = step1 (iblk1 V c 0 t) (iblk1 V c 1 t) (iblk1 V c 2 t) (iblk1 V c 3 t) (iblk1 V c 4 t) (iblk1 V c 5 t) zero1 := (accN_first V c _ h).trans (stepAt_lt V c t _)

theorem acc1_next (c : Dev nD) (t : Fin cfg1.N) (h : ¬t.val % 16 = 0) :
    acc1 V c t = step1 (iblk1 V c 0 t) (iblk1 V c 1 t) (iblk1 V c 2 t) (iblk1 V c 3 t) (iblk1 V c 4 t) (iblk1 V c 5 t) (accN V c (t.val - 1)) := (accN_next V c _ h).trans (stepAt_lt V c t _)

/-! ## The branch conditions and the output window's idle points, decided over the grid -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)
theorem idleAt1_6 : ∀ t : Fin cfg1.N, ¬t.val % 16 = 15 → cfg1.idle 6 (grid1.coords t) = true :=
  (by decide +kernel : ∀ t : Fin grid1.N, ¬t.val % 16 = 15 → cfg1.idle 6 (grid1.coords t) = true)
theorem liveAt1_6 : ∀ t : Fin cfg1.N, t.val % 16 = 15 → cfg1.idle 6 (grid1.coords t) = false :=
  (by decide +kernel : ∀ t : Fin grid1.N, t.val % 16 = 15 → cfg1.idle 6 (grid1.coords t) = false)
theorem noFlush1_6 (t : Fin cfg1.N) (h : ¬t.val % 16 = 15) : (cfg1.win 6).flush t = false :=
  Bool.eq_false_iff.mpr fun hf => h ((flush1_6 t).mp hf)

/-! ## The invariant: the scratch accumulator between points -/

/-- The scratch accumulator, whole. -/
abbrev scM1 : Memref sig .tc .vmem S256x512 .f32 := Memref.whole cc1_scratch0

/-- The scratch before the point at position `n`: at what the point before left, or, where a run begins (and after
    the last point), at anything. -/
def scr1 (c : Dev nD) (n : ℕ) : sProp 𝕄 :=
  if n % 16 = 0 then iprop(∃ d, owns (c : Thread nD τ) scM1 fullShare d) else owns (c : Thread nD τ) scM1 fullShare (accN V c (n - 1))

/-- The invariant before position `n`: the other scoped buffers at anything, the scratch, the generator register. -/
def Phi1 (c : Dev nD) (n : ℕ) : sProp 𝕄 :=
  iprop(Pipeline.scopedRestBut (Ix := Unit) (Name := ℕ) (U := Pipeline.UD sig nD τ) (Lvl := ℕ) (Val := Elt F) spec1 c [cc1_scratch0]
    ∗ scr1 V c n ∗ (∃ r, prngReg c r))

theorem scr1_first (c : Dev nD) (n : ℕ) (h : n % 16 = 0) : scr1 V c n = iprop(∃ d, owns (c : Thread nD τ) scM1 fullShare d) := if_pos h
theorem scr1_next (c : Dev nD) (n : ℕ) (h : ¬n % 16 = 0) : scr1 V c n = owns (c : Thread nD τ) scM1 fullShare (accN V c (n - 1)) := if_neg h

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Phi1 V c t.val
  q := fun w => match w with
    | ⟨0, _⟩ => lh | ⟨1, _⟩ => rh | ⟨2, _⟩ => lh | ⟨3, _⟩ => lh | ⟨4, _⟩ => rh | ⟨5, _⟩ => rh | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem liveAt1_0 : ∀ t : Fin cfg1.N, cfg1.idle 0 (grid1.coords t) = false := fun _ => rfl
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [liveAt1_0 t], after1_0]
theorem liveAt1_1 : ∀ t : Fin cfg1.N, cfg1.idle 1 (grid1.coords t) = false := fun _ => rfl
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [liveAt1_1 t], after1_1]
theorem liveAt1_2 : ∀ t : Fin cfg1.N, cfg1.idle 2 (grid1.coords t) = false := fun _ => rfl
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [liveAt1_2 t], after1_2]
theorem liveAt1_3 : ∀ t : Fin cfg1.N, cfg1.idle 3 (grid1.coords t) = false := fun _ => rfl
theorem leaves1_3 (c : Dev nD) (t : Fin cfg1.N) :
    (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [liveAt1_3 t], after1_3]
theorem liveAt1_4 : ∀ t : Fin cfg1.N, cfg1.idle 4 (grid1.coords t) = false := fun _ => rfl
theorem leaves1_4 (c : Dev nD) (t : Fin cfg1.N) :
    (dat1 V c).leavesExact 4 t = owns (c : Thread nD τ) (st1_4 t) fullShare (iblk1 V c 4 t) := by
  rw [show (dat1 V c).leavesExact 4 t = owns (c : Thread nD τ) (st1_4 t) fullShare ((dat1 V c).after 4 t) from by
    unfold Dat.leavesExact; rw [liveAt1_4 t], after1_4]
theorem liveAt1_5 : ∀ t : Fin cfg1.N, cfg1.idle 5 (grid1.coords t) = false := fun _ => rfl
theorem leaves1_5 (c : Dev nD) (t : Fin cfg1.N) :
    (dat1 V c).leavesExact 5 t = owns (c : Thread nD τ) (st1_5 t) fullShare (iblk1 V c 5 t) := by
  rw [show (dat1 V c).leavesExact 5 t = owns (c : Thread nD τ) (st1_5 t) fullShare ((dat1 V c).after 5 t) from by
    unfold Dat.leavesExact; rw [liveAt1_5 t], after1_5]

theorem leaves1_6_idle (c : Dev nD) (t : Fin cfg1.N) (h : ¬t.val % 16 = 15) :
    (dat1 V c).leavesExact 6 t = iprop(∃ d, owns (c : Thread nD τ) (st1_6 t) fullShare ((dat1 V c).before 6 t d)) :=
  Dat.leavesExact_idle (dat1 V c) 6 t (idleAt1_6 t h) (noFlush1_6 t h)

theorem leaves1_6_live (c : Dev nD) (t : Fin cfg1.N) (h : t.val % 16 = 15) :
    (dat1 V c).leavesExact 6 t = owns (c : Thread nD τ) (st1_6 t) fullShare (out1_6 V c t) := by
  rw [show (dat1 V c).leavesExact 6 t = owns (c : Thread nD τ) (st1_6 t) fullShare ((dat1 V c).after 6 t) from by
    unfold Dat.leavesExact; rw [liveAt1_6 t h], after1_6]

set_option maxHeartbeats 4000000 in
/-- The body at any point. The inputs' buffers hold their blocks; the point's position in its run of sixteen selects the
    case; the invariant hands over the accumulator at what the point before left (at anything where a run begins) and takes
    it back at this point's value (forgotten after the last point of a run); the output buffer passes through untouched
    except at the last point of a run, where it receives the softmax; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [Phi1_succ, Phi1_castSucc, leaves1_0, leaves1_1, leaves1_2, leaves1_3, leaves1_4, leaves1_5]
  unfold Phi1
  have hN : t.val < 96 := lt_of_lt_of_eq t.isLt (show cfg1.N = 96 from N_1)
  by_cases h0 : t.val % 16 = 0
  · have h1 : ¬t.val % 16 = 15 := by omega
    rw [leaves1_6_idle V c t h1, scr1_first V c t.val h0, scr1_next V c (t.val + 1) (by omega), Nat.add_sub_cancel,
      accN_val_first V c t h0]
    iintro ⟨⟨HR, HSc, Hg⟩, Ho, ⟨%d0, H0⟩, ⟨%d1, H1⟩, ⟨%d2, H2⟩, ⟨%d3, H3⟩, ⟨%d4, H4⟩, ⟨%d5, H5⟩, ⟨%d6, H6⟩⟩
    iapply (run1_A c Set.univ (grid1.coords t) _ _ _ _ _ _ _ _ _ _ _ _ _ _ _ _ ((hcond1_0 t).mpr h0) (fun h => h1 ((hcond1_1 t).mp h))
      (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HSc]; · iexact HSc
    iintro ⟨H0, H1, H2, H3, H4, H5, H6, HSc⟩
    isplitl [HR HSc Hg]
    · isplitl [HR]; · iexact HR
      isplitl [HSc]; · iexact HSc
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val % 16 = 15
    · rw [leaves1_6_live V c t h1, scr1_next V c t.val h0, scr1_first V c (t.val + 1) (by omega)]
      unfold out1_6 acc1
      rw [accN_val_next V c t h0]
      iintro ⟨⟨HR, HSc, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (iblk1 V c 4 t) (iblk1 V c 5 t) (accN V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HSc]; · iexact HSc
      iintro ⟨H0, H1, H2, H3, H4, H5, H6, HSc⟩
      isplitl [HR HSc Hg]
      · isplitl [HR]; · iexact HR
        isplitl [HSc]; · iexists _; iexact HSc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves1_6_idle V c t h1, scr1_next V c t.val h0, scr1_next V c (t.val + 1) (by omega), Nat.add_sub_cancel,
        accN_val_next V c t h0]
      iintro ⟨⟨HR, HSc, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) (iblk1 V c 5 t) _ (accN V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HSc]; · iexact HSc
      iintro ⟨H0, H1, H2, H3, H4, H5, H6, HSc⟩
      isplitl [HR HSc Hg]
      · isplitl [HR]; · iexact HR
        isplitl [HSc]; · iexact HSc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- The scoped rest is the scratch accumulator at anything beside the other scoped buffers. -/
theorem rest1_split (c : Dev nD) :
    (Pipeline.scopedRest (Ix := Unit) (Name := ℕ) (U := Pipeline.UD sig nD τ) (Lvl := ℕ) (Val := Elt F) spec1 c : sProp 𝕄)
      = iprop((∃ d, owns (c : Thread nD τ) scM1 fullShare d)
          ∗ Pipeline.scopedRestBut (Ix := Unit) (Name := ℕ) (U := Pipeline.UD sig nD τ) (Lvl := ℕ) (Val := Elt F) spec1 c [cc1_scratch0]) := by
  rw [Pipeline.scopedRest_split_of_list spec1 c [cc1_scratch0] (by decide) (by decide)]
  simp only [BI.bigSepL_singleton, scM1, owns_whole]; try rfl

/-- Before the first point the accumulator is at anything: what the region is entered with is the invariant. -/
theorem hin1 (c : Dev nD) : iprop((∃ r, prngReg c r) ∗ Pipeline.scopedRest (Ix := Unit) (Name := ℕ) (U := Pipeline.UD sig nD τ) (Lvl := ℕ) (Val := Elt F) spec1 c)
    ⊢ ((dat1 V c).Φ 0 : sProp 𝕄) := by
  rw [show (dat1 V c).Φ 0 = Phi1 V c 0 from rfl]; unfold Phi1
  rw [scr1_first V c 0 rfl, rest1_split]
  iintro ⟨Hg, HS, HR⟩
  isplitl [HR]; · iexact HR
  isplitl [HS]; · iexact HS
  iexact Hg

/-- After the last point (which ends a run) the accumulator is at anything again: the invariant gives the scoped rest back. -/
theorem hout1 (c : Dev nD) : ((dat1 V c).Φ (Fin.last cfg1.N) : sProp 𝕄)
    ⊢ iprop((∃ r, prngReg c r) ∗ Pipeline.scopedRest (Ix := Unit) (Name := ℕ) (U := Pipeline.UD sig nD τ) (Lvl := ℕ) (Val := Elt F) spec1 c) := by
  rw [show (dat1 V c).Φ (Fin.last cfg1.N) = Phi1 V c (Fin.last cfg1.N).val from rfl]; unfold Phi1
  rw [scr1_first V c _ (by rw [Fin.val_last]; have : cfg1.N = 96 := N_1; omega), rest1_split]
  iintro ⟨HR, HS, Hg⟩
  isplitl [Hg]; · iexact Hg
  isplitl [HS]; · iexact HS
  iexact HR

end Cert.Kernel.Hand
end
-- ==== Proof.K.Reg2.lean ====
import proofs.«100284_j64536178590158_2_alg».proof.Proof.Gen.Kernel.Launch
import proofs.«100284_j64536178590158_2_alg».proof.Proof.Gen.Kernel.Skeleton
import proofs.«100284_j64536178590158_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third launch: the value projection, normalised and rectified, times the attention matrix

One grid point handles one attention `i` and one batch tile `bi`: it reads the value projection's
tile, the channel scale and shift of that projection, and the attention matrix of `i`, and stores
`relu (v * scale + shift) · attnᵀ` in its own tile of the output. Nothing is carried from one point
to the next, so what each output tile holds after the point is a function of the four input blocks
alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched at
    that point or is still there from an earlier one (the block index has not moved since). -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store -/

/-- The whole of a tile of each of the three tile shapes: what each load reads and the store writes. -/
abbrev r2_0 : Rect S1x2048x512 := Rect.unit (s := S1x2048x512) ![0, 0, 0] S1x2048x512.size inb_S1x2048x512_S1x2048x512_0_0_0
abbrev r2_1 : Rect S1x1x512 := Rect.unit (s := S1x1x512) ![0, 0, 0] S1x1x512.size inb_S1x1x512_S1x1x512_0_0_0
abbrev r2_3 : Rect S1x512x512 := Rect.unit (s := S1x512x512) ![0, 0, 0] S1x512x512.size inb_S1x512x512_S1x512x512_0_0_0

/-- What the body leaves in the output tile, from the four input blocks: its one store, of the whole tile. -/
def out2_4 (x0 : Vec F S1x2048x512 .bf16) (x1 x2 : Vec F S1x1x512 .f32) (x3 : Vec F S1x512x512 .bf16) : Vec F S1x2048x512 .f32 :=
  View.canon [⟨r2_0, k2_pay1 (View.ld x0 r2_0) (View.ld x1 r2_1) (View.ld x2 r2_1) (View.ld x3 r2_3)⟩]

/-- The store covers the tile. -/
theorem cover2_4 (p0 : Vec F S1x2048x512 .f32) (y : S1x2048x512.Idx) :
    ∃ pc ∈ ([⟨r2_0, p0⟩] : List (View.Piece (Elt F) S1x2048x512 .f32)), y ∈ pc.1.set :=
  View.cover_of_tiled [⟨r2_0, p0⟩] S1x2048x512.size (by rfl) y

/-! ## The body's triple -/

set_option maxHeartbeats 1000000 in
/-- The body on whole staging memrefs, the inputs' at contents `x0 … x3` and the output's at anything, runs to
    the continuation holding the inputs' as they were and the output's at `out2_4` of them. -/
theorem sound_kernel2 (c : Dev nD) (E : Set ℕ) (i : grid2.Coords)
    (arg2 : Memref sig .tc .vmem S1x2048x512 .bf16) (harg2 : arg2.IsWhole)
    (arg3 : Memref sig .tc .vmem S1x1x512 .f32) (harg3 : arg3.IsWhole)
    (arg4 : Memref sig .tc .vmem S1x1x512 .f32) (harg4 : arg4.IsWhole)
    (arg5 : Memref sig .tc .vmem S1x512x512 .bf16) (harg5 : arg5.IsWhole)
    (arg6 : Memref sig .tc .vmem S1x2048x512 .f32) (harg6 : arg6.IsWhole)
    (x0 : Vec F S1x2048x512 .bf16) (x1 x2 : Vec F S1x1x512 .f32) (x3 : Vec F S1x512x512 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out2_4 x0 x1 x2 x3)) -∗ K ⟨⟩))
      ⊢ wp frame (wpE (defs₀ (F := F)) Variants.none c none) E (cc2__out_kernel i arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The launch's proof data -/

/-- The proof data of the launch on core `c`: the arrays as it finds them; after the body at point `t` each
    input's buffer at its block and the output's at `out2_4` of the input blocks; nothing carried between points,
    nothing owed, full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Run.lean ====
/-
  The kernel's @main from launch to return: three host stretches and three kernel regions, with the
  contents of every unscoped buffer named at each boundary.

  W0 is the launch memory; W1 applies the first host stretch (the table of input choices, the three inputs stacked
  and the weights re-typed, the bias reshaped); W2 replaces region 0's arrays by what its write-backs leave (the nine
  projections and their column sums and sums of squares); W3 applies the second stretch (mean, variance, inverse root,
  the folded scale and shift); W4 puts the attention matrices region 1 leaves; W5 the outputs region 2 leaves; W6
  applies the last stretch (the three results sliced out). Every weakly fair execution terminates with each unscoped
  buffer at W6; no stretch and no region writes an argument.
-/
import proofs.«100284_j64536178590158_2_alg».proof.Proof.K.Reg0
import proofs.«100284_j64536178590158_2_alg».proof.Proof.K.Reg0Tbl
import proofs.«100284_j64536178590158_2_alg».proof.Proof.K.Reg1
import proofs.«100284_j64536178590158_2_alg».proof.Proof.K.Reg2
import proofs.«100284_j64536178590158_2_alg».proof.Proof.Gen.Kernel.Regions
import Idealize.ShloMosaic.Lib.Pipeline.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
def W1 (c : Dev nD) : Valuation τ sig (Elt F) := StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (F := F) adm0 (V1 m) c).arrAt w (cfg0 (F := F) adm0).N
abbrev V2 : (c : Dev nD) → (b : Ref sig .tc) → Buf (Elt F) ((c : Thread nD τ).loc b) := fun c b => W2 m c b
theorem W2_arr (c : Dev nD) (w : Fin 6) :
    W2 m c (Proc.devRef .tc (Pipeline.arrRef spec0 w)) = (dat0 (F := F) adm0 (V1 m) c).arrAt w (cfg0 (F := F) adm0).N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

def W3 (c : Dev nD) : Valuation τ sig (Elt F) := StableHlo.after hostOps1 (W2 m c)
abbrev V3 : (c : Dev nD) → (b : Ref sig .tc) → Buf (Elt F) ((c : Thread nD τ).loc b) := fun c b => W3 m c b

/-- Region 1 changes one buffer, the attention matrices. -/
def W4 (c : Dev nD) : Valuation τ sig (Elt F) :=
  Function.update (W3 m c) (Proc.devRef .tc main_v22) ((dat1 (V3 m) c).arrAt 6 cfg1.N)
abbrev V4 : (c : Dev nD) → (b : Ref sig .tc) → Buf (Elt F) ((c : Thread nD τ).loc b) := fun c b => W4 m c b

def W5 (c : Dev nD) : Valuation τ sig (Elt F) :=
  Pipeline.withArrays spec2 c (W4 m c) fun w => (dat2 (V4 m) c).arrAt w cfg2.N
abbrev V5 : (c : Dev nD) → (b : Ref sig .tc) → Buf (Elt F) ((c : Thread nD τ).loc b) := fun c b => W5 m c b
theorem W5_arr (c : Dev nD) (w : Fin 5) :
    W5 m c (Proc.devRef .tc (Pipeline.arrRef spec2 w)) = (dat2 (V4 m) c).arrAt w cfg2.N := by
  unfold W5; exact Pipeline.withArrays_arr spec2 winFacts2.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

def W6 (c : Dev nD) : Valuation τ sig (Elt F) := StableHlo.after hostOps3 (W5 m c)

/-! ## No host stretch and no region writes an argument -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v22) : W4 m c r = W3 m c r := by
  unfold W4; exact Function.update_of_ne (StableHlo.devRef_ne_of_ne h) ..
theorem W4_v22 (c : Dev nD) : W4 m c main_v22 = (dat1 (V3 m) c).arrAt 6 cfg1.N := by
  unfold W4; exact Function.update_self ..
theorem W6_of (c : Dev nD) (r : Ref sig .tc) (h : r ∉ hostOps3_W) : W6 m c r = W5 m c r :=
  StableHlo.after_of_writes_sub hostOps3 _ hostOps3_writes h

/-- A buffer no stretch writes and no region has among its arrays ends as launched. -/
theorem W6_launch (c : Dev nD) (r : Ref sig .tc) (h0 : r ∉ hostOps0_W) (h1 : r ∉ hostOps1_W) (h3 : r ∉ hostOps3_W)
    (ha0 : ∀ w, Pipeline.arrRef spec0 w ≠ r) (h22 : r ≠ main_v22) (ha2 : ∀ w, Pipeline.arrRef spec2 w ≠ r) :
    W6 m c r = m ((c : Thread nD τ).loc r) :=
  (W6_of m c r h3).trans <| (W5_of_ne m c r ha2).trans <| (W4_of m c r h22).trans <| (W3_of m c r h1).trans <|
    (W2_of_ne m c r ha0).trans <| (W1_of m c r h0).trans rfl

/-! ## The tables' contents, the proof data family, the thread state -/

/-- Region 0 is pinned at the table the first stretch writes; the other two pipelines prefetch nothing. -/
def adm : (p : Fin 3) → (pcfgs (F := F) p).Adm
  | ⟨0, _⟩ => adm0
  | ⟨1, _⟩ => cfg1.toPCfg_adm
  | ⟨2, _⟩ => cfg2.toPCfg_adm
  | ⟨_ + 3, h⟩ => absurd h (Nat.not_lt.2 (Nat.le_add_left _ _))

/-- Every pipeline's proof data at its region's entry contents. -/
def pdats : (p : Fin 3) → (c : Dev nD) → Dat τ (Elt F) Unit ℕ (Pipeline.UD sig nD τ) ℕ (Pipeline.pin (pcfgs (F := F)) adm p) c
  | ⟨0, _⟩ => fun c => dat0 adm0 (V1 m) c
  | ⟨1, _⟩ => fun c => dat1 (V3 m) c
  | ⟨2, _⟩ => fun c => dat2 (V4 m) c
  | ⟨_ + 3, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m c) ∗ ∃ r, prngReg c r)

/-- The table as the launch reads it off the first stretch's contents is the pinned one. -/
theorem tbl_V1 (c : Dev nD) : (fun k => V1 m c (pre0.ref k)) = (adm0 (F := F)).1 :=
  tbl_of_V (V1 m) c (by dsimp only [V1, W1, hostOps0]; after_results; rfl)

/-! ## The regions as segments -/

theorem hF0 (c : Dev nD) (w : Fin 6) : (dat0 (F := F) adm0 (V1 m) c).arrAt w (cfg0 (F := F) adm0).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin 5) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

set_option backward.isDefEq.respectTransparency.types false in
/-- REGION 2: entered from every unscoped buffer at W4, left at W5. -/
def reg2 : Pipeline.RegionSeg (pcfgs (F := F)) adm (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (F := F) (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m c)
  hentry c := by
    rw [Pipeline.ownSems0_none]
    have hsplit := Pipeline.arrays_of_unscopedBufs (p := 2) (pcfgs (F := F)) adm (pdats m) (launch2 (F := F)).win (launch2 (F := F)).arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      (launch2 (F := F)).win (launch2 (F := F)).arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 0: entered from every unscoped buffer at W1, left at W2. The table is split out of the unscoped rest, held
    by the pipeline at the pinned contents, and put back. -/
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (F := F) adm0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld (Ix := Unit) (Name := ℕ) (U := Pipeline.UD sig nD τ) (Lvl := ℕ) pre0 c (fun _ => fullShare) (adm0 (F := F)).1)
  Z c := Pipeline.unscopedRestP (Ix := Unit) (Name := ℕ) (U := Pipeline.UD sig nD τ) (Lvl := ℕ) pre0 spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (V1 m c) fun _ => rfl
    rw [Pipeline.unscopedBufs_held] at hsplit
    have hsplit' : StableHlo.held (c : Thread nD τ) (Pipeline.ucRefs τ sig) (W1 m c)
        ⊢ (iprop((pdats m 0 c).arrays ((pdats m 0 c).arrAt · 0) ∗ Pipeline.unscopedRest (Ix := Unit) (Name := ℕ) (U := Pipeline.UD sig nD τ) (Lvl := ℕ) spec0 c (V1 m c)) : sProp 𝕄) := hsplit
    rw [Pipeline.unscopedRest_split preFacts0 c (V1 m c), tbl_V1 m c] at hsplit'
    iintro ⟨⟨Hub, Hp, HO⟩, -, -⟩
    ihave H := hsplit' $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (F := F) adm0 (V1 m) c
  hout c := by
    rw [Pipeline.ownSems0_none]
    refine (hout0 (F := F) adm0 (V1 m) c).trans ?_
    iintro ⟨HY, Hr⟩
    isplitl [HY]; · iexact HY
    isplitr; · iempintro
    iexact Hr
  hexit c := by
    have hjoin := Pipeline.unscopedBufs_of_arrays (p := 0) (pcfgs (F := F)) adm (Ix := Unit) (Name := ℕ) (U := Pipeline.UD sig nD τ) (Lvl := ℕ)
      (launch0 (F := F)).win (launch0 (F := F)).arr_whole c (pdats m) ((pdats m 0 c).share_full fun _ => rfl)
      (V1 m c) (V2 m c) ((pdats m 0 c).arrAt · (cfg0 (F := F) adm0).N) (hF0 m c) (hrest0 m c)
    rw [Pipeline.unscopedBufs_held] at hjoin
    have hjoin' : (iprop((pdats m 0 c).arrays ((pdats m 0 c).arrAt · (cfg0 (F := F) adm0).N) ∗ Pipeline.unscopedRest (Ix := Unit) (Name := ℕ) (U := Pipeline.UD sig nD τ) (Lvl := ℕ) spec0 c (V1 m c)) : sProp 𝕄)
        ⊢ StableHlo.held (c : Thread nD τ) (Pipeline.ucRefs τ sig) (W2 m c) := hjoin
    rw [Pipeline.unscopedRest_split preFacts0 c (V1 m c), tbl_V1 m c] at hjoin'
    iintro ⟨Ha, HO, ⟨HY, Hpf⟩, Hrest⟩
    imodintro
    isplitl [Ha Hpf Hrest]
    · iapply hjoin'
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## Region 1: three arrays are each read through two windows, so each is dealt in halves -/

theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The four buffers behind region 1's seven windows, listed. -/
theorem arrBufs1_eq (c : Dev nD) (V : (b : Ref sig .tc) → Buf (Elt F) ((c : Thread nD τ).loc b)) :
    (Pipeline.arrBufs spec1 c V : sProp 𝕄)
      = iprop((((c : Thread nD τ).loc main_v7_0) ↦{fullShare} V main_v7_0) ∗ (((c : Thread nD τ).loc main_v19) ↦{fullShare} V main_v19)
          ∗ (((c : Thread nD τ).loc main_v21) ↦{fullShare} V main_v21) ∗ (((c : Thread nD τ).loc main_v22) ↦{fullShare} V main_v22)) := by
  unfold Pipeline.arrBufs
  rw [BI.bigSep_eq_bigSepL_of_eq [main_v7_0, main_v19, main_v21, main_v22] (by decide) (by decide)]; rfl

/-- Region 1's arrays, window by window: the projections through windows 0 and 1, the scale through 2 and 4, the shift
    through 3 and 5, each pair at the two halves; the attention matrices through window 6 at the full share. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 (F := F) V c).arrays Fa : sProp 𝕄)
      = iprop((((c : Thread nD τ).loc main_v7_0) ↦{lh} Fa 0) ∗ (((c : Thread nD τ).loc main_v7_0) ↦{rh} Fa 1)
          ∗ (((c : Thread nD τ).loc main_v19) ↦{lh} Fa 2) ∗ (((c : Thread nD τ).loc main_v21) ↦{lh} Fa 3)
          ∗ (((c : Thread nD τ).loc main_v19) ↦{rh} Fa 4) ∗ (((c : Thread nD τ).loc main_v21) ↦{rh} Fa 5)
          ∗ (((c : Thread nD τ).loc main_v22) ↦{fullShare} Fa 6)) := by
  unfold Pipeline.Dat.arrays
  rw [bigSep_W1]
  rw [(arr_whole1 0).set_eq_univ, (arr_whole1 2).set_eq_univ, (arr_whole1 3).set_eq_univ, (arr_whole1 6).set_eq_univ]
  rfl

/-- Region 1 leaves every buffer but the attention matrices as it found it. -/
theorem rest1_eq (c : Dev nD) : (Pipeline.unscopedRest (Ix := Unit) (Name := ℕ) (U := Pipeline.UD sig nD τ) (Lvl := ℕ) spec1 c (V4 m c) : sProp 𝕄)
    = Pipeline.unscopedRest spec1 c (V3 m c) := by
  unfold Pipeline.unscopedRest
  refine bigSep_congr fun b hb => ?_
  have hne : b ≠ main_v22 := fun e => (Finset.mem_sdiff.mp hb).2 (e ▸ Finset.mem_image.mpr ⟨6, Finset.mem_univ _, rfl⟩)
  rw [show V4 m c b = V3 m c b from W4_of m c b hne]

theorem held3_eq (c : Dev nD) : (StableHlo.held (c : Thread nD τ) (Pipeline.ucRefs τ sig) (W3 m c) : sProp 𝕄)
    = iprop(((((c : Thread nD τ).loc main_v7_0) ↦{fullShare} V3 m c main_v7_0) ∗ (((c : Thread nD τ).loc main_v19) ↦{fullShare} V3 m c main_v19)
          ∗ (((c : Thread nD τ).loc main_v21) ↦{fullShare} V3 m c main_v21) ∗ (((c : Thread nD τ).loc main_v22) ↦{fullShare} V3 m c main_v22))
        ∗ Pipeline.unscopedRest spec1 c (V3 m c)) := by
  rw [← Pipeline.unscopedBufs_held c (W3 m c)]
  exact (split1 c (V3 m c)).trans (by rw [arrBufs1_eq])

theorem held4_eq (c : Dev nD) : (StableHlo.held (c : Thread nD τ) (Pipeline.ucRefs τ sig) (W4 m c) : sProp 𝕄)
    = iprop(((((c : Thread nD τ).loc main_v7_0) ↦{fullShare} V3 m c main_v7_0) ∗ (((c : Thread nD τ).loc main_v19) ↦{fullShare} V3 m c main_v19)
          ∗ (((c : Thread nD τ).loc main_v21) ↦{fullShare} V3 m c main_v21) ∗ (((c : Thread nD τ).loc main_v22) ↦{fullShare} (dat1 (F := F) (V3 m) c).arrAt 6 cfg1.N))
        ∗ Pipeline.unscopedRest spec1 c (V3 m c)) := by
  rw [← Pipeline.unscopedBufs_held c (W4 m c)]
  refine (split1 c (V4 m c)).trans ?_
  rw [arrBufs1_eq, rest1_eq,
    show V4 m c main_v7_0 = V3 m c main_v7_0 from W4_of m c main_v7_0 (by decide),
    show V4 m c main_v19 = V3 m c main_v19 from W4_of m c main_v19 (by decide),
    show V4 m c main_v21 = V3 m c main_v21 from W4_of m c main_v21 (by decide),
    show V4 m c main_v22 = (dat1 (F := F) (V3 m) c).arrAt 6 cfg1.N from W4_v22 m c]

/-- Region 1's arrays when it is entered: the buffers' contents at W3, dealt. -/
theorem arrays1_entry (c : Dev nD) :
    ((dat1 (F := F) (V3 m) c).arrays (fun w => (dat1 (F := F) (V3 m) c).arrAt w 0) : sProp 𝕄)
      = iprop((((c : Thread nD τ).loc main_v7_0) ↦{lh} V3 m c main_v7_0) ∗ (((c : Thread nD τ).loc main_v7_0) ↦{rh} V3 m c main_v7_0)
          ∗ (((c : Thread nD τ).loc main_v19) ↦{lh} V3 m c main_v19) ∗ (((c : Thread nD τ).loc main_v21) ↦{lh} V3 m c main_v21)
          ∗ (((c : Thread nD τ).loc main_v19) ↦{rh} V3 m c main_v19) ∗ (((c : Thread nD τ).loc main_v21) ↦{rh} V3 m c main_v21)
          ∗ (((c : Thread nD τ).loc main_v22) ↦{fullShare} V3 m c main_v22)) :=
  arrays1_eq (V3 m) c _

/-- Region 1's arrays when it is left: the six input windows' as entered, the attention matrices as written back. -/
theorem arrays1_exit (c : Dev nD) :
    ((dat1 (F := F) (V3 m) c).arrays (fun w => (dat1 (F := F) (V3 m) c).arrAt w cfg1.N) : sProp 𝕄)
      = iprop((((c : Thread nD τ).loc main_v7_0) ↦{lh} V3 m c main_v7_0) ∗ (((c : Thread nD τ).loc main_v7_0) ↦{rh} V3 m c main_v7_0)
          ∗ (((c : Thread nD τ).loc main_v19) ↦{lh} V3 m c main_v19) ∗ (((c : Thread nD τ).loc main_v21) ↦{lh} V3 m c main_v21)
          ∗ (((c : Thread nD τ).loc main_v19) ↦{rh} V3 m c main_v19) ∗ (((c : Thread nD τ).loc main_v21) ↦{rh} V3 m c main_v21)
          ∗ (((c : Thread nD τ).loc main_v22) ↦{fullShare} (dat1 (F := F) (V3 m) c).arrAt 6 cfg1.N)) := by
  rw [arrays1_eq (V3 m) c _,
    show (dat1 (F := F) (V3 m) c).arrAt 0 cfg1.N = V3 m c main_v7_0 from (dat1 (F := F) (V3 m) c).arrAt_in 0 rfl _,
    show (dat1 (F := F) (V3 m) c).arrAt 1 cfg1.N = V3 m c main_v7_0 from (dat1 (F := F) (V3 m) c).arrAt_in 1 rfl _,
    show (dat1 (F := F) (V3 m) c).arrAt 2 cfg1.N = V3 m c main_v19 from (dat1 (F := F) (V3 m) c).arrAt_in 2 rfl _,
    show (dat1 (F := F) (V3 m) c).arrAt 3 cfg1.N = V3 m c main_v21 from (dat1 (F := F) (V3 m) c).arrAt_in 3 rfl _,
    show (dat1 (F := F) (V3 m) c).arrAt 4 cfg1.N = V3 m c main_v19 from (dat1 (F := F) (V3 m) c).arrAt_in 4 rfl _,
    show (dat1 (F := F) (V3 m) c).arrAt 5 cfg1.N = V3 m c main_v21 from (dat1 (F := F) (V3 m) c).arrAt_in 5 rfl _]

set_option maxHeartbeats 1000000 in
set_option backward.isDefEq.respectTransparency.types false in
/-- REGION 1: entered from every unscoped buffer at W3, left at W4. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (F := F) (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none, held3_eq,
      show ((pdats m 1 c).arrays fun w => (pdats m 1 c).arrAt w 0) = _ from arrays1_entry m c]
    iintro ⟨⟨⟨⟨H0, H19, H21, H22⟩, Hrest⟩, Hp, HO⟩, -, -⟩
    ihave Ha := (pointsTo_share (PosShare.mem_left_op_right fullShare)).1 $$ H0
    icases Ha with ⟨H0l, H0r⟩
    ihave Hb := (pointsTo_share (PosShare.mem_left_op_right fullShare)).1 $$ H19
    icases Hb with ⟨H19l, H19r⟩
    ihave Hc := (pointsTo_share (PosShare.mem_left_op_right fullShare)).1 $$ H21
    icases Hc with ⟨H21l, H21r⟩
    imodintro
    isplitl [H0l H0r H19l H19r H21l H21r H22]
    · isplitl [H0l]; · iexact H0l
      isplitl [H0r]; · iexact H0r
      isplitl [H19l]; · iexact H19l
      isplitl [H21l]; · iexact H21l
      isplitl [H19r]; · iexact H19r
      isplitl [H21r]; · iexact H21r
      iexact H22
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (F := F) (V3 m) c)
    iintro ⟨Hp, -, Hr⟩
    isplitl [Hp]; · iexact Hp
    iexact Hr
  hout c := by
    rw [Pipeline.ownSems0_none]
    refine (hout1 (F := F) (V3 m) c).trans ?_
    iintro ⟨HY, Hr⟩
    isplitl [HY]; · iexact HY
    isplitr; · iempintro
    iexact Hr
  hexit c := by
    rw [held4_eq, show ((pdats m 1 c).arrays fun w => (pdats m 1 c).arrAt w (Pipeline.pin (pcfgs (F := F)) adm 1).N) = _ from arrays1_exit m c]
    iintro ⟨⟨H0l, H0r, H19l, H21l, H19r, H21r, H22⟩, HO, HY, Hrest⟩
    ihave H0 := (pointsTo_share (PosShare.mem_left_op_right fullShare)).2 $$ [H0l H0r]
    · isplitl [H0l]; · iexact H0l
      iexact H0r
    ihave H19 := (pointsTo_share (PosShare.mem_left_op_right fullShare)).2 $$ [H19l H19r]
    · isplitl [H19l]; · iexact H19l
      iexact H19r
    ihave H21 := (pointsTo_share (PosShare.mem_left_op_right fullShare)).2 $$ [H21l H21r]
    · isplitl [H21l]; · iexact H21l
      iexact H21r
    imodintro
    isplitl [H0 H19 H21 H22 Hrest]
    · isplitl [H0 H19 H21 H22]
      · isplitl [H0]; · iexact H0
        isplitl [H19]; · iexact H19
        isplitl [H21]; · iexact H21
        iexact H22
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer of every core at the last boundary's contents W6. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () (cellOf_inj adm) embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) adm) (cellOf_inj adm)) (Pipeline.launchToks (Pipeline.pin (pcfgs (F := F)) adm) (cellOf_inj adm)), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the run says of the arguments and of the three results -/

theorem W6_arg0 (c : Dev nD) : W6 m c main_arg0 = m ((c : Thread nD τ).loc main_arg0) := W6_launch m c main_arg0 (by decide) (by decide) (by decide) (by decide) (by decide) (by decide)
theorem W6_arg1 (c : Dev nD) : W6 m c main_arg1 = m ((c : Thread nD τ).loc main_arg1) := W6_launch m c main_arg1 (by decide) (by decide) (by decide) (by decide) (by decide) (by decide)
theorem W6_arg2 (c : Dev nD) : W6 m c main_arg2 = m ((c : Thread nD τ).loc main_arg2) := W6_launch m c main_arg2 (by decide) (by decide) (by decide) (by decide) (by decide) (by decide)
theorem W6_arg3 (c : Dev nD) : W6 m c main_arg3 = m ((c : Thread nD τ).loc main_arg3) := W6_launch m c main_arg3 (by decide) (by decide) (by decide) (by decide) (by decide) (by decide)
theorem W6_arg4 (c : Dev nD) : W6 m c main_arg4 = m ((c : Thread nD τ).loc main_arg4) := W6_launch m c main_arg4 (by decide) (by decide) (by decide) (by decide) (by decide) (by decide)
theorem W6_arg5 (c : Dev nD) : W6 m c main_arg5 = m ((c : Thread nD τ).loc main_arg5) := W6_launch m c main_arg5 (by decide) (by decide) (by decide) (by decide) (by decide) (by decide)
theorem W6_arg6 (c : Dev nD) : W6 m c main_arg6 = m ((c : Thread nD τ).loc main_arg6) := W6_launch m c main_arg6 (by decide) (by decide) (by decide) (by decide) (by decide) (by decide)

/-- The run with the three results named and the seven arguments as launched. -/
theorem run_results : θ_run defs (onTc (τ := τ) (main (F := F))) ⟨m, fun _ => 0, ρ⟩ (fun r => ∀ c : Dev nD,
      r.2.mem ((c.tc : Thread nD τ).loc main_v25) = W6 m c main_v25
      ∧ r.2.mem ((c.tc : Thread nD τ).loc main_v27) = W6 m c main_v27
      ∧ r.2.mem ((c.tc : Thread nD τ).loc main_v29) = W6 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v25 (by decide)), h c _ (mem_uc main_v27 (by decide)), h c _ (mem_uc main_v29 (by decide)),
      (h c _ (mem_uc main_arg0 (by decide))).trans (W6_arg0 m c), (h c _ (mem_uc main_arg1 (by decide))).trans (W6_arg1 m c),
      (h c _ (mem_uc main_arg2 (by decide))).trans (W6_arg2 m c), (h c _ (mem_uc main_arg3 (by decide))).trans (W6_arg3 m c),
      (h c _ (mem_uc main_arg4 (by decide))).trans (W6_arg4 m c), (h c _ (mem_uc main_arg5 (by decide))).trans (W6_arg5 m c),
      (h c _ (mem_uc main_arg6 (by decide))).trans (W6_arg6 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2.2) (run_results m ρ)

end Cert.Kernel.Hand

end
-- ==== Proof.KI.Reg0Sched.lean ====
import proofs.«100284_j64536178590158_2_alg».proof.Proof.Gen.KernelIdeal.Launch
import proofs.«100284_j64536178590158_2_alg».proof.Proof.Gen.KernelIdeal.Skeleton
import proofs.«100284_j64536178590158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projections-and-statistics region: its schedule, at any admissible contents of the index table

The grid is 9 × 32: point `t = 32·j + bi`. The two statistics blocks (windows 4 and 5) have block index `(j, 0, 0)`,
which moves only when `j` does: they are written back after the points with `bi = 31` and kept in between. The body
resets them when `bi = 0`. None of this reads the table; only window 0's block index does. -/

variable (a0 : (pcfg0 (F := F)).Adm)

/-- The statistics windows are written back exactly after the last row tile of a projection. -/
theorem flush0_4 : ∀ t : Fin (cfg0 a0).N, ((cfg0 a0).win 4).flush t = true ↔ t.val % 32 = 31 :=
  (by decide +kernel : ∀ t : Fin grid0.N, Pipeline.Window.flushOf grid0 true cc0_transform_4 t = true ↔ t.val % 32 = 31)
theorem flush0_5 : ∀ t : Fin (cfg0 a0).N, ((cfg0 a0).win 5).flush t = true ↔ t.val % 32 = 31 :=
  (by decide +kernel : ∀ t : Fin grid0.N, Pipeline.Window.flushOf grid0 true cc0_transform_5 t = true ↔ t.val % 32 = 31)

/-- The body's reset condition, from the grid coordinates: the row-tile coordinate is zero. -/
abbrev isFirst (i : grid0.Coords) : Prop :=
  (Scalar.cmpi .ne (Scalar.extui (Scalar.cmpi .eq (BitVec.ofNat 32 (i 1).val) 0#32)) 0#32) = 1#1
/-- It holds at the points `t ≡ 0 (mod 32)`. -/
theorem isFirst_iff : ∀ t : Fin (cfg0 a0).N, isFirst (grid0.coords t) ↔ t.val % 32 = 0 :=
  (by decide +kernel : ∀ t : Fin grid0.N, isFirst (grid0.coords t) ↔ t.val % 32 = 0)

/-- Each window's current staging memref at point `t`, as the pipeline passes it to the body, and its wholeness. -/
abbrev ms0_0 (t : Fin (cfg0 a0).N) : Memref sig .tc .vmem S1x1024x1024 .bf16 := spec0_0.stage ((cfg0 a0).slots t 0)
abbrev hs0_0 (t : Fin (cfg0 a0).N) : (ms0_0 a0 t).IsWhole := hstage0_0 (((cfg0 a0).slots t 0).cast nbuf0_0)
abbrev ms0_1 (t : Fin (cfg0 a0).N) : Memref sig .tc .vmem S1x512x1024 .bf16 := spec0_1.stage ((cfg0 a0).slots t 1)
abbrev hs0_1 (t : Fin (cfg0 a0).N) : (ms0_1 a0 t).IsWhole := hstage0_1 (((cfg0 a0).slots t 1).cast nbuf0_1)
abbrev ms0_2 (t : Fin (cfg0 a0).N) : Memref sig .tc .vmem S1x1x512 .f32 := spec0_2.stage ((cfg0 a0).slots t 2)
abbrev hs0_2 (t : Fin (cfg0 a0).N) : (ms0_2 a0 t).IsWhole := hstage0_2 (((cfg0 a0).slots t 2).cast nbuf0_2)
abbrev ms0_3 (t : Fin (cfg0 a0).N) : Memref sig .tc .vmem S1x1024x512 .bf16 := spec0_3.stage ((cfg0 a0).slots t 3)
abbrev hs0_3 (t : Fin (cfg0 a0).N) : (ms0_3 a0 t).IsWhole := hstage0_3 (((cfg0 a0).slots t 3).cast nbuf0_3)
abbrev ms0_4 (t : Fin (cfg0 a0).N) : Memref sig .tc .vmem S1x1x512 .f32 := spec0_4.stage ((cfg0 a0).slots t 4)
abbrev hs0_4 (t : Fin (cfg0 a0).N) : (ms0_4 a0 t).IsWhole := hstage0_4 (((cfg0 a0).slots t 4).cast nbuf0_4)
abbrev ms0_5 (t : Fin (cfg0 a0).N) : Memref sig .tc .vmem S1x1x512 .f32 := spec0_5.stage ((cfg0 a0).slots t 5)
abbrev hs0_5 (t : Fin (cfg0 a0).N) : (ms0_5 a0 t).IsWhole := hstage0_5 (((cfg0 a0).slots t 5).cast nbuf0_5)

/-- The kernel body at point `t`, on what the pipeline calls it with. -/
abbrev bodyAt0 (t : Fin (cfg0 a0).N) : Prog (TpuEff nD τ sig (Elt F) Λ₀ .tc) PUnit :=
  cc0__linear_stats_kernel (grid0.coords t) (Memref.whole main_c) (Memref.isWhole_whole _)
    (ms0_0 a0 t) (hs0_0 a0 t) (ms0_1 a0 t) (hs0_1 a0 t) (ms0_2 a0 t) (hs0_2 a0 t)
    (ms0_3 a0 t) (hs0_3 a0 t) (ms0_4 a0 t) (hs0_4 a0 t) (ms0_5 a0 t) (hs0_5 a0 t)

/-- One staging buffer of each output window, through which its contents are stated. -/
abbrev VO0_3 : View sig .tc .vmem S1x1024x512 .bf16 := (Memref.whole cc0_stg3_0 : Memref sig .tc .vmem S1x1024x512 .bf16).view
abbrev VO0_4 : View sig .tc .vmem S1x1x512 .f32 := (Memref.whole cc0_stg4_0 : Memref sig .tc .vmem S1x1x512 .f32).view
abbrev VO0_5 : View sig .tc .vmem S1x1x512 .f32 := (Memref.whole cc0_stg5_0 : Memref sig .tc .vmem S1x1x512 .f32).view

/-! ## The windows' blocks, read off the arrays as the region finds them -/

variable (V : (c : Dev nD) → (b : Ref sig .tc) → Buf (Elt F) ((c : Thread nD τ).loc b))

/-- Window `w`'s block at point `t`, read off its array at the region-entry contents `V` (window 0's block index is the
    table's word at `j`). -/
def iblk0 (c : Dev nD) (w : Fin (cfg0 a0).W) (t : Fin (cfg0 a0).N) :
    (((cfg0 a0).win w).xblock ((cfg0 a0).grid.coords t)).Idx → Elt F ((cfg0 a0).win w).elt :=
  (((cfg0 a0).win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (Pipeline.UD sig nD τ) ℕ (cfg0 a0) c) (hA : dat.A 0 = V c (Pipeline.arrRef spec0 0))
    (hafter : ∀ t, dat.after 0 t = iblk0 a0 V c 0 t) (t : Fin (cfg0 a0).N) (d) : dat.before 0 t d = iblk0 a0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ (cfg0 a0) c) (hA : dat.A 1 = V c (Pipeline.arrRef spec0 1))
    (hafter : ∀ t, dat.after 1 t = iblk0 a0 V c 1 t) (t : Fin (cfg0 a0).N) (d) : dat.before 1 t d = iblk0 a0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ (cfg0 a0) c) (hA : dat.A 2 = V c (Pipeline.arrRef spec0 2))
    (hafter : ∀ t, dat.after 2 t = iblk0 a0 V c 2 t) (t : Fin (cfg0 a0).N) (d) : dat.before 2 t d = iblk0 a0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.KI.Reg0RunA.lean ====
import proofs.«100284_j64536178590158_2_alg».proof.Proof.KI.Reg0Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The body at a first row tile (`bi = 0`): the two statistics blocks are zeroed, then read back and added to -/

set_option maxHeartbeats 1000000 in
/-- What the body's stores leave in the three output staging memrefs, as pieces (last first), when the row-tile
    coordinate is zero; with the proof that on whole staging memrefs — the inputs' at their contents, the outputs' at
    anything — the body runs to the continuation holding the inputs' as they were and each output's buffer with its
    pieces written. -/
noncomputable def kernelRun0_A (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i)
    (x0 : Vec F S1x1024x1024 .bf16) (x1 : Vec F S1x512x1024 .bf16) (x2 : Vec F S1x1x512 .f32) :
    Σ' (L3 : List (View.Piece (Elt F) S1x1024x512 .bf16)) (L4 : List (View.Piece (Elt F) S1x1x512 .f32)), { L5 : List (View.Piece (Elt F) S1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)) -∗ K ⟨⟩))
          ⊢ wp frame (wpE (defs₀ (F := F)) Variants.none c none) E (cc0__linear_stats_kernel i arg2 harg2 arg3 harg3 arg4 harg4 arg5 harg5 arg6 harg6 arg7 harg7 arg8 harg8) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.KernelIdeal.Hand

end
-- ==== Proof.KI.Reg0RunB.lean ====
import proofs.«100284_j64536178590158_2_alg».proof.Proof.KI.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The body at a later row tile (`bi > 0`): the two statistics blocks are read as the tile before left them and added to -/

set_option maxHeartbeats 1000000 in
/-- What the body's stores leave in the three output staging memrefs, as pieces (last first), when the row-tile
    coordinate is not zero; with the proof that on whole staging memrefs — the inputs' at their contents, the two
    statistics outputs' at their running contents, the projection output's at anything — the body runs to the
    continuation holding the inputs' as they were and each output's buffer with its pieces written. -/
noncomputable def kernelRun0_B (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i)
    (x0 : Vec F S1x1024x1024 .bf16) (x1 : Vec F S1x512x1024 .bf16) (x2 : Vec F S1x1x512 .f32) (xo4 : Vec F S1x1x512 .f32) (xo5 : Vec F S1x1x512 .f32) :
    Σ' (L3 : List (View.Piece (Elt F) S1x1024x512 .bf16)) (L4 : List (View.Piece (Elt F) S1x1x512 .f32)), { L5 : List (View.Piece (Elt F) S1x1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xo4 ∗ owns (c : Thread nD τ) arg8 fullShare xo5
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)) -∗ K ⟨⟩))
          ⊢ wp frame (wpE (defs₀ (F := F)) Variants.none c none) E (cc0__linear_stats_kernel i arg2 harg2 arg3 harg3 arg4 harg4 arg5 harg5 arg6 harg6 arg7 harg7 arg8 harg8) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg3.eq_unread hf0; obtain rfl := harg4.eq_unread hf1; obtain rfl := harg5.eq_unread hf2
    obtain rfl := harg7.eq_unread hf4; obtain rfl := harg8.eq_unread hf5
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.KernelIdeal.Hand

end
-- ==== Proof.KI.Reg0Dat.lean ====
import proofs.«100284_j64536178590158_2_alg».proof.Proof.KI.Reg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projections-and-statistics region: its proof data, at any admissible table contents -/

/-! ## What each case leaves in the output staging buffers -/

/-- At a first row tile each output's pieces tile its block, so they cover it. -/
theorem cover0_A_3 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) (y : S1x1024x512.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x1024x512.size (by sl_kernel_rfl) y
theorem cover0_A_4 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) (y : S1x1x512.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S1x1x512.size (by sl_kernel_rfl) y
theorem cover0_A_5 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) (y : S1x1x512.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S1x1x512.size (by sl_kernel_rfl) y

/-- What a first row tile leaves in the three output staging buffers: its pieces read back over junk. -/
def out0_A (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) : Vec F S1x1024x512 .bf16 × Vec F S1x1x512 .f32 × Vec F S1x1x512 .f32 :=
  (VO0_3.read (Elt F) (VO0_3.writes (Elt F) VO0_3.junk (kernelRun0_A c i arg2 harg2 arg3 harg3 arg4 harg4 arg5 harg5 arg6 harg6 arg7 harg7 arg8 harg8 hc0 x0 x1 x2).1),
   VO0_4.read (Elt F) (VO0_4.writes (Elt F) VO0_4.junk (kernelRun0_A c i arg2 harg2 arg3 harg3 arg4 harg4 arg5 harg5 arg6 harg6 arg7 harg7 arg8 harg8 hc0 x0 x1 x2).2.1),
   VO0_5.read (Elt F) (VO0_5.writes (Elt F) VO0_5.junk (kernelRun0_A c i arg2 harg2 arg3 harg3 arg4 harg4 arg5 harg5 arg6 harg6 arg7 harg7 arg8 harg8 hc0 x0 x1 x2).2.2.1))

/-- At a later row tile likewise. -/
theorem cover0_B_3 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) (y : S1x1024x512.Idx) :
    ∃ pc ∈ (kernelRun0_B c i arg2 harg2 arg3 harg3 arg4 harg4 arg5 harg5 arg6 harg6 arg7 harg7 arg8 harg8 hc0 x0 x1 x2 xo4 xo5).1, y ∈ pc.1.set :=
  View.cover_of_tiledL (kernelRun0_B c i arg2 harg2 arg3 harg3 arg4 harg4 arg5 harg5 arg6 harg6 arg7 harg7 arg8 harg8 hc0 x0 x1 x2 xo4 xo5).1 S1x1024x512.size (by sl_kernel_rfl) y
theorem cover0_B_4 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) (y : S1x1x512.Idx) :
    ∃ pc ∈ (kernelRun0_B c i arg2 harg2 arg3 harg3 arg4 harg4 arg5 harg5 arg6 harg6 arg7 harg7 arg8 harg8 hc0 x0 x1 x2 xo4 xo5).2.1, y ∈ pc.1.set :=
  View.cover_of_tiledL (kernelRun0_B c i arg2 harg2 arg3 harg3 arg4 harg4 arg5 harg5 arg6 harg6 arg7 harg7 arg8 harg8 hc0 x0 x1 x2 xo4 xo5).2.1 S1x1x512.size (by sl_kernel_rfl) y
theorem cover0_B_5 (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) (y : S1x1x512.Idx) :
    ∃ pc ∈ (kernelRun0_B c i arg2 harg2 arg3 harg3 arg4 harg4 arg5 harg5 arg6 harg6 arg7 harg7 arg8 harg8 hc0 x0 x1 x2 xo4 xo5).2.2.1, y ∈ pc.1.set :=
  View.cover_of_tiledL (kernelRun0_B c i arg2 harg2 arg3 harg3 arg4 harg4 arg5 harg5 arg6 harg6 arg7 harg7 arg8 harg8 hc0 x0 x1 x2 xo4 xo5).2.2.1 S1x1x512.size (by sl_kernel_rfl) y

/-- What a later row tile leaves in the three output staging buffers, over the statistics the tile before left. -/
def out0_B (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 : Vec F S1x1x512 .f32) (xo5 : Vec F S1x1x512 .f32) : Vec F S1x1024x512 .bf16 × Vec F S1x1x512 .f32 × Vec F S1x1x512 .f32 :=
  (VO0_3.read (Elt F) (VO0_3.writes (Elt F) VO0_3.junk (kernelRun0_B c i arg2 harg2 arg3 harg3 arg4 harg4 arg5 harg5 arg6 harg6 arg7 harg7 arg8 harg8 hc0 x0 x1 x2 xo4 xo5).1),
   VO0_4.read (Elt F) (VO0_4.writes (Elt F) VO0_4.junk (kernelRun0_B c i arg2 harg2 arg3 harg3 arg4 harg4 arg5 harg5 arg6 harg6 arg7 harg7 arg8 harg8 hc0 x0 x1 x2 xo4 xo5).2.1),
   VO0_5.read (Elt F) (VO0_5.writes (Elt F) VO0_5.junk (kernelRun0_B c i arg2 harg2 arg3 harg3 arg4 harg4 arg5 harg5 arg6 harg6 arg7 harg7 arg8 harg8 hc0 x0 x1 x2 xo4 xo5).2.2.1))

variable (a0 : (pcfg0 (F := F)).Adm)
variable (V : (c : Dev nD) → (b : Ref sig .tc) → Buf (Elt F) ((c : Thread nD τ).loc b))

/-! ## What the outputs hold after each point -/

/-- THE ACCUMULATION. What the three output staging buffers hold after the body at position `n`: at a first row tile
    (`n ≡ 0 mod 32`) the reset case, run at the point's memrefs and input blocks; otherwise the adding case, over the
    statistics position `n - 1` left (the two statistics buffers are not written back in between). -/
def outsAt0 (c : Dev nD) : (n : ℕ) → n < (cfg0 a0).N → Vec F S1x1024x512 .bf16 × Vec F S1x1x512 .f32 × Vec F S1x1x512 .f32
  | 0, hn => out0_A c (grid0.coords ⟨0, hn⟩) (Memref.whole main_c) (Memref.isWhole_whole _) (ms0_0 a0 ⟨0, hn⟩) (hs0_0 a0 ⟨0, hn⟩) (ms0_1 a0 ⟨0, hn⟩) (hs0_1 a0 ⟨0, hn⟩) (ms0_2 a0 ⟨0, hn⟩) (hs0_2 a0 ⟨0, hn⟩) (ms0_3 a0 ⟨0, hn⟩) (hs0_3 a0 ⟨0, hn⟩) (ms0_4 a0 ⟨0, hn⟩) (hs0_4 a0 ⟨0, hn⟩) (ms0_5 a0 ⟨0, hn⟩) (hs0_5 a0 ⟨0, hn⟩) ((isFirst_iff a0 ⟨0, hn⟩).mpr (Nat.zero_mod _)) (iblk0 a0 V c 0 ⟨0, hn⟩) (iblk0 a0 V c 1 ⟨0, hn⟩) (iblk0 a0 V c 2 ⟨0, hn⟩)
  | n + 1, hn =>
    if h0 : (n + 1) % 32 = 0 then
      out0_A c (grid0.coords ⟨n + 1, hn⟩) (Memref.whole main_c) (Memref.isWhole_whole _) (ms0_0 a0 ⟨n + 1, hn⟩) (hs0_0 a0 ⟨n + 1, hn⟩) (ms0_1 a0 ⟨n + 1, hn⟩) (hs0_1 a0 ⟨n + 1, hn⟩) (ms0_2 a0 ⟨n + 1, hn⟩) (hs0_2 a0 ⟨n + 1, hn⟩) (ms0_3 a0 ⟨n + 1, hn⟩) (hs0_3 a0 ⟨n + 1, hn⟩) (ms0_4 a0 ⟨n + 1, hn⟩) (hs0_4 a0 ⟨n + 1, hn⟩) (ms0_5 a0 ⟨n + 1, hn⟩) (hs0_5 a0 ⟨n + 1, hn⟩) ((isFirst_iff a0 ⟨n + 1, hn⟩).mpr h0) (iblk0 a0 V c 0 ⟨n + 1, hn⟩) (iblk0 a0 V c 1 ⟨n + 1, hn⟩) (iblk0 a0 V c 2 ⟨n + 1, hn⟩)
    else
      out0_B c (grid0.coords ⟨n + 1, hn⟩) (Memref.whole main_c) (Memref.isWhole_whole _) (ms0_0 a0 ⟨n + 1, hn⟩) (hs0_0 a0 ⟨n + 1, hn⟩) (ms0_1 a0 ⟨n + 1, hn⟩) (hs0_1 a0 ⟨n + 1, hn⟩) (ms0_2 a0 ⟨n + 1, hn⟩) (hs0_2 a0 ⟨n + 1, hn⟩) (ms0_3 a0 ⟨n + 1, hn⟩) (hs0_3 a0 ⟨n + 1, hn⟩) (ms0_4 a0 ⟨n + 1, hn⟩) (hs0_4 a0 ⟨n + 1, hn⟩) (ms0_5 a0 ⟨n + 1, hn⟩) (hs0_5 a0 ⟨n + 1, hn⟩) (fun h => h0 ((isFirst_iff a0 ⟨n + 1, hn⟩).mp h)) (iblk0 a0 V c 0 ⟨n + 1, hn⟩) (iblk0 a0 V c 1 ⟨n + 1, hn⟩) (iblk0 a0 V c 2 ⟨n + 1, hn⟩)
        (outsAt0 c n (Nat.lt_of_succ_lt hn)).2.1 (outsAt0 c n (Nat.lt_of_succ_lt hn)).2.2

/-- `outsAt0` at a first row tile. -/
theorem outsAt0_A (c : Dev nD) (t : Fin (cfg0 a0).N) (h0 : t.val % 32 = 0) :
    outsAt0 a0 V c t.val t.isLt = out0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t) := by
  obtain ⟨n, hn⟩ := t
  cases n with
  | zero => exact rfl
  | succ n => exact (dif_pos h0).trans rfl

/-- `outsAt0` at a later row tile. -/
theorem outsAt0_B (c : Dev nD) (t : Fin (cfg0 a0).N) (h0 : ¬t.val % 32 = 0) :
    outsAt0 a0 V c t.val t.isLt = out0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t)
      (outsAt0 a0 V c (t.val - 1) (Nat.lt_of_le_of_lt (Nat.sub_le _ _) t.isLt)).2.1 (outsAt0 a0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The proof data of the region on core `c`: the arrays as the region finds them; after the body at point `t` each
    input's buffer at its block and the outputs' at `outsAt0`; the invariant: the scoped buffers that are no staging
    buffer, the generator register, and the index table held whole at its contents (the body never touches it);
    nothing owed; full shares. -/
def dat0 (c : Dev nD) : Dat τ (Elt F) Unit ℕ (Pipeline.UD sig nD τ) ℕ (cfg0 a0) c where
  A w := V c (Pipeline.arrRef spec0 w)
  after w t := match w with
    | ⟨0, _⟩ => iblk0 a0 V c 0 t
    | ⟨1, _⟩ => iblk0 a0 V c 1 t
    | ⟨2, _⟩ => iblk0 a0 V c 2 t
    | ⟨3, _⟩ => (outsAt0 a0 V c t.val t.isLt).1
    | ⟨4, _⟩ => (outsAt0 a0 V c t.val t.isLt).2.1
    | ⟨5, _⟩ => (outsAt0 a0 V c t.val t.isLt).2.2
  Φ _ := iprop(Pipeline.ΦA spec0 c ∗ Pipeline.prefHeld (Ix := Unit) (Name := ℕ) (U := Pipeline.UD sig nD τ) (Lvl := ℕ) pre0 c (fun _ => fullShare) a0.1)
  q _ := fullShare
  owed _ := 0

/-- The proof data's arrays are the region-entry contents. -/
theorem A_eq0 (c : Dev nD) (w : Fin (cfg0 a0).W) : (dat0 a0 V c).A w = V c (Pipeline.arrRef spec0 w) := by
  dsimp only [dat0]

/-- What the body leaves, window by window. -/
theorem after0_0 (c : Dev nD) (t : Fin (cfg0 a0).N) : (dat0 a0 V c).after 0 t = iblk0 a0 V c 0 t := by dsimp only [dat0]; try rfl
theorem after0_1 (c : Dev nD) (t : Fin (cfg0 a0).N) : (dat0 a0 V c).after 1 t = iblk0 a0 V c 1 t := by dsimp only [dat0]; try rfl
theorem after0_2 (c : Dev nD) (t : Fin (cfg0 a0).N) : (dat0 a0 V c).after 2 t = iblk0 a0 V c 2 t := by dsimp only [dat0]; try rfl
theorem after0_3 (c : Dev nD) (t : Fin (cfg0 a0).N) : (dat0 a0 V c).after 3 t = (outsAt0 a0 V c t.val t.isLt).1 := by dsimp only [dat0]; try rfl
theorem after0_4 (c : Dev nD) (t : Fin (cfg0 a0).N) : (dat0 a0 V c).after 4 t = (outsAt0 a0 V c t.val t.isLt).2.1 := by dsimp only [dat0]; try rfl
theorem after0_5 (c : Dev nD) (t : Fin (cfg0 a0).N) : (dat0 a0 V c).after 5 t = (outsAt0 a0 V c t.val t.isLt).2.2 := by dsimp only [dat0]; try rfl

/-- Each input's current staging buffer holds its block at every point, fetched there or not. -/
theorem before0_0 (c : Dev nD) (t : Fin (cfg0 a0).N) (d) : (dat0 a0 V c).before 0 t d = iblk0 a0 V c 0 t :=
  before0_0_of a0 V (dat0 a0 V c) (A_eq0 a0 V c 0) (after0_0 a0 V c) t d
theorem before0_1 (c : Dev nD) (t : Fin (cfg0 a0).N) (d) : (dat0 a0 V c).before 1 t d = iblk0 a0 V c 1 t :=
  before0_1_of a0 V (dat0 a0 V c) (A_eq0 a0 V c 1) (after0_1 a0 V c) t d
theorem before0_2 (c : Dev nD) (t : Fin (cfg0 a0).N) (d) : (dat0 a0 V c).before 2 t d = iblk0 a0 V c 2 t :=
  before0_2_of a0 V (dat0 a0 V c) (A_eq0 a0 V c 2) (after0_2 a0 V c) t d

/-- At a later row tile each statistics window's current staging buffer holds what the body left at the point before:
    the point is not the first, the buffer was not written back in between, the window is live and uncut. -/
theorem before0_4_B (c : Dev nD) (t : Fin (cfg0 a0).N) (h0 : ¬t.val % 32 = 0) (d) :
    (dat0 a0 V c).before 4 t d = (outsAt0 a0 V c (t.val - 1) (Nat.lt_of_le_of_lt (Nat.sub_le _ _) t.isLt)).2.1 := by
  have hN : t.val < 288 := lt_of_lt_of_eq t.isLt (show (cfg0 a0).N = 288 from N_0)
  rw [Dat.before_out_kept _ 4 rfl t (by omega) (Bool.eq_false_iff.mpr fun h => by have := (flush0_4 a0 _).mp h; dsimp only at this; omega)
    (fun _ => rfl) (fun _ _ => rfl)]
  exact after0_4 a0 V c _
theorem before0_5_B (c : Dev nD) (t : Fin (cfg0 a0).N) (h0 : ¬t.val % 32 = 0) (d) :
    (dat0 a0 V c).before 5 t d = (outsAt0 a0 V c (t.val - 1) (Nat.lt_of_le_of_lt (Nat.sub_le _ _) t.isLt)).2.2 := by
  have hN : t.val < 288 := lt_of_lt_of_eq t.isLt (show (cfg0 a0).N = 288 from N_0)
  rw [Dat.before_out_kept _ 5 rfl t (by omega) (Bool.eq_false_iff.mpr fun h => by have := (flush0_5 a0 _).mp h; dsimp only at this; omega)
    (fun _ => rfl) (fun _ _ => rfl)]
  exact after0_5 a0 V c _

end Cert.KernelIdeal.Hand

end
-- ==== Proof.KI.Reg0Tbl.lean ====
import proofs.«100284_j64536178590158_2_alg».proof.Proof.KI.Reg0Sched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The index table's literal contents -/

/-- The table says which of the three stacked inputs feeds projection `j`: 0, 1, 1, 1, 2, 2, 2, 0, 0. -/
def tbl : pre0.Contents (Elt F) := fun
  | ⟨0, _⟩ => fun i => lit0 (S9.rowMajor i)

/-- Every word of the table, read signed, lies in 0..2. -/
theorem lit0_range : ∀ k : Fin 9, 0 ≤ (lit0 k).toInt ∧ (lit0 k).toInt + 1 ≤ 3 := by decide

set_option maxHeartbeats 400000 in
/-- The table's word at any point is a block index inside the stacked input array. -/
theorem inb_tbl (i : grid0.Coords) : ∀ a, (cc0_transform_0 k0_off1_inb numel1_S1 (tbl (F := F)) i a + 1) * S1x1024x1024.size a ≤ S3x32768x1024.size a := by
  have r_i1 : (i 1).val < 32 := (i 1).isLt
  have h_arg1 : Affine.IsInt (BitVec.ofNat 32 (i 1).val) (((i 1).val : Int)) := Affine.ofNat _ (by omega)
  have h_c0 : Affine.IsInt 0#32 (0) := Affine.ofNat _ (by omega)
  have hx : ∀ x : BitVec 32, (0 ≤ x.toInt ∧ x.toInt + 1 ≤ 3) →
      ∀ a, (![x.toNat, (BitVec.ofNat 32 (i 1).val).toNat, (0#32 : BitVec 32).toNat] a + 1) * S1x1024x1024.size a ≤ S3x32768x1024.size a := fun x hx =>
    Affine.blk_cons (Affine.word x) (by omega) <| Affine.blk_cons h_arg1 (by omega) <| Affine.blk_cons h_c0 (by omega) <| Affine.blk_nil
  exact hx _ (lit0_range _)

/-- The literal table is admissible: window 0's block lies inside its array at every point, its transfers word-exact. -/
theorem ok_tbl : ok0 (F := F) tbl := fun i => ⟨inb_tbl i, .inr (Affine.block_words_dvd (of_decide_eq_true rfl) (by decide))⟩

/-- The literal table as admissible contents. -/
def adm0 : (pcfg0 (F := F)).Adm := ⟨tbl, ok_tbl⟩

/-- A memory whose table buffer holds the constant the program's first host operation writes hands the region the
    literal table. -/
theorem tbl_of_V (V : (c : Dev nD) → (b : Ref sig .tc) → Buf (Elt F) ((c : Thread nD τ).loc b)) (c : Dev nD)
    (hV : V c main_c = fun i => lit0 (S9.rowMajor i)) : (fun k => V c (pre0.ref k)) = (adm0 (F := F)).1 := by
  funext k
  match k with
  | ⟨0, _⟩ => exact hV

end Cert.KernelIdeal.Hand

end
-- ==== Proof.KI.Reg0.lean ====
import proofs.«100284_j64536178590158_2_alg».proof.Proof.KI.Reg0Dat
import proofs.«100284_j64536178590158_2_alg».proof.Proof.KI.Reg0Tbl

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projections-and-statistics region: its body obligation and the invariant at its ends -/

/-- The components of a triple. -/
theorem fst3 {α β γ : Type} (a : α) (b : β) (c : γ) : (a, b, c).1 = a := rfl
theorem snd3 {α β γ : Type} (a : α) (b : β) (c : γ) : (a, b, c).2.1 = b := rfl
theorem trd3 {α β γ : Type} (a : α) (b : β) (c : γ) : (a, b, c).2.2 = c := rfl

variable (a0 : (pcfg0 (F := F)).Adm)
variable (V : (c : Dev nD) → (b : Ref sig .tc) → Buf (Elt F) ((c : Thread nD τ).loc b))

/-- What each output's staging buffer holds after a first row tile, component by component, -/
theorem outsAt0_A_3 (c : Dev nD) (t : Fin (cfg0 a0).N) (h0 : t.val % 32 = 0) :
    (outsAt0 a0 V c t.val t.isLt).1 = VO0_3.read (Elt F) (VO0_3.writes (Elt F) VO0_3.junk (kernelRun0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t)).1) :=
  by rw [outsAt0_A a0 V c t h0]; exact fst3 _ _ _
theorem outsAt0_A_4 (c : Dev nD) (t : Fin (cfg0 a0).N) (h0 : t.val % 32 = 0) :
    (outsAt0 a0 V c t.val t.isLt).2.1 = VO0_4.read (Elt F) (VO0_4.writes (Elt F) VO0_4.junk (kernelRun0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t)).2.1) :=
  by rw [outsAt0_A a0 V c t h0]; exact snd3 _ _ _
theorem outsAt0_A_5 (c : Dev nD) (t : Fin (cfg0 a0).N) (h0 : t.val % 32 = 0) :
    (outsAt0 a0 V c t.val t.isLt).2.2 = VO0_5.read (Elt F) (VO0_5.writes (Elt F) VO0_5.junk (kernelRun0_A c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) ((isFirst_iff a0 t).mpr h0) (iblk0 a0 V c 0 t) (iblk0 a0 V c 1 t) (iblk0 a0 V c 2 t)).2.2.1) :=
  by rw [outsAt0_A a0 V c t h0]; exact trd3 _ _ _
/-- and after a later one. -/
theorem outsAt0_B_3 (c : Dev nD) (t : Fin (cfg0 a0).N) (h0 : ¬t.val % 32 = 0) :
    (outsAt0 a0 V c t.val t.isLt).1 = VO0_3.read (Elt F) (VO0_3.writes (Elt F) VO0_3.junk (kernelRun0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t) (outsAt0 a0 V c (t.val - 1) (Nat.lt_of_le_of_lt (Nat.sub_le _ _) t.isLt)).2.1 (outsAt0 a0 V c (t.val - 1) (Nat.lt_of_le_of_lt (Nat.sub_le _ _) t.isLt)).2.2).1) :=
  by rw [outsAt0_B a0 V c t h0]; exact fst3 _ _ _
theorem outsAt0_B_4 (c : Dev nD) (t : Fin (cfg0 a0).N) (h0 : ¬t.val % 32 = 0) :
    (outsAt0 a0 V c t.val t.isLt).2.1 = VO0_4.read (Elt F) (VO0_4.writes (Elt F) VO0_4.junk (kernelRun0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t) (outsAt0 a0 V c (t.val - 1) (Nat.lt_of_le_of_lt (Nat.sub_le _ _) t.isLt)).2.1 (outsAt0 a0 V c (t.val - 1) (Nat.lt_of_le_of_lt (Nat.sub_le _ _) t.isLt)).2.2).2.1) :=
  by rw [outsAt0_B a0 V c t h0]; exact snd3 _ _ _
theorem outsAt0_B_5 (c : Dev nD) (t : Fin (cfg0 a0).N) (h0 : ¬t.val % 32 = 0) :
    (outsAt0 a0 V c t.val t.isLt).2.2 = VO0_5.read (Elt F) (VO0_5.writes (Elt F) VO0_5.junk (kernelRun0_B c (grid0.coords t) (Memref.whole main_c) (Memref.isWhole_whole _) (ms0_0 a0 t) (hs0_0 a0 t) (ms0_1 a0 t) (hs0_1 a0 t) (ms0_2 a0 t) (hs0_2 a0 t) (ms0_3 a0 t) (hs0_3 a0 t) (ms0_4 a0 t) (hs0_4 a0 t) (ms0_5 a0 t) (hs0_5 a0 t) (fun h => h0 ((isFirst_iff a0 t).mp h)) (iblk0 a0 V c 0 t) (iblk0 a0 V c 1 t) (iblk0 a0 V c 2 t) (outsAt0 a0 V c (t.val - 1) (Nat.lt_of_le_of_lt (Nat.sub_le _ _) t.isLt)).2.1 (outsAt0 a0 V c (t.val - 1) (Nat.lt_of_le_of_lt (Nat.sub_le _ _) t.isLt)).2.2).2.2.1) :=
  by rw [outsAt0_B a0 V c t h0]; exact trd3 _ _ _

/-! ## The body obligation, at a generic point -/

/-- What the body is called with at point `t`, the windows one by one, -/
def bodyPre0 (c : Dev nD) (t : Fin (cfg0 a0).N) : sProp 𝕄 :=
  iprop((dat0 a0 V c).Φ t.castSucc ∗ (dat0 a0 V c).owesAt () t.castSucc
    ∗ (∃ d, owns (c : Thread nD τ) (ms0_0 a0 t) fullShare ((dat0 a0 V c).before 0 t d))
    ∗ (∃ d, owns (c : Thread nD τ) (ms0_1 a0 t) fullShare ((dat0 a0 V c).before 1 t d))
    ∗ (∃ d, owns (c : Thread nD τ) (ms0_2 a0 t) fullShare ((dat0 a0 V c).before 2 t d))
    ∗ (∃ d, owns (c : Thread nD τ) (ms0_3 a0 t) fullShare ((dat0 a0 V c).before 3 t d))
    ∗ (∃ d, owns (c : Thread nD τ) (ms0_4 a0 t) fullShare ((dat0 a0 V c).before 4 t d))
    ∗ (∃ d, owns (c : Thread nD τ) (ms0_5 a0 t) fullShare ((dat0 a0 V c).before 5 t d)))

/-- and what it returns. -/
def bodyPost0 (c : Dev nD) (t : Fin (cfg0 a0).N) : sProp 𝕄 :=
  iprop((dat0 a0 V c).Φ t.succ ∗ (dat0 a0 V c).owesAt () t.succ
    ∗ owns (c : Thread nD τ) (ms0_0 a0 t) fullShare ((dat0 a0 V c).after 0 t)
    ∗ owns (c : Thread nD τ) (ms0_1 a0 t) fullShare ((dat0 a0 V c).after 1 t)
    ∗ owns (c : Thread nD τ) (ms0_2 a0 t) fullShare ((dat0 a0 V c).after 2 t)
    ∗ owns (c : Thread nD τ) (ms0_3 a0 t) fullShare ((dat0 a0 V c).after 3 t)
    ∗ owns (c : Thread nD τ) (ms0_4 a0 t) fullShare ((dat0 a0 V c).after 4 t)
    ∗ owns (c : Thread nD τ) (ms0_5 a0 t) fullShare ((dat0 a0 V c).after 5 t))

set_option maxHeartbeats 1000000 in
/-- The body at a first row tile: the inputs' memrefs hold their blocks, the outputs' anything; the reset case's run
    applies. The invariant passes through unread; the core owes nothing throughout. -/
theorem sound_body0_A (c : Dev nD) (t : Fin (cfg0 a0).N) (h0 : t.val % 32 = 0) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1, before0_2]
  rw [show (dat0 a0 V c).Φ t.succ = (dat0 a0 V c).Φ t.castSucc from rfl,
    show (dat0 a0 V c).owesAt () t.succ = (dat0 a0 V c).owesAt () t.castSucc from rfl,
    after0_0, after0_1, after0_2, after0_3, after0_4, after0_5]
  rw [outsAt0_A_3 a0 V c t h0, outsAt0_A_4 a0 V c t h0, outsAt0_A_5 a0 V c t h0]
  · iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((isFirst_iff a0 t).mpr h0) (iblk0 a0 V c 0 t) (iblk0 a0 V c 1 t) (iblk0 a0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _)

set_option maxHeartbeats 1000000 in
/-- The body at a later row tile: the statistics buffers hold what the point before left; the adding case's run
    applies. -/
theorem sound_body0_B (c : Dev nD) (t : Fin (cfg0 a0).N) (h0 : ¬t.val % 32 = 0) :
    bodyPre0 a0 V c t ⊢ wp frame (wpE (defs₀ (F := F)) Variants.none c none) Set.univ (bodyAt0 a0 t) (fun _ => bodyPost0 a0 V c t) := by
  unfold bodyPre0 bodyPost0 bodyAt0
  simp only [before0_0, before0_1, before0_2]
  rw [show (dat0 a0 V c).Φ t.succ = (dat0 a0 V c).Φ t.castSucc from rfl,
    show (dat0 a0 V c).owesAt () t.succ = (dat0 a0 V c).owesAt () t.castSucc from rfl,
    after0_0, after0_1, after0_2, after0_3, after0_4, after0_5]
  rw [outsAt0_B_3 a0 V c t h0, outsAt0_B_4 a0 V c t h0, outsAt0_B_5 a0 V c t h0]
  simp only [before0_4_B a0 V c t h0, before0_5_B a0 V c t h0]
  · iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((isFirst_iff a0 t).mp h)) (iblk0 a0 V c 0 t) (iblk0 a0 V c 1 t) (iblk0 a0 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _)

/-- The body at any point: the row-tile coordinate says which case the point is in. -/
theorem sound_body0 (c : Dev nD) (t : Fin (cfg0 a0).N) :
    bodyPre0 a0 V c t ⊢ wp frame (wpE (defs₀ (F := F)) Variants.none c none) Set.univ (bodyAt0 a0 t) (fun _ => bodyPost0 a0 V c t) := by
  by_cases h0 : t.val % 32 = 0
  · exact sound_body0_A a0 V c t h0
  · exact sound_body0_B a0 V c t h0

/-- The body obligation, at every point. -/
theorem body_obligation0 (c : Dev nD) : BodyObligation (dat0 (F := F) a0 V c) (defs₀ (F := F)) Variants.none () Set.univ := fun t => by
  rw [bigSep_W0, bigSep_W0]
  exact sound_body0 a0 V c t

/-! ## The invariant at the region's ends -/

/-- The invariant at the first point, from the generator register, the table and the scoped buffers no window stages. -/
theorem hin0 (c : Dev nD) :
    iprop((∃ r, prngReg c r) ∗ Pipeline.prefHeld pre0 c (fun _ => fullShare) a0.1
        ∗ Pipeline.scopedRest (Ix := Unit) (Name := ℕ) (U := Pipeline.UD sig nD τ) (Lvl := ℕ) (Val := Elt F) spec0 c)
      ⊢ ((dat0 a0 V c).Φ 0 : sProp 𝕄) := by
  rw [show (dat0 a0 V c).Φ 0 = iprop(Pipeline.ΦA spec0 c ∗ Pipeline.prefHeld (Ix := Unit) (Name := ℕ) (U := Pipeline.UD sig nD τ) (Lvl := ℕ) pre0 c (fun _ => fullShare) a0.1) from rfl]
  unfold Pipeline.ΦA
  iintro ⟨Hp, Ht, Hr⟩
  isplitl [Hp Hr]
  · isplitl [Hr]; · iexact Hr
    iexact Hp
  iexact Ht

/-- The invariant at the last point gives them back. -/
theorem hout0 (c : Dev nD) :
    ((dat0 a0 V c).Φ (Fin.last (cfg0 a0).N) : sProp 𝕄)
      ⊢ iprop(((∃ r, prngReg c r) ∗ Pipeline.prefHeld pre0 c (fun _ => fullShare) a0.1)
        ∗ Pipeline.scopedRest (Ix := Unit) (Name := ℕ) (U := Pipeline.UD sig nD τ) (Lvl := ℕ) (Val := Elt F) spec0 c) := by
  rw [show (dat0 a0 V c).Φ (Fin.last (cfg0 a0).N) = iprop(Pipeline.ΦA spec0 c ∗ Pipeline.prefHeld (Ix := Unit) (Name := ℕ) (U := Pipeline.UD sig nD τ) (Lvl := ℕ) pre0 c (fun _ => fullShare) a0.1) from rfl]
  unfold Pipeline.ΦA
  iintro ⟨⟨Hr, Hp⟩, Ht⟩
  isplitl [Hp Ht]
  · isplitl [Hp]; · iexact Hp
    iexact Ht
  iexact Hr

end Cert.KernelIdeal.Hand

end
-- ==== Proof.KI.Reg1Run.lean ====
import proofs.«100284_j64536178590158_2_alg».proof.Proof.Gen.KernelIdeal.Launch
import proofs.«100284_j64536178590158_2_alg».proof.Proof.Gen.KernelIdeal.Skeleton
import proofs.«100284_j64536178590158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's accesses: every load and store is of a whole buffer -/

abbrev rQ : Rect S1x2048x256 := Rect.unit (s := S1x2048x256) ![0, 0, 0] S1x2048x256.size inb_S1x2048x256_S1x2048x256_0_0_0
abbrev rK : Rect S1x2048x512 := Rect.unit (s := S1x2048x512) ![0, 0, 0] S1x2048x512.size inb_S1x2048x512_S1x2048x512_0_0_0
abbrev rq : Rect S1x1x256 := Rect.unit (s := S1x1x256) ![0, 0, 0] S1x1x256.size inb_S1x1x256_S1x1x256_0_0_0
abbrev rk : Rect S1x1x512 := Rect.unit (s := S1x1x512) ![0, 0, 0] S1x1x512.size inb_S1x1x512_S1x1x512_0_0_0
abbrev rS : Rect S256x512 := Rect.unit (s := S256x512) ![0, 0] S256x512.size inb_S256x512_S256x512_0_0
abbrev rO : Rect S1x256x512 := Rect.unit (s := S1x256x512) ![0, 0, 0] S1x256x512.size inb_S1x256x512_S1x256x512_0_0_0

/-- The accumulator after one point: the product of this point's normalised, rectified query and key tiles added to
    what the accumulator held. -/
def step1 (x0 : Vec F S1x2048x256 .bf16) (x1 : Vec F S1x2048x512 .bf16) (x2 x3 : Vec F S1x1x256 .f32) (x4 x5 : Vec F S1x1x512 .f32)
    (s : Vec F S256x512 .f32) : Vec F S256x512 .f32 :=
  View.canon [⟨rS, k1_pay1 (k1_pay4 (View.ld x0 rQ) (View.ld x2 rq) (View.ld x3 rq)) (k1_pay5 (View.ld x1 rK) (View.ld x4 rk) (View.ld x5 rk)) (View.ld s rS)⟩]

/-- The accumulator reset at the first point of a run. -/
def zero1 : Vec F S256x512 .f32 := View.canon [⟨rS, k1_pay3 (F := F)⟩]

/-- The output block the last point of a run stores: the row softmax of the scaled accumulator. -/
def fin1 (s : Vec F S256x512 .f32) : Vec F S1x256x512 .bf16 := View.canon [⟨rO, k1_pay2 (View.ld s rS)⟩]

/-- The body's two branch conditions, from the grid coordinates: the batch tile is the first; is the last. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1

/-- A whole-buffer store covers the buffer. -/
theorem coverS (p : Vec F S256x512 .f32) (L : List (View.Piece (Elt F) S256x512 .f32)) (y : S256x512.Idx) :
    ∃ pc ∈ (⟨rS, p⟩ :: L : List (View.Piece (Elt F) S256x512 .f32)), y ∈ pc.1.set := by
  obtain ⟨pc, hm, hy⟩ := View.cover_of_tiled ([⟨rS, p⟩] : List (View.Piece (Elt F) S256x512 .f32)) S256x512.size (by rfl) y
  rw [List.mem_singleton] at hm; subst hm
  exact ⟨_, List.mem_cons_self, hy⟩
theorem coverO (p : Vec F S1x256x512 .bf16) (y : S1x256x512.Idx) :
    ∃ pc ∈ ([⟨rO, p⟩] : List (View.Piece (Elt F) S1x256x512 .bf16)), y ∈ pc.1.set :=
  View.cover_of_tiled [⟨rO, p⟩] S1x256x512.size (by rfl) y
theorem mem_rS (y : S256x512.Idx) : y ∈ rS.set := by
  obtain ⟨pc, hm, hy⟩ := View.cover_of_tiled ([⟨rS, fun _ => ()⟩] : List (View.Piece (fun _ => Unit) S256x512 .f32)) S256x512.size (by rfl) y
  rw [List.mem_singleton] at hm; subst hm; exact hy
/-- Under a whole-buffer store the earlier stores do not show. -/
theorem canon_whole (p : Vec F S256x512 .f32) (L : List (View.Piece (Elt F) S256x512 .f32)) :
    View.canon (⟨rS, p⟩ :: L) = View.canon [⟨rS, p⟩] := funext fun y => by
  obtain ⟨x, rfl⟩ := rS.exists_idx_of_mem (mem_rS y)
  exact (View.canon_cons_emb rS p L x).trans (View.canon_cons_emb rS p [] x).symm

set_option maxHeartbeats 1000000 in
/-- A point that begins a run (the first batch tile): the accumulator is reset, then this point's product is added; the
    output buffer is untouched. -/
theorem run1_A (c : Dev nD) (E : Set ℕ) (i : grid1.Coords)
    (arg3 : Memref sig .tc .vmem S1x2048x256 .bf16) (harg3 : arg3.IsWhole) (arg4 : Memref sig .tc .vmem S1x2048x512 .bf16) (harg4 : arg4.IsWhole)
    (arg5 : Memref sig .tc .vmem S1x1x256 .f32) (harg5 : arg5.IsWhole) (arg6 : Memref sig .tc .vmem S1x1x256 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S1x256x512 .bf16) (harg9 : arg9.IsWhole) (arg10 : Memref sig .tc .vmem S256x512 .f32) (harg10 : arg10.IsWhole)
    (hc0 : cond1_0 i) (hc1 : ¬cond1_1 i)
    (x0 : Vec F S1x2048x256 .bf16) (x1 : Vec F S1x2048x512 .bf16) (x2 x3 : Vec F S1x1x256 .f32) (x4 x5 : Vec F S1x1x512 .f32)
    (xo : Vec F S1x256x512 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xo ∗ (∃ d, owns (c : Thread nD τ) arg10 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare xo ∗ owns (c : Thread nD τ) arg10 fullShare (step1 x0 x1 x2 x3 x4 x5 zero1)) -∗ K ⟨⟩))
      ⊢ wp frame (wpE (defs₀ (F := F)) Variants.none c none) E (cc1__qk_kernel i arg3 harg3 arg4 harg4 arg5 harg5 arg6 harg6 arg7 harg7 arg8 harg8 arg9 harg9 arg10 harg10) K := by
  simp only [cc1__qk_kernel_eq_skeleton]; unfold cc1__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0 hf1 hf2 hf3 hf4 hf5 hf6
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  iexists _; isplitr
  swap; · iexact HS
  ipureintro
  refine (View.read_writes_eq_canon _ _ _ (coverS _ _)).trans ((canon_whole _ _).trans ?_)
  have hv : run1_A.sl.v31 c arg10 = View.ld (zero1 (F := F)) rS := View.readCov_eq_canon_ld _ _ _ (coverS _ _)
  rw [hv]; rfl

set_option maxHeartbeats 1000000 in
/-- A point inside a run: this point's product is added to the accumulator; the output buffer is untouched. -/
theorem run1_B (c : Dev nD) (E : Set ℕ) (i : grid1.Coords)
    (arg3 : Memref sig .tc .vmem S1x2048x256 .bf16) (harg3 : arg3.IsWhole) (arg4 : Memref sig .tc .vmem S1x2048x512 .bf16) (harg4 : arg4.IsWhole)
    (arg5 : Memref sig .tc .vmem S1x1x256 .f32) (harg5 : arg5.IsWhole) (arg6 : Memref sig .tc .vmem S1x1x256 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S1x256x512 .bf16) (harg9 : arg9.IsWhole) (arg10 : Memref sig .tc .vmem S256x512 .f32) (harg10 : arg10.IsWhole)
    (hc0 : ¬cond1_0 i) (hc1 : ¬cond1_1 i)
    (x0 : Vec F S1x2048x256 .bf16) (x1 : Vec F S1x2048x512 .bf16) (x2 x3 : Vec F S1x1x256 .f32) (x4 x5 : Vec F S1x1x512 .f32)
    (xo : Vec F S1x256x512 .bf16) (s : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare xo ∗ owns (c : Thread nD τ) arg10 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare xo ∗ owns (c : Thread nD τ) arg10 fullShare (step1 x0 x1 x2 x3 x4 x5 s)) -∗ K ⟨⟩))
      ⊢ wp frame (wpE (defs₀ (F := F)) Variants.none c none) E (cc1__qk_kernel i arg3 harg3 arg4 harg4 arg5 harg5 arg6 harg6 arg7 harg7 arg8 harg8 arg9 harg9 arg10 harg10) K := by
  simp only [cc1__qk_kernel_eq_skeleton]; unfold cc1__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  iexists _; isplitr
  swap; · iexact HS
  ipureintro
  exact (View.read_writes_eq_canon _ _ _ (coverS _ _)).trans (canon_whole _ _)

set_option maxHeartbeats 1000000 in
/-- The last point of a run: this point's product is added, and the output buffer receives the row softmax of the
    scaled accumulator. -/
theorem run1_C (c : Dev nD) (E : Set ℕ) (i : grid1.Coords)
    (arg3 : Memref sig .tc .vmem S1x2048x256 .bf16) (harg3 : arg3.IsWhole) (arg4 : Memref sig .tc .vmem S1x2048x512 .bf16) (harg4 : arg4.IsWhole)
    (arg5 : Memref sig .tc .vmem S1x1x256 .f32) (harg5 : arg5.IsWhole) (arg6 : Memref sig .tc .vmem S1x1x256 .f32) (harg6 : arg6.IsWhole)
    (arg7 : Memref sig .tc .vmem S1x1x512 .f32) (harg7 : arg7.IsWhole) (arg8 : Memref sig .tc .vmem S1x1x512 .f32) (harg8 : arg8.IsWhole)
    (arg9 : Memref sig .tc .vmem S1x256x512 .bf16) (harg9 : arg9.IsWhole) (arg10 : Memref sig .tc .vmem S256x512 .f32) (harg10 : arg10.IsWhole)
    (hc0 : ¬cond1_0 i) (hc1 : cond1_1 i)
    (x0 : Vec F S1x2048x256 .bf16) (x1 : Vec F S1x2048x512 .bf16) (x2 x3 : Vec F S1x1x256 .f32) (x4 x5 : Vec F S1x1x512 .f32)
    (s : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ owns (c : Thread nD τ) arg10 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (fin1 (step1 x0 x1 x2 x3 x4 x5 s)) ∗ owns (c : Thread nD τ) arg10 fullShare (step1 x0 x1 x2 x3 x4 x5 s)) -∗ K ⟨⟩))
      ⊢ wp frame (wpE (defs₀ (F := F)) Variants.none c none) E (cc1__qk_kernel i arg3 harg3 arg4 harg4 arg5 harg5 arg6 harg6 arg7 harg7 arg8 harg8 arg9 harg9 arg10 harg10) K := by
  simp only [cc1__qk_kernel_eq_skeleton]; unfold cc1__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap; · iexact H6
    ipureintro
    refine (View.read_writes_eq_canon _ _ _ (coverO _)).trans ?_
    have hv : run1_C.sl.v40 c arg3 arg4 arg5 arg6 arg7 arg8 arg10 f0 f1 f2 f3 f4 f5 fs
        = View.ld (step1 (arg3.view.read (Elt F) f0) (arg4.view.read (Elt F) f1) (arg5.view.read (Elt F) f2) (arg6.view.read (Elt F) f3)
            (arg7.view.read (Elt F) f4) (arg8.view.read (Elt F) f5) (arg10.view.read (Elt F) fs)) rS :=
      View.readCov_eq_canon_ld _ _ _ (coverS _ _)
    rw [hv]; rfl
  iexists _; isplitr
  swap; · iexact HS
  ipureintro
  exact (View.read_writes_eq_canon _ _ _ (coverS _ _)).trans (canon_whole _ _)

end Cert.KernelIdeal.Hand
end
-- ==== Proof.KI.Reg1.lean ====
import proofs.«100284_j64536178590158_2_alg».proof.Proof.KI.Reg1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the logits of each attention accumulated over the batch tiles, then the row softmax -/

/-- The two halves of the full share, dealt to the two windows that read one array. -/
def lh : PosShare TreeShare := (fullShare : PosShare TreeShare).left
def rh : PosShare TreeShare := (fullShare : PosShare TreeShare).right

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current buffer holds its block at every point, fetched there or not: where it is not
    fetched the block index has not moved. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- One point's step of the accumulator at position `n` of the grid (nothing beyond the grid). -/
def stepAt (c : Dev nD) (n : ℕ) (s : Vec F S256x512 .f32) : Vec F S256x512 .f32 :=
  if h : n < cfg1.N then step1 (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) s else s

/-- The accumulator after the point at position `n`: reset where a run of sixteen batch tiles begins, then this
    point's product added to what the point before left. -/
def accN (c : Dev nD) : ℕ → Vec F S256x512 .f32
  | 0 => stepAt V c 0 zero1
  | n + 1 => stepAt V c (n + 1) (if (n + 1) % 16 = 0 then zero1 else accN c n)

/-- The scratch accumulator after point `t`. -/
def acc1 (c : Dev nD) (t : Fin cfg1.N) : Vec F S256x512 .f32 := accN V c t.val

/-- The output buffer after point `t`: the row softmax of the scaled accumulator there (stored, and written back, at the
    last point of a run only; elsewhere the window is idle and this is not consulted). -/
def out1_6 (c : Dev nD) (t : Fin cfg1.N) : Vec F S1x256x512 .bf16 := fin1 (acc1 V c t)

theorem stepAt_lt (c : Dev nD) (t : Fin cfg1.N) (s : Vec F S256x512 .f32) :
    stepAt V c t.val s = step1 (iblk1 V c 0 t) (iblk1 V c 1 t) (iblk1 V c 2 t) (iblk1 V c 3 t) (iblk1 V c 4 t) (iblk1 V c 5 t) s := dif_pos t.isLt

theorem accN_first (c : Dev nD) (n : ℕ) (h : n % 16 = 0) : accN V c n = stepAt V c n zero1 := by
  cases n with
  | zero => rfl
  | succ n => show stepAt V c (n + 1) (if (n + 1) % 16 = 0 then zero1 else accN V c n) = _; rw [if_pos h]

theorem accN_next (c : Dev nD) (n : ℕ) (h : ¬n % 16 = 0) : accN V c n = stepAt V c n (accN V c (n - 1)) := by
  cases n with
  | zero => exact absurd (Nat.zero_mod _) h
  | succ n => show stepAt V c (n + 1) (if (n + 1) % 16 = 0 then zero1 else accN V c n) = _; rw [if_neg h]; rfl

theorem accN_val_first (c : Dev nD) (t : Fin cfg1.N) (h : t.val % 16 = 0) :
    accN V c t.val = step1 (iblk1 V c 0 t) (iblk1 V c 1 t) (iblk1 V c 2 t) (iblk1 V c 3 t) (iblk1 V c 4 t) (iblk1 V c 5 t) zero1 := (accN_first V c _ h).trans (stepAt_lt V c t _)

theorem accN_val_next (c : Dev nD) (t : Fin cfg1.N) (h : ¬t.val % 16 = 0) :
    accN V c t.val = step1 (iblk1 V c 0 t) (iblk1 V c 1 t) (iblk1 V c 2 t) (iblk1 V c 3 t) (iblk1 V c 4 t) (iblk1 V c 5 t) (accN V c (t.val - 1)) := (accN_next V c _ h).trans (stepAt_lt V c t _)

theorem acc1_first (c : Dev nD) (t : Fin cfg1.N) (h : t.val % 16 = 0) :
    acc1 V c t = step1 (iblk1 V c 0 t) (iblk1 V c 1 t) (iblk1 V c 2 t) (iblk1 V c 3 t) (iblk1 V c 4 t) (iblk1 V c 5 t) zero1 := (accN_first V c _ h).trans (stepAt_lt V c t _)

theorem acc1_next (c : Dev nD) (t : Fin cfg1.N) (h : ¬t.val % 16 = 0) :
    acc1 V c t = step1 (iblk1 V c 0 t) (iblk1 V c 1 t) (iblk1 V c 2 t) (iblk1 V c 3 t) (iblk1 V c 4 t) (iblk1 V c 5 t) (accN V c (t.val - 1)) := (accN_next V c _ h).trans (stepAt_lt V c t _)

/-! ## The branch conditions and the output window's idle points, decided over the grid -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)
theorem idleAt1_6 : ∀ t : Fin cfg1.N, ¬t.val % 16 = 15 → cfg1.idle 6 (grid1.coords t) = true :=
  (by decide +kernel : ∀ t : Fin grid1.N, ¬t.val % 16 = 15 → cfg1.idle 6 (grid1.coords t) = true)
theorem liveAt1_6 : ∀ t : Fin cfg1.N, t.val % 16 = 15 → cfg1.idle 6 (grid1.coords t) = false :=
  (by decide +kernel : ∀ t : Fin grid1.N, t.val % 16 = 15 → cfg1.idle 6 (grid1.coords t) = false)
theorem noFlush1_6 (t : Fin cfg1.N) (h : ¬t.val % 16 = 15) : (cfg1.win 6).flush t = false :=
  Bool.eq_false_iff.mpr fun hf => h ((flush1_6 t).mp hf)

/-! ## The invariant: the scratch accumulator between points -/

/-- The scratch accumulator, whole. -/
abbrev scM1 : Memref sig .tc .vmem S256x512 .f32 := Memref.whole cc1_scratch0

/-- The scratch before the point at position `n`: at what the point before left, or, where a run begins (and after
    the last point), at anything. -/
def scr1 (c : Dev nD) (n : ℕ) : sProp 𝕄 :=
  if n % 16 = 0 then iprop(∃ d, owns (c : Thread nD τ) scM1 fullShare d) else owns (c : Thread nD τ) scM1 fullShare (accN V c (n - 1))

/-- The invariant before position `n`: the other scoped buffers at anything, the scratch, the generator register. -/
def Phi1 (c : Dev nD) (n : ℕ) : sProp 𝕄 :=
  iprop(Pipeline.scopedRestBut (Ix := Unit) (Name := ℕ) (U := Pipeline.UD sig nD τ) (Lvl := ℕ) (Val := Elt F) spec1 c [cc1_scratch0]
    ∗ scr1 V c n ∗ (∃ r, prngReg c r))

theorem scr1_first (c : Dev nD) (n : ℕ) (h : n % 16 = 0) : scr1 V c n = iprop(∃ d, owns (c : Thread nD τ) scM1 fullShare d) := if_pos h
theorem scr1_next (c : Dev nD) (n : ℕ) (h : ¬n % 16 = 0) : scr1 V c n = owns (c : Thread nD τ) scM1 fullShare (accN V c (n - 1)) := if_neg h

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Phi1 V c t.val
  q := fun w => match w with
    | ⟨0, _⟩ => lh | ⟨1, _⟩ => rh | ⟨2, _⟩ => lh | ⟨3, _⟩ => lh | ⟨4, _⟩ => rh | ⟨5, _⟩ => rh | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem liveAt1_0 : ∀ t : Fin cfg1.N, cfg1.idle 0 (grid1.coords t) = false := fun _ => rfl
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [liveAt1_0 t], after1_0]
theorem liveAt1_1 : ∀ t : Fin cfg1.N, cfg1.idle 1 (grid1.coords t) = false := fun _ => rfl
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [liveAt1_1 t], after1_1]
theorem liveAt1_2 : ∀ t : Fin cfg1.N, cfg1.idle 2 (grid1.coords t) = false := fun _ => rfl
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [liveAt1_2 t], after1_2]
theorem liveAt1_3 : ∀ t : Fin cfg1.N, cfg1.idle 3 (grid1.coords t) = false := fun _ => rfl
theorem leaves1_3 (c : Dev nD) (t : Fin cfg1.N) :
    (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [liveAt1_3 t], after1_3]
theorem liveAt1_4 : ∀ t : Fin cfg1.N, cfg1.idle 4 (grid1.coords t) = false := fun _ => rfl
theorem leaves1_4 (c : Dev nD) (t : Fin cfg1.N) :
    (dat1 V c).leavesExact 4 t = owns (c : Thread nD τ) (st1_4 t) fullShare (iblk1 V c 4 t) := by
  rw [show (dat1 V c).leavesExact 4 t = owns (c : Thread nD τ) (st1_4 t) fullShare ((dat1 V c).after 4 t) from by
    unfold Dat.leavesExact; rw [liveAt1_4 t], after1_4]
theorem liveAt1_5 : ∀ t : Fin cfg1.N, cfg1.idle 5 (grid1.coords t) = false := fun _ => rfl
theorem leaves1_5 (c : Dev nD) (t : Fin cfg1.N) :
    (dat1 V c).leavesExact 5 t = owns (c : Thread nD τ) (st1_5 t) fullShare (iblk1 V c 5 t) := by
  rw [show (dat1 V c).leavesExact 5 t = owns (c : Thread nD τ) (st1_5 t) fullShare ((dat1 V c).after 5 t) from by
    unfold Dat.leavesExact; rw [liveAt1_5 t], after1_5]

theorem leaves1_6_idle (c : Dev nD) (t : Fin cfg1.N) (h : ¬t.val % 16 = 15) :
    (dat1 V c).leavesExact 6 t = iprop(∃ d, owns (c : Thread nD τ) (st1_6 t) fullShare ((dat1 V c).before 6 t d)) :=
  Dat.leavesExact_idle (dat1 V c) 6 t (idleAt1_6 t h) (noFlush1_6 t h)

theorem leaves1_6_live (c : Dev nD) (t : Fin cfg1.N) (h : t.val % 16 = 15) :
    (dat1 V c).leavesExact 6 t = owns (c : Thread nD τ) (st1_6 t) fullShare (out1_6 V c t) := by
  rw [show (dat1 V c).leavesExact 6 t = owns (c : Thread nD τ) (st1_6 t) fullShare ((dat1 V c).after 6 t) from by
    unfold Dat.leavesExact; rw [liveAt1_6 t h], after1_6]

set_option maxHeartbeats 4000000 in
/-- The body at any point. The inputs' buffers hold their blocks; the point's position in its run of sixteen selects the
    case; the invariant hands over the accumulator at what the point before left (at anything where a run begins) and takes
    it back at this point's value (forgotten after the last point of a run); the output buffer passes through untouched
    except at the last point of a run, where it receives the softmax; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [Phi1_succ, Phi1_castSucc, leaves1_0, leaves1_1, leaves1_2, leaves1_3, leaves1_4, leaves1_5]
  unfold Phi1
  have hN : t.val < 96 := lt_of_lt_of_eq t.isLt (show cfg1.N = 96 from N_1)
  by_cases h0 : t.val % 16 = 0
  · have h1 : ¬t.val % 16 = 15 := by omega
    rw [leaves1_6_idle V c t h1, scr1_first V c t.val h0, scr1_next V c (t.val + 1) (by omega), Nat.add_sub_cancel,
      accN_val_first V c t h0]
    iintro ⟨⟨HR, HSc, Hg⟩, Ho, ⟨%d0, H0⟩, ⟨%d1, H1⟩, ⟨%d2, H2⟩, ⟨%d3, H3⟩, ⟨%d4, H4⟩, ⟨%d5, H5⟩, ⟨%d6, H6⟩⟩
    iapply (run1_A c Set.univ (grid1.coords t) _ _ _ _ _ _ _ _ _ _ _ _ _ _ _ _ ((hcond1_0 t).mpr h0) (fun h => h1 ((hcond1_1 t).mp h))
      (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HSc]; · iexact HSc
    iintro ⟨H0, H1, H2, H3, H4, H5, H6, HSc⟩
    isplitl [HR HSc Hg]
    · isplitl [HR]; · iexact HR
      isplitl [HSc]; · iexact HSc
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val % 16 = 15
    · rw [leaves1_6_live V c t h1, scr1_next V c t.val h0, scr1_first V c (t.val + 1) (by omega)]
      unfold out1_6 acc1
      rw [accN_val_next V c t h0]
      iintro ⟨⟨HR, HSc, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ (fun h => h0 ((hcond1_0 t).mp h)) ((hcond1_1 t).mpr h1)
        (iblk1 V c 0 t) (iblk1 V c 1 t) (iblk1 V c 2 t) (iblk1 V c 3 t) (iblk1 V c 4 t) (iblk1 V c 5 t) (accN V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HSc]; · iexact HSc
      iintro ⟨H0, H1, H2, H3, H4, H5, H6, HSc⟩
      isplitl [HR HSc Hg]
      · isplitl [HR]; · iexact HR
        isplitl [HSc]; · iexists _; iexact HSc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves1_6_idle V c t h1, scr1_next V c t.val h0, scr1_next V c (t.val + 1) (by omega), Nat.add_sub_cancel,
        accN_val_next V c t h0]
      iintro ⟨⟨HR, HSc, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) (iblk1 V c 5 t) _ (accN V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HSc]; · iexact HSc
      iintro ⟨H0, H1, H2, H3, H4, H5, H6, HSc⟩
      isplitl [HR HSc Hg]
      · isplitl [HR]; · iexact HR
        isplitl [HSc]; · iexact HSc
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- The scoped rest is the scratch accumulator at anything beside the other scoped buffers. -/
theorem rest1_split (c : Dev nD) :
    (Pipeline.scopedRest (Ix := Unit) (Name := ℕ) (U := Pipeline.UD sig nD τ) (Lvl := ℕ) (Val := Elt F) spec1 c : sProp 𝕄)
      = iprop((∃ d, owns (c : Thread nD τ) scM1 fullShare d)
          ∗ Pipeline.scopedRestBut (Ix := Unit) (Name := ℕ) (U := Pipeline.UD sig nD τ) (Lvl := ℕ) (Val := Elt F) spec1 c [cc1_scratch0]) := by
  rw [Pipeline.scopedRest_split_of_list spec1 c [cc1_scratch0] (by decide) (by decide)]
  simp only [BI.bigSepL_singleton, scM1, owns_whole]; try rfl

/-- Before the first point the accumulator is at anything: what the region is entered with is the invariant. -/
theorem hin1 (c : Dev nD) : iprop((∃ r, prngReg c r) ∗ Pipeline.scopedRest (Ix := Unit) (Name := ℕ) (U := Pipeline.UD sig nD τ) (Lvl := ℕ) (Val := Elt F) spec1 c)
    ⊢ ((dat1 V c).Φ 0 : sProp 𝕄) := by
  rw [show (dat1 V c).Φ 0 = Phi1 V c 0 from rfl]; unfold Phi1
  rw [scr1_first V c 0 rfl, rest1_split]
  iintro ⟨Hg, HS, HR⟩
  isplitl [HR]; · iexact HR
  isplitl [HS]; · iexact HS
  iexact Hg

/-- After the last point (which ends a run) the accumulator is at anything again: the invariant gives the scoped rest back. -/
theorem hout1 (c : Dev nD) : ((dat1 V c).Φ (Fin.last cfg1.N) : sProp 𝕄)
    ⊢ iprop((∃ r, prngReg c r) ∗ Pipeline.scopedRest (Ix := Unit) (Name := ℕ) (U := Pipeline.UD sig nD τ) (Lvl := ℕ) (Val := Elt F) spec1 c) := by
  rw [show (dat1 V c).Φ (Fin.last cfg1.N) = Phi1 V c (Fin.last cfg1.N).val from rfl]; unfold Phi1
  rw [scr1_first V c _ (by rw [Fin.val_last]; have : cfg1.N = 96 := N_1; omega), rest1_split]
  iintro ⟨HR, HS, Hg⟩
  isplitl [Hg]; · iexact Hg
  isplitl [HS]; · iexact HS
  iexact HR

end Cert.KernelIdeal.Hand
end
-- ==== Proof.KI.Reg2.lean ====
import proofs.«100284_j64536178590158_2_alg».proof.Proof.Gen.KernelIdeal.Launch
import proofs.«100284_j64536178590158_2_alg».proof.Proof.Gen.KernelIdeal.Skeleton
import proofs.«100284_j64536178590158_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third launch: the value projection, normalised and rectified, times the attention matrix

One grid point handles one attention `i` and one batch tile `bi`: it reads the value projection's
tile, the channel scale and shift of that projection, and the attention matrix of `i`, and stores
`relu (v * scale + shift) · attnᵀ` in its own tile of the output. Nothing is carried from one point
to the next, so what each output tile holds after the point is a function of the four input blocks
alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched at
    that point or is still there from an earlier one (the block index has not moved since). -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store -/

/-- The whole of a tile of each of the three tile shapes: what each load reads and the store writes. -/
abbrev r2_0 : Rect S1x2048x512 := Rect.unit (s := S1x2048x512) ![0, 0, 0] S1x2048x512.size inb_S1x2048x512_S1x2048x512_0_0_0
abbrev r2_1 : Rect S1x1x512 := Rect.unit (s := S1x1x512) ![0, 0, 0] S1x1x512.size inb_S1x1x512_S1x1x512_0_0_0
abbrev r2_3 : Rect S1x512x512 := Rect.unit (s := S1x512x512) ![0, 0, 0] S1x512x512.size inb_S1x512x512_S1x512x512_0_0_0

/-- What the body leaves in the output tile, from the four input blocks: its one store, of the whole tile. -/
def out2_4 (x0 : Vec F S1x2048x512 .bf16) (x1 x2 : Vec F S1x1x512 .f32) (x3 : Vec F S1x512x512 .bf16) : Vec F S1x2048x512 .f32 :=
  View.canon [⟨r2_0, k2_pay1 (View.ld x0 r2_0) (View.ld x1 r2_1) (View.ld x2 r2_1) (View.ld x3 r2_3)⟩]

/-- The store covers the tile. -/
theorem cover2_4 (p0 : Vec F S1x2048x512 .f32) (y : S1x2048x512.Idx) :
    ∃ pc ∈ ([⟨r2_0, p0⟩] : List (View.Piece (Elt F) S1x2048x512 .f32)), y ∈ pc.1.set :=
  View.cover_of_tiled [⟨r2_0, p0⟩] S1x2048x512.size (by rfl) y

/-! ## The body's triple -/

set_option maxHeartbeats 1000000 in
/-- The body on whole staging memrefs, the inputs' at contents `x0 … x3` and the output's at anything, runs to
    the continuation holding the inputs' as they were and the output's at `out2_4` of them. -/
theorem sound_kernel2 (c : Dev nD) (E : Set ℕ) (i : grid2.Coords)
    (arg2 : Memref sig .tc .vmem S1x2048x512 .bf16) (harg2 : arg2.IsWhole)
    (arg3 : Memref sig .tc .vmem S1x1x512 .f32) (harg3 : arg3.IsWhole)
    (arg4 : Memref sig .tc .vmem S1x1x512 .f32) (harg4 : arg4.IsWhole)
    (arg5 : Memref sig .tc .vmem S1x512x512 .bf16) (harg5 : arg5.IsWhole)
    (arg6 : Memref sig .tc .vmem S1x2048x512 .f32) (harg6 : arg6.IsWhole)
    (x0 : Vec F S1x2048x512 .bf16) (x1 x2 : Vec F S1x1x512 .f32) (x3 : Vec F S1x512x512 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out2_4 x0 x1 x2 x3)) -∗ K ⟨⟩))
      ⊢ wp frame (wpE (defs₀ (F := F)) Variants.none c none) E (cc2__out_kernel i arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The launch's proof data -/

/-- The proof data of the launch on core `c`: the arrays as it finds them; after the body at point `t` each
    input's buffer at its block and the output's at `out2_4` of the input blocks; nothing carried between points,
    nothing owed, full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Run.lean ====
/-
  The idealized kernel's @main from launch to return: three host stretches and three kernel regions, with the
  contents of every unscoped buffer named at each boundary.

  W0 is the launch memory; W1 applies the first host stretch (the table of input choices, the three inputs stacked
  and the weights re-typed, the bias reshaped); W2 replaces region 0's arrays by what its write-backs leave (the nine
  projections and their column sums and sums of squares); W3 applies the second stretch (mean, variance, inverse root,
  the folded scale and shift); W4 puts the attention matrices region 1 leaves; W5 the outputs region 2 leaves; W6
  applies the last stretch (the three results sliced out). Every weakly fair execution terminates with each unscoped
  buffer at W6; no stretch and no region writes an argument.
-/
import proofs.«100284_j64536178590158_2_alg».proof.Proof.KI.Reg0
import proofs.«100284_j64536178590158_2_alg».proof.Proof.KI.Reg0Tbl
import proofs.«100284_j64536178590158_2_alg».proof.Proof.KI.Reg1
import proofs.«100284_j64536178590158_2_alg».proof.Proof.KI.Reg2
import proofs.«100284_j64536178590158_2_alg».proof.Proof.Gen.KernelIdeal.Regions
import Idealize.ShloMosaic.Lib.Pipeline.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
def W1 (c : Dev nD) : Valuation τ sig (Elt F) := StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (F := F) adm0 (V1 m) c).arrAt w (cfg0 (F := F) adm0).N
abbrev V2 : (c : Dev nD) → (b : Ref sig .tc) → Buf (Elt F) ((c : Thread nD τ).loc b) := fun c b => W2 m c b
theorem W2_arr (c : Dev nD) (w : Fin 6) :
    W2 m c (Proc.devRef .tc (Pipeline.arrRef spec0 w)) = (dat0 (F := F) adm0 (V1 m) c).arrAt w (cfg0 (F := F) adm0).N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

def W3 (c : Dev nD) : Valuation τ sig (Elt F) := StableHlo.after hostOps1 (W2 m c)
abbrev V3 : (c : Dev nD) → (b : Ref sig .tc) → Buf (Elt F) ((c : Thread nD τ).loc b) := fun c b => W3 m c b

/-- Region 1 changes one buffer, the attention matrices. -/
def W4 (c : Dev nD) : Valuation τ sig (Elt F) :=
  Function.update (W3 m c) (Proc.devRef .tc main_v22) ((dat1 (V3 m) c).arrAt 6 cfg1.N)
abbrev V4 : (c : Dev nD) → (b : Ref sig .tc) → Buf (Elt F) ((c : Thread nD τ).loc b) := fun c b => W4 m c b

def W5 (c : Dev nD) : Valuation τ sig (Elt F) :=
  Pipeline.withArrays spec2 c (W4 m c) fun w => (dat2 (V4 m) c).arrAt w cfg2.N
abbrev V5 : (c : Dev nD) → (b : Ref sig .tc) → Buf (Elt F) ((c : Thread nD τ).loc b) := fun c b => W5 m c b
theorem W5_arr (c : Dev nD) (w : Fin 5) :
    W5 m c (Proc.devRef .tc (Pipeline.arrRef spec2 w)) = (dat2 (V4 m) c).arrAt w cfg2.N := by
  unfold W5; exact Pipeline.withArrays_arr spec2 winFacts2.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

def W6 (c : Dev nD) : Valuation τ sig (Elt F) := StableHlo.after hostOps3 (W5 m c)

/-! ## No host stretch and no region writes an argument -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v22) : W4 m c r = W3 m c r := by
  unfold W4; exact Function.update_of_ne (StableHlo.devRef_ne_of_ne h) ..
theorem W4_v22 (c : Dev nD) : W4 m c main_v22 = (dat1 (V3 m) c).arrAt 6 cfg1.N := by
  unfold W4; exact Function.update_self ..
theorem W6_of (c : Dev nD) (r : Ref sig .tc) (h : r ∉ hostOps3_W) : W6 m c r = W5 m c r :=
  StableHlo.after_of_writes_sub hostOps3 _ hostOps3_writes h

/-- A buffer no stretch writes and no region has among its arrays ends as launched. -/
theorem W6_launch (c : Dev nD) (r : Ref sig .tc) (h0 : r ∉ hostOps0_W) (h1 : r ∉ hostOps1_W) (h3 : r ∉ hostOps3_W)
    (ha0 : ∀ w, Pipeline.arrRef spec0 w ≠ r) (h22 : r ≠ main_v22) (ha2 : ∀ w, Pipeline.arrRef spec2 w ≠ r) :
    W6 m c r = m ((c : Thread nD τ).loc r) :=
  (W6_of m c r h3).trans <| (W5_of_ne m c r ha2).trans <| (W4_of m c r h22).trans <| (W3_of m c r h1).trans <|
    (W2_of_ne m c r ha0).trans <| (W1_of m c r h0).trans rfl

/-! ## The tables' contents, the proof data family, the thread state -/

/-- Region 0 is pinned at the table the first stretch writes; the other two pipelines prefetch nothing. -/
def adm : (p : Fin 3) → (pcfgs (F := F) p).Adm
  | ⟨0, _⟩ => adm0
  | ⟨1, _⟩ => cfg1.toPCfg_adm
  | ⟨2, _⟩ => cfg2.toPCfg_adm
  | ⟨_ + 3, h⟩ => absurd h (Nat.not_lt.2 (Nat.le_add_left _ _))

/-- Every pipeline's proof data at its region's entry contents. -/
def pdats : (p : Fin 3) → (c : Dev nD) → Dat τ (Elt F) Unit ℕ (Pipeline.UD sig nD τ) ℕ (Pipeline.pin (pcfgs (F := F)) adm p) c
  | ⟨0, _⟩ => fun c => dat0 adm0 (V1 m) c
  | ⟨1, _⟩ => fun c => dat1 (V3 m) c
  | ⟨2, _⟩ => fun c => dat2 (V4 m) c
  | ⟨_ + 3, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m c) ∗ ∃ r, prngReg c r)

/-- The table as the launch reads it off the first stretch's contents is the pinned one. -/
theorem tbl_V1 (c : Dev nD) : (fun k => V1 m c (pre0.ref k)) = (adm0 (F := F)).1 :=
  tbl_of_V (V1 m) c (by dsimp only [V1, W1, hostOps0]; after_results; rfl)

/-! ## The regions as segments -/

theorem hF0 (c : Dev nD) (w : Fin 6) : (dat0 (F := F) adm0 (V1 m) c).arrAt w (cfg0 (F := F) adm0).N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin 5) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

set_option backward.isDefEq.respectTransparency.types false in
/-- REGION 2: entered from every unscoped buffer at W4, left at W5. -/
def reg2 : Pipeline.RegionSeg (pcfgs (F := F)) adm (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (F := F) (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m c)
  hentry c := by
    rw [Pipeline.ownSems0_none]
    have hsplit := Pipeline.arrays_of_unscopedBufs (p := 2) (pcfgs (F := F)) adm (pdats m) (launch2 (F := F)).win (launch2 (F := F)).arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      (launch2 (F := F)).win (launch2 (F := F)).arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 0: entered from every unscoped buffer at W1, left at W2. The table is split out of the unscoped rest, held
    by the pipeline at the pinned contents, and put back. -/
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (F := F) adm0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop((∃ r, prngReg c r) ∗ Pipeline.prefHeld (Ix := Unit) (Name := ℕ) (U := Pipeline.UD sig nD τ) (Lvl := ℕ) pre0 c (fun _ => fullShare) (adm0 (F := F)).1)
  Z c := Pipeline.unscopedRestP (Ix := Unit) (Name := ℕ) (U := Pipeline.UD sig nD τ) (Lvl := ℕ) pre0 spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (V1 m c) fun _ => rfl
    rw [Pipeline.unscopedBufs_held] at hsplit
    have hsplit' : StableHlo.held (c : Thread nD τ) (Pipeline.ucRefs τ sig) (W1 m c)
        ⊢ (iprop((pdats m 0 c).arrays ((pdats m 0 c).arrAt · 0) ∗ Pipeline.unscopedRest (Ix := Unit) (Name := ℕ) (U := Pipeline.UD sig nD τ) (Lvl := ℕ) spec0 c (V1 m c)) : sProp 𝕄) := hsplit
    rw [Pipeline.unscopedRest_split preFacts0 c (V1 m c), tbl_V1 m c] at hsplit'
    iintro ⟨⟨Hub, Hp, HO⟩, -, -⟩
    ihave H := hsplit' $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (F := F) adm0 (V1 m) c
  hout c := by
    rw [Pipeline.ownSems0_none]
    refine (hout0 (F := F) adm0 (V1 m) c).trans ?_
    iintro ⟨HY, Hr⟩
    isplitl [HY]; · iexact HY
    isplitr; · iempintro
    iexact Hr
  hexit c := by
    have hjoin := Pipeline.unscopedBufs_of_arrays (p := 0) (pcfgs (F := F)) adm (Ix := Unit) (Name := ℕ) (U := Pipeline.UD sig nD τ) (Lvl := ℕ)
      (launch0 (F := F)).win (launch0 (F := F)).arr_whole c (pdats m) ((pdats m 0 c).share_full fun _ => rfl)
      (V1 m c) (V2 m c) ((pdats m 0 c).arrAt · (cfg0 (F := F) adm0).N) (hF0 m c) (hrest0 m c)
    rw [Pipeline.unscopedBufs_held] at hjoin
    have hjoin' : (iprop((pdats m 0 c).arrays ((pdats m 0 c).arrAt · (cfg0 (F := F) adm0).N) ∗ Pipeline.unscopedRest (Ix := Unit) (Name := ℕ) (U := Pipeline.UD sig nD τ) (Lvl := ℕ) spec0 c (V1 m c)) : sProp 𝕄)
        ⊢ StableHlo.held (c : Thread nD τ) (Pipeline.ucRefs τ sig) (W2 m c) := hjoin
    rw [Pipeline.unscopedRest_split preFacts0 c (V1 m c), tbl_V1 m c] at hjoin'
    iintro ⟨Ha, HO, ⟨HY, Hpf⟩, Hrest⟩
    imodintro
    isplitl [Ha Hpf Hrest]
    · iapply hjoin'
      isplitl [Ha]; · iexact Ha
      isplitl [Hpf]; · iexact Hpf
      iexact Hrest
    isplitl [HY]; · iexact HY
    unfold Pipeline.Dat.owesAt Pipeline.owesWithin
    icases HO with ⟨%W, -, HO⟩; iexists W; iexact HO

/-! ## Region 1: three arrays are each read through two windows, so each is dealt in halves -/

theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The four buffers behind region 1's seven windows, listed. -/
theorem arrBufs1_eq (c : Dev nD) (V : (b : Ref sig .tc) → Buf (Elt F) ((c : Thread nD τ).loc b)) :
    (Pipeline.arrBufs spec1 c V : sProp 𝕄)
      = iprop((((c : Thread nD τ).loc main_v7_0) ↦{fullShare} V main_v7_0) ∗ (((c : Thread nD τ).loc main_v19) ↦{fullShare} V main_v19)
          ∗ (((c : Thread nD τ).loc main_v21) ↦{fullShare} V main_v21) ∗ (((c : Thread nD τ).loc main_v22) ↦{fullShare} V main_v22)) := by
  unfold Pipeline.arrBufs
  rw [BI.bigSep_eq_bigSepL_of_eq [main_v7_0, main_v19, main_v21, main_v22] (by decide) (by decide)]; rfl

/-- Region 1's arrays, window by window: the projections through windows 0 and 1, the scale through 2 and 4, the shift
    through 3 and 5, each pair at the two halves; the attention matrices through window 6 at the full share. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 (F := F) V c).arrays Fa : sProp 𝕄)
      = iprop((((c : Thread nD τ).loc main_v7_0) ↦{lh} Fa 0) ∗ (((c : Thread nD τ).loc main_v7_0) ↦{rh} Fa 1)
          ∗ (((c : Thread nD τ).loc main_v19) ↦{lh} Fa 2) ∗ (((c : Thread nD τ).loc main_v21) ↦{lh} Fa 3)
          ∗ (((c : Thread nD τ).loc main_v19) ↦{rh} Fa 4) ∗ (((c : Thread nD τ).loc main_v21) ↦{rh} Fa 5)
          ∗ (((c : Thread nD τ).loc main_v22) ↦{fullShare} Fa 6)) := by
  unfold Pipeline.Dat.arrays
  rw [bigSep_W1]
  rw [(arr_whole1 0).set_eq_univ, (arr_whole1 2).set_eq_univ, (arr_whole1 3).set_eq_univ, (arr_whole1 6).set_eq_univ]
  rfl

/-- Region 1 leaves every buffer but the attention matrices as it found it. -/
theorem rest1_eq (c : Dev nD) : (Pipeline.unscopedRest (Ix := Unit) (Name := ℕ) (U := Pipeline.UD sig nD τ) (Lvl := ℕ) spec1 c (V4 m c) : sProp 𝕄)
    = Pipeline.unscopedRest spec1 c (V3 m c) := by
  unfold Pipeline.unscopedRest
  refine bigSep_congr fun b hb => ?_
  have hne : b ≠ main_v22 := fun e => (Finset.mem_sdiff.mp hb).2 (e ▸ Finset.mem_image.mpr ⟨6, Finset.mem_univ _, rfl⟩)
  rw [show V4 m c b = V3 m c b from W4_of m c b hne]

theorem held3_eq (c : Dev nD) : (StableHlo.held (c : Thread nD τ) (Pipeline.ucRefs τ sig) (W3 m c) : sProp 𝕄)
    = iprop(((((c : Thread nD τ).loc main_v7_0) ↦{fullShare} V3 m c main_v7_0) ∗ (((c : Thread nD τ).loc main_v19) ↦{fullShare} V3 m c main_v19)
          ∗ (((c : Thread nD τ).loc main_v21) ↦{fullShare} V3 m c main_v21) ∗ (((c : Thread nD τ).loc main_v22) ↦{fullShare} V3 m c main_v22))
        ∗ Pipeline.unscopedRest spec1 c (V3 m c)) := by
  rw [← Pipeline.unscopedBufs_held c (W3 m c)]
  exact (split1 c (V3 m c)).trans (by rw [arrBufs1_eq])

theorem held4_eq (c : Dev nD) : (StableHlo.held (c : Thread nD τ) (Pipeline.ucRefs τ sig) (W4 m c) : sProp 𝕄)
    = iprop(((((c : Thread nD τ).loc main_v7_0) ↦{fullShare} V3 m c main_v7_0) ∗ (((c : Thread nD τ).loc main_v19) ↦{fullShare} V3 m c main_v19)
          ∗ (((c : Thread nD τ).loc main_v21) ↦{fullShare} V3 m c main_v21) ∗ (((c : Thread nD τ).loc main_v22) ↦{fullShare} (dat1 (F := F) (V3 m) c).arrAt 6 cfg1.N))
        ∗ Pipeline.unscopedRest spec1 c (V3 m c)) := by
  rw [← Pipeline.unscopedBufs_held c (W4 m c)]
  refine (split1 c (V4 m c)).trans ?_
  rw [arrBufs1_eq, rest1_eq,
    show V4 m c main_v7_0 = V3 m c main_v7_0 from W4_of m c main_v7_0 (by decide),
    show V4 m c main_v19 = V3 m c main_v19 from W4_of m c main_v19 (by decide),
    show V4 m c main_v21 = V3 m c main_v21 from W4_of m c main_v21 (by decide),
    show V4 m c main_v22 = (dat1 (F := F) (V3 m) c).arrAt 6 cfg1.N from W4_v22 m c]

/-- Region 1's arrays when it is entered: the buffers' contents at W3, dealt. -/
theorem arrays1_entry (c : Dev nD) :
    ((dat1 (F := F) (V3 m) c).arrays (fun w => (dat1 (F := F) (V3 m) c).arrAt w 0) : sProp 𝕄)
      = iprop((((c : Thread nD τ).loc main_v7_0) ↦{lh} V3 m c main_v7_0) ∗ (((c : Thread nD τ).loc main_v7_0) ↦{rh} V3 m c main_v7_0)
          ∗ (((c : Thread nD τ).loc main_v19) ↦{lh} V3 m c main_v19) ∗ (((c : Thread nD τ).loc main_v21) ↦{lh} V3 m c main_v21)
          ∗ (((c : Thread nD τ).loc main_v19) ↦{rh} V3 m c main_v19) ∗ (((c : Thread nD τ).loc main_v21) ↦{rh} V3 m c main_v21)
          ∗ (((c : Thread nD τ).loc main_v22) ↦{fullShare} V3 m c main_v22)) :=
  arrays1_eq (V3 m) c _

/-- Region 1's arrays when it is left: the six input windows' as entered, the attention matrices as written back. -/
theorem arrays1_exit (c : Dev nD) :
    ((dat1 (F := F) (V3 m) c).arrays (fun w => (dat1 (F := F) (V3 m) c).arrAt w cfg1.N) : sProp 𝕄)
      = iprop((((c : Thread nD τ).loc main_v7_0) ↦{lh} V3 m c main_v7_0) ∗ (((c : Thread nD τ).loc main_v7_0) ↦{rh} V3 m c main_v7_0)
          ∗ (((c : Thread nD τ).loc main_v19) ↦{lh} V3 m c main_v19) ∗ (((c : Thread nD τ).loc main_v21) ↦{lh} V3 m c main_v21)
          ∗ (((c : Thread nD τ).loc main_v19) ↦{rh} V3 m c main_v19) ∗ (((c : Thread nD τ).loc main_v21) ↦{rh} V3 m c main_v21)
          ∗ (((c : Thread nD τ).loc main_v22) ↦{fullShare} (dat1 (F := F) (V3 m) c).arrAt 6 cfg1.N)) := by
  rw [arrays1_eq (V3 m) c _,
    show (dat1 (F := F) (V3 m) c).arrAt 0 cfg1.N = V3 m c main_v7_0 from (dat1 (F := F) (V3 m) c).arrAt_in 0 rfl _,
    show (dat1 (F := F) (V3 m) c).arrAt 1 cfg1.N = V3 m c main_v7_0 from (dat1 (F := F) (V3 m) c).arrAt_in 1 rfl _,
    show (dat1 (F := F) (V3 m) c).arrAt 2 cfg1.N = V3 m c main_v19 from (dat1 (F := F) (V3 m) c).arrAt_in 2 rfl _,
    show (dat1 (F := F) (V3 m) c).arrAt 3 cfg1.N = V3 m c main_v21 from (dat1 (F := F) (V3 m) c).arrAt_in 3 rfl _,
    show (dat1 (F := F) (V3 m) c).arrAt 4 cfg1.N = V3 m c main_v19 from (dat1 (F := F) (V3 m) c).arrAt_in 4 rfl _,
    show (dat1 (F := F) (V3 m) c).arrAt 5 cfg1.N = V3 m c main_v21 from (dat1 (F := F) (V3 m) c).arrAt_in 5 rfl _]

set_option maxHeartbeats 1000000 in
set_option backward.isDefEq.respectTransparency.types false in
/-- REGION 1: entered from every unscoped buffer at W3, left at W4. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (F := F) (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none, held3_eq,
      show ((pdats m 1 c).arrays fun w => (pdats m 1 c).arrAt w 0) = _ from arrays1_entry m c]
    iintro ⟨⟨⟨⟨H0, H19, H21, H22⟩, Hrest⟩, Hp, HO⟩, -, -⟩
    ihave Ha := (pointsTo_share (PosShare.mem_left_op_right fullShare)).1 $$ H0
    icases Ha with ⟨H0l, H0r⟩
    ihave Hb := (pointsTo_share (PosShare.mem_left_op_right fullShare)).1 $$ H19
    icases Hb with ⟨H19l, H19r⟩
    ihave Hc := (pointsTo_share (PosShare.mem_left_op_right fullShare)).1 $$ H21
    icases Hc with ⟨H21l, H21r⟩
    imodintro
    isplitl [H0l H0r H19l H19r H21l H21r H22]
    · isplitl [H0l]; · iexact H0l
      isplitl [H0r]; · iexact H0r
      isplitl [H19l]; · iexact H19l
      isplitl [H21l]; · iexact H21l
      isplitl [H19r]; · iexact H19r
      isplitl [H21r]; · iexact H21r
      iexact H22
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (F := F) (V3 m) c)
    iintro ⟨Hp, -, Hr⟩
    isplitl [Hp]; · iexact Hp
    iexact Hr
  hout c := by
    rw [Pipeline.ownSems0_none]
    refine (hout1 (F := F) (V3 m) c).trans ?_
    iintro ⟨HY, Hr⟩
    isplitl [HY]; · iexact HY
    isplitr; · iempintro
    iexact Hr
  hexit c := by
    rw [held4_eq, show ((pdats m 1 c).arrays fun w => (pdats m 1 c).arrAt w (Pipeline.pin (pcfgs (F := F)) adm 1).N) = _ from arrays1_exit m c]
    iintro ⟨⟨H0l, H0r, H19l, H21l, H19r, H21r, H22⟩, HO, HY, Hrest⟩
    ihave H0 := (pointsTo_share (PosShare.mem_left_op_right fullShare)).2 $$ [H0l H0r]
    · isplitl [H0l]; · iexact H0l
      iexact H0r
    ihave H19 := (pointsTo_share (PosShare.mem_left_op_right fullShare)).2 $$ [H19l H19r]
    · isplitl [H19l]; · iexact H19l
      iexact H19r
    ihave H21 := (pointsTo_share (PosShare.mem_left_op_right fullShare)).2 $$ [H21l H21r]
    · isplitl [H21l]; · iexact H21l
      iexact H21r
    imodintro
    isplitl [H0 H19 H21 H22 Hrest]
    · isplitl [H0 H19 H21 H22]
      · isplitl [H0]; · iexact H0
        isplitl [H19]; · iexact H19
        isplitl [H21]; · iexact H21
        iexact H22
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]

theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer of every core at the last boundary's contents W6. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () (cellOf_inj adm) embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) adm) (cellOf_inj adm)) (Pipeline.launchToks (Pipeline.pin (pcfgs (F := F)) adm) (cellOf_inj adm)), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the run says of the arguments and of the three results -/

theorem W6_arg0 (c : Dev nD) : W6 m c main_arg0 = m ((c : Thread nD τ).loc main_arg0) := W6_launch m c main_arg0 (by decide) (by decide) (by decide) (by decide) (by decide) (by decide)
theorem W6_arg1 (c : Dev nD) : W6 m c main_arg1 = m ((c : Thread nD τ).loc main_arg1) := W6_launch m c main_arg1 (by decide) (by decide) (by decide) (by decide) (by decide) (by decide)
theorem W6_arg2 (c : Dev nD) : W6 m c main_arg2 = m ((c : Thread nD τ).loc main_arg2) := W6_launch m c main_arg2 (by decide) (by decide) (by decide) (by decide) (by decide) (by decide)
theorem W6_arg3 (c : Dev nD) : W6 m c main_arg3 = m ((c : Thread nD τ).loc main_arg3) := W6_launch m c main_arg3 (by decide) (by decide) (by decide) (by decide) (by decide) (by decide)
theorem W6_arg4 (c : Dev nD) : W6 m c main_arg4 = m ((c : Thread nD τ).loc main_arg4) := W6_launch m c main_arg4 (by decide) (by decide) (by decide) (by decide) (by decide) (by decide)
theorem W6_arg5 (c : Dev nD) : W6 m c main_arg5 = m ((c : Thread nD τ).loc main_arg5) := W6_launch m c main_arg5 (by decide) (by decide) (by decide) (by decide) (by decide) (by decide)
theorem W6_arg6 (c : Dev nD) : W6 m c main_arg6 = m ((c : Thread nD τ).loc main_arg6) := W6_launch m c main_arg6 (by decide) (by decide) (by decide) (by decide) (by decide) (by decide)

/-- The run with the three results named and the seven arguments as launched. -/
theorem run_results : θ_run defs (onTc (τ := τ) (main (F := F))) ⟨m, fun _ => 0, ρ⟩ (fun r => ∀ c : Dev nD,
      r.2.mem ((c.tc : Thread nD τ).loc main_v25) = W6 m c main_v25
      ∧ r.2.mem ((c.tc : Thread nD τ).loc main_v27) = W6 m c main_v27
      ∧ r.2.mem ((c.tc : Thread nD τ).loc main_v29) = W6 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v25 (by decide)), h c _ (mem_uc main_v27 (by decide)), h c _ (mem_uc main_v29 (by decide)),
      (h c _ (mem_uc main_arg0 (by decide))).trans (W6_arg0 m c), (h c _ (mem_uc main_arg1 (by decide))).trans (W6_arg1 m c),
      (h c _ (mem_uc main_arg2 (by decide))).trans (W6_arg2 m c), (h c _ (mem_uc main_arg3 (by decide))).trans (W6_arg3 m c),
      (h c _ (mem_uc main_arg4 (by decide))).trans (W6_arg4 m c), (h c _ (mem_uc main_arg5 (by decide))).trans (W6_arg5 m c),
      (h c _ (mem_uc main_arg6 (by decide))).trans (W6_arg6 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2.2) (run_results m ρ)

end Cert.KernelIdeal.Hand

end
-- ==== Proof.Spec.lean ====
/-
  The mathematics of the layer, index by index, on the extended reals — with no program in sight.

  Nine projections  h_j = x_{σ j} · W_jᵀ + b_j  (σ = [0,1,1,1,2,2,2,0,0] says which of the three inputs feeds row j),
  their column sums s_j and sums of squares q_j over the 32768 rows, batch normalisation in two spellings (from the
  running sums; with the two-pass variance), ReLU, and for each of three attentions g (query 3g, key 3g+1, value 3g+2):
  logits = Qᵀ K scaled, a row softmax, and V · attnᵀ.
-/
import Idealize.ShloMosaic.PureOps.Ideal
import Idealize.ShloMosaic.Lib.ValueIdx

noncomputable section

namespace Cert.Spec

open Idealize.ShloMosaic Idealize.ShloMosaic.ValueIdx
open scoped BigOperators

/-- Arrays as functions of their index. -/
abbrev A2 (n0 n1 : Nat) : Type := (⟨2, ![n0, n1]⟩ : Shape).Idx → EReal
abbrev A3 (n0 n1 n2 : Nat) : Type := (⟨3, ![n0, n1, n2]⟩ : Shape).Idx → EReal

/-- Which input (cx, gx, wx) feeds projection row `j`. -/
def sel : Fin 9 → Fin 3 := ![0, 1, 1, 1, 2, 2, 2, 0, 0]

/-- The query, key and value rows of attention `g`. -/
def qrow (g : Fin 3) : Fin 9 := ⟨3 * g.val, by omega⟩
def krow (g : Fin 3) : Fin 9 := ⟨3 * g.val + 1, by omega⟩
def vrow (g : Fin 3) : Fin 9 := ⟨3 * g.val + 2, by omega⟩

/-! ## The projections and their statistics (the three inputs stacked as `xs`) -/

/-- `h_j[b, o] = (∑_d xs[σ j, b, d] · W[j, o, d]) + bias[j, o]`. -/
def H (xs : A3 3 32768 1024) (Ws : A3 9 512 1024) (bias : A2 9 512) (j : Fin 9) (b : Fin 32768) (o : Fin 512) : EReal :=
  (∑ d : Fin 1024, xs (ix3 (sel j) b d) * Ws (ix3 j o d)) + bias (ix2 j o)

/-- Column sums and sums of squares of an array of nine [32768, 512] slabs. -/
def colSum (h : Fin 9 → Fin 32768 → Fin 512 → EReal) (j : Fin 9) (o : Fin 512) : EReal := ∑ b : Fin 32768, h j b o
def colSq (h : Fin 9 → Fin 32768 → Fin 512 → EReal) (j : Fin 9) (o : Fin 512) : EReal := ∑ b : Fin 32768, h j b o * h j b o

/-! ## Batch normalisation, two spellings (`n` the batch size, `ε` the variance floor, as extended reals) -/

/-- From the running sums: mean, variance as mean of squares less squared mean, folded scale and shift. -/
def meanK (n : EReal) (s : EReal) : EReal := Ideal.div s n
def varK (n : EReal) (s q : EReal) : EReal := Ideal.div q n - meanK n s * meanK n s
def scaleK (n ε : EReal) (s q γ : EReal) : EReal := γ * Ideal.rsqrt (varK n s q + ε)
def shiftK (n ε : EReal) (s q γ β : EReal) : EReal := β - meanK n s * scaleK n ε s q γ
/-- The normalised, rectified activation in the folded spelling. -/
def actK (x scale shift : EReal) : EReal := max (x * scale + shift) 0

/-- Two-pass: the variance as the mean of squared deviations; normalise, scale, shift, rectify. -/
def varR (n : EReal) (h : Fin 32768 → EReal) : EReal :=
  Ideal.div (∑ b : Fin 32768, (h b - Ideal.div (∑ b : Fin 32768, h b) n) * (h b - Ideal.div (∑ b : Fin 32768, h b) n)) n
def actR (n ε : EReal) (h : Fin 32768 → EReal) (γ β : EReal) (b : Fin 32768) : EReal :=
  max (((h b - Ideal.div (∑ b : Fin 32768, h b) n) * Ideal.rsqrt (varR n h + ε)) * γ + β) 0

/-! ## One attention, from its three activations (each [32768, 512]) -/

/-- `logits[o₁, o₂] = ∑_b Q[b, o₁] · K[b, o₂]`, before scaling. -/
def qk (Q K : Fin 32768 → Fin 512 → EReal) (o₁ o₂ : Fin 512) : EReal := ∑ b : Fin 32768, Q b o₁ * K b o₂

/-- Row softmax of a [512, 512] matrix: subtract the row maximum, exponentiate, divide by the row sum. -/
def rowMax (L : Fin 512 → Fin 512 → EReal) (o₁ : Fin 512) : EReal := Finset.univ.sup (L o₁)
def softmax (L : Fin 512 → Fin 512 → EReal) (o₁ o₂ : Fin 512) : EReal :=
  Ideal.div (Ideal.exp (L o₁ o₂ - rowMax L o₁)) (∑ k : Fin 512, Ideal.exp (L o₁ k - rowMax L o₁))

/-- `out[b, o] = ∑_k V[b, k] · attn[o, k]`. -/
def av (V : Fin 32768 → Fin 512 → EReal) (attn : Fin 512 → Fin 512 → EReal) (b : Fin 32768) (o : Fin 512) : EReal :=
  ∑ k : Fin 512, V b k * attn o k

end Cert.Spec

end
-- ==== Proof.KI.Reg0TblSel.lean ====
import proofs.«100284_j64536178590158_2_alg».proof.Proof.KI.Reg0Tbl
import proofs.«100284_j64536178590158_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The literal table against the selection of inputs: projection `j` reads input `sel j` -/

/-- The table's word at the point's projection coordinate is the input the mathematics selects for that projection
    (decided over the grid's 288 points). -/
theorem lit0_at : ∀ (t : Fin grid0.N) (j : Fin 9), t.val / 32 = j.val →
    (lit0 (S9.rowMajor ((Rect.unit (s := S9) ![(Scalar.indexCast (BitVec.ofNat 32 ((grid0.coords t) 0).val)).toNat] S1.size (k0_off1_inb (grid0.coords t))).emb (Shape.Idx.first (numel1_S1.symm ▸ Nat.one_pos))))).toNat = (Cert.Spec.sel j).val := by
  decide +kernel

set_option maxHeartbeats 400000 in
/-- At the literal table, window 0's leading block index at a point of projection `j` is `sel j`. -/
theorem htbl_adm0 : ∀ (t : Fin (cfg0 (adm0 (F := F))).N) (j : Fin 9), t.val / 32 = j.val →
    ((cfg0 (adm0 (F := F))).win 0).index t (0 : Fin 3) = (Cert.Spec.sel j).val :=
  fun t j h => lit0_at t j h

end Cert.KernelIdeal.Hand

end
-- ==== Proof.KI.Val0Pay.lean ====
import proofs.«100284_j64536178590158_2_alg».proof.Proof.KI.Reg0Dat
import proofs.«100284_j64536178590158_2_alg».proof.Proof.Spec
import Idealize.ShloMosaic.Lib.Pipeline.Value
import Idealize.ShloMosaic.Lib.ValueLayout
import Idealize.ShloMosaic.Lib.ValueIdx
import Idealize.ShloMosaic.PureOps.Ideal.Laws

/-! # The first launch: what one grid point leaves, and its tile at an index

Each point stores the projection tile `x · Wᵀ + b` of its 1024 rows, and adds the tile's column sums, and the column
sums of its squares, to the two running statistics (zeroed first at a projection's first row tile). -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.ShloMosaic.Tactic
open Idealize.ShloMosaic.Pipeline (Dat)
open scoped BigOperators

/-! ## What one point leaves in the three output buffers -/

theorem hz3_0 : (![0, 0, 0] : Fin 3 → Nat) = fun _ => 0 := funext fun a => by fin_cases a <;> rfl

section
variable {F : FTy → Type} [FloatOps F]

/-- A later row tile leaves the projection tile, and each running statistic plus this tile's column sums. -/
theorem out0_B_eq (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : ¬isFirst i) (x0 : Vec F S1x1024x1024 .bf16) (x1 : Vec F S1x512x1024 .bf16) (x2 : Vec F S1x1x512 .f32) (xo4 xo5 : Vec F S1x1x512 .f32) :
    out0_B c i arg2 harg2 arg3 harg3 arg4 harg4 arg5 harg5 arg6 harg6 arg7 harg7 arg8 harg8 hc0 x0 x1 x2 xo4 xo5
      = (k0_pay1 (k0_pay4 x0 x1 x2), k0_pay5 x0 x1 x2 xo4, k0_pay6 x0 x1 x2 xo5) := by
  unfold out0_B
  rw [View.read_writes_eq_canon _ _ _ (cover0_B_3 c i arg2 harg2 arg3 harg3 arg4 harg4 arg5 harg5 arg6 harg6 arg7 harg7 arg8 harg8 hc0 x0 x1 x2 xo4 xo5),
    View.read_writes_eq_canon _ _ _ (cover0_B_4 c i arg2 harg2 arg3 harg3 arg4 harg4 arg5 harg5 arg6 harg6 arg7 harg7 arg8 harg8 hc0 x0 x1 x2 xo4 xo5),
    View.read_writes_eq_canon _ _ _ (cover0_B_5 c i arg2 harg2 arg3 harg3 arg4 harg4 arg5 harg5 arg6 harg6 arg7 harg7 arg8 harg8 hc0 x0 x1 x2 xo4 xo5)]
  unfold kernelRun0_B
  dsimp only
  sl_unfold_words
  rw [View.canon_unit_zero (S := S1x1024x512) hz3_0, View.canon_unit_zero (S := S1x1x512) hz3_0,
    View.canon_unit_zero (S := S1x1x512) hz3_0]
  simp only [View.readAt_eq_ld, harg3.read_unread, harg4.read_unread, harg5.read_unread,
    harg7.read_unread, harg8.read_unread, View.ld_unit_zero (S := S1x1024x1024) hz3_0,
    View.ld_unit_zero (S := S1x512x1024) hz3_0, View.ld_unit_zero (S := S1x1x512) hz3_0, shapeCast_self]

/-- A first row tile leaves the projection tile, and this tile's column sums added to the zeros it has just stored. -/
theorem out0_A_eq (c : Dev nD) (i : grid0.Coords) (arg2 : Memref sig .tc .smem S9 .i32) (harg2 : arg2.IsWhole) (arg3 : Memref sig .tc .vmem S1x1024x1024 .bf16) (harg3 : arg3.IsWhole) (arg4 : Memref sig .tc .vmem S1x512x1024 .bf16) (harg4 : arg4.IsWhole) (arg5 : Memref sig .tc .vmem S1x1x512 .f32) (harg5 : arg5.IsWhole) (arg6 : Memref sig .tc .vmem S1x1024x512 .bf16) (harg6 : arg6.IsWhole) (arg7 : Memref sig .tc .vmem S1x1x512 .f32) (harg7 : arg7.IsWhole) (arg8 : Memref sig .tc .vmem S1x1x512 .f32) (harg8 : arg8.IsWhole) (hc0 : isFirst i) (x0 : Vec F S1x1024x1024 .bf16) (x1 : Vec F S1x512x1024 .bf16) (x2 : Vec F S1x1x512 .f32) :
    out0_A c i arg2 harg2 arg3 harg3 arg4 harg4 arg5 harg5 arg6 harg6 arg7 harg7 arg8 harg8 hc0 x0 x1 x2
      = (k0_pay1 (k0_pay4 x0 x1 x2), k0_pay5 x0 x1 x2 k0_pay2, k0_pay6 x0 x1 x2 k0_pay3) := by
  unfold out0_A
  rw [View.read_writes_eq_canon _ _ _ (cover0_A_3 c i arg2 harg2 arg3 harg3 arg4 harg4 arg5 harg5 arg6 harg6 arg7 harg7 arg8 harg8 hc0 x0 x1 x2),
    View.read_writes_eq_canon _ _ _ (cover0_A_4 c i arg2 harg2 arg3 harg3 arg4 harg4 arg5 harg5 arg6 harg6 arg7 harg7 arg8 harg8 hc0 x0 x1 x2),
    View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_unit_zero (S := S1x1024x512) hz3_0, View.canon_cons_unit_zero (S := S1x1x512) hz3_0,
    View.canon_cons_unit_zero (S := S1x1x512) hz3_0, View.readCov_unit_zero (S := S1x1x512) _ hz3_0,
    View.readCov_unit_zero (S := S1x1x512) _ hz3_0]
  simp only [View.readAt_eq_ld, harg3.read_unread, harg4.read_unread, harg5.read_unread,
    View.ld_unit_zero (S := S1x1024x1024) hz3_0, View.ld_unit_zero (S := S1x512x1024) hz3_0,
    View.ld_unit_zero (S := S1x1x512) hz3_0, shapeCast_self]
end

/-! ## One tile at an index (at the ideal values) -/

local notation "dotXW" => dot_S1024x1024_S512x1024_S1024x512_1_1_0_0_n_n

/-- A column index of a matrix with the row put back. -/
theorem lift0_rows {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The projection tile at (r, o): the row of the input tile against the row of the weights, plus the bias. -/
theorem pay0_4_apply (x0 : Vec Ideal S1x1024x1024 .bf16) (x1 : Vec Ideal S1x512x1024 .bf16) (x2 : Vec Ideal S1x1x512 .f32)
    (r : Fin 1024) (o : Fin 512) :
    k0_pay4 x0 x1 x2 (ix2 r o)
      = (∑ d : Fin 1024, x0 (ix3 (0 : Fin 1) r d) * x1 (ix3 (0 : Fin 1) o d)) + x2 (ix3 (0 : Fin 1) (0 : Fin 1) o) := by
  unfold k0_pay4
  rw [addf_apply]
  simp only [matmul]
  rw [Ideal.matmul_constant_zero_apply, ← Equiv.sum_comp (contrEquiv1 dotXW 1024 rfl rfl).symm,
    broadcastTo_1b_ab_apply, shapeCast_1ab_ab_apply]
  refine congrArg (fun z => z + x2 (ix3 (0 : Fin 1) (0 : Fin 1) o)) ?_
  refine Finset.sum_congr rfl fun k _ => ?_
  have ck := contrEquiv1_symm_val dotXW 1024 rfl rfl k
  have hl : DotDims.lhsIdx dotXW (ix2 r o) ((contrEquiv1 dotXW 1024 rfl rfl).symm k) = ix2 r k := by
    funext ax; apply Fin.ext
    match ax with
    | ⟨0, _⟩ => simp [DotDims.lhsIdx, dot_S1024x1024_S512x1024_S1024x512_1_1_0_0_n_n]; rfl
    | ⟨1, _⟩ => exact (DotDims.lhsIdx_val_of_single dotXW (cl := (1 : Fin 2)) rfl _ _).trans ck
  have hrr : DotDims.rhsIdx dotXW (ix2 r o) ((contrEquiv1 dotXW 1024 rfl rfl).symm k) = ix2 o k := by
    funext ax; apply Fin.ext
    match ax with
    | ⟨0, _⟩ => simp [DotDims.rhsIdx, dot_S1024x1024_S512x1024_S1024x512_1_1_0_0_n_n]; rfl
    | ⟨1, _⟩ => exact (DotDims.rhsIdx_val_of_single dotXW (cr := (1 : Fin 2)) rfl _ _).trans ck
  rw [hl, hrr, shapeCast_1ab_ab_apply, shapeCast_1ab_ab_apply]

/-- The stored tile is the projection tile. -/
theorem pay0_1_apply (v : FVec Ideal S1024x512 .f32) (r : Fin 1024) (o : Fin 512) :
    k0_pay1 v (ix3 (0 : Fin 1) r o) = v (ix2 r o) := by
  unfold k0_pay1
  rw [shapeCast_ab_1ab_apply, truncf_apply]

/-- The zeros a first row tile stores. -/
theorem pay0_2_apply (o : Fin 512) : k0_pay2 (F := Ideal) (ix3 (0 : Fin 1) (0 : Fin 1) o) = 0 := by
  unfold k0_pay2
  rw [shapeCast_ab_1ab_apply, broadcast_apply]
  exact Ideal.ofBits_zero_f32
theorem pay0_3_apply (o : Fin 512) : k0_pay3 (F := Ideal) (ix3 (0 : Fin 1) (0 : Fin 1) o) = 0 := by
  unfold k0_pay3
  rw [shapeCast_ab_1ab_apply, broadcast_apply]
  exact Ideal.ofBits_zero_f32

/-- A tile's sum over its rows, from the zero word, at column o. -/
theorem colSum0_tile (src : FVec Ideal S1024x512 .f32) (hφ : FKind.Formats FTy.f32)
    (hacc : (0x00000000#32 : BitVec 32) = 0x00000000#32) (o : Fin 512) :
    multiReduction .add [0] S512 src 0x00000000#32 reduces_S1024x512_S512 hφ hacc (ix1 o) = ∑ r : Fin 1024, src (ix2 r o) := by
  refine (Ideal.multiReduction_add_single src 0x00000000#32 reduces_S1024x512_S512 hφ hacc (ix1 o)).trans ?_
  show ∑ r : Fin 1024, src (reduces_S1024x512_S512.lift (ix1 o) r) = _
  exact Finset.sum_congr rfl fun r _ => congrArg src (lift0_rows (m := 1024) (n := 512) reduces_S1024x512_S512 o r)

/-- The running sum plus this tile's column sums. -/
theorem pay0_5_apply (x0 : Vec Ideal S1x1024x1024 .bf16) (x1 : Vec Ideal S1x512x1024 .bf16) (x2 acc : Vec Ideal S1x1x512 .f32)
    (o : Fin 512) :
    k0_pay5 x0 x1 x2 acc (ix3 (0 : Fin 1) (0 : Fin 1) o)
      = acc (ix3 (0 : Fin 1) (0 : Fin 1) o) + ∑ r : Fin 1024, k0_pay4 x0 x1 x2 (ix2 r o) := by
  unfold k0_pay5
  rw [shapeCast_ab_1ab_apply, addf_apply, shapeCast_1ab_ab_apply, shapeCast_a_1a_apply]
  refine congrArg (fun z => acc (ix3 (0 : Fin 1) (0 : Fin 1) o) + z) ?_
  exact colSum0_tile (k0_pay4 x0 x1 x2) _ _ o

/-- The running sum of squares plus this tile's column sums of squares. -/
theorem pay0_6_apply (x0 : Vec Ideal S1x1024x1024 .bf16) (x1 : Vec Ideal S1x512x1024 .bf16) (x2 acc : Vec Ideal S1x1x512 .f32)
    (o : Fin 512) :
    k0_pay6 x0 x1 x2 acc (ix3 (0 : Fin 1) (0 : Fin 1) o)
      = acc (ix3 (0 : Fin 1) (0 : Fin 1) o) + ∑ r : Fin 1024, k0_pay4 x0 x1 x2 (ix2 r o) * k0_pay4 x0 x1 x2 (ix2 r o) := by
  unfold k0_pay6
  rw [shapeCast_ab_1ab_apply, addf_apply, shapeCast_1ab_ab_apply, shapeCast_a_1a_apply]
  refine congrArg (fun z => acc (ix3 (0 : Fin 1) (0 : Fin 1) o) + z) ?_
  refine (colSum0_tile (mulf (k0_pay4 x0 x1 x2) (k0_pay4 x0 x1 x2)) _ _ o).trans ?_
  exact Finset.sum_congr rfl fun r _ => mulf_apply _ _ _

end Cert.KernelIdeal.HandVal

end
-- ==== Proof.KI.Val0Acc.lean ====
import proofs.«100284_j64536178590158_2_alg».proof.Proof.KI.Val0Pay

/-! # The first launch: the projection as a function of the arrays, and the running statistics

Point `t = 32 j + bi` reads rows `1024 bi …` of the input the table names for row `j`, row `j` of the weights and of
the bias; after it the two statistics buffers hold the sums over the row tiles `0 … bi` of projection `j`. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.ShloMosaic.Tactic
open Idealize.ShloMosaic.Pipeline (Dat)
open scoped BigOperators

/-! ## The projection as one function of the arrays the launch finds -/

section
variable (a0 : (pcfg0 (F := Ideal)).Adm)
variable (V : (c : Dev nD) → (b : Ref sig .tc) → Buf (Elt Ideal) ((c : Thread nD τ).loc b))

/-- The three input arrays as the launch finds them: the stacked inputs, the weights, the bias. -/
abbrev acc0X (c : Dev nD) : S3x32768x1024.Idx → EReal := V c (Pipeline.arrRef spec0 0)
abbrev acc0W (c : Dev nD) : S9x512x1024.Idx → EReal := V c (Pipeline.arrRef spec0 1)
abbrev acc0B (c : Dev nD) : S9x1x512.Idx → EReal := V c (Pipeline.arrRef spec0 2)

/-- `h_j[b, o] = (∑_d xs[σ j, b, d] · W[j, o, d]) + bias[j, 0, o]` over the arrays the launch finds. -/
def hV0 (c : Dev nD) (j : Fin 9) (b : Fin 32768) (o : Fin 512) : EReal :=
  (∑ d : Fin 1024, acc0X V c (ix3 (Cert.Spec.sel j) b d) * acc0W V c (ix3 j o d)) + acc0B V c (ix3 j (0 : Fin 1) o)

/-- The three result arrays. -/
def G0_3 (c : Dev nD) : S9x32768x512.Idx → EReal := fun i => hV0 V c (i 0) (i 1) (i 2)
def G0_4 (c : Dev nD) : S9x1x512.Idx → EReal := fun i => ∑ b : Fin 32768, hV0 V c (i 0) b (i 2)
def G0_5 (c : Dev nD) : S9x1x512.Idx → EReal := fun i => ∑ b : Fin 32768, hV0 V c (i 0) b (i 2) * hV0 V c (i 0) b (i 2)

/-! ## Where each window's block sits in its array -/

/-- The block indices at point `t = 32 j + bi` that do not read the table: the input's row tile `bi`; the weights' and
    the bias's row `j`; the projection's tile `(j, bi)`; the statistics' row `j`. -/
theorem idx_facts0 : ∀ t : Fin grid0.N,
    (BitVec.ofNat 32 ((grid0.coords t) 1).val).toNat = t.val % 32
    ∧ cc0_transform_1 (grid0.coords t) (0 : Fin 3) = t.val / 32 ∧ cc0_transform_1 (grid0.coords t) (1 : Fin 3) = 0 ∧ cc0_transform_1 (grid0.coords t) (2 : Fin 3) = 0
    ∧ cc0_transform_2 (grid0.coords t) (0 : Fin 3) = t.val / 32 ∧ cc0_transform_2 (grid0.coords t) (1 : Fin 3) = 0 ∧ cc0_transform_2 (grid0.coords t) (2 : Fin 3) = 0
    ∧ cc0_transform_3 (grid0.coords t) (0 : Fin 3) = t.val / 32 ∧ cc0_transform_3 (grid0.coords t) (1 : Fin 3) = t.val % 32 ∧ cc0_transform_3 (grid0.coords t) (2 : Fin 3) = 0
    ∧ cc0_transform_4 (grid0.coords t) (0 : Fin 3) = t.val / 32 ∧ cc0_transform_4 (grid0.coords t) (1 : Fin 3) = 0 ∧ cc0_transform_4 (grid0.coords t) (2 : Fin 3) = 0
    ∧ cc0_transform_5 (grid0.coords t) (0 : Fin 3) = t.val / 32 ∧ cc0_transform_5 (grid0.coords t) (1 : Fin 3) = 0 ∧ cc0_transform_5 (grid0.coords t) (2 : Fin 3) = 0 := by
  decide +kernel

/-- The projection's tile is written back after every point. -/
theorem flush0_3 : ∀ t : Fin (cfg0 a0).N, ((cfg0 a0).win 3).flush t = true :=
  (by decide +kernel : ∀ t : Fin grid0.N, Pipeline.Window.flushOf grid0 true cc0_transform_3 t = true)

/-- What the table says, as the only fact about it the values need: at point `32 j + bi` the input window's leading
    block index is the input the selector names for row `j`. -/
def TableSel0 : Prop :=
  ∀ (t : Fin (cfg0 a0).N) (j : Fin 9), t.val / 32 = j.val → ((cfg0 a0).win 0).index t (0 : Fin 3) = (Cert.Spec.sel j).val

variable {a0}

/-- The input block at point `t` is rows `1024 bi …` of the input the selector names. -/
theorem iblk0_0_apply (htbl : TableSel0 a0) (c : Dev nD) (t : Fin (cfg0 a0).N) (j : Fin 9) (hj : t.val / 32 = j.val)
    (y : S1x1024x1024.Idx) (k : S3x32768x1024.Idx)
    (h0 : (k 0).val = (Cert.Spec.sel j).val) (h1 : (k 1).val = 1024 * (t.val % 32) + (y 1).val) (h2 : (k 2).val = (y 2).val) :
    (iblk0 a0 V c 0 t : Vec Ideal S1x1024x1024 .bf16) y = (V c (Pipeline.arrRef spec0 0) : S3x32768x1024.Idx → EReal) k := by
  have e0 := htbl t j hj
  have e1 : ((cfg0 a0).win 0).index t (1 : Fin 3) = t.val % 32 := (idx_facts0 t).1
  have e2 : ((cfg0 a0).win 0).index t (2 : Fin 3) = 0 := rfl
  have hy0 : (y 0).val < 1 := (y 0).isLt
  unfold iblk0
  show (V c (Pipeline.arrRef spec0 0) : S3x32768x1024.Idx → EReal) _ = _
  refine congrArg _ ?_
  funext a; apply Fin.ext
  match a with
  | ⟨0, _⟩ => show ((cfg0 a0).win 0).index t (0 : Fin 3) * 1 + 1 * (y 0).val = (k 0).val; omega
  | ⟨1, _⟩ => show ((cfg0 a0).win 0).index t (1 : Fin 3) * 1024 + 1 * (y 1).val = (k 1).val; omega
  | ⟨2, _⟩ => show ((cfg0 a0).win 0).index t (2 : Fin 3) * 1024 + 1 * (y 2).val = (k 2).val; omega

/-- The weight block at point `t` is row `j` of the weights. -/
theorem iblk0_1_apply (c : Dev nD) (t : Fin (cfg0 a0).N) (y : S1x512x1024.Idx) (k : S9x512x1024.Idx)
    (h0 : (k 0).val = t.val / 32) (h1 : (k 1).val = (y 1).val) (h2 : (k 2).val = (y 2).val) :
    (iblk0 a0 V c 1 t : Vec Ideal S1x512x1024 .bf16) y = (V c (Pipeline.arrRef spec0 1) : S9x512x1024.Idx → EReal) k := by
  obtain ⟨-, e0, e1, e2, -⟩ := idx_facts0 t
  have hy0 : (y 0).val < 1 := (y 0).isLt
  unfold iblk0
  show (V c (Pipeline.arrRef spec0 1) : S9x512x1024.Idx → EReal) _ = _
  refine congrArg _ ?_
  funext a; apply Fin.ext
  match a with
  | ⟨0, _⟩ => show cc0_transform_1 (grid0.coords t) (0 : Fin 3) * 1 + 1 * (y 0).val = (k 0).val; omega
  | ⟨1, _⟩ => show cc0_transform_1 (grid0.coords t) (1 : Fin 3) * 512 + 1 * (y 1).val = (k 1).val; omega
  | ⟨2, _⟩ => show cc0_transform_1 (grid0.coords t) (2 : Fin 3) * 1024 + 1 * (y 2).val = (k 2).val; omega

/-- The bias block at point `t` is row `j` of the bias. -/
theorem iblk0_2_apply (c : Dev nD) (t : Fin (cfg0 a0).N) (y : S1x1x512.Idx) (k : S9x1x512.Idx)
    (h0 : (k 0).val = t.val / 32) (h2 : (k 2).val = (y 2).val) :
    (iblk0 a0 V c 2 t : Vec Ideal S1x1x512 .f32) y = (V c (Pipeline.arrRef spec0 2) : S9x1x512.Idx → EReal) k := by
  obtain ⟨-, -, -, -, e0, e1, e2, -⟩ := idx_facts0 t
  have hy0 : (y 0).val < 1 := (y 0).isLt
  have hy1 : (y 1).val < 1 := (y 1).isLt
  have hk1 : (k 1).val < 1 := (k 1).isLt
  unfold iblk0
  show (V c (Pipeline.arrRef spec0 2) : S9x1x512.Idx → EReal) _ = _
  refine congrArg _ ?_
  funext a; apply Fin.ext
  match a with
  | ⟨0, _⟩ => show cc0_transform_2 (grid0.coords t) (0 : Fin 3) * 1 + 1 * (y 0).val = (k 0).val; omega
  | ⟨1, _⟩ => show cc0_transform_2 (grid0.coords t) (1 : Fin 3) * 1 + 1 * (y 1).val = (k 1).val; omega
  | ⟨2, _⟩ => show cc0_transform_2 (grid0.coords t) (2 : Fin 3) * 512 + 1 * (y 2).val = (k 2).val; omega

/-- The tile point `t = 32 j + bi` computes, at (r, o), is the projection at row `1024 bi + r`. -/
theorem tile0_apply (htbl : TableSel0 a0) (c : Dev nD) (t : Fin (cfg0 a0).N) (j : Fin 9) (hj : t.val / 32 = j.val)
    (r : Fin 1024) (o : Fin 512) (b : Fin 32768) (hb : b.val = 1024 * (t.val % 32) + r.val) :
    k0_pay4 (iblk0 a0 V c 0 t) (iblk0 a0 V c 1 t) (iblk0 a0 V c 2 t) (ix2 r o) = hV0 V c j b o := by
  refine (pay0_4_apply _ _ _ r o).trans ?_
  unfold hV0
  refine congrArg₂ (fun u v : EReal => u + v) ?_
    (iblk0_2_apply V c t (ix3 (0 : Fin 1) (0 : Fin 1) o) (ix3 j (0 : Fin 1) o) hj.symm rfl)
  refine Finset.sum_congr rfl fun d _ => ?_
  exact congrArg₂ (fun u v : EReal => u * v)
    (iblk0_0_apply V htbl c t j hj (ix3 (0 : Fin 1) r d) (ix3 (Cert.Spec.sel j) b d) rfl hb rfl)
    (iblk0_1_apply V c t (ix3 (0 : Fin 1) o d) (ix3 j o d) hj.symm rfl rfl)

/-! ## The running statistics after each point -/

variable (a0)

/-- Point `m`'s column sums of its tile, and of its squares (zero past the grid). -/
def cs0_4 (c : Dev nD) (m : ℕ) (o : Fin 512) : EReal :=
  if h : m < (cfg0 a0).N then
    ∑ r : Fin 1024, k0_pay4 (iblk0 a0 V c 0 ⟨m, h⟩) (iblk0 a0 V c 1 ⟨m, h⟩) (iblk0 a0 V c 2 ⟨m, h⟩) (ix2 r o)
  else 0
def cs0_5 (c : Dev nD) (m : ℕ) (o : Fin 512) : EReal :=
  if h : m < (cfg0 a0).N then
    ∑ r : Fin 1024, k0_pay4 (iblk0 a0 V c 0 ⟨m, h⟩) (iblk0 a0 V c 1 ⟨m, h⟩) (iblk0 a0 V c 2 ⟨m, h⟩) (ix2 r o)
      * k0_pay4 (iblk0 a0 V c 0 ⟨m, h⟩) (iblk0 a0 V c 1 ⟨m, h⟩) (iblk0 a0 V c 2 ⟨m, h⟩) (ix2 r o)
  else 0

/-- After every point the projection's buffer holds the point's tile. -/
theorem outs0_3_eq (c : Dev nD) (t : Fin (cfg0 a0).N) :
    (outsAt0 a0 V c t.val t.isLt).1 = k0_pay1 (k0_pay4 (iblk0 a0 V c 0 t) (iblk0 a0 V c 1 t) (iblk0 a0 V c 2 t)) := by
  by_cases h0 : t.val % 32 = 0
  · exact congrArg Prod.fst ((outsAt0_A a0 V c t h0).trans (out0_A_eq ..))
  · exact congrArg Prod.fst ((outsAt0_B a0 V c t h0).trans (out0_B_eq ..))

/-- A first row tile leaves its own column sums. -/
theorem step0_4_A (c : Dev nD) (n : ℕ) (hn : n < (cfg0 a0).N) (h0 : n % 32 = 0) (o : Fin 512) :
    (outsAt0 a0 V c n hn).2.1 (ix3 (0 : Fin 1) (0 : Fin 1) o) = cs0_4 a0 V c n o := by
  refine (congrArg (fun p => p.2.1 (ix3 (0 : Fin 1) (0 : Fin 1) o))
    ((outsAt0_A a0 V c ⟨n, hn⟩ h0).trans (out0_A_eq ..))).trans ?_
  refine (pay0_5_apply _ _ _ _ o).trans ?_
  rw [pay0_2_apply, zero_add]
  unfold cs0_4
  rw [dif_pos hn]
theorem step0_5_A (c : Dev nD) (n : ℕ) (hn : n < (cfg0 a0).N) (h0 : n % 32 = 0) (o : Fin 512) :
    (outsAt0 a0 V c n hn).2.2 (ix3 (0 : Fin 1) (0 : Fin 1) o) = cs0_5 a0 V c n o := by
  refine (congrArg (fun p => p.2.2 (ix3 (0 : Fin 1) (0 : Fin 1) o))
    ((outsAt0_A a0 V c ⟨n, hn⟩ h0).trans (out0_A_eq ..))).trans ?_
  refine (pay0_6_apply _ _ _ _ o).trans ?_
  rw [pay0_3_apply, zero_add]
  unfold cs0_5
  rw [dif_pos hn]

/-- A later row tile adds its own column sums to what the tile before left. -/
theorem step0_4_B (c : Dev nD) (n : ℕ) (hn : n + 1 < (cfg0 a0).N) (h0 : ¬(n + 1) % 32 = 0) (o : Fin 512) :
    (outsAt0 a0 V c (n + 1) hn).2.1 (ix3 (0 : Fin 1) (0 : Fin 1) o)
      = (outsAt0 a0 V c n (Nat.lt_of_succ_lt hn)).2.1 (ix3 (0 : Fin 1) (0 : Fin 1) o) + cs0_4 a0 V c (n + 1) o := by
  refine (congrArg (fun p => p.2.1 (ix3 (0 : Fin 1) (0 : Fin 1) o))
    ((outsAt0_B a0 V c ⟨n + 1, hn⟩ h0).trans (out0_B_eq ..))).trans ?_
  refine (pay0_5_apply _ _ _ _ o).trans ?_
  unfold cs0_4
  rw [dif_pos hn]
  rfl
theorem step0_5_B (c : Dev nD) (n : ℕ) (hn : n + 1 < (cfg0 a0).N) (h0 : ¬(n + 1) % 32 = 0) (o : Fin 512) :
    (outsAt0 a0 V c (n + 1) hn).2.2 (ix3 (0 : Fin 1) (0 : Fin 1) o)
      = (outsAt0 a0 V c n (Nat.lt_of_succ_lt hn)).2.2 (ix3 (0 : Fin 1) (0 : Fin 1) o) + cs0_5 a0 V c (n + 1) o := by
  refine (congrArg (fun p => p.2.2 (ix3 (0 : Fin 1) (0 : Fin 1) o))
    ((outsAt0_B a0 V c ⟨n + 1, hn⟩ h0).trans (out0_B_eq ..))).trans ?_
  refine (pay0_6_apply _ _ _ _ o).trans ?_
  unfold cs0_5
  rw [dif_pos hn]
  rfl

/-- The running sum after point `n`: the column sums of the row tiles of its projection up to it. -/
theorem acc0_4_eq (c : Dev nD) (o : Fin 512) : ∀ (n : ℕ) (hn : n < (cfg0 a0).N),
    (outsAt0 a0 V c n hn).2.1 (ix3 (0 : Fin 1) (0 : Fin 1) o) = ∑ i ∈ Finset.range (n % 32 + 1), cs0_4 a0 V c (n - n % 32 + i) o
  | 0, hn => by
    rw [step0_4_A a0 V c 0 hn rfl o]
    simp
  | n + 1, hn => by
    by_cases h0 : (n + 1) % 32 = 0
    · rw [step0_4_A a0 V c (n + 1) hn h0 o, h0]
      simp
    · rw [step0_4_B a0 V c n hn h0 o, acc0_4_eq c o n (Nat.lt_of_succ_lt hn)]
      have hm : (n + 1) % 32 = n % 32 + 1 := by omega
      have hs : n + 1 - (n % 32 + 1) = n - n % 32 := by omega
      rw [hm, hs, Finset.sum_range_succ (n := n % 32 + 1)]
      refine congrArg (fun z => _ + z) ?_
      refine congrArg (fun m => cs0_4 a0 V c m o) ?_
      omega
theorem acc0_5_eq (c : Dev nD) (o : Fin 512) : ∀ (n : ℕ) (hn : n < (cfg0 a0).N),
    (outsAt0 a0 V c n hn).2.2 (ix3 (0 : Fin 1) (0 : Fin 1) o) = ∑ i ∈ Finset.range (n % 32 + 1), cs0_5 a0 V c (n - n % 32 + i) o
  | 0, hn => by
    rw [step0_5_A a0 V c 0 hn rfl o]
    simp
  | n + 1, hn => by
    by_cases h0 : (n + 1) % 32 = 0
    · rw [step0_5_A a0 V c (n + 1) hn h0 o, h0]
      simp
    · rw [step0_5_B a0 V c n hn h0 o, acc0_5_eq c o n (Nat.lt_of_succ_lt hn)]
      have hm : (n + 1) % 32 = n % 32 + 1 := by omega
      have hs : n + 1 - (n % 32 + 1) = n - n % 32 := by omega
      rw [hm, hs, Finset.sum_range_succ (n := n % 32 + 1)]
      refine congrArg (fun z => _ + z) ?_
      refine congrArg (fun m => cs0_5 a0 V c m o) ?_
      omega

/-! ## From the 32 row tiles to the 32768 rows -/

/-- A sum over the 32768 rows is the sum over the 32 tiles of the sums over each tile's 1024 rows. -/
theorem sum_rows0 (f : Fin 32768 → EReal) :
    ∑ i ∈ Finset.range 32, (if h : i < 32 then ∑ r : Fin 1024, f ⟨1024 * i + r.val, by have := r.isLt; omega⟩ else 0)
      = ∑ b : Fin 32768, f b := by
  rw [Finset.sum_range fun i => (if h : i < 32 then ∑ r : Fin 1024, f ⟨1024 * i + r.val, by have := r.isLt; omega⟩ else 0)]
  have e : ∀ i : Fin 32, (if h : i.val < 32 then ∑ r : Fin 1024, f ⟨1024 * i.val + r.val, by have := r.isLt; omega⟩ else 0)
      = ∑ r : Fin 1024, f ⟨1024 * i.val + r.val, by have := r.isLt; have := i.isLt; omega⟩ := fun i => dif_pos i.isLt
  rw [Finset.sum_congr rfl fun i _ => e i, ← Finset.sum_product']
  refine Finset.sum_bij' (fun x _ => (⟨1024 * x.1.val + x.2.val, by have := x.1.isLt; have := x.2.isLt; omega⟩ : Fin 32768))
    (fun b _ => ((⟨b.val / 1024, by have := b.isLt; omega⟩ : Fin 32), (⟨b.val % 1024, Nat.mod_lt _ (by norm_num)⟩ : Fin 1024)))
    (fun _ _ => Finset.mem_univ _) (fun _ _ => by simp) ?_ ?_ (fun _ _ => rfl)
  · intro x _
    have h1 := x.1.isLt; have h2 := x.2.isLt
    refine Prod.ext (Fin.ext ?_) (Fin.ext ?_)
    · show (1024 * x.1.val + x.2.val) / 1024 = x.1.val; omega
    · show (1024 * x.1.val + x.2.val) % 1024 = x.2.val; omega
  · intro b _
    refine Fin.ext ?_
    show 1024 * (b.val / 1024) + b.val % 1024 = b.val
    omega

end
end Cert.KernelIdeal.HandVal

end
-- ==== Proof.KI.Val0Cover.lean ====
import proofs.«100284_j64536178590158_2_alg».proof.Proof.KI.Reg0Dat
import Idealize.ShloMosaic.Lib.Pipeline.Value

/-! # The first launch's three output arrays are covered by the blocks that are written back

The grid is 9 × 32, point `t = 32 j + bi`. The projection array [9, 32768, 512] is cut into tiles of 1024 rows: tile `(j, bi)` is
the block of point `32 j + bi`, written back after every point, so the index `(j, b, o)` lies in the block of point
`32 j + b / 1024`. The two statistics arrays [9, 1, 512] have one block `(j, 0, 0)` per projection, written back after the
last row tile, so the index `(j, 0, o)` lies in the block of point `32 j + 31`. -/

set_option maxRecDepth 16384

noncomputable section

namespace Cert.KernelIdeal.HandVal

open Cert.KernelIdeal Cert.KernelIdeal.Gen Cert.KernelIdeal.Hand
open Idealize.ShloMosaic Idealize.ShloMosaic.TcCoe
open Idealize.ShloMosaic.Pipeline (Dat)

variable {F : FTy → Type} [FloatOps F]
variable (a0 : (pcfg0 (F := F)).Adm)

/-- The output windows' block indices at point `t = 32 j + bi`: the projection's tile `(j, bi, 0)`, the two statistics
    rows `(j, 0, 0)`. -/
private theorem idx_out0 : ∀ t : Fin grid0.N,
    cc0_transform_3 (grid0.coords t) (0 : Fin 3) = t.val / 32 ∧ cc0_transform_3 (grid0.coords t) (1 : Fin 3) = t.val % 32 ∧ cc0_transform_3 (grid0.coords t) (2 : Fin 3) = 0
    ∧ cc0_transform_4 (grid0.coords t) (0 : Fin 3) = t.val / 32 ∧ cc0_transform_4 (grid0.coords t) (1 : Fin 3) = 0 ∧ cc0_transform_4 (grid0.coords t) (2 : Fin 3) = 0
    ∧ cc0_transform_5 (grid0.coords t) (0 : Fin 3) = t.val / 32 ∧ cc0_transform_5 (grid0.coords t) (1 : Fin 3) = 0 ∧ cc0_transform_5 (grid0.coords t) (2 : Fin 3) = 0 := by
  decide +kernel

/-- The projection's tile is written back after every point (its block index moves with every point). -/
private theorem flushAll0_3 : ∀ t : Fin (cfg0 a0).N, ((cfg0 a0).win 3).flush t = true :=
  (by decide +kernel : ∀ t : Fin grid0.N, Pipeline.Window.flushOf grid0 true cc0_transform_3 t = true)

/-- An index of window 3's array is in point `t`'s block iff each coordinate is in the block's range on its axis. -/
theorem mem_blk0_3 (t : Fin (cfg0 a0).N) (i : S9x32768x512.Idx) :
    i ∈ (((cfg0 a0).win 3).blk t).view.set ↔ ∀ a : Fin 3, cc0_transform_3 (grid0.coords t) a * S1x1024x512.size a ≤ (i a).val ∧ (i a).val < cc0_transform_3 (grid0.coords t) a * S1x1024x512.size a + S1x1024x512.size a := by
  refine (Finset.ext_iff.mp (View.set_slice_whole main_v7_0 (((cfg0 a0).win 3).rect t)) i).trans ?_
  exact Rect.mem_set_unit

/-- An index of window 4's array is in point `t`'s block iff each coordinate is in the block's range on its axis. -/
theorem mem_blk0_4 (t : Fin (cfg0 a0).N) (i : S9x1x512.Idx) :
    i ∈ (((cfg0 a0).win 4).blk t).view.set ↔ ∀ a : Fin 3, cc0_transform_4 (grid0.coords t) a * S1x1x512.size a ≤ (i a).val ∧ (i a).val < cc0_transform_4 (grid0.coords t) a * S1x1x512.size a + S1x1x512.size a := by
  refine (Finset.ext_iff.mp (View.set_slice_whole main_v7_1 (((cfg0 a0).win 4).rect t)) i).trans ?_
  exact Rect.mem_set_unit

/-- An index of window 5's array is in point `t`'s block iff each coordinate is in the block's range on its axis. -/
theorem mem_blk0_5 (t : Fin (cfg0 a0).N) (i : S9x1x512.Idx) :
    i ∈ (((cfg0 a0).win 5).blk t).view.set ↔ ∀ a : Fin 3, cc0_transform_5 (grid0.coords t) a * S1x1x512.size a ≤ (i a).val ∧ (i a).val < cc0_transform_5 (grid0.coords t) a * S1x1x512.size a + S1x1x512.size a := by
  refine (Finset.ext_iff.mp (View.set_slice_whole main_v7_2 (((cfg0 a0).win 5).rect t)) i).trans ?_
  exact Rect.mem_set_unit

/-- Every index `(j, b, o)` of the projections is in the tile of point `32 j + b / 1024`, which is written back. -/
theorem covered0_3 : ∀ i : S9x32768x512.Idx, ∃ t : Fin (cfg0 a0).N, ((cfg0 a0).win 3).flush t = true ∧ i ∈ (((cfg0 a0).win 3).blk t).view.set := by
  intro i
  have hi0 : (i 0).val < 9 := (i 0).isLt
  have hi1 : (i 1).val < 32768 := (i 1).isLt
  have hi2 : (i 2).val < 512 := (i 2).isLt
  have hN : (cfg0 a0).N = 288 := N_0
  obtain ⟨t, htv⟩ : ∃ t : Fin (cfg0 a0).N, t.val = (i 0).val * 32 + (i 1).val / 1024 :=
    ⟨⟨(i 0).val * 32 + (i 1).val / 1024, by rw [hN]; omega⟩, rfl⟩
  obtain ⟨e0, e1, e2, -⟩ := idx_out0 t
  refine ⟨t, flushAll0_3 a0 t, ?_⟩
  rw [mem_blk0_3]
  intro a
  match a with
  | ⟨0, _⟩ => show cc0_transform_3 (grid0.coords t) (0 : Fin 3) * 1 ≤ (i 0).val ∧ (i 0).val < cc0_transform_3 (grid0.coords t) (0 : Fin 3) * 1 + 1; omega
  | ⟨1, _⟩ => show cc0_transform_3 (grid0.coords t) (1 : Fin 3) * 1024 ≤ (i 1).val ∧ (i 1).val < cc0_transform_3 (grid0.coords t) (1 : Fin 3) * 1024 + 1024; omega
  | ⟨2, _⟩ => show cc0_transform_3 (grid0.coords t) (2 : Fin 3) * 512 ≤ (i 2).val ∧ (i 2).val < cc0_transform_3 (grid0.coords t) (2 : Fin 3) * 512 + 512; omega

/-- Every index `(j, 0, o)` of the column sums is in the block of point `32 j + 31`, the last row tile of projection `j`, after
    which the block is written back. -/
theorem covered0_4 : ∀ i : S9x1x512.Idx, ∃ t : Fin (cfg0 a0).N, ((cfg0 a0).win 4).flush t = true ∧ i ∈ (((cfg0 a0).win 4).blk t).view.set := by
  intro i
  have hi0 : (i 0).val < 9 := (i 0).isLt
  have hi1 : (i 1).val < 1 := (i 1).isLt
  have hi2 : (i 2).val < 512 := (i 2).isLt
  have hN : (cfg0 a0).N = 288 := N_0
  obtain ⟨t, htv⟩ : ∃ t : Fin (cfg0 a0).N, t.val = (i 0).val * 32 + 31 :=
    ⟨⟨(i 0).val * 32 + 31, by rw [hN]; omega⟩, rfl⟩
  obtain ⟨-, -, -, e0, e1, e2, -⟩ := idx_out0 t
  refine ⟨t, (flush0_4 a0 t).mpr (by omega), ?_⟩
  rw [mem_blk0_4]
  intro a
  match a with
  | ⟨0, _⟩ => show cc0_transform_4 (grid0.coords t) (0 : Fin 3) * 1 ≤ (i 0).val ∧ (i 0).val < cc0_transform_4 (grid0.coords t) (0 : Fin 3) * 1 + 1; omega
  | ⟨1, _⟩ => show cc0_transform_4 (grid0.coords t) (1 : Fin 3) * 1 ≤ (i 1).val ∧ (i 1).val < cc0_transform_4 (grid0.coords t) (1 : Fin 3) * 1 + 1; omega
  | ⟨2, _⟩ => show cc0_transform_4 (grid0.coords t) (2 : Fin 3) * 512 ≤ (i 2).val ∧ (i 2).val < cc0_transform_4 (grid0.coords t) (2 : Fin 3) * 512 + 512; omega

/-- Every index `(j, 0, o)` of the column sums of squares is in the block of point `32 j + 31`, the last row tile of projection `j`, after
    which the block is written back. -/
theorem covered0_5 : ∀ i : S9x1x512.Idx, ∃ t : Fin (cfg0 a0).N, ((cfg0 a0).win 5).flush t = true ∧ i ∈ (((cfg0 a0).win 5).blk t).view.set := by
  intro i
  have hi0 : (i 0).val < 9 := (i 0).isLt
  have hi1 : (i 1).val < 1 := (i 1).isLt
  have hi2 : (i 2).val < 512 := (i 2).isLt
  have hN : (cfg0 a0).N = 288 := N_0
  obtain ⟨t, htv⟩ : ∃ t : Fin (cfg0 a0).N, t.val = (i 0).val * 32 + 31 :=
    ⟨⟨(i 0).val * 32 + 31, by rw [hN]; omega⟩, rfl⟩
  obtain ⟨-, -, -, -, -, -, e0, e1, e2⟩ := idx_out0 t
  refine ⟨t, (flush0_5 a0 t).mpr (by omega), ?_⟩
  rw [mem_blk0_5]
  intro a
  match a with
  | ⟨0, _⟩ => show cc0_transform_5 (grid0.coords t) (0 : Fin 3) * 1 ≤ (i 0).val ∧ (i 0).val < cc0_transform_5 (grid0.coords t) (0 : Fin 3) * 1 + 1; omega
  | ⟨1, _⟩ => show cc0_transform_5 (grid0.coords t) (1 : Fin 3) * 1 ≤ (i 1).val ∧ (i 1).val < cc0_transform_5 (grid0.coords t) (1 : Fin 3) * 1 + 1; omega
  | ⟨2, _⟩ => show cc0_transform_5 (grid0.coords t) (2 : Fin 3) * 512 ≤ (i 2).val ∧ (i 2).val < cc0_transform_5 (grid0.coords t) (2 : Fin 3) * 512 + 512; omega

end Cert.KernelIdeal.HandVal

end
-- ==== Proof.KI.Val0.lean ====
import proofs.«100284_j64536178590158_2_alg».proof.Proof.KI.Val0Acc
import proofs.«100284_j64536178590158_2_alg».proof.Proof.KI.Val0Cover
import proofs.«100284_j64536178590158_2_alg».proof.Proof.KI.Reg0TblSel

/-! # The first launch's three output arrays, index by index

Every index of the projection array lies in the tile of exactly one point, which writes it back; every index of a
statistics array lies in the block of its projection's last row tile, which writes back the finished sum. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.ShloMosaic.Tactic
open Idealize.ShloMosaic.Pipeline (Dat)
open scoped BigOperators

section
variable (a0 : (pcfg0 (F := Ideal)).Adm)
variable (V : (c : Dev nD) → (b : Ref sig .tc) → Buf (Elt Ideal) ((c : Thread nD τ).loc b))

/-! ## What is written back -/

/-- The projection tile point `t` stores, at its local index, is the projection at the index it has in the array. -/
theorem tile0_out3 (htbl : TableSel0 a0) (c : Dev nD) (t : Fin (cfg0 a0).N) (y : S1x1024x512.Idx) (r : Fin 1024) (o : Fin 512)
    (hr : (y 1).val = r.val) (ho : (y 2).val = o.val) (i : S9x32768x512.Idx) (hi0 : (i 0).val = t.val / 32)
    (hi1 : (i 1).val = 1024 * (t.val % 32) + r.val) (hi2 : (i 2).val = o.val) :
    k0_pay1 (k0_pay4 (iblk0 a0 V c 0 t) (iblk0 a0 V c 1 t) (iblk0 a0 V c 2 t)) y = G0_3 V c i := by
  obtain rfl : y = ix3 (0 : Fin 1) r o := by
    funext a; apply Fin.ext
    match a with
    | ⟨0, _⟩ => have h : (y 0).val < 1 := (y 0).isLt; show (y 0).val = 0; omega
    | ⟨1, _⟩ => exact hr
    | ⟨2, _⟩ => exact ho
  refine (pay0_1_apply _ r o).trans ?_
  refine (tile0_apply V htbl c t (i 0) hi0.symm r o (i 1) hi1).trans ?_
  unfold G0_3
  exact congrArg (hV0 V c (i 0) (i 1)) (Fin.ext hi2.symm)

/-- What point `t` writes back of the projection is tile `t` of the result. -/
theorem flushed0_3_eq (htbl : TableSel0 a0) (c : Dev nD) (t : Fin (cfg0 a0).N) :
    (dat0 (F := Ideal) a0 V c).flushed 3 t = (((cfg0 a0).win 3).blk t).view.read (Elt Ideal) (G0_3 V c) := by
  have hA : (dat0 (F := Ideal) a0 V c).after 3 t
      = k0_pay1 (k0_pay4 (iblk0 a0 V c 0 t) (iblk0 a0 V c 1 t) (iblk0 a0 V c 2 t)) :=
    (after0_3 a0 V c t).trans (outs0_3_eq a0 V c t)
  show ((cfg0 a0).win 3).cut (grid0.coords t) ((dat0 (F := Ideal) a0 V c).after 3 t) = _
  rw [hA]
  obtain ⟨-, -, -, -, -, -, -, e0, e1, e2, -⟩ := idx_facts0 t
  refine funext fun (y : S1x1024x512.Idx) => ?_
  have hy0 : (y 0).val < 1 := (y 0).isLt
  have hy1 : (y 1).val < 1024 := (y 1).isLt
  have hy2 : (y 2).val < 512 := (y 2).isLt
  show k0_pay1 (F := Ideal) _ y = G0_3 V c ((((cfg0 a0).win 3).blk t).view.emb y)
  refine tile0_out3 a0 V htbl c t y ⟨(y 1).val, hy1⟩ ⟨(y 2).val, hy2⟩ rfl rfl _ ?_ ?_ ?_
  · show cc0_transform_3 (grid0.coords t) (0 : Fin 3) * 1 + 1 * (y 0).val = t.val / 32; omega
  · show cc0_transform_3 (grid0.coords t) (1 : Fin 3) * 1024 + 1 * (y 1).val = 1024 * (t.val % 32) + (y 1).val; omega
  · show cc0_transform_3 (grid0.coords t) (2 : Fin 3) * 512 + 1 * (y 2).val = (y 2).val; omega

/-- After a projection's last row tile the running sum is the sum over all its rows. -/
theorem stat0_4 (htbl : TableSel0 a0) (c : Dev nD) (t : Fin (cfg0 a0).N) (h31 : t.val % 32 = 31) (j : Fin 9)
    (hj : t.val / 32 = j.val) (o : Fin 512) :
    (outsAt0 a0 V c t.val t.isLt).2.1 (ix3 (0 : Fin 1) (0 : Fin 1) o) = ∑ b : Fin 32768, hV0 V c j b o := by
  have hN : (cfg0 a0).N = 288 := N_0
  have ht : t.val < 288 := lt_of_lt_of_eq t.isLt hN
  rw [acc0_4_eq a0 V c o t.val t.isLt, h31]
  refine Eq.trans ?_ (sum_rows0 fun b => hV0 V c j b o)
  show ∑ i ∈ Finset.range 32, _ = _
  refine Finset.sum_congr rfl fun i hi => ?_
  have hi' : i < 32 := Finset.mem_range.mp hi
  have hm : t.val - 31 + i < (cfg0 a0).N := lt_of_lt_of_eq (by omega : t.val - 31 + i < 288) hN.symm
  unfold cs0_4
  rw [dif_pos hm, dif_pos hi']
  refine Finset.sum_congr rfl fun r _ => ?_
  exact tile0_apply V htbl c ⟨t.val - 31 + i, hm⟩ j (by show (t.val - 31 + i) / 32 = j.val; omega) r o _
    (by show 1024 * i + r.val = 1024 * ((t.val - 31 + i) % 32) + r.val; omega)
theorem stat0_5 (htbl : TableSel0 a0) (c : Dev nD) (t : Fin (cfg0 a0).N) (h31 : t.val % 32 = 31) (j : Fin 9)
    (hj : t.val / 32 = j.val) (o : Fin 512) :
    (outsAt0 a0 V c t.val t.isLt).2.2 (ix3 (0 : Fin 1) (0 : Fin 1) o) = ∑ b : Fin 32768, hV0 V c j b o * hV0 V c j b o := by
  have hN : (cfg0 a0).N = 288 := N_0
  have ht : t.val < 288 := lt_of_lt_of_eq t.isLt hN
  rw [acc0_5_eq a0 V c o t.val t.isLt, h31]
  refine Eq.trans ?_ (sum_rows0 fun b => hV0 V c j b o * hV0 V c j b o)
  show ∑ i ∈ Finset.range 32, _ = _
  refine Finset.sum_congr rfl fun i hi => ?_
  have hi' : i < 32 := Finset.mem_range.mp hi
  have hm : t.val - 31 + i < (cfg0 a0).N := lt_of_lt_of_eq (by omega : t.val - 31 + i < 288) hN.symm
  unfold cs0_5
  rw [dif_pos hm, dif_pos hi']
  refine Finset.sum_congr rfl fun r _ => ?_
  have e := tile0_apply V htbl c ⟨t.val - 31 + i, hm⟩ j (by show (t.val - 31 + i) / 32 = j.val; omega) r o
    ⟨1024 * i + r.val, by have := r.isLt; omega⟩
    (by show 1024 * i + r.val = 1024 * ((t.val - 31 + i) % 32) + r.val; omega)
  exact congrArg₂ (fun u v : EReal => u * v) e e

/-- A statistics block read back at a local index is the array at the index the block gives it. -/
theorem blk0_4_read_apply (t : Fin (cfg0 a0).N) (G : S9x1x512.Idx → EReal) (y : S1x1x512.Idx) :
    (((cfg0 a0).win 4).blk t).view.read (Elt Ideal) G y = G ((((cfg0 a0).win 4).blk t).view.emb y) := rfl
theorem blk0_5_read_apply (t : Fin (cfg0 a0).N) (G : S9x1x512.Idx → EReal) (y : S1x1x512.Idx) :
    (((cfg0 a0).win 5).blk t).view.read (Elt Ideal) G y = G ((((cfg0 a0).win 5).blk t).view.emb y) := rfl

/-- What a projection's last row tile writes back of each statistic is its row of the result. -/
theorem flushed0_4_eq (htbl : TableSel0 a0) (c : Dev nD) (t : Fin (cfg0 a0).N) (hf : ((cfg0 a0).win 4).flush t = true) :
    (dat0 (F := Ideal) a0 V c).flushed 4 t = (((cfg0 a0).win 4).blk t).view.read (Elt Ideal) (G0_4 V c) := by
  have h31 : t.val % 32 = 31 := (flush0_4 a0 t).mp hf
  have ht : t.val < 288 := lt_of_lt_of_eq t.isLt (show (cfg0 a0).N = 288 from N_0)
  have hA : (dat0 (F := Ideal) a0 V c).after 4 t = (outsAt0 a0 V c t.val t.isLt).2.1 := after0_4 a0 V c t
  show ((cfg0 a0).win 4).cut (grid0.coords t) ((dat0 (F := Ideal) a0 V c).after 4 t) = _
  rw [hA]
  have ef := (idx_facts0 t).2.2.2.2.2.2.2.2.2.2
  obtain ⟨e0, e1, e2, -⟩ := ef
  refine funext fun (y : S1x1x512.Idx) => ?_
  have hy0 : (y 0).val < 1 := (y 0).isLt
  have hy1 : (y 1).val < 1 := (y 1).isLt
  have hy2 : (y 2).val < 512 := (y 2).isLt
  have hyy : y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  have s := stat0_4 a0 V htbl c t h31 ⟨t.val / 32, by omega⟩ rfl ⟨(y 2).val, hy2⟩
  rw [← hyy] at s
  refine Eq.trans s ?_
  refine Eq.trans ?_ (blk0_4_read_apply a0 t (G0_4 V c) y).symm
  unfold G0_4
  have q0 : (show S9x1x512.Idx from (((cfg0 a0).win 4).blk t).view.emb y) (0 : Fin 3) = (⟨t.val / 32, by omega⟩ : Fin 9) :=
    Fin.ext (by show cc0_transform_4 (grid0.coords t) (0 : Fin 3) * 1 + 1 * (y 0).val = t.val / 32; omega)
  have q2 : (show S9x1x512.Idx from (((cfg0 a0).win 4).blk t).view.emb y) (2 : Fin 3) = (⟨(y 2).val, hy2⟩ : Fin 512) :=
    Fin.ext (by show cc0_transform_4 (grid0.coords t) (2 : Fin 3) * 512 + 1 * (y 2).val = (y 2).val; omega)
  exact (congrArg₂ (fun (j : Fin 9) (o : Fin 512) => ∑ b : Fin 32768, hV0 V c j b o) q0 q2).symm
theorem flushed0_5_eq (htbl : TableSel0 a0) (c : Dev nD) (t : Fin (cfg0 a0).N) (hf : ((cfg0 a0).win 5).flush t = true) :
    (dat0 (F := Ideal) a0 V c).flushed 5 t = (((cfg0 a0).win 5).blk t).view.read (Elt Ideal) (G0_5 V c) := by
  have h31 : t.val % 32 = 31 := (flush0_5 a0 t).mp hf
  have ht : t.val < 288 := lt_of_lt_of_eq t.isLt (show (cfg0 a0).N = 288 from N_0)
  have hA : (dat0 (F := Ideal) a0 V c).after 5 t = (outsAt0 a0 V c t.val t.isLt).2.2 := after0_5 a0 V c t
  show ((cfg0 a0).win 5).cut (grid0.coords t) ((dat0 (F := Ideal) a0 V c).after 5 t) = _
  rw [hA]
  have ef := (idx_facts0 t).2.2.2.2.2.2.2.2.2.2.2.2.2
  obtain ⟨e0, e1, e2⟩ := ef
  refine funext fun (y : S1x1x512.Idx) => ?_
  have hy0 : (y 0).val < 1 := (y 0).isLt
  have hy1 : (y 1).val < 1 := (y 1).isLt
  have hy2 : (y 2).val < 512 := (y 2).isLt
  have hyy : y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  have s := stat0_5 a0 V htbl c t h31 ⟨t.val / 32, by omega⟩ rfl ⟨(y 2).val, hy2⟩
  rw [← hyy] at s
  refine Eq.trans s ?_
  refine Eq.trans ?_ (blk0_5_read_apply a0 t (G0_5 V c) y).symm
  unfold G0_5
  have q0 : (show S9x1x512.Idx from (((cfg0 a0).win 5).blk t).view.emb y) (0 : Fin 3) = (⟨t.val / 32, by omega⟩ : Fin 9) :=
    Fin.ext (by show cc0_transform_5 (grid0.coords t) (0 : Fin 3) * 1 + 1 * (y 0).val = t.val / 32; omega)
  have q2 : (show S9x1x512.Idx from (((cfg0 a0).win 5).blk t).view.emb y) (2 : Fin 3) = (⟨(y 2).val, hy2⟩ : Fin 512) :=
    Fin.ext (by show cc0_transform_5 (grid0.coords t) (2 : Fin 3) * 512 + 1 * (y 2).val = (y 2).val; omega)
  exact (congrArg₂ (fun (j : Fin 9) (o : Fin 512) => ∑ b : Fin 32768, hV0 V c j b o * hV0 V c j b o) q0 q2).symm

/-! ## The three arrays after the launch -/

/-- After the launch the projection array holds every projection, whole. -/
theorem arr0_3 (htbl : TableSel0 a0) (c : Dev nD) : (dat0 (F := Ideal) a0 V c).arrAt 3 (cfg0 a0).N = G0_3 V c :=
  (dat0 (F := Ideal) a0 V c).arrAt_eq_of_cover 3 (G0_3 V c) (fun t _ => flushed0_3_eq a0 V htbl c t) (covered0_3 a0)
/-- and the two statistics arrays its column sums and column sums of squares. -/
theorem arr0_4 (htbl : TableSel0 a0) (c : Dev nD) : (dat0 (F := Ideal) a0 V c).arrAt 4 (cfg0 a0).N = G0_4 V c :=
  (dat0 (F := Ideal) a0 V c).arrAt_eq_of_cover 4 (G0_4 V c) (fun t hf => flushed0_4_eq a0 V htbl c t hf) (covered0_4 a0)
theorem arr0_5 (htbl : TableSel0 a0) (c : Dev nD) : (dat0 (F := Ideal) a0 V c).arrAt 5 (cfg0 a0).N = G0_5 V c :=
  (dat0 (F := Ideal) a0 V c).arrAt_eq_of_cover 5 (G0_5 V c) (fun t hf => flushed0_5_eq a0 V htbl c t hf) (covered0_5 a0)

/-- The projection array after the launch, index by index. -/
theorem final0_3_of (htbl : TableSel0 a0) (c : Dev nD) (j : Fin 9) (b : Fin 32768) (o : Fin 512) :
    ((dat0 (F := Ideal) a0 V c).arrAt 3 (cfg0 a0).N : S9x32768x512.Idx → EReal) (ix3 j b o) = hV0 V c j b o := by
  rw [arr0_3 a0 V htbl c]
  rfl
/-- The sums array after the launch, index by index. -/
theorem final0_4_of (htbl : TableSel0 a0) (c : Dev nD) (j : Fin 9) (o : Fin 512) :
    ((dat0 (F := Ideal) a0 V c).arrAt 4 (cfg0 a0).N : S9x1x512.Idx → EReal) (ix3 j (0 : Fin 1) o) = ∑ b : Fin 32768, hV0 V c j b o := by
  rw [arr0_4 a0 V htbl c]
  rfl
/-- The sums-of-squares array after the launch, index by index. -/
theorem final0_5_of (htbl : TableSel0 a0) (c : Dev nD) (j : Fin 9) (o : Fin 512) :
    ((dat0 (F := Ideal) a0 V c).arrAt 5 (cfg0 a0).N : S9x1x512.Idx → EReal) (ix3 j (0 : Fin 1) o)
      = ∑ b : Fin 32768, hV0 V c j b o * hV0 V c j b o := by
  rw [arr0_5 a0 V htbl c]
  rfl

/-! ## At the table the program prefetches -/

/-- The projection array after the launch, at the program's own table. -/
theorem final0_3 (c : Dev nD) (j : Fin 9) (b : Fin 32768) (o : Fin 512) :
    @Eq EReal (((dat0 (F := Ideal) adm0 V c).arrAt 3 (cfg0 (adm0 (F := Ideal))).N : S9x32768x512.Idx → EReal) (ix3 j b o))
      (hV0 V c j b o) :=
  final0_3_of adm0 V htbl_adm0 c j b o
/-- The column sums after the launch. -/
theorem final0_4 (c : Dev nD) (j : Fin 9) (o : Fin 512) :
    @Eq EReal (((dat0 (F := Ideal) adm0 V c).arrAt 4 (cfg0 (adm0 (F := Ideal))).N : S9x1x512.Idx → EReal) (ix3 j (0 : Fin 1) o))
      (∑ b : Fin 32768, hV0 V c j b o) :=
  final0_4_of adm0 V htbl_adm0 c j o
/-- The column sums of squares after the launch. -/
theorem final0_5 (c : Dev nD) (j : Fin 9) (o : Fin 512) :
    @Eq EReal (((dat0 (F := Ideal) adm0 V c).arrAt 5 (cfg0 (adm0 (F := Ideal))).N : S9x1x512.Idx → EReal) (ix3 j (0 : Fin 1) o))
      (∑ b : Fin 32768, hV0 V c j b o * hV0 V c j b o) :=
  final0_5_of adm0 V htbl_adm0 c j o

end
end Cert.KernelIdeal.HandVal

end
-- ==== Proof.KI.Val1Pay.lean ====
import proofs.«100284_j64536178590158_2_alg».proof.Proof.KI.Reg1
import proofs.«100284_j64536178590158_2_alg».proof.Proof.Spec
import Idealize.ShloMosaic.Lib.Pipeline.Value
import Idealize.ShloMosaic.Lib.ValueIdx
import Idealize.ShloMosaic.Lib.ValueLayout
import Idealize.ShloMosaic.Lib.ValueIdxCoords
import Idealize.ShloMosaic.PureOps.Ideal.Laws
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The normalised, rectified query tile at a row and channel. -/
theorem pay1_4_apply (v3 : Vec Ideal S1x2048x256 .bf16) (v6 v10 : Vec Ideal S1x1x256 .f32) (b : Fin 2048) (k : Fin 256) :
    k1_pay4 v3 v6 v10 (ix2 b k)
      = Cert.Spec.actK (v3 (ix3 (0 : Fin 1) b k)) (v6 (ix3 (0 : Fin 1) (0 : Fin 1) k)) (v10 (ix3 (0 : Fin 1) (0 : Fin 1) k)) := by
  unfold k1_pay4 Cert.Spec.actK
  simp only [truncf_apply, maximumf_apply, addf_apply, mulf_apply, extf_apply, broadcast_apply, broadcastTo_1b_ab_apply,
    shapeCast_1ab_ab_apply]
  exact congrArg (max _) Ideal.ofBits_zero_f32

/-- The normalised, rectified key tile at a row and channel. -/
theorem pay1_5_apply (v16 : Vec Ideal S1x2048x512 .bf16) (v19 v23 : Vec Ideal S1x1x512 .f32) (b : Fin 2048) (k : Fin 512) :
    k1_pay5 v16 v19 v23 (ix2 b k)
      = Cert.Spec.actK (v16 (ix3 (0 : Fin 1) b k)) (v19 (ix3 (0 : Fin 1) (0 : Fin 1) k)) (v23 (ix3 (0 : Fin 1) (0 : Fin 1) k)) := by
  unfold k1_pay5 Cert.Spec.actK
  simp only [truncf_apply, maximumf_apply, addf_apply, mulf_apply, extf_apply, broadcast_apply, broadcastTo_1b_ab_apply,
    shapeCast_1ab_ab_apply]
  exact congrArg (max _) Ideal.ofBits_zero_f32

/-- The reset value is zero everywhere. -/
theorem pay1_3_apply (j : S256x512.Idx) : k1_pay3 (F := Ideal) j = 0 := by
  unfold k1_pay3
  simp only [shapeCast_self, broadcast_apply]
  exact Ideal.ofBits_zero_f32

abbrev D1 := dot_S2048x256_S2048x512_S256x512_0_0_1_1_n_n
/-- The contraction of the tile product runs over the tile's rows. -/
def eD1 : D1.contr.Idx ≃ Fin 2048 := contrEquiv1 D1 2048 rfl rfl

theorem lhsIdx1 (r : Fin 256) (o : Fin 512) (b : Fin 2048) : D1.lhsIdx (ix2 r o) (eD1.symm b) = ix2 b r := by
  funext a
  match a with
  | ⟨0, _⟩ => apply Fin.ext; simp [DotDims.lhsIdx, D1, dot_S2048x256_S2048x512_S256x512_0_0_1_1_n_n, eD1, contrEquiv1]; rfl
  | ⟨1, _⟩ => apply Fin.ext; simp [DotDims.lhsIdx, D1, dot_S2048x256_S2048x512_S256x512_0_0_1_1_n_n, eD1, contrEquiv1]; rfl

theorem rhsIdx1 (r : Fin 256) (o : Fin 512) (b : Fin 2048) : D1.rhsIdx (ix2 r o) (eD1.symm b) = ix2 b o := by
  funext a
  match a with
  | ⟨0, _⟩ => apply Fin.ext; simp [DotDims.rhsIdx, D1, dot_S2048x256_S2048x512_S256x512_0_0_1_1_n_n, eD1, contrEquiv1]; rfl
  | ⟨1, _⟩ => apply Fin.ext; simp [DotDims.rhsIdx, D1, dot_S2048x256_S2048x512_S256x512_0_0_1_1_n_n, eD1, contrEquiv1]; rfl

/-- One point's step: the tile's product Qᵀ K, summed over the tile's rows, added to the accumulator. -/
theorem pay1_1_apply (v29 : FVec Ideal S2048x256 .bf16) (v30 : FVec Ideal S2048x512 .bf16) (v31 : Vec Ideal S256x512 .f32) (r : Fin 256) (o : Fin 512) :
    k1_pay1 v29 v30 v31 (ix2 r o) = v31 (ix2 r o) + ∑ b : Fin 2048, v29 (ix2 b r) * v30 (ix2 b o) := by
  unfold k1_pay1
  simp only [shapeCast_self, addf_apply]
  refine congrArg (v31 (ix2 r o) + ·) ?_
  refine (Ideal.matmul_constant_zero_apply D1 none v29 v30 (ix2 r o)).trans ?_
  refine (Equiv.sum_comp eD1.symm _).symm.trans ?_
  exact Finset.sum_congr rfl fun b _ => by rw [lhsIdx1, rhsIdx1]

theorem exp_apply_1 {s : Shape} {φ : FTy} (a : FVec Ideal s φ) (i : s.Idx) : exp a i = Ideal.exp (a i) := rfl

/-- An `[a]` array cast to `[a, 1]` reads, at `(i, u)`, the operand at `i`. -/
theorem shapeCast_a_a1_apply_1 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply_1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift1 (r : Fin 256) (k : Fin 512) : reduces_S256x512_S256.lift (ix1 r) k = ix2 r k := by
  funext a
  match a with
  | ⟨0, _⟩ => apply Fin.ext; simp [Shape.Reduces.lift_val, Shape.Reduces.liftVal]; rfl
  | ⟨1, _⟩ => apply Fin.ext; simp [Shape.Reduces.lift_val, Shape.Reduces.liftVal]; rfl

theorem ofBits_negInf_f32_1 : Ideal.ofBits .f32 0xFF800000#32 = ⊥ := by simp [Ideal.ofBits, Ideal.ieee]

/-- The softmax of one row of logits. -/
def rowSoft_1 (L : Fin 512 → EReal) (o : Fin 512) : EReal :=
  Ideal.div (Ideal.exp (L o - Finset.univ.sup L)) (∑ k : Fin 512, Ideal.exp (L k - Finset.univ.sup L))

theorem softmax_eq_rowSoft_1 (L : Fin 512 → Fin 512 → EReal) (o₁ o₂ : Fin 512) : Cert.Spec.softmax L o₁ o₂ = rowSoft_1 (L o₁) o₂ := rfl

theorem rowMax_apply_1 (src : FVec Ideal S256x512 .f32) (hφ : FKind.Formats .f32)
    (hacc : (0xFF800000#32 : BitVec FTy.f32.bits) = FKind.maximumf.neutral .f32 hφ) (r : Fin 256) :
    multiReduction .maximumf [1] S256 src 0xFF800000#32 reduces_S256x512_S256 hφ hacc (ix1 r)
      = Finset.univ.sup fun k : Fin 512 => src (ix2 r k) := by
  refine (Ideal.multiReduction_maximumf_single src _ reduces_S256x512_S256 hφ hacc (ix1 r)).trans ?_
  have e : (src ∘ reduces_S256x512_S256.lift (ix1 r)) = fun k : Fin 512 => src (ix2 r k) := funext fun k => congrArg src (lift1 r k)
  rw [e]
  show Finset.univ.fold max (Ideal.ofBits .f32 0xFF800000#32) _ = _
  rw [ofBits_negInf_f32_1]; rfl

theorem rowSum_apply_1 (src : FVec Ideal S256x512 .f32) (hφ : FKind.Formats .f32)
    (hacc : (0x00000000#32 : BitVec FTy.f32.bits) = FKind.add.neutral .f32 hφ) (r : Fin 256) :
    multiReduction .add [1] S256 src 0x00000000#32 reduces_S256x512_S256 hφ hacc (ix1 r) = ∑ k : Fin 512, src (ix2 r k) := by
  refine (Ideal.multiReduction_add_single src _ reduces_S256x512_S256 hφ hacc (ix1 r)).trans ?_
  exact Finset.sum_congr rfl fun k _ => congrArg src (lift1 r k)

/-- The scaled logits of a block, their row maxima, and the exponentials less the maxima, as the body computes them. -/
abbrev scaled_1 (v40 : Vec Ideal S256x512 .f32) : FVec Ideal S256x512 .f32 := mulf v40 (broadcast S256x512 (Scalar.ofBits .f32 0x3D000000#32))
abbrev rowMaxV_1 (v40 : Vec Ideal S256x512 .f32) : FVec Ideal S256 .f32 :=
  multiReduction .maximumf [1] S256 (scaled_1 v40) 0xFF800000#32 reduces_S256x512_S256 (.inl rfl) rfl
abbrev expV_1 (v40 : Vec Ideal S256x512 .f32) : FVec Ideal S256x512 .f32 :=
  exp (subf (scaled_1 v40) (broadcastTo S256x512 (shapeCast S256x1 (rowMaxV_1 v40) shapeCasts_S256_S256x1) broadcasts_S256x1_S256x512))
abbrev rowSumV_1 (v40 : Vec Ideal S256x512 .f32) : FVec Ideal S256 .f32 :=
  multiReduction .add [1] S256 (expV_1 v40) 0x00000000#32 reduces_S256x512_S256 (.inl rfl) rfl

theorem expV_apply_1 (v40 : Vec Ideal S256x512 .f32) (r : Fin 256) (k : Fin 512) :
    expV_1 v40 (ix2 r k) = Ideal.exp (v40 (ix2 r k) * Ideal.ofBits .f32 0x3D000000#32
      - Finset.univ.sup fun k : Fin 512 => v40 (ix2 r k) * Ideal.ofBits .f32 0x3D000000#32) := by
  show Ideal.exp (v40 (ix2 r k) * Ideal.ofBits .f32 0x3D000000#32
    - broadcastTo S256x512 (shapeCast S256x1 (rowMaxV_1 v40) shapeCasts_S256_S256x1) broadcasts_S256x1_S256x512 (ix2 r k)) = _
  rw [broadcastTo_a1_ab_apply_1, shapeCast_a_a1_apply_1]
  exact congrArg (fun m => Ideal.exp (v40 (ix2 r k) * Ideal.ofBits .f32 0x3D000000#32 - m)) (rowMax_apply_1 (scaled_1 v40) _ _ r)

/-- What the last point of a run stores: the softmax of the accumulator's row, scaled by 1/32. -/
theorem pay1_2_apply (v40 : Vec Ideal S256x512 .f32) (r : Fin 256) (o : Fin 512) :
    k1_pay2 v40 (ix3 (0 : Fin 1) r o) = rowSoft_1 (fun k => v40 (ix2 r k) * Ideal.ofBits .f32 0x3D000000#32) o := by
  have h1 : k1_pay2 v40 (ix3 (0 : Fin 1) r o)
      = Ideal.div (expV_1 v40 (ix2 r o)) (broadcastTo S256x512 (shapeCast S256x1 (rowSumV_1 v40) shapeCasts_S256_S256x1) broadcasts_S256x1_S256x512 (ix2 r o)) := by
    unfold k1_pay2
    simp only [shapeCast_ab_1ab_apply, truncf_apply, divf_apply]
  rw [h1, broadcastTo_a1_ab_apply_1, shapeCast_a_a1_apply_1]
  unfold rowSoft_1
  refine congrArg₂ Ideal.div (expV_apply_1 v40 r o) ?_
  exact (rowSum_apply_1 (expV_1 v40) _ _ r).trans (Finset.sum_congr rfl fun k _ => expV_apply_1 v40 r k)

end Cert.KernelIdeal.HandVal
end
-- ==== Proof.KI.Val1.lean ====
import proofs.«100284_j64536178590158_2_alg».proof.Proof.KI.Val1Pay
import proofs.«100284_j64536178590158_2_alg».proof.Proof.Spec
import Idealize.ShloMosaic.Lib.Pipeline.Value
import Idealize.ShloMosaic.Lib.ValueIdx
import Idealize.ShloMosaic.Lib.ValueLayout
import Idealize.ShloMosaic.Lib.ValueIdxCoords
import Idealize.ShloMosaic.PureOps.Ideal.Laws
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Where each window's block sits at each point: the point is (attention g, half p, batch tile bi) = (t / 32, t / 16 % 2, t % 16). -/
theorem idx_facts_1 : ∀ t : Fin cfg1.N,
    win1_0.index t = ![3 * (t.val / 32), t.val % 16, t.val / 16 % 2] ∧ win1_1.index t = ![3 * (t.val / 32) + 1, t.val % 16, 0]
    ∧ win1_2.index t = ![3 * (t.val / 32), 0, t.val / 16 % 2] ∧ win1_3.index t = ![3 * (t.val / 32), 0, t.val / 16 % 2]
    ∧ win1_4.index t = ![3 * (t.val / 32) + 1, 0, 0] ∧ win1_5.index t = ![3 * (t.val / 32) + 1, 0, 0]
    ∧ win1_6.index t = ![t.val / 32, t.val / 16 % 2, 0] :=
  (by decide +kernel : ∀ t : Fin grid1.N, _)

/-- A block element is the array's element at the block's offset plus the element's own coordinates. -/
theorem iblk1_apply (c : Dev nD) (w : Fin cfg1.W) (t : Fin cfg1.N) (y : ((cfg1.win w).xblock (cfg1.grid.coords t)).Idx)
    (j : ((cfg1.win w).arr.view.loc (c : Thread nD τ)).2.ty.Idx) (hj : j = ((cfg1.win w).blk t).view.emb y) :
    iblk1 V c w t y = _root_.cast (congrArg (Elt Ideal) ((cfg1.win w).blk t).view.elt_eq) (V c (Pipeline.arrRef spec1 w) j) := by
  subst hj; rfl

theorem blk1_0_apply (c : Dev nD) (t : Fin cfg1.N) (b : Fin 2048) (k : Fin 256) (I : Fin 9) (B : Fin 32768) (K : Fin 512)
    (hI : I.val = 3 * (t.val / 32)) (hB : B.val = 2048 * (t.val % 16) + b.val) (hK : K.val = 256 * (t.val / 16 % 2) + k.val) :
    iblk1 V c 0 t (ix3 (0 : Fin 1) b k) = V c (Pipeline.arrRef spec1 0) (ix3 I B K) := by
  refine (iblk1_apply V c 0 t _ (ix3 I B K) ?_).trans (cast_eq _ _)
  have hx := (idx_facts_1 t).1
  funext a
  apply Fin.ext
  show _ = ((win1_0.rect t).emb (ix3 (0 : Fin 1) b k) a : ℕ)
  rw [win1_0.rect_emb_val t _ a, hx]
  match a with
  | ⟨0, _⟩ => show I.val = 3 * (t.val / 32) * 1 + 0; omega
  | ⟨1, _⟩ => show B.val = t.val % 16 * 2048 + b.val; omega
  | ⟨2, _⟩ => show K.val = t.val / 16 % 2 * 256 + k.val; omega

theorem blk1_1_apply (c : Dev nD) (t : Fin cfg1.N) (b : Fin 2048) (k : Fin 512) (I : Fin 9) (B : Fin 32768)
    (hI : I.val = 3 * (t.val / 32) + 1) (hB : B.val = 2048 * (t.val % 16) + b.val) :
    iblk1 V c 1 t (ix3 (0 : Fin 1) b k) = V c (Pipeline.arrRef spec1 1) (ix3 I B k) := by
  refine (iblk1_apply V c 1 t _ (ix3 I B k) ?_).trans (cast_eq _ _)
  have hx := (idx_facts_1 t).2.1
  funext a
  apply Fin.ext
  show _ = ((win1_1.rect t).emb (ix3 (0 : Fin 1) b k) a : ℕ)
  rw [win1_1.rect_emb_val t _ a, hx]
  match a with
  | ⟨0, _⟩ => show I.val = (3 * (t.val / 32) + 1) * 1 + 0; omega
  | ⟨1, _⟩ => show B.val = t.val % 16 * 2048 + b.val; omega
  | ⟨2, _⟩ => show k.val = 0 * 512 + k.val; omega

theorem blk1_2_apply (c : Dev nD) (t : Fin cfg1.N) (k : Fin 256) (I : Fin 9) (K : Fin 512)
    (hI : I.val = 3 * (t.val / 32)) (hK : K.val = 256 * (t.val / 16 % 2) + k.val) :
    iblk1 V c 2 t (ix3 (0 : Fin 1) (0 : Fin 1) k) = V c (Pipeline.arrRef spec1 2) (ix3 I (0 : Fin 1) K) := by
  refine (iblk1_apply V c 2 t _ (ix3 I (0 : Fin 1) K) ?_).trans (cast_eq _ _)
  have hx := (idx_facts_1 t).2.2.1
  funext a
  apply Fin.ext
  show _ = ((win1_2.rect t).emb (ix3 (0 : Fin 1) (0 : Fin 1) k) a : ℕ)
  rw [win1_2.rect_emb_val t _ a, hx]
  match a with
  | ⟨0, _⟩ => show I.val = 3 * (t.val / 32) * 1 + 0; omega
  | ⟨1, _⟩ => show 0 = 0 * 1 + 0; omega
  | ⟨2, _⟩ => show K.val = t.val / 16 % 2 * 256 + k.val; omega

theorem blk1_3_apply (c : Dev nD) (t : Fin cfg1.N) (k : Fin 256) (I : Fin 9) (K : Fin 512)
    (hI : I.val = 3 * (t.val / 32)) (hK : K.val = 256 * (t.val / 16 % 2) + k.val) :
    iblk1 V c 3 t (ix3 (0 : Fin 1) (0 : Fin 1) k) = V c (Pipeline.arrRef spec1 3) (ix3 I (0 : Fin 1) K) := by
  refine (iblk1_apply V c 3 t _ (ix3 I (0 : Fin 1) K) ?_).trans (cast_eq _ _)
  have hx := (idx_facts_1 t).2.2.2.1
  funext a
  apply Fin.ext
  show _ = ((win1_3.rect t).emb (ix3 (0 : Fin 1) (0 : Fin 1) k) a : ℕ)
  rw [win1_3.rect_emb_val t _ a, hx]
  match a with
  | ⟨0, _⟩ => show I.val = 3 * (t.val / 32) * 1 + 0; omega
  | ⟨1, _⟩ => show 0 = 0 * 1 + 0; omega
  | ⟨2, _⟩ => show K.val = t.val / 16 % 2 * 256 + k.val; omega

theorem blk1_4_apply (c : Dev nD) (t : Fin cfg1.N) (k : Fin 512) (I : Fin 9)
    (hI : I.val = 3 * (t.val / 32) + 1)  :
    iblk1 V c 4 t (ix3 (0 : Fin 1) (0 : Fin 1) k) = V c (Pipeline.arrRef spec1 4) (ix3 I (0 : Fin 1) k) := by
  refine (iblk1_apply V c 4 t _ (ix3 I (0 : Fin 1) k) ?_).trans (cast_eq _ _)
  have hx := (idx_facts_1 t).2.2.2.2.1
  funext a
  apply Fin.ext
  show _ = ((win1_4.rect t).emb (ix3 (0 : Fin 1) (0 : Fin 1) k) a : ℕ)
  rw [win1_4.rect_emb_val t _ a, hx]
  match a with
  | ⟨0, _⟩ => show I.val = (3 * (t.val / 32) + 1) * 1 + 0; omega
  | ⟨1, _⟩ => show 0 = 0 * 1 + 0; omega
  | ⟨2, _⟩ => show k.val = 0 * 512 + k.val; omega

theorem blk1_5_apply (c : Dev nD) (t : Fin cfg1.N) (k : Fin 512) (I : Fin 9)
    (hI : I.val = 3 * (t.val / 32) + 1)  :
    iblk1 V c 5 t (ix3 (0 : Fin 1) (0 : Fin 1) k) = V c (Pipeline.arrRef spec1 5) (ix3 I (0 : Fin 1) k) := by
  refine (iblk1_apply V c 5 t _ (ix3 I (0 : Fin 1) k) ?_).trans (cast_eq _ _)
  have hx := (idx_facts_1 t).2.2.2.2.2.1
  funext a
  apply Fin.ext
  show _ = ((win1_5.rect t).emb (ix3 (0 : Fin 1) (0 : Fin 1) k) a : ℕ)
  rw [win1_5.rect_emb_val t _ a, hx]
  match a with
  | ⟨0, _⟩ => show I.val = (3 * (t.val / 32) + 1) * 1 + 0; omega
  | ⟨1, _⟩ => show 0 = 0 * 1 + 0; omega
  | ⟨2, _⟩ => show k.val = 0 * 512 + k.val; omega

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- One point's step at an index: the accumulator plus the sum over the tile's rows of the products of the two activations. -/
theorem step1_apply (x0 : Vec Ideal S1x2048x256 .bf16) (x1 : Vec Ideal S1x2048x512 .bf16) (x2 x3 : Vec Ideal S1x1x256 .f32) (x4 x5 : Vec Ideal S1x1x512 .f32)
    (s : Vec Ideal S256x512 .f32) (r : Fin 256) (o : Fin 512) :
    step1 x0 x1 x2 x3 x4 x5 s (ix2 r o) = s (ix2 r o) + ∑ b : Fin 2048,
      Cert.Spec.actK (x0 (ix3 (0 : Fin 1) b r)) (x2 (ix3 (0 : Fin 1) (0 : Fin 1) r)) (x3 (ix3 (0 : Fin 1) (0 : Fin 1) r))
        * Cert.Spec.actK (x1 (ix3 (0 : Fin 1) b o)) (x4 (ix3 (0 : Fin 1) (0 : Fin 1) o)) (x5 (ix3 (0 : Fin 1) (0 : Fin 1) o)) := by
  unfold step1
  rw [View.canon_unit_zero hz2_1]
  rw [View.ld_unit_zero (S := S1x2048x256) hz3_1, View.ld_unit_zero (S := S1x2048x512) hz3_1, View.ld_unit_zero (S := S256x512) hz2_1]
  simp only [View.ld_unit_zero (S := S1x1x256) hz3_1, View.ld_unit_zero (S := S1x1x512) hz3_1]
  rw [pay1_1_apply]
  exact congrArg (s (ix2 r o) + ·) (Finset.sum_congr rfl fun b _ => by rw [pay1_4_apply, pay1_5_apply])

theorem zero1_apply (j : S256x512.Idx) : zero1 (F := Ideal) j = 0 := by
  unfold zero1; rw [View.canon_unit_zero hz2_1]; exact pay1_3_apply j

theorem fin1_apply (s : Vec Ideal S256x512 .f32) (r : Fin 256) (o : Fin 512) :
    fin1 s (ix3 (0 : Fin 1) r o) = rowSoft_1 (fun k => s (ix2 r k) * Ideal.ofBits .f32 0x3D000000#32) o := by
  unfold fin1; rw [View.canon_unit_zero hz3_1, View.ld_unit_zero (S := S256x512) hz2_1]; exact pay1_2_apply s r o

/-- The contribution of the point at position `n` to the logit (r, o) of its block. -/
def tile_1 (c : Dev nD) (n : ℕ) (r : Fin 256) (o : Fin 512) : EReal :=
  if h : n < cfg1.N then ∑ b : Fin 2048,
      Cert.Spec.actK (iblk1 V c 0 ⟨n, h⟩ (ix3 (0 : Fin 1) b r)) (iblk1 V c 2 ⟨n, h⟩ (ix3 (0 : Fin 1) (0 : Fin 1) r)) (iblk1 V c 3 ⟨n, h⟩ (ix3 (0 : Fin 1) (0 : Fin 1) r))
        * Cert.Spec.actK (iblk1 V c 1 ⟨n, h⟩ (ix3 (0 : Fin 1) b o)) (iblk1 V c 4 ⟨n, h⟩ (ix3 (0 : Fin 1) (0 : Fin 1) o)) (iblk1 V c 5 ⟨n, h⟩ (ix3 (0 : Fin 1) (0 : Fin 1) o))
  else 0

theorem stepAt_apply_1 (c : Dev nD) (n : ℕ) (s : Vec Ideal S256x512 .f32) (r : Fin 256) (o : Fin 512) :
    stepAt V c n s (ix2 r o) = s (ix2 r o) + tile_1 V c n r o := by
  unfold stepAt tile_1
  by_cases h : n < cfg1.N
  · rw [dif_pos h, dif_pos h]
    exact step1_apply (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) s r o
  · rw [dif_neg h, dif_neg h, add_zero]

/-- The accumulator within a run of sixteen points: the sum of the points' contributions so far. -/
theorem accN_run_1 (c : Dev nD) (u : ℕ) (r : Fin 256) (o : Fin 512) : ∀ j : ℕ, j < 16 →
    accN V c (16 * u + j) (ix2 r o) = ∑ j' ∈ Finset.range (j + 1), tile_1 V c (16 * u + j') r o
  | 0, _ => by
    rw [accN_first V c _ (by omega), stepAt_apply_1, zero1_apply, zero_add, Finset.sum_range_one]
  | j + 1, hj => by
    rw [accN_next V c _ (by omega), stepAt_apply_1, show 16 * u + (j + 1) - 1 = 16 * u + j from by omega,
      accN_run_1 c u r o j (by omega), Finset.sum_range_succ _ (j + 1)]

/-- The activations of attention `g` over the whole batch, from the arrays as the region finds them. -/
def Qf_1 (c : Dev nD) (g : Fin 3) : Fin 32768 → Fin 512 → EReal := fun r k =>
  Cert.Spec.actK (V c (Pipeline.arrRef spec1 0) (ix3 (Cert.Spec.qrow g) r k)) (V c (Pipeline.arrRef spec1 2) (ix3 (Cert.Spec.qrow g) 0 k)) (V c (Pipeline.arrRef spec1 3) (ix3 (Cert.Spec.qrow g) 0 k))
def Kf_1 (c : Dev nD) (g : Fin 3) : Fin 32768 → Fin 512 → EReal := fun r k =>
  Cert.Spec.actK (V c (Pipeline.arrRef spec1 1) (ix3 (Cert.Spec.krow g) r k)) (V c (Pipeline.arrRef spec1 4) (ix3 (Cert.Spec.krow g) 0 k)) (V c (Pipeline.arrRef spec1 5) (ix3 (Cert.Spec.krow g) 0 k))

/-- A point's contribution, from the arrays: the rows of its batch tile. -/
theorem tile_eq_1 (c : Dev nD) (t : Fin cfg1.N) (r : Fin 256) (o : Fin 512) (g : Fin 3) (R : Fin 512) (Bf : Fin 2048 → Fin 32768)
    (hg : g.val = t.val / 32) (hR : R.val = 256 * (t.val / 16 % 2) + r.val) (hB : ∀ b, (Bf b).val = 2048 * (t.val % 16) + b.val) :
    tile_1 V c t.val r o = ∑ b : Fin 2048, Qf_1 V c g (Bf b) R * Kf_1 V c g (Bf b) o := by
  unfold tile_1
  rw [dif_pos t.isLt]
  refine Finset.sum_congr rfl fun b _ => ?_
  have hq : (Cert.Spec.qrow g).val = 3 * (t.val / 32) := by show 3 * g.val = _; rw [hg]
  have hk : (Cert.Spec.krow g).val = 3 * (t.val / 32) + 1 := by show 3 * g.val + 1 = _; rw [hg]
  show Cert.Spec.actK (iblk1 V c 0 t (ix3 (0 : Fin 1) b r)) (iblk1 V c 2 t (ix3 (0 : Fin 1) (0 : Fin 1) r)) (iblk1 V c 3 t (ix3 (0 : Fin 1) (0 : Fin 1) r))
        * Cert.Spec.actK (iblk1 V c 1 t (ix3 (0 : Fin 1) b o)) (iblk1 V c 4 t (ix3 (0 : Fin 1) (0 : Fin 1) o)) (iblk1 V c 5 t (ix3 (0 : Fin 1) (0 : Fin 1) o)) = _
  rw [blk1_0_apply V c t b r (Cert.Spec.qrow g) (Bf b) R hq (hB b) hR, blk1_1_apply V c t b o (Cert.Spec.krow g) (Bf b) hk (hB b),
    blk1_2_apply V c t r (Cert.Spec.qrow g) R hq hR, blk1_3_apply V c t r (Cert.Spec.qrow g) R hq hR,
    blk1_4_apply V c t o (Cert.Spec.krow g) hk, blk1_5_apply V c t o (Cert.Spec.krow g) hk]
  rfl

/-- The sum over the batch regrouped into sixteen tiles of 2048 rows. -/
theorem sum_tiles_1 (F : Fin 32768 → EReal) :
    ∑ B : Fin 32768, F B = ∑ j : Fin 16, ∑ b : Fin 2048, F (finProdFinEquiv (j, b)) := by
  rw [← Fintype.sum_prod_type (f := fun x : Fin 16 × Fin 2048 => F (finProdFinEquiv x))]
  exact (Equiv.sum_comp (finProdFinEquiv : Fin 16 × Fin 2048 ≃ Fin (16 * 2048)) F).symm

/-- After the last point of a run the accumulator holds the logits of its block: the whole batch's sum. -/
theorem acc_run_eq_1 (c : Dev nD) (t : Fin cfg1.N) (h15 : t.val % 16 = 15) (g : Fin 3) (hg : g.val = t.val / 32)
    (R : Fin 512) (r : Fin 256) (hR : R.val = 256 * (t.val / 16 % 2) + r.val) (o : Fin 512) :
    accN V c t.val (ix2 r o) = Cert.Spec.qk (Qf_1 V c g) (Kf_1 V c g) R o := by
  have hN : t.val < 96 := lt_of_lt_of_eq t.isLt (show cfg1.N = 96 from N_1)
  have e : accN V c t.val = accN V c (16 * (t.val / 16) + 15) := congrArg _ (by omega)
  rw [e, accN_run_1 V c (t.val / 16) r o 15 (by omega), Finset.sum_range (fun j' => tile_1 V c (16 * (t.val / 16) + j') r o)]
  unfold Cert.Spec.qk
  rw [sum_tiles_1]
  refine Finset.sum_congr rfl fun j _ => ?_
  have hj : 16 * (t.val / 16) + j.val < cfg1.N :=
    lt_of_lt_of_eq (by have := j.isLt; omega : 16 * (t.val / 16) + j.val < 96) (show 96 = cfg1.N from N_1.symm)
  exact tile_eq_1 V c ⟨16 * (t.val / 16) + j.val, hj⟩ r o g R (fun b => finProdFinEquiv (j, b))
    (by show g.val = (16 * (t.val / 16) + j.val) / 32; have := j.isLt; omega)
    (by show R.val = 256 * ((16 * (t.val / 16) + j.val) / 16 % 2) + r.val; have := j.isLt; omega)
    (fun b => by show b.val + 2048 * j.val = 2048 * ((16 * (t.val / 16) + j.val) % 16) + b.val; have := j.isLt; omega)

/-- The attention matrices as ONE function of the arrays the region finds: the row softmax of the scaled logits. -/
def Gf_1 (c : Dev nD) (g : Fin 3) (o₁ o₂ : Fin 512) : EReal :=
  Cert.Spec.softmax (fun a b => Cert.Spec.qk (Qf_1 V c g) (Kf_1 V c g) a b * Ideal.ofBits .f32 0x3D000000#32) o₁ o₂

def G1 (c : Dev nD) : Buf (Elt Ideal) ((cfg1.win 6).arr.view.loc (c : Thread nD τ)) := fun i => Gf_1 V c (i 0) (i 1) (i 2)

theorem emb6_1 (t : Fin cfg1.N) (u : Fin 1) (r : Fin 256) (o : Fin 512) (g : Fin 3) (R : Fin 512)
    (hg : g.val = t.val / 32) (hR : R.val = 256 * (t.val / 16 % 2) + r.val) :
    ((cfg1.win 6).blk t).view.emb (ix3 u r o) = ix3 g R o := by
  have hx := (idx_facts_1 t).2.2.2.2.2.2
  funext a
  apply Fin.ext
  show ((win1_6.rect t).emb (ix3 u r o) a : ℕ) = _
  rw [win1_6.rect_emb_val t _ a, hx]
  have hu : u.val = 0 := by omega
  match a with
  | ⟨0, _⟩ => show t.val / 32 * 1 + u.val = g.val; omega
  | ⟨1, _⟩ => show t.val / 16 % 2 * 256 + r.val = R.val; omega
  | ⟨2, _⟩ => show 0 * 512 + o.val = o.val; omega

/-- What a point that writes back has in the output buffer is its block of the one function. -/
theorem flushed_eq_1 (c : Dev nD) (t : Fin cfg1.N) (hf : (cfg1.win 6).flush t = true) :
    (dat1 V c).flushed 6 t = ((cfg1.win 6).blk t).view.read (Elt Ideal) (G1 V c) := by
  have h15 : t.val % 16 = 15 := (flush1_6 t).mp hf
  have hN : t.val < 96 := lt_of_lt_of_eq t.isLt (show cfg1.N = 96 from N_1)
  show (cfg1.win 6).cut (grid1.coords t) ((dat1 V c).after 6 t) = _
  rw [after1_6]
  funext y
  obtain ⟨u, r, o, rfl⟩ : ∃ (u : Fin 1) (r : Fin 256) (o : Fin 512), y = ix3 u r o := ⟨y 0, y 1, y 2, eq_ix3 y⟩
  have hu : u = 0 := Subsingleton.elim _ _
  subst hu
  rw [View.read_apply, cast_eq,
    emb6_1 t 0 r o ⟨t.val / 32, by omega⟩ ⟨256 * (t.val / 16 % 2) + r.val, by have := r.isLt; omega⟩ rfl rfl]
  show out1_6 V c t (ix3 (0 : Fin 1) r o) = Gf_1 V c ⟨t.val / 32, by omega⟩ ⟨256 * (t.val / 16 % 2) + r.val, by have := r.isLt; omega⟩ o
  unfold out1_6 acc1 Gf_1
  rw [fin1_apply, softmax_eq_rowSoft_1]
  exact congrArg (fun L => rowSoft_1 L o) (funext fun k => congrArg (· * Ideal.ofBits .f32 0x3D000000#32)
    (acc_run_eq_1 V c t h15 ⟨t.val / 32, by omega⟩ rfl ⟨256 * (t.val / 16 % 2) + r.val, by have := r.isLt; omega⟩ r rfl k))

/-- Every element of the output array is in the block of some point that writes back. -/
theorem cover6_1 (c : Dev nD) (i : ((cfg1.win 6).arr.view.loc (c : Thread nD τ)).2.ty.Idx) :
    ∃ t : Fin cfg1.N, (cfg1.win 6).flush t = true ∧ i ∈ ((cfg1.win 6).blk t).view.set := by
  have h0 : (i 0 : ℕ) < 3 := (i 0).isLt
  have h1 : (i 1 : ℕ) < 512 := (i 1).isLt
  have h2 : (i 2 : ℕ) < 512 := (i 2).isLt
  obtain ⟨n, hn⟩ : ∃ n : ℕ, n = 32 * (i 0 : ℕ) + 16 * ((i 1 : ℕ) / 256) + 15 := ⟨_, rfl⟩
  have hlt : n < cfg1.N := lt_of_lt_of_eq (by omega : n < 96) (show 96 = cfg1.N from N_1.symm)
  refine ⟨⟨n, hlt⟩, (flush1_6 _).mpr (by show n % 16 = 15; omega), ?_⟩
  show i ∈ ((View.whole main_v22).slice (win1_6.rect ⟨n, hlt⟩)).set
  rw [View.set_slice_whole, Rect.mem_set_unit]
  have hx := (idx_facts_1 ⟨n, hlt⟩).2.2.2.2.2.2
  intro a
  match a with
  | ⟨0, _⟩ =>
    show win1_6.index ⟨n, hlt⟩ 0 * win1_6.size 0 ≤ (i 0 : ℕ) ∧ (i 0 : ℕ) < win1_6.index ⟨n, hlt⟩ 0 * win1_6.size 0 + win1_6.xsize (grid1.coords ⟨n, hlt⟩) 0
    rw [hx]
    show n / 32 * 1 ≤ (i 0 : ℕ) ∧ (i 0 : ℕ) < n / 32 * 1 + 1
    omega
  | ⟨1, _⟩ =>
    show win1_6.index ⟨n, hlt⟩ 1 * win1_6.size 1 ≤ (i 1 : ℕ) ∧ (i 1 : ℕ) < win1_6.index ⟨n, hlt⟩ 1 * win1_6.size 1 + win1_6.xsize (grid1.coords ⟨n, hlt⟩) 1
    rw [hx]
    show n / 16 % 2 * 256 ≤ (i 1 : ℕ) ∧ (i 1 : ℕ) < n / 16 % 2 * 256 + 256
    omega
  | ⟨2, _⟩ =>
    show win1_6.index ⟨n, hlt⟩ 2 * win1_6.size 2 ≤ (i 2 : ℕ) ∧ (i 2 : ℕ) < win1_6.index ⟨n, hlt⟩ 2 * win1_6.size 2 + win1_6.xsize (grid1.coords ⟨n, hlt⟩) 2
    rw [hx]
    show 0 * 512 ≤ (i 2 : ℕ) ∧ (i 2 : ℕ) < 0 * 512 + 512
    omega

/-- THE VALUE of region 1: the output array ends holding, for each attention, the row softmax of the scaled logits of the
    normalised, rectified queries and keys, as one function of the arrays the region finds. -/
theorem final1 (c : Dev nD) (g : Fin 3) (o₁ o₂ : Fin 512) :
    (dat1 (F := Ideal) V c).arrAt 6 cfg1.N (ix3 g o₁ o₂)
      = Cert.Spec.softmax (fun a b => Cert.Spec.qk
          (fun r k => Cert.Spec.actK (V c (Pipeline.arrRef spec1 0) (ix3 (Cert.Spec.qrow g) r k)) (V c (Pipeline.arrRef spec1 2) (ix3 (Cert.Spec.qrow g) 0 k)) (V c (Pipeline.arrRef spec1 3) (ix3 (Cert.Spec.qrow g) 0 k)))
          (fun r k => Cert.Spec.actK (V c (Pipeline.arrRef spec1 1) (ix3 (Cert.Spec.krow g) r k)) (V c (Pipeline.arrRef spec1 4) (ix3 (Cert.Spec.krow g) 0 k)) (V c (Pipeline.arrRef spec1 5) (ix3 (Cert.Spec.krow g) 0 k))) a b
            * Ideal.ofBits .f32 0x3D000000#32) o₁ o₂ := by
  rw [(dat1 V c).arrAt_eq_of_cover 6 (G1 V c) (flushed_eq_1 V c) (cover6_1 c)]
  rfl

end Cert.KernelIdeal.HandVal
end
-- ==== Proof.KI.Val2.lean ====
import proofs.«100284_j64536178590158_2_alg».proof.Proof.KI.Reg2
import proofs.«100284_j64536178590158_2_alg».proof.Proof.Spec
import Idealize.ShloMosaic.Lib.Pipeline.Value
import Idealize.ShloMosaic.Lib.ValueLayout
import Idealize.ShloMosaic.Lib.ValueIdx
import Idealize.ShloMosaic.PureOps.Ideal.Laws

/-! # The third launch's output array, index by index

After the launch, the output array holds at `(g, b, o)` the sum over `k` of the value projection
`3g + 2` at `(b, k)`, scaled, shifted and rectified channel by channel, times the attention matrix
`g` at `(o, k)`. First one tile's value at an index (the matrix product read as a sum over the
contracted coordinate, everything else pointwise), then each input block as a part of its array, then
the tiles put together: every index of the output lies in exactly the tile of point
`16 g + b / 2048`. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## One tile at an index -/

local notation "dotAV" => dot_S2048x512_S512x512_S2048x512_1_1_0_0_n_n

theorem tile2_apply (x0 : Vec Ideal S1x2048x512 .bf16) (x1 x2 : Vec Ideal S1x1x512 .f32) (x3 : Vec Ideal S1x512x512 .bf16)
    (y : S1x2048x512.Idx) (r : Fin 2048) (o : Fin 512) (hr : (y 1).val = r.val) (ho : (y 2).val = o.val) :
    k2_pay1 x0 x1 x2 x3 y
      = ∑ k : Fin 512, Cert.Spec.actK (x0 (ix3 (0 : Fin 1) r k)) (x1 (ix3 (0 : Fin 1) (0 : Fin 1) k)) (x2 (ix3 (0 : Fin 1) (0 : Fin 1) k))
          * x3 (ix3 (0 : Fin 1) o k) := by
  obtain rfl : y = ix3 (0 : Fin 1) r o := by
    funext a; apply Fin.ext
    match a with
    | ⟨0, _⟩ => have h : (y 0).val < 1 := (y 0).isLt; show (y 0).val = 0; omega
    | ⟨1, _⟩ => exact hr
    | ⟨2, _⟩ => exact ho
  unfold k2_pay1
  rw [shapeCast_ab_1ab_apply]
  simp only [matmul]
  rw [Ideal.matmul_constant_zero_apply, ← Equiv.sum_comp (contrEquiv1 dotAV 512 rfl rfl).symm]
  refine Finset.sum_congr rfl fun k _ => ?_
  have ck := contrEquiv1_symm_val dotAV 512 rfl rfl k
  have hl : DotDims.lhsIdx dotAV (ix2 r o) ((contrEquiv1 dotAV 512 rfl rfl).symm k) = ix2 r k := by
    funext ax; apply Fin.ext
    match ax with
    | ⟨0, _⟩ => simp [DotDims.lhsIdx, dot_S2048x512_S512x512_S2048x512_1_1_0_0_n_n]; rfl
    | ⟨1, _⟩ => exact (DotDims.lhsIdx_val_of_single dotAV (cl := (1 : Fin 2)) rfl _ _).trans ck
  have hrr : DotDims.rhsIdx dotAV (ix2 r o) ((contrEquiv1 dotAV 512 rfl rfl).symm k) = ix2 o k := by
    funext ax; apply Fin.ext
    match ax with
    | ⟨0, _⟩ => simp [DotDims.rhsIdx, dot_S2048x512_S512x512_S2048x512_1_1_0_0_n_n]; rfl
    | ⟨1, _⟩ => exact (DotDims.rhsIdx_val_of_single dotAV (cr := (1 : Fin 2)) rfl _ _).trans ck
  rw [hl, hrr]
  simp only [truncf_apply, maximumf_apply, addf_apply, mulf_apply, extf_apply, shapeCast_1ab_ab_apply,
    broadcastTo_1b_ab_apply, broadcast_apply]
  show max _ (Ideal.ofBits .f32 0x00000000#32) * _ = _
  rw [Ideal.ofBits_zero_f32]
  rfl

/-! ## The output as one function of the arrays the launch finds -/

variable (V : (c : Dev nD) → (b : Ref sig .tc) → Buf (Elt Ideal) ((c : Thread nD τ).loc b))

/-- Entry `(g, b, o)` of the result: `∑ k, relu (v[3g+2, b, k] · scale[3g+2, k] + shift[3g+2, k]) · attn[g, o, k]`. -/
def out2At (c : Dev nD) (g : Fin 3) (b : Fin 32768) (o : Fin 512) : EReal :=
  Cert.Spec.av
    (fun b k => Cert.Spec.actK ((V c (Pipeline.arrRef spec2 0) : S9x32768x512.Idx → EReal) (ix3 (Cert.Spec.vrow g) b k))
      ((V c (Pipeline.arrRef spec2 1) : S9x1x512.Idx → EReal) (ix3 (Cert.Spec.vrow g) (0 : Fin 1) k))
      ((V c (Pipeline.arrRef spec2 2) : S9x1x512.Idx → EReal) (ix3 (Cert.Spec.vrow g) (0 : Fin 1) k)))
    (fun o k => (V c (Pipeline.arrRef spec2 3) : S3x512x512.Idx → EReal) (ix3 g o k)) b o

/-- The whole result array. -/
def G2 (c : Dev nD) : S3x32768x512.Idx → EReal := fun i => out2At V c (i 0) (i 1) (i 2)

/-! ## Where each window's block sits in its array -/

/-- The block indices at point `t = 16 i + bi`: the value projection's tile `(3i+2, bi, 0)`, the scale and the
    shift rows `(3i+2, 0, 0)`, the attention matrix `(i, 0, 0)`, the output tile `(i, bi, 0)`. -/
theorem idx_facts2 : ∀ t : Fin cfg2.N,
    win2_0.index t (0 : Fin 3) = 3 * (t.val / 16) + 2 ∧ win2_0.index t (1 : Fin 3) = t.val % 16 ∧ win2_0.index t (2 : Fin 3) = 0
    ∧ win2_1.index t (0 : Fin 3) = 3 * (t.val / 16) + 2 ∧ win2_1.index t (1 : Fin 3) = 0 ∧ win2_1.index t (2 : Fin 3) = 0
    ∧ win2_2.index t (0 : Fin 3) = 3 * (t.val / 16) + 2 ∧ win2_2.index t (1 : Fin 3) = 0 ∧ win2_2.index t (2 : Fin 3) = 0
    ∧ win2_3.index t (0 : Fin 3) = t.val / 16 ∧ win2_3.index t (1 : Fin 3) = 0 ∧ win2_3.index t (2 : Fin 3) = 0
    ∧ win2_4.index t (0 : Fin 3) = t.val / 16 ∧ win2_4.index t (1 : Fin 3) = t.val % 16 ∧ win2_4.index t (2 : Fin 3) = 0 :=
  (by decide +kernel : ∀ t : Fin grid2.N, _)

/-- The value projection's block at point `t` is rows `2048 bi …` of slab `3i + 2`. -/
theorem iblk2_0_apply (c : Dev nD) (t : Fin cfg2.N) (y : S1x2048x512.Idx) (k : S9x32768x512.Idx)
    (h0 : (k 0).val = 3 * (t.val / 16) + 2) (h1 : (k 1).val = 2048 * (t.val % 16) + (y 1).val) (h2 : (k 2).val = (y 2).val) :
    (iblk2 V c 0 t : Vec Ideal S1x2048x512 .bf16) y = (V c (Pipeline.arrRef spec2 0) : S9x32768x512.Idx → EReal) k := by
  obtain ⟨e0, e1, e2, -⟩ := idx_facts2 t
  have hy0 : (y 0).val < 1 := (y 0).isLt
  unfold iblk2
  rw [View.read_apply]
  show (V c (Pipeline.arrRef spec2 0) : S9x32768x512.Idx → EReal) _ = _
  congr 1
  funext a; apply Fin.ext
  match a with
  | ⟨0, _⟩ => show win2_0.index t (0 : Fin 3) * 1 + 1 * (y 0).val = (k 0).val; omega
  | ⟨1, _⟩ => show win2_0.index t (1 : Fin 3) * 2048 + 1 * (y 1).val = (k 1).val; omega
  | ⟨2, _⟩ => show win2_0.index t (2 : Fin 3) * 512 + 1 * (y 2).val = (k 2).val; omega

/-- The scale block at point `t` is row `3i + 2` of the scale array. -/
theorem iblk2_1_apply (c : Dev nD) (t : Fin cfg2.N) (y : S1x1x512.Idx) (k : S9x1x512.Idx)
    (h0 : (k 0).val = 3 * (t.val / 16) + 2) (h2 : (k 2).val = (y 2).val) :
    (iblk2 V c 1 t : Vec Ideal S1x1x512 .f32) y = (V c (Pipeline.arrRef spec2 1) : S9x1x512.Idx → EReal) k := by
  obtain ⟨-, -, -, e0, e1, e2, -⟩ := idx_facts2 t
  have hy0 : (y 0).val < 1 := (y 0).isLt
  have hy1 : (y 1).val < 1 := (y 1).isLt
  have hk1 : (k 1).val < 1 := (k 1).isLt
  unfold iblk2
  rw [View.read_apply]
  show (V c (Pipeline.arrRef spec2 1) : S9x1x512.Idx → EReal) _ = _
  congr 1
  funext a; apply Fin.ext
  match a with
  | ⟨0, _⟩ => show win2_1.index t (0 : Fin 3) * 1 + 1 * (y 0).val = (k 0).val; omega
  | ⟨1, _⟩ => show win2_1.index t (1 : Fin 3) * 1 + 1 * (y 1).val = (k 1).val; omega
  | ⟨2, _⟩ => show win2_1.index t (2 : Fin 3) * 512 + 1 * (y 2).val = (k 2).val; omega

/-- The shift block at point `t` is row `3i + 2` of the shift array. -/
theorem iblk2_2_apply (c : Dev nD) (t : Fin cfg2.N) (y : S1x1x512.Idx) (k : S9x1x512.Idx)
    (h0 : (k 0).val = 3 * (t.val / 16) + 2) (h2 : (k 2).val = (y 2).val) :
    (iblk2 V c 2 t : Vec Ideal S1x1x512 .f32) y = (V c (Pipeline.arrRef spec2 2) : S9x1x512.Idx → EReal) k := by
  obtain ⟨-, -, -, -, -, -, e0, e1, e2, -⟩ := idx_facts2 t
  have hy0 : (y 0).val < 1 := (y 0).isLt
  have hy1 : (y 1).val < 1 := (y 1).isLt
  have hk1 : (k 1).val < 1 := (k 1).isLt
  unfold iblk2
  rw [View.read_apply]
  show (V c (Pipeline.arrRef spec2 2) : S9x1x512.Idx → EReal) _ = _
  congr 1
  funext a; apply Fin.ext
  match a with
  | ⟨0, _⟩ => show win2_2.index t (0 : Fin 3) * 1 + 1 * (y 0).val = (k 0).val; omega
  | ⟨1, _⟩ => show win2_2.index t (1 : Fin 3) * 1 + 1 * (y 1).val = (k 1).val; omega
  | ⟨2, _⟩ => show win2_2.index t (2 : Fin 3) * 512 + 1 * (y 2).val = (k 2).val; omega

/-- The attention block at point `t` is matrix `i` of the attention array. -/
theorem iblk2_3_apply (c : Dev nD) (t : Fin cfg2.N) (y : S1x512x512.Idx) (k : S3x512x512.Idx)
    (h0 : (k 0).val = t.val / 16) (h1 : (k 1).val = (y 1).val) (h2 : (k 2).val = (y 2).val) :
    (iblk2 V c 3 t : Vec Ideal S1x512x512 .bf16) y = (V c (Pipeline.arrRef spec2 3) : S3x512x512.Idx → EReal) k := by
  obtain ⟨-, -, -, -, -, -, -, -, -, e0, e1, e2, -⟩ := idx_facts2 t
  have hy0 : (y 0).val < 1 := (y 0).isLt
  unfold iblk2
  rw [View.read_apply]
  show (V c (Pipeline.arrRef spec2 3) : S3x512x512.Idx → EReal) _ = _
  congr 1
  funext a; apply Fin.ext
  match a with
  | ⟨0, _⟩ => show win2_3.index t (0 : Fin 3) * 1 + 1 * (y 0).val = (k 0).val; omega
  | ⟨1, _⟩ => show win2_3.index t (1 : Fin 3) * 512 + 1 * (y 1).val = (k 1).val; omega
  | ⟨2, _⟩ => show win2_3.index t (2 : Fin 3) * 512 + 1 * (y 2).val = (k 2).val; omega

/-! ## One point's tile is its part of the result -/

/-- The tile point `t` computes, at the local index `y`, is the result at the index `i` that `y` has in the array. -/
theorem tile2_eq (c : Dev nD) (t : Fin cfg2.N) (y : S1x2048x512.Idx) (i : S3x32768x512.Idx)
    (hi0 : (i 0).val = t.val / 16) (hi1 : (i 1).val = 2048 * (t.val % 16) + (y 1).val) (hi2 : (i 2).val = (y 2).val) :
    k2_pay1 (iblk2 V c 0 t) (iblk2 V c 1 t) (iblk2 V c 2 t) (iblk2 V c 3 t) y = G2 V c i := by
  have hy1 : (y 1).val < 2048 := (y 1).isLt
  have hy2 : (y 2).val < 512 := (y 2).isLt
  rw [tile2_apply _ _ _ _ y ⟨(y 1).val, hy1⟩ ⟨(y 2).val, hy2⟩ rfl rfl]
  unfold G2 out2At Cert.Spec.av
  refine Finset.sum_congr rfl fun k _ => ?_
  have e0 := iblk2_0_apply V c t (ix3 (0 : Fin 1) (⟨(y 1).val, hy1⟩ : Fin 2048) k) (ix3 (Cert.Spec.vrow (i 0)) (i 1) k)
    (by show 3 * (i 0).val + 2 = _; omega) hi1 rfl
  have e1 := iblk2_1_apply V c t (ix3 (0 : Fin 1) (0 : Fin 1) k) (ix3 (Cert.Spec.vrow (i 0)) (0 : Fin 1) k)
    (by show 3 * (i 0).val + 2 = _; omega) rfl
  have e2 := iblk2_2_apply V c t (ix3 (0 : Fin 1) (0 : Fin 1) k) (ix3 (Cert.Spec.vrow (i 0)) (0 : Fin 1) k)
    (by show 3 * (i 0).val + 2 = _; omega) rfl
  have e3 := iblk2_3_apply V c t (ix3 (0 : Fin 1) (⟨(y 2).val, hy2⟩ : Fin 512) k) (ix3 (i 0) (i 2) k) hi0 hi2 rfl
  rw [e0, e1, e2, e3]

/-! ## From the tiles to the array -/

theorem hz3_2 : (![0, 0, 0] : Fin 3 → Nat) = fun _ => 0 := funext fun a => by fin_cases a <;> rfl

/-- What point `t` writes back is tile `t` of the result. -/
theorem flushed2_eq (c : Dev nD) (t : Fin cfg2.N) :
    (dat2 (F := Ideal) V c).flushed 4 t = ((cfg2.win 4).blk t).view.read (Elt Ideal) (G2 V c) := by
  show (cfg2.win 4).cut (grid2.coords t) ((dat2 (F := Ideal) V c).after 4 t) = _
  rw [after2_4]
  unfold out2_4
  rw [View.canon_unit_zero hz3_2]
  simp only [View.ld_unit_zero (S := S1x2048x512) hz3_2, View.ld_unit_zero (S := S1x1x512) hz3_2,
    View.ld_unit_zero (S := S1x512x512) hz3_2]
  obtain ⟨-, -, -, -, -, -, -, -, -, -, -, -, e0, e1, e2⟩ := idx_facts2 t
  funext j
  have hj0 : (j 0).val < 1 := (j 0).isLt
  show k2_pay1 (F := Ideal) _ _ _ _ j = G2 V c (((cfg2.win 4).blk t).view.emb j)
  refine tile2_eq V c t j _ ?_ ?_ ?_
  · show win2_4.index t (0 : Fin 3) * 1 + 1 * (j 0).val = t.val / 16; omega
  · show win2_4.index t (1 : Fin 3) * 2048 + 1 * (j 1).val = 2048 * (t.val % 16) + (j 1).val; omega
  · show win2_4.index t (2 : Fin 3) * 512 + 1 * (j 2).val = (j 2).val; omega

/-- An index of the output array is in point `t`'s tile iff each coordinate is in the tile's range on its axis. -/
theorem mem_blk2_4 (t : Fin cfg2.N) (i : S3x32768x512.Idx) :
    i ∈ ((cfg2.win 4).blk t).view.set ↔ ∀ a : Fin 3, win2_4.index t a * S1x2048x512.size a ≤ (i a).val ∧ (i a).val < win2_4.index t a * S1x2048x512.size a + S1x2048x512.size a := by
  show i ∈ ((View.whole main_v23).slice (win2_4.rect t)).set ↔ _
  rw [View.set_slice_whole, Rect.mem_set_unit]
  exact Iff.rfl

/-- Every index `(g, b, o)` of the output is in the tile of point `16 g + b / 2048`, which is written back. -/
theorem cover2 (i : S3x32768x512.Idx) : ∃ t : Fin cfg2.N, (cfg2.win 4).flush t = true ∧ i ∈ ((cfg2.win 4).blk t).view.set := by
  have hi0 : (i 0).val < 3 := (i 0).isLt
  have hi1 : (i 1).val < 32768 := (i 1).isLt
  have hi2 : (i 2).val < 512 := (i 2).isLt
  have hN : cfg2.N = 48 := N_2
  obtain ⟨t, htv⟩ : ∃ t : Fin cfg2.N, t.val = (i 0).val * 16 + (i 1).val / 2048 :=
    ⟨⟨(i 0).val * 16 + (i 1).val / 2048, by rw [hN]; omega⟩, rfl⟩
  obtain ⟨-, -, -, -, -, -, -, -, -, -, -, -, e0, e1, e2⟩ := idx_facts2 t
  refine ⟨t, flush2_4 t, ?_⟩
  rw [mem_blk2_4]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 2048 ≤ (i 1).val ∧ (i 1).val < win2_4.index t (1 : Fin 3) * 2048 + 2048; omega
  | ⟨2, _⟩ => show win2_4.index t (2 : Fin 3) * 512 ≤ (i 2).val ∧ (i 2).val < win2_4.index t (2 : Fin 3) * 512 + 512; omega

/-- The output array after the launch is the result, whole. -/
theorem arr2_eq (c : Dev nD) : (dat2 (F := Ideal) V c).arrAt 4 cfg2.N = G2 V c :=
  (dat2 (F := Ideal) V c).arrAt_eq_of_cover 4 (G2 V c) (fun t _ => flushed2_eq V c t) cover2

/-- The output array after the launch, index by index. -/
theorem final2 (c : Dev nD) (g : Fin 3) (b : Fin 32768) (o : Fin 512) :
    ((dat2 (F := Ideal) V c).arrAt 4 cfg2.N : S3x32768x512.Idx → EReal) (ix3 g b o)
      = Cert.Spec.av
          (fun b k => Cert.Spec.actK ((V c (Pipeline.arrRef spec2 0) : S9x32768x512.Idx → EReal) (ix3 (Cert.Spec.vrow g) b k))
            ((V c (Pipeline.arrRef spec2 1) : S9x1x512.Idx → EReal) (ix3 (Cert.Spec.vrow g) (0 : Fin 1) k))
            ((V c (Pipeline.arrRef spec2 2) : S9x1x512.Idx → EReal) (ix3 (Cert.Spec.vrow g) (0 : Fin 1) k)))
          (fun o k => (V c (Pipeline.arrRef spec2 3) : S3x512x512.Idx → EReal) (ix3 g o k)) b o := by
  rw [arr2_eq]
  rfl

end Cert.KernelIdeal.HandVal

end
-- ==== Proof.KI.HostVals.lean ====
import proofs.«100284_j64536178590158_2_alg».proof.Proof.Gen.KernelIdeal.Launch
import proofs.«100284_j64536178590158_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

/-! # The host's three stretches of operations, read at an index

Between the launches the host only rearranges and folds: before the first launch it stacks the three
inputs and changes formats (the identity on extended reals) and gives the bias a unit axis; between the
first and the second it folds the column sums and sums of squares with γ and β into one scale and one
shift per channel; after the third it cuts the result into its three slabs. Each is stated for arbitrary
contents `W` before the stretch. -/

set_option maxRecDepth 16384

noncomputable section

namespace Cert.KernelIdeal.HandVal

open Cert.KernelIdeal Cert.KernelIdeal.Gen
open Idealize.ShloMosaic Idealize.ShloMosaic.TcCoe Idealize.ShloMosaic.ValueIdx
open scoped BigOperators

variable (W : Valuation τ sig (Elt Ideal))

/-! ## The first stretch: the weights and the bias -/

theorem S0_w (j : Fin 9) (o : Fin 512) (d : Fin 1024) :
    (StableHlo.after (hostOps0 (F := Ideal)) W (Proc.devRef .tc main_v5) : S9x512x1024.Idx → EReal) (ix3 j o d)
      = (W (Proc.devRef .tc main_arg3) : S9x512x1024.Idx → EReal) (ix3 j o d) := by
  have e : (StableHlo.after (hostOps0 (F := Ideal)) W (Proc.devRef .tc main_v5) : S9x512x1024.Idx → EReal)
      = truncf (F := Ideal) (s := S9x512x1024) .bf16 (W (Proc.devRef .tc main_arg3)) bitsLt_bf16_f32 := by
    after_results; try rfl
  rw [e, truncf_apply]

theorem S0_b (j : Fin 9) (o : Fin 512) :
    (StableHlo.after (hostOps0 (F := Ideal)) W (Proc.devRef .tc main_v6) : S9x1x512.Idx → EReal) (ix3 j (0 : Fin 1) o)
      = (W (Proc.devRef .tc main_arg4) : S9x512.Idx → EReal) (ix2 j o) := by
  have e : (StableHlo.after (hostOps0 (F := Ideal)) W (Proc.devRef .tc main_v6) : S9x1x512.Idx → EReal)
      = shapeCast S9x1x512 (W (Proc.devRef .tc main_arg4) : S9x512.Idx → EReal) shapeCasts_S9x512_S9x1x512 := by
    after_results; rfl
  rw [e]
  exact shapeCast_apply (s := S9x512) (t := S9x1x512) _ _ _ _ (by
    rw [Shape.rowMajor_val_three, Shape.rowMajor_val_two]
    show j.val * 512 + o.val = (j.val * 1 + 0) * 512 + o.val
    omega)

/-! ## The second stretch: the folded scale and shift -/

local notation "nW" => Ideal.ofBits FTy.f32 0x47000000#32
local notation "εW" => Ideal.ofBits FTy.f32 0x3727C5AC#32

/-- A `[9, 512]` array cast to `[9, 1, 512]` reads, at `(j, 0, o)`, the operand at `(j, o)`. -/
private theorem cast_9x512_apply (x : S9x512.Idx → EReal) (j : Fin 9) (o : Fin 512) :
    shapeCast S9x1x512 x shapeCasts_S9x512_S9x1x512 (ix3 j (0 : Fin 1) o) = x (ix2 j o) :=
  shapeCast_apply (s := S9x512) (t := S9x1x512) _ _ _ _ (by
    rw [Shape.rowMajor_val_three, Shape.rowMajor_val_two]
    show j.val * 512 + o.val = (j.val * 1 + 0) * 512 + o.val
    omega)

/-- A scalar constant broadcast to `[9, 1, 512]` reads the extended real its word encodes. -/
private theorem splat_apply (w : BitVec 32) (i : S9x1x512.Idx) :
    broadcastInDim S9x1x512 ![] bcast_S_S9x1x512 (constant (F := Ideal) S_ .f32 w) i = Ideal.ofBits .f32 w := by
  rw [broadcastInDim_scalar_apply]; rfl

/-- The host's reciprocal square root at an index. -/
private theorem hostRsqrt_apply {s : Shape} {φ : FTy} (a : FVec Ideal s φ) (i : s.Idx) : Host.rsqrt a i = Ideal.rsqrt (a i) := rfl

set_option maxHeartbeats 1000000 in
theorem S1_scale (j : Fin 9) (o : Fin 512) :
    (StableHlo.after (hostOps1 (F := Ideal)) W (Proc.devRef .tc main_v19) : S9x1x512.Idx → EReal) (ix3 j (0 : Fin 1) o)
      = Cert.Spec.scaleK nW εW ((W (Proc.devRef .tc main_v7_1) : S9x1x512.Idx → EReal) (ix3 j (0 : Fin 1) o))
          ((W (Proc.devRef .tc main_v7_2) : S9x1x512.Idx → EReal) (ix3 j (0 : Fin 1) o))
          ((W (Proc.devRef .tc main_arg5) : S9x512.Idx → EReal) (ix2 j o)) := by
  have e : (StableHlo.after (hostOps1 (F := Ideal)) W (Proc.devRef .tc main_v19) : S9x1x512.Idx → EReal)
      = mulf (F := Ideal) (s := S9x1x512) (φ := .f32) (shapeCast S9x1x512 (W (Proc.devRef .tc main_arg5) : S9x512.Idx → EReal) shapeCasts_S9x512_S9x1x512)
          (Host.rsqrt (addf
            (subf (Host.divf (W (Proc.devRef .tc main_v7_2)) (broadcastInDim S9x1x512 ![] bcast_S_S9x1x512 (constant S_ .f32 0x47000000#32)))
              (mulf (Host.divf (W (Proc.devRef .tc main_v7_1)) (broadcastInDim S9x1x512 ![] bcast_S_S9x1x512 (constant S_ .f32 0x47000000#32)))
                (Host.divf (W (Proc.devRef .tc main_v7_1)) (broadcastInDim S9x1x512 ![] bcast_S_S9x1x512 (constant S_ .f32 0x47000000#32)))))
            (broadcastInDim S9x1x512 ![] bcast_S_S9x1x512 (constant S_ .f32 0x3727C5AC#32)))) := by
    after_results; try rfl
  rw [e]
  simp only [mulf_apply, addf_apply, subf_apply, hostDivf_apply, hostRsqrt_apply, splat_apply, cast_9x512_apply]
  rfl

set_option maxHeartbeats 1000000 in
theorem S1_shift (j : Fin 9) (o : Fin 512) :
    (StableHlo.after (hostOps1 (F := Ideal)) W (Proc.devRef .tc main_v21) : S9x1x512.Idx → EReal) (ix3 j (0 : Fin 1) o)
      = Cert.Spec.shiftK nW εW ((W (Proc.devRef .tc main_v7_1) : S9x1x512.Idx → EReal) (ix3 j (0 : Fin 1) o))
          ((W (Proc.devRef .tc main_v7_2) : S9x1x512.Idx → EReal) (ix3 j (0 : Fin 1) o))
          ((W (Proc.devRef .tc main_arg5) : S9x512.Idx → EReal) (ix2 j o))
          ((W (Proc.devRef .tc main_arg6) : S9x512.Idx → EReal) (ix2 j o)) := by
  have e : (StableHlo.after (hostOps1 (F := Ideal)) W (Proc.devRef .tc main_v21) : S9x1x512.Idx → EReal)
      = subf (F := Ideal) (s := S9x1x512) (φ := .f32) (shapeCast S9x1x512 (W (Proc.devRef .tc main_arg6) : S9x512.Idx → EReal) shapeCasts_S9x512_S9x1x512)
          (mulf (Host.divf (W (Proc.devRef .tc main_v7_1)) (broadcastInDim S9x1x512 ![] bcast_S_S9x1x512 (constant S_ .f32 0x47000000#32)))
            (mulf (shapeCast S9x1x512 (W (Proc.devRef .tc main_arg5) : S9x512.Idx → EReal) shapeCasts_S9x512_S9x1x512)
              (Host.rsqrt (addf
                (subf (Host.divf (W (Proc.devRef .tc main_v7_2)) (broadcastInDim S9x1x512 ![] bcast_S_S9x1x512 (constant S_ .f32 0x47000000#32)))
                  (mulf (Host.divf (W (Proc.devRef .tc main_v7_1)) (broadcastInDim S9x1x512 ![] bcast_S_S9x1x512 (constant S_ .f32 0x47000000#32)))
                    (Host.divf (W (Proc.devRef .tc main_v7_1)) (broadcastInDim S9x1x512 ![] bcast_S_S9x1x512 (constant S_ .f32 0x47000000#32)))))
                (broadcastInDim S9x1x512 ![] bcast_S_S9x1x512 (constant S_ .f32 0x3727C5AC#32)))))) := by
    after_results; try rfl
  rw [e]
  simp only [mulf_apply, addf_apply, subf_apply, hostDivf_apply, hostRsqrt_apply, splat_apply, cast_9x512_apply]
  rfl

/-! ## The first stretch: the three inputs stacked -/

/-- The stacked inputs, before the change of format: the three arguments, each given a leading unit axis, laid end to end. -/
abbrev S0_stacked : S3x32768x1024.Idx → EReal :=
  concatenate S3x32768x1024 0
    [⟨S1x32768x1024, broadcastInDim S1x32768x1024 ![1, 2] bcast_S32768x1024_S1x32768x1024_1_2 (W (Proc.devRef .tc main_arg0) : S32768x1024.Idx → EReal)⟩,
     ⟨S1x32768x1024, broadcastInDim S1x32768x1024 ![1, 2] bcast_S32768x1024_S1x32768x1024_1_2 (W (Proc.devRef .tc main_arg1) : S32768x1024.Idx → EReal)⟩,
     ⟨S1x32768x1024, broadcastInDim S1x32768x1024 ![1, 2] bcast_S32768x1024_S1x32768x1024_1_2 (W (Proc.devRef .tc main_arg2) : S32768x1024.Idx → EReal)⟩]
    concatenates_S1x32768x1024_S1x32768x1024_S1x32768x1024_S3x32768x1024_d0

theorem S0_xs_eq : (StableHlo.after (hostOps0 (F := Ideal)) W (Proc.devRef .tc main_v4) : S3x32768x1024.Idx → EReal)
    = truncf (F := Ideal) (s := S3x32768x1024) .bf16 (S0_stacked W) bitsLt_bf16_f32 := by
  after_results; try rfl

/-- An argument given a leading unit axis reads, at `(0, b, d)`, the argument at `(b, d)`. -/
private theorem lead_apply (x : S32768x1024.Idx → EReal) (b : Fin 32768) (d : Fin 1024) :
    broadcastInDim S1x32768x1024 ![1, 2] bcast_S32768x1024_S1x32768x1024_1_2 x (ix3 (0 : Fin 1) b d) = x (ix2 b d) :=
  broadcastInDim_apply _ _ _ _ (ix2 b d) fun a => by
    match a with
    | ⟨0, _⟩ => show b.val = if (32768 : ℕ) = 1 then 0 else b.val; rw [if_neg (by decide)]
    | ⟨1, _⟩ => show d.val = if (1024 : ℕ) = 1 then 0 else d.val; rw [if_neg (by decide)]

theorem S0_xs_0 (b : Fin 32768) (d : Fin 1024) :
    (StableHlo.after (hostOps0 (F := Ideal)) W (Proc.devRef .tc main_v4) : S3x32768x1024.Idx → EReal) (ix3 (0 : Fin 3) b d)
      = (W (Proc.devRef .tc main_arg0) : S32768x1024.Idx → EReal) (ix2 b d) := by
  rw [S0_xs_eq, truncf_apply]
  refine (concatenate_apply_piece (t := S3x32768x1024) 0 _ _ (ix3 (0 : Fin 3) b d) 0 (by show (0 : ℕ) < 3; omega) S1x32768x1024 _ rfl rfl 0 rfl
    (ix3 (0 : Fin 1) b d) (fun bb hbb => ?_) rfl).trans (lead_apply _ b d)
  match bb with
  | ⟨0, _⟩ => exact absurd rfl hbb
  | ⟨1, _⟩ => rfl
  | ⟨2, _⟩ => rfl

theorem S0_xs_1 (b : Fin 32768) (d : Fin 1024) :
    (StableHlo.after (hostOps0 (F := Ideal)) W (Proc.devRef .tc main_v4) : S3x32768x1024.Idx → EReal) (ix3 (1 : Fin 3) b d)
      = (W (Proc.devRef .tc main_arg1) : S32768x1024.Idx → EReal) (ix2 b d) := by
  rw [S0_xs_eq, truncf_apply]
  refine (concatenate_apply_piece (t := S3x32768x1024) 0 _ _ (ix3 (1 : Fin 3) b d) 1 (by show (1 : ℕ) < 3; omega) S1x32768x1024 _ rfl rfl 1 rfl
    (ix3 (0 : Fin 1) b d) (fun bb hbb => ?_) rfl).trans (lead_apply _ b d)
  match bb with
  | ⟨0, _⟩ => exact absurd rfl hbb
  | ⟨1, _⟩ => rfl
  | ⟨2, _⟩ => rfl

theorem S0_xs_2 (b : Fin 32768) (d : Fin 1024) :
    (StableHlo.after (hostOps0 (F := Ideal)) W (Proc.devRef .tc main_v4) : S3x32768x1024.Idx → EReal) (ix3 (2 : Fin 3) b d)
      = (W (Proc.devRef .tc main_arg2) : S32768x1024.Idx → EReal) (ix2 b d) := by
  rw [S0_xs_eq, truncf_apply]
  refine (concatenate_apply_piece (t := S3x32768x1024) 0 _ _ (ix3 (2 : Fin 3) b d) 2 (by show (2 : ℕ) < 3; omega) S1x32768x1024 _ rfl rfl 2 rfl
    (ix3 (0 : Fin 1) b d) (fun bb hbb => ?_) rfl).trans (lead_apply _ b d)
  match bb with
  | ⟨0, _⟩ => exact absurd rfl hbb
  | ⟨1, _⟩ => rfl
  | ⟨2, _⟩ => rfl

/-! ## The last stretch: the three slabs of the result -/

theorem S3_out_0 (b : Fin 32768) (o : Fin 512) :
    (StableHlo.after (hostOps3 (F := Ideal)) W (Proc.devRef .tc main_v25) : S32768x512.Idx → EReal) (ix2 b o)
      = (W (Proc.devRef .tc main_v23) : S3x32768x512.Idx → EReal) (ix3 (0 : Fin 3) b o) := by
  have e : (StableHlo.after (hostOps3 (F := Ideal)) W (Proc.devRef .tc main_v25) : S32768x512.Idx → EReal)
      = shapeCast S32768x512 (extractStridedSlice S1x32768x512 ![0, 0, 0] (W (Proc.devRef .tc main_v23) : S3x32768x512.Idx → EReal)
          slices_S3x32768x512_S1x32768x512_0_0_0) shapeCasts_S1x32768x512_S32768x512 := by
    after_results; rfl
  rw [e, shapeCast_1ab_ab_apply]
  refine extractStridedSlice_apply _ _ _ _ _ fun a => ?_
  match a with
  | ⟨0, _⟩ => rfl
  | ⟨1, _⟩ => show b.val = 0 + b.val; omega
  | ⟨2, _⟩ => show o.val = 0 + o.val; omega

theorem S3_out_1 (b : Fin 32768) (o : Fin 512) :
    (StableHlo.after (hostOps3 (F := Ideal)) W (Proc.devRef .tc main_v27) : S32768x512.Idx → EReal) (ix2 b o)
      = (W (Proc.devRef .tc main_v23) : S3x32768x512.Idx → EReal) (ix3 (1 : Fin 3) b o) := by
  have e : (StableHlo.after (hostOps3 (F := Ideal)) W (Proc.devRef .tc main_v27) : S32768x512.Idx → EReal)
      = shapeCast S32768x512 (extractStridedSlice S1x32768x512 ![1, 0, 0] (W (Proc.devRef .tc main_v23) : S3x32768x512.Idx → EReal)
          slices_S3x32768x512_S1x32768x512_1_0_0) shapeCasts_S1x32768x512_S32768x512 := by
    after_results; rfl
  rw [e, shapeCast_1ab_ab_apply]
  refine extractStridedSlice_apply _ _ _ _ _ fun a => ?_
  match a with
  | ⟨0, _⟩ => rfl
  | ⟨1, _⟩ => show b.val = 0 + b.val; omega
  | ⟨2, _⟩ => show o.val = 0 + o.val; omega

theorem S3_out_2 (b : Fin 32768) (o : Fin 512) :
    (StableHlo.after (hostOps3 (F := Ideal)) W (Proc.devRef .tc main_v29) : S32768x512.Idx → EReal) (ix2 b o)
      = (W (Proc.devRef .tc main_v23) : S3x32768x512.Idx → EReal) (ix3 (2 : Fin 3) b o) := by
  have e : (StableHlo.after (hostOps3 (F := Ideal)) W (Proc.devRef .tc main_v29) : S32768x512.Idx → EReal)
      = shapeCast S32768x512 (extractStridedSlice S1x32768x512 ![2, 0, 0] (W (Proc.devRef .tc main_v23) : S3x32768x512.Idx → EReal)
          slices_S3x32768x512_S1x32768x512_2_0_0) shapeCasts_S1x32768x512_S32768x512 := by
    after_results; rfl
  rw [e, shapeCast_1ab_ab_apply]
  refine extractStridedSlice_apply _ _ _ _ _ fun a => ?_
  match a with
  | ⟨0, _⟩ => rfl
  | ⟨1, _⟩ => show b.val = 0 + b.val; omega
  | ⟨2, _⟩ => show o.val = 0 + o.val; omega

end Cert.KernelIdeal.HandVal

end
-- ==== Proof.KSpec.lean ====
/-
  What the kernel's three calls and the host lines between them compute, as one function of the seven argument arrays:
  the projections h, their running sums, the folded scale and shift, the rectified activations, for each attention
  the scaled logits' row softmax, and the product of the value activations with its transpose.
-/
import proofs.«100284_j64536178590158_2_alg».proof.Proof.Spec

noncomputable section

namespace Cert.Spec

open Idealize.ShloMosaic Idealize.ShloMosaic.ValueIdx
open scoped BigOperators

variable (cx gx wx : A2 32768 1024) (Ws : A3 9 512 1024) (bs γ β : A2 9 512)

/-- The batch size and the variance floor, as the words the programs spell. -/
abbrev nW : EReal := Ideal.ofBits .f32 0x47000000#32
abbrev epsW : EReal := Ideal.ofBits .f32 0x3727C5AC#32
/-- The attention scale 1/32, as the kernel's word. -/
abbrev sclW : EReal := Ideal.ofBits .f32 0x3D000000#32

/-- The input feeding projection row `j`. -/
def xin (k : Fin 3) : A2 32768 1024 := ![cx, gx, wx] k

/-- `h_j[b, o]`. -/
def hK (j : Fin 9) (b : Fin 32768) (o : Fin 512) : EReal :=
  (∑ d : Fin 1024, xin cx gx wx (sel j) (ix2 b d) * Ws (ix3 j o d)) + bs (ix2 j o)

def sK (j : Fin 9) (o : Fin 512) : EReal := ∑ b : Fin 32768, hK cx gx wx Ws bs j b o
def qK (j : Fin 9) (o : Fin 512) : EReal := ∑ b : Fin 32768, hK cx gx wx Ws bs j b o * hK cx gx wx Ws bs j b o
def scK (j : Fin 9) (o : Fin 512) : EReal := scaleK nW epsW (sK cx gx wx Ws bs j o) (qK cx gx wx Ws bs j o) (γ (ix2 j o))
def shK (j : Fin 9) (o : Fin 512) : EReal := shiftK nW epsW (sK cx gx wx Ws bs j o) (qK cx gx wx Ws bs j o) (γ (ix2 j o)) (β (ix2 j o))
/-- The rectified, normalised activation of row `j`. -/
def aK (j : Fin 9) (b : Fin 32768) (o : Fin 512) : EReal :=
  actK (hK cx gx wx Ws bs j b o) (scK cx gx wx Ws bs γ j o) (shK cx gx wx Ws bs γ β j o)
/-- The attention matrix of attention `g`. -/
def attnK (g : Fin 3) (o₁ o₂ : Fin 512) : EReal :=
  softmax (fun a k => qk (aK cx gx wx Ws bs γ β (qrow g)) (aK cx gx wx Ws bs γ β (krow g)) a k * sclW) o₁ o₂
/-- The kernel's result `g`. -/
def outK (g : Fin 3) (b : Fin 32768) (o : Fin 512) : EReal :=
  av (aK cx gx wx Ws bs γ β (vrow g)) (attnK cx gx wx Ws bs γ β g) b o

end Cert.Spec

end
-- ==== Proof.KI.Value.lean ====
import proofs.«100284_j64536178590158_2_alg».proof.Proof.KI.Run
import proofs.«100284_j64536178590158_2_alg».proof.Proof.KI.Reg0TblSel
import proofs.«100284_j64536178590158_2_alg».proof.Proof.KI.Val0
import proofs.«100284_j64536178590158_2_alg».proof.Proof.KI.Val1
import proofs.«100284_j64536178590158_2_alg».proof.Proof.KI.Val2
import proofs.«100284_j64536178590158_2_alg».proof.Proof.KI.HostVals
import proofs.«100284_j64536178590158_2_alg».proof.Proof.KSpec

/-! # The three results of the run, as the layer's mathematics of the seven arguments

The contents of the buffers at each boundary of the run are read one after the other: the stacked
inputs, weights and bias the first launch finds; the projections and their column sums and sums of
squares it leaves; the folded scale and shift the host computes from them; the attention matrices the
second launch leaves; the products the third leaves; and the three slabs the host cuts out at the end. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-- A projection entry from three arrays (the stacked inputs, the weights, the bias with its unit axis):
    `(∑ d, x[σ j, b, d] · W[j, o, d]) + bias[j, 0, o]`. -/
def hOf (xs : Cert.Spec.A3 3 32768 1024) (Ws : Cert.Spec.A3 9 512 1024) (bias : Cert.Spec.A3 9 1 512)
    (j : Fin 9) (b : Fin 32768) (o : Fin 512) : EReal :=
  (∑ d : Fin 1024, xs (ix3 (Cert.Spec.sel j) b d) * Ws (ix3 j o d)) + bias (ix3 j (0 : Fin 1) o)

/-- The same from the first launch's three input arrays under contents `V`. -/
abbrev hV (V : (c : Dev nD) → (b : Ref sig .tc) → Buf (Elt Ideal) ((c : Thread nD τ).loc b)) (c : Dev nD)
    (j : Fin 9) (b : Fin 32768) (o : Fin 512) : EReal :=
  hOf (V c (Pipeline.arrRef spec0 0)) (V c (Pipeline.arrRef spec0 1)) (V c (Pipeline.arrRef spec0 2)) j b o

/-- Equality of two extended reals, one of them read off a buffer (whose element type only computes to the reals). -/
local notation:50 a:51 " =ᵣ " b:51 => @Eq EReal a b

/-- What the first launch leaves in its three output arrays, index by index. -/
abbrev Leaves0 : Prop :=
  ∀ (V : (c : Dev nD) → (b : Ref sig .tc) → Buf (Elt Ideal) ((c : Thread nD τ).loc b)) (c : Dev nD),
    (∀ (j : Fin 9) (b : Fin 32768) (o : Fin 512),
      ((dat0 (F := Ideal) adm0 V c).arrAt 3 (cfg0 (F := Ideal) adm0).N : S9x32768x512.Idx → EReal) (ix3 j b o) =ᵣ hV V c j b o)
    ∧ (∀ (j : Fin 9) (o : Fin 512),
      ((dat0 (F := Ideal) adm0 V c).arrAt 4 (cfg0 (F := Ideal) adm0).N : S9x1x512.Idx → EReal) (ix3 j (0 : Fin 1) o)
        =ᵣ ∑ b : Fin 32768, hV V c j b o)
    ∧ (∀ (j : Fin 9) (o : Fin 512),
      ((dat0 (F := Ideal) adm0 V c).arrAt 5 (cfg0 (F := Ideal) adm0).N : S9x1x512.Idx → EReal) (ix3 j (0 : Fin 1) o)
        =ᵣ ∑ b : Fin 32768, hV V c j b o * hV V c j b o)

/-- What the second launch leaves in the attention array, index by index. -/
abbrev Leaves1 : Prop :=
  ∀ (V : (c : Dev nD) → (b : Ref sig .tc) → Buf (Elt Ideal) ((c : Thread nD τ).loc b)) (c : Dev nD)
    (g : Fin 3) (o₁ o₂ : Fin 512),
    ((dat1 (F := Ideal) V c).arrAt 6 cfg1.N : S3x512x512.Idx → EReal) (ix3 g o₁ o₂)
      =ᵣ Cert.Spec.softmax (fun a b => Cert.Spec.qk
          (fun r k => Cert.Spec.actK ((V c (Pipeline.arrRef spec1 0) : S9x32768x512.Idx → EReal) (ix3 (Cert.Spec.qrow g) r k))
            ((V c (Pipeline.arrRef spec1 2) : S9x1x512.Idx → EReal) (ix3 (Cert.Spec.qrow g) (0 : Fin 1) k))
            ((V c (Pipeline.arrRef spec1 3) : S9x1x512.Idx → EReal) (ix3 (Cert.Spec.qrow g) (0 : Fin 1) k)))
          (fun r k => Cert.Spec.actK ((V c (Pipeline.arrRef spec1 1) : S9x32768x512.Idx → EReal) (ix3 (Cert.Spec.krow g) r k))
            ((V c (Pipeline.arrRef spec1 4) : S9x1x512.Idx → EReal) (ix3 (Cert.Spec.krow g) (0 : Fin 1) k))
            ((V c (Pipeline.arrRef spec1 5) : S9x1x512.Idx → EReal) (ix3 (Cert.Spec.krow g) (0 : Fin 1) k)))
          a b * Ideal.ofBits FTy.f32 0x3D000000#32) o₁ o₂

/-- The first launch does leave that: at the table the first host stretch writes, projection `j` reads input `σ j`. -/
theorem leaves0 : Leaves0 := fun V c =>
  ⟨fun j b o => final0_3_of adm0 V htbl_adm0 c j b o, fun j o => final0_4_of adm0 V htbl_adm0 c j o,
    fun j o => final0_5_of adm0 V htbl_adm0 c j o⟩

/-- The second launch does leave that. -/
theorem leaves1 : Leaves1 := fun V c g o₁ o₂ => final1 V c g o₁ o₂

variable (m : (ℓ : Loc nD τ sig) → Buf (Elt Ideal) ℓ) (c : Dev nD)

/-! ## The arguments, as arrays -/

abbrev aCx : Cert.Spec.A2 32768 1024 := m ((c : Thread nD τ).loc main_arg0)
abbrev aGx : Cert.Spec.A2 32768 1024 := m ((c : Thread nD τ).loc main_arg1)
abbrev aWx : Cert.Spec.A2 32768 1024 := m ((c : Thread nD τ).loc main_arg2)
abbrev aWs : Cert.Spec.A3 9 512 1024 := m ((c : Thread nD τ).loc main_arg3)
abbrev aBs : Cert.Spec.A2 9 512 := m ((c : Thread nD τ).loc main_arg4)
abbrev aGam : Cert.Spec.A2 9 512 := m ((c : Thread nD τ).loc main_arg5)
abbrev aBet : Cert.Spec.A2 9 512 := m ((c : Thread nD τ).loc main_arg6)

/-! ## What the first launch finds -/

theorem V1_xs (k : Fin 3) (b : Fin 32768) (d : Fin 1024) :
    (Hand.V1 m c (Pipeline.arrRef spec0 0) : S3x32768x1024.Idx → EReal) (ix3 k b d)
      =ᵣ Cert.Spec.xin (aCx m c) (aGx m c) (aWx m c) k (ix2 b d) := by
  show (StableHlo.after (hostOps0 (F := Ideal)) (Hand.W0 m c) (Proc.devRef .tc main_v4) : S3x32768x1024.Idx → EReal) (ix3 k b d) = _
  match k with
  | ⟨0, _⟩ => exact S0_xs_0 (Hand.W0 m c) b d
  | ⟨1, _⟩ => exact S0_xs_1 (Hand.W0 m c) b d
  | ⟨2, _⟩ => exact S0_xs_2 (Hand.W0 m c) b d

theorem V1_w (j : Fin 9) (o : Fin 512) (d : Fin 1024) :
    (Hand.V1 m c (Pipeline.arrRef spec0 1) : S9x512x1024.Idx → EReal) (ix3 j o d) =ᵣ aWs m c (ix3 j o d) := by
  show (StableHlo.after (hostOps0 (F := Ideal)) (Hand.W0 m c) (Proc.devRef .tc main_v5) : S9x512x1024.Idx → EReal) (ix3 j o d) = _
  exact S0_w (Hand.W0 m c) j o d

theorem V1_b (j : Fin 9) (o : Fin 512) :
    (Hand.V1 m c (Pipeline.arrRef spec0 2) : S9x1x512.Idx → EReal) (ix3 j (0 : Fin 1) o) =ᵣ aBs m c (ix2 j o) := by
  show (StableHlo.after (hostOps0 (F := Ideal)) (Hand.W0 m c) (Proc.devRef .tc main_v6) : S9x1x512.Idx → EReal) (ix3 j (0 : Fin 1) o) = _
  exact S0_b (Hand.W0 m c) j o

/-- The projection entry from what the first launch finds is the layer's. -/
theorem hV1 (j : Fin 9) (b : Fin 32768) (o : Fin 512) :
    hV (Hand.V1 m) c j b o = Cert.Spec.hK (aCx m c) (aGx m c) (aWx m c) (aWs m c) (aBs m c) j b o := by
  unfold hV hOf Cert.Spec.hK
  rw [V1_b m c j o]
  refine congrArg (· + _) (Finset.sum_congr rfl fun d _ => ?_)
  rw [V1_xs m c, V1_w m c]

/-! ## What the first launch leaves, and the host's fold of it -/

section Chain
variable (H0 : Leaves0)

include H0 in
theorem hW2 (j : Fin 9) (b : Fin 32768) (o : Fin 512) :
    (W2 m c (Proc.devRef .tc main_v7_0) : S9x32768x512.Idx → EReal) (ix3 j b o)
      =ᵣ Cert.Spec.hK (aCx m c) (aGx m c) (aWx m c) (aWs m c) (aBs m c) j b o := by
  rw [show W2 m c (Proc.devRef .tc main_v7_0) = (dat0 (F := Ideal) adm0 (Hand.V1 m) c).arrAt 3 (cfg0 (F := Ideal) adm0).N from W2_arr m c 3]
  exact ((H0 (Hand.V1 m) c).1 j b o).trans (hV1 m c j b o)

include H0 in
theorem sW2 (j : Fin 9) (o : Fin 512) :
    (W2 m c (Proc.devRef .tc main_v7_1) : S9x1x512.Idx → EReal) (ix3 j (0 : Fin 1) o)
      =ᵣ Cert.Spec.sK (aCx m c) (aGx m c) (aWx m c) (aWs m c) (aBs m c) j o := by
  rw [show W2 m c (Proc.devRef .tc main_v7_1) = (dat0 (F := Ideal) adm0 (Hand.V1 m) c).arrAt 4 (cfg0 (F := Ideal) adm0).N from W2_arr m c 4]
  refine ((H0 (Hand.V1 m) c).2.1 j o).trans ?_
  unfold Cert.Spec.sK
  exact Finset.sum_congr rfl fun b _ => hV1 m c j b o

include H0 in
theorem qW2 (j : Fin 9) (o : Fin 512) :
    (W2 m c (Proc.devRef .tc main_v7_2) : S9x1x512.Idx → EReal) (ix3 j (0 : Fin 1) o)
      =ᵣ Cert.Spec.qK (aCx m c) (aGx m c) (aWx m c) (aWs m c) (aBs m c) j o := by
  rw [show W2 m c (Proc.devRef .tc main_v7_2) = (dat0 (F := Ideal) adm0 (Hand.V1 m) c).arrAt 5 (cfg0 (F := Ideal) adm0).N from W2_arr m c 5]
  refine ((H0 (Hand.V1 m) c).2.2 j o).trans ?_
  unfold Cert.Spec.qK
  exact Finset.sum_congr rfl fun b _ => by rw [hV1 m c j b o]

theorem W2_gam : W2 m c (Proc.devRef .tc main_arg5) = m ((c : Thread nD τ).loc main_arg5) :=
  (W2_of_ne m c main_arg5 (by decide)).trans ((W1_of m c main_arg5 (by decide)).trans rfl)
theorem W2_bet : W2 m c (Proc.devRef .tc main_arg6) = m ((c : Thread nD τ).loc main_arg6) :=
  (W2_of_ne m c main_arg6 (by decide)).trans ((W1_of m c main_arg6 (by decide)).trans rfl)

include H0 in
theorem scW3 (j : Fin 9) (o : Fin 512) :
    (W3 m c (Proc.devRef .tc main_v19) : S9x1x512.Idx → EReal) (ix3 j (0 : Fin 1) o)
      =ᵣ Cert.Spec.scK (aCx m c) (aGx m c) (aWx m c) (aWs m c) (aBs m c) (aGam m c) j o := by
  show (StableHlo.after (hostOps1 (F := Ideal)) (W2 m c) (Proc.devRef .tc main_v19) : S9x1x512.Idx → EReal) (ix3 j (0 : Fin 1) o) = _
  rw [S1_scale (W2 m c) j o, sW2 m c H0 j o, qW2 m c H0 j o, W2_gam m c]
  rfl

include H0 in
theorem shW3 (j : Fin 9) (o : Fin 512) :
    (W3 m c (Proc.devRef .tc main_v21) : S9x1x512.Idx → EReal) (ix3 j (0 : Fin 1) o)
      =ᵣ Cert.Spec.shK (aCx m c) (aGx m c) (aWx m c) (aWs m c) (aBs m c) (aGam m c) (aBet m c) j o := by
  show (StableHlo.after (hostOps1 (F := Ideal)) (W2 m c) (Proc.devRef .tc main_v21) : S9x1x512.Idx → EReal) (ix3 j (0 : Fin 1) o) = _
  rw [S1_shift (W2 m c) j o, sW2 m c H0 j o, qW2 m c H0 j o, W2_gam m c, W2_bet m c]
  rfl

/-! ## The activations the second and the third launch read -/

include H0 in
/-- Row `j`'s rectified, normalised activation, from the buffers as the second launch finds them. -/
theorem act3 (j : Fin 9) (r : Fin 32768) (k : Fin 512) :
    Cert.Spec.actK ((W3 m c (Proc.devRef .tc main_v7_0) : S9x32768x512.Idx → EReal) (ix3 j r k))
        ((W3 m c (Proc.devRef .tc main_v19) : S9x1x512.Idx → EReal) (ix3 j (0 : Fin 1) k))
        ((W3 m c (Proc.devRef .tc main_v21) : S9x1x512.Idx → EReal) (ix3 j (0 : Fin 1) k))
      = Cert.Spec.aK (aCx m c) (aGx m c) (aWx m c) (aWs m c) (aBs m c) (aGam m c) (aBet m c) j r k := by
  rw [show W3 m c (Proc.devRef .tc main_v7_0) = W2 m c (Proc.devRef .tc main_v7_0) from W3_of m c main_v7_0 (by decide),
    hW2 m c H0 j r k, scW3 m c H0 j k, shW3 m c H0 j k]
  rfl

include H0 in
/-- The same from the buffers as the third launch finds them: the second launch wrote none of the three. -/
theorem act4 (j : Fin 9) (r : Fin 32768) (k : Fin 512) :
    Cert.Spec.actK ((W4 m c (Proc.devRef .tc main_v7_0) : S9x32768x512.Idx → EReal) (ix3 j r k))
        ((W4 m c (Proc.devRef .tc main_v19) : S9x1x512.Idx → EReal) (ix3 j (0 : Fin 1) k))
        ((W4 m c (Proc.devRef .tc main_v21) : S9x1x512.Idx → EReal) (ix3 j (0 : Fin 1) k))
      = Cert.Spec.aK (aCx m c) (aGx m c) (aWx m c) (aWs m c) (aBs m c) (aGam m c) (aBet m c) j r k := by
  rw [show W4 m c (Proc.devRef .tc main_v7_0) = W3 m c (Proc.devRef .tc main_v7_0) from W4_of m c main_v7_0 (by decide),
    show W4 m c (Proc.devRef .tc main_v19) = W3 m c (Proc.devRef .tc main_v19) from W4_of m c main_v19 (by decide),
    show W4 m c (Proc.devRef .tc main_v21) = W3 m c (Proc.devRef .tc main_v21) from W4_of m c main_v21 (by decide)]
  exact act3 m c H0 j r k

/-! ## The attention matrices, the products, the results -/

include H0 in
theorem attnW4 (g : Fin 3) (o₁ o₂ : Fin 512) :
    (W4 m c (Proc.devRef .tc main_v22) : S3x512x512.Idx → EReal) (ix3 g o₁ o₂)
      =ᵣ Cert.Spec.attnK (aCx m c) (aGx m c) (aWx m c) (aWs m c) (aBs m c) (aGam m c) (aBet m c) g o₁ o₂ := by
  rw [show W4 m c (Proc.devRef .tc main_v22) = (dat1 (F := Ideal) (Hand.V3 m) c).arrAt 6 cfg1.N from W4_v22 m c]
  refine (leaves1 (Hand.V3 m) c g o₁ o₂).trans ?_
  unfold Cert.Spec.attnK
  refine congrArg (fun L => Cert.Spec.softmax L o₁ o₂) (funext fun a => funext fun b => ?_)
  refine congrArg (fun x : EReal => x * Cert.Spec.sclW) ?_
  unfold Cert.Spec.qk
  refine Finset.sum_congr rfl fun r _ => ?_
  exact congrArg₂ (· * ·) (act3 m c H0 (Cert.Spec.qrow g) r a) (act3 m c H0 (Cert.Spec.krow g) r b)

include H0 in
theorem outW5 (g : Fin 3) (b : Fin 32768) (o : Fin 512) :
    (W5 m c (Proc.devRef .tc main_v23) : S3x32768x512.Idx → EReal) (ix3 g b o)
      =ᵣ Cert.Spec.outK (aCx m c) (aGx m c) (aWx m c) (aWs m c) (aBs m c) (aGam m c) (aBet m c) g b o := by
  rw [show W5 m c (Proc.devRef .tc main_v23) = (dat2 (F := Ideal) (Hand.V4 m) c).arrAt 4 cfg2.N from W5_arr m c 4]
  refine (final2 (Hand.V4 m) c g b o).trans ?_
  show @Eq EReal _ _
  unfold Cert.Spec.outK Cert.Spec.av
  refine Finset.sum_congr rfl fun k _ => ?_
  exact congrArg₂ (· * ·) (act4 m c H0 (Cert.Spec.vrow g) b k) (attnW4 m c H0 g o k)

include H0 in
theorem res0_of (b : Fin 32768) (o : Fin 512) :
    (W6 m c (Proc.devRef .tc main_v25) : S32768x512.Idx → EReal) (ix2 b o)
      =ᵣ Cert.Spec.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) 0 b o := by
  show (StableHlo.after (hostOps3 (F := Ideal)) (W5 m c) (Proc.devRef .tc main_v25) : S32768x512.Idx → EReal) (ix2 b o) = _
  rw [S3_out_0 (W5 m c) b o]
  exact outW5 m c H0 0 b o

include H0 in
theorem res1_of (b : Fin 32768) (o : Fin 512) :
    (W6 m c (Proc.devRef .tc main_v27) : S32768x512.Idx → EReal) (ix2 b o)
      =ᵣ Cert.Spec.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) 1 b o := by
  show (StableHlo.after (hostOps3 (F := Ideal)) (W5 m c) (Proc.devRef .tc main_v27) : S32768x512.Idx → EReal) (ix2 b o) = _
  rw [S3_out_1 (W5 m c) b o]
  exact outW5 m c H0 1 b o

include H0 in
theorem res2_of (b : Fin 32768) (o : Fin 512) :
    (W6 m c (Proc.devRef .tc main_v29) : S32768x512.Idx → EReal) (ix2 b o)
      =ᵣ Cert.Spec.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) 2 b o := by
  show (StableHlo.after (hostOps3 (F := Ideal)) (W5 m c) (Proc.devRef .tc main_v29) : S32768x512.Idx → EReal) (ix2 b o) = _
  rw [S3_out_2 (W5 m c) b o]
  exact outW5 m c H0 2 b o

end Chain

/-! ## The three results -/

theorem res0 (b : Fin 32768) (o : Fin 512) :
    (W6 m c (Proc.devRef .tc main_v25) : S32768x512.Idx → EReal) (ix2 b o)
      =ᵣ Cert.Spec.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) 0 b o :=
  res0_of m c leaves0 b o

theorem res1 (b : Fin 32768) (o : Fin 512) :
    (W6 m c (Proc.devRef .tc main_v27) : S32768x512.Idx → EReal) (ix2 b o)
      =ᵣ Cert.Spec.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) 1 b o :=
  res1_of m c leaves0 b o

theorem res2 (b : Fin 32768) (o : Fin 512) :
    (W6 m c (Proc.devRef .tc main_v29) : S32768x512.Idx → EReal) (ix2 b o)
      =ᵣ Cert.Spec.outK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) 2 b o :=
  res2_of m c leaves0 b o

end Cert.KernelIdeal.HandVal

end
-- ==== Proof.Ref.Ops.lean ====
/-
  The reference program as one line of operations: the 606 StableHLO operations of its entry function in order, cut at the same
  places as the printed program (seven consecutive pieces), each call of an outlined function (the variance with its guard, the
  rectifier) replaced by the callee's operations over the buffers of that call.
-/
import proofs.«100284_j64536178590158_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations 1 … 104 of 606 of the reference (its window 0), each call's body listed in place over the call's buffers. -/
abbrev ops_part0 : List (HloOp τ sig (Elt F)) :=
  [ StableHlo.unary main_arg3 main_v0 ((extractStridedSlice S1x512x1024 ![0, 0, 0] · slices_S9x512x1024_S1x512x1024_0_0_0) : (⟨S9x512x1024, .f32⟩ : BufTy).Contents (Elt F) → (⟨S1x512x1024, .f32⟩ : BufTy).Contents (Elt F)),
    StableHlo.reshape main_v0 main_v1 rfl shapeCasts_S1x512x1024_S512x1024,
    StableHlo.unary main_arg4 main_v2 ((extractStridedSlice S1x512 ![0, 0] · slices_S9x512_S1x512_0_0) : (⟨S9x512, .f32⟩ : BufTy).Contents (Elt F) → (⟨S1x512, .f32⟩ : BufTy).Contents (Elt F)),
    StableHlo.reshape main_v2 main_v3 rfl shapeCasts_S1x512_S512,
    StableHlo.unary main_arg5 main_v4 ((extractStridedSlice S1x512 ![0, 0] · slices_S9x512_S1x512_0_0) : (⟨S9x512, .f32⟩ : BufTy).Contents (Elt F) → (⟨S1x512, .f32⟩ : BufTy).Contents (Elt F)),
    StableHlo.reshape main_v4 main_v5 rfl shapeCasts_S1x512_S512,
    StableHlo.unary main_arg6 main_v6 ((extractStridedSlice S1x512 ![0, 0] · slices_S9x512_S1x512_0_0) : (⟨S9x512, .f32⟩ : BufTy).Contents (Elt F) → (⟨S1x512, .f32⟩ : BufTy).Contents (Elt F)),
    StableHlo.reshape main_v6 main_v7 rfl shapeCasts_S1x512_S512,
    StableHlo.unary main_v1 main_v8 ((transpose S1024x512 [1, 0] · transposes_S512x1024_S1024x512_1_0) : (⟨S512x1024, .f32⟩ : BufTy).Contents (Elt F) → (⟨S1024x512, .f32⟩ : BufTy).Contents (Elt F)),
    StableHlo.binary main_arg0 main_v8 main_v9 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v3 main_v10 (broadcastInDim S1x512 ![1] bcast_S512_S1x512_1 : (⟨S512, .f32⟩ : BufTy).Contents (Elt F) → (⟨S1x512, .f32⟩ : BufTy).Contents (Elt F)),
    StableHlo.unary main_v10 main_v11 (broadcastInDim S32768x512 ![0, 1] bcast_S1x512_S32768x512_0_1 : (⟨S1x512, .f32⟩ : BufTy).Contents (Elt F) → (⟨S32768x512, .f32⟩ : BufTy).Contents (Elt F)),
    StableHlo.binary main_v9 main_v11 main_v12 (addf : (⟨S32768x512, .f32⟩ : BufTy).Contents (Elt F) → (⟨S32768x512, .f32⟩ : BufTy).Contents (Elt F) → (⟨S32768x512, .f32⟩ : BufTy).Contents (Elt F)),
    StableHlo.nullary main_cst (constant S_ .f32 0x00000000#32),
    StableHlo.binary main_v12 main_cst main_v13 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_0 (constant S_ .f32 0x47000000#32),
    StableHlo.unary main_cst_0 main_v14 (broadcastInDim S512 ![] bcast_S_S512 : (⟨S_, .f32⟩ : BufTy).Contents (Elt F) → (⟨S512, .f32⟩ : BufTy).Contents (Elt F)),
    StableHlo.binary main_v13 main_v14 main_v15 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call0.cst (constant S_ .f32 0x00000000#32),
    StableHlo.TRef.binary (.of main_v12 : StableHlo.TRef sig ⟨S32768x512, .f32⟩) main_call0.cst main_call0.v0 (fun x v => Host.reduceAdd x v reducesTo_S32768x512_S512_d0 h_S_),
    StableHlo.TRef.unary main_call0.v0 main_call0.v1 (broadcastInDim S1x512 ![1] bcast_S512_S1x512_1),
    StableHlo.TRef.nullary main_call0.cst_0 (constant S_ .f32 0x47000000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S32768x512 ![0, 1] bcast_S1x512_S32768x512_0_1),
    StableHlo.TRef.binary (.of main_v12 : StableHlo.TRef sig ⟨S32768x512, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32768x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v15 main_v17 (broadcastInDim S1x512 ![1] bcast_S512_S1x512_1 : (⟨S512, .f32⟩ : BufTy).Contents (Elt F) → (⟨S1x512, .f32⟩ : BufTy).Contents (Elt F)),
    StableHlo.unary main_v17 main_v18 (broadcastInDim S32768x512 ![0, 1] bcast_S1x512_S32768x512_0_1 : (⟨S1x512, .f32⟩ : BufTy).Contents (Elt F) → (⟨S32768x512, .f32⟩ : BufTy).Contents (Elt F)),
    StableHlo.binary main_v12 main_v18 main_v19 (subf : (⟨S32768x512, .f32⟩ : BufTy).Contents (Elt F) → (⟨S32768x512, .f32⟩ : BufTy).Contents (Elt F) → (⟨S32768x512, .f32⟩ : BufTy).Contents (Elt F)),
    StableHlo.nullary main_cst_1 (constant S_ .f32 0x3727C5AC#32),
    StableHlo.unary main_cst_1 main_v20 (broadcastInDim S512 ![] bcast_S_S512 : (⟨S_, .f32⟩ : BufTy).Contents (Elt F) → (⟨S512, .f32⟩ : BufTy).Contents (Elt F)),
    StableHlo.binary main_v16 main_v20 main_v21 (addf : (⟨S512, .f32⟩ : BufTy).Contents (Elt F) → (⟨S512, .f32⟩ : BufTy).Contents (Elt F) → (⟨S512, .f32⟩ : BufTy).Contents (Elt F)),
    StableHlo.unary main_v21 main_v22 (Host.rsqrt : (⟨S512, .f32⟩ : BufTy).Contents (Elt F) → (⟨S512, .f32⟩ : BufTy).Contents (Elt F)),
    StableHlo.unary main_v22 main_v23 (broadcastInDim S1x512 ![1] bcast_S512_S1x512_1 : (⟨S512, .f32⟩ : BufTy).Contents (Elt F) → (⟨S1x512, .f32⟩ : BufTy).Contents (Elt F)),
    StableHlo.unary main_v23 main_v24 (broadcastInDim S32768x512 ![0, 1] bcast_S1x512_S32768x512_0_1 : (⟨S1x512, .f32⟩ : BufTy).Contents (Elt F) → (⟨S32768x512, .f32⟩ : BufTy).Contents (Elt F)),
    StableHlo.binary main_v19 main_v24 main_v25 (mulf : (⟨S32768x512, .f32⟩ : BufTy).Contents (Elt F) → (⟨S32768x512, .f32⟩ : BufTy).Contents (Elt F) → (⟨S32768x512, .f32⟩ : BufTy).Contents (Elt F)),
    StableHlo.unary main_v5 main_v26 (broadcastInDim S1x512 ![1] bcast_S512_S1x512_1 : (⟨S512, .f32⟩ : BufTy).Contents (Elt F) → (⟨S1x512, .f32⟩ : BufTy).Contents (Elt F)),
    StableHlo.unary main_v26 main_v27 (broadcastInDim S32768x512 ![0, 1] bcast_S1x512_S32768x512_0_1 : (⟨S1x512, .f32⟩ : BufTy).Contents (Elt F) → (⟨S32768x512, .f32⟩ : BufTy).Contents (Elt F)),
    StableHlo.binary main_v25 main_v27 main_v28 (mulf : (⟨S32768x512, .f32⟩ : BufTy).Contents (Elt F) → (⟨S32768x512, .f32⟩ : BufTy).Contents (Elt F) → (⟨S32768x512, .f32⟩ : BufTy).Contents (Elt F)),
    StableHlo.unary main_v7 main_v29 (broadcastInDim S1x512 ![1] bcast_S512_S1x512_1 : (⟨S512, .f32⟩ : BufTy).Contents (Elt F) → (⟨S1x512, .f32⟩ : BufTy).Contents (Elt F)),
    StableHlo.unary main_v29 main_v30 (broadcastInDim S32768x512 ![0, 1] bcast_S1x512_S32768x512_0_1 : (⟨S1x512, .f32⟩ : BufTy).Contents (Elt F) → (⟨S32768x512, .f32⟩ : BufTy).Contents (Elt F)),
    StableHlo.binary main_v28 main_v30 main_v31 (addf : (⟨S32768x512, .f32⟩ : BufTy).Contents (Elt F) → (⟨S32768x512, .f32⟩ : BufTy).Contents (Elt F) → (⟨S32768x512, .f32⟩ : BufTy).Contents (Elt F)),
    StableHlo.TRef.nullary main_call1.cst (constant S_ .f32 0x00000000#32),
    StableHlo.TRef.unary main_call1.cst main_call1.v0 (broadcastInDim S32768x512 ![] bcast_S_S32768x512),
    StableHlo.TRef.binary (.of main_v31 : StableHlo.TRef sig ⟨S32768x512, .f32⟩) main_call1.v0 main_call1.v1 maximumf,
    StableHlo.unary main_arg3 main_v33 ((extractStridedSlice S1x512x1024 ![1, 0, 0] · slices_S9x512x1024_S1x512x1024_1_0_0) : (⟨S9x512x1024, .f32⟩ : BufTy).Contents (Elt F) → (⟨S1x512x1024, .f32⟩ : BufTy).Contents (Elt F)),
    StableHlo.reshape main_v33 main_v34 rfl shapeCasts_S1x512x1024_S512x1024,
    StableHlo.unary main_arg4 main_v35 ((extractStridedSlice S1x512 ![1, 0] · slices_S9x512_S1x512_1_0) : (⟨S9x512, .f32⟩ : BufTy).Contents (Elt F) → (⟨S1x512, .f32⟩ : BufTy).Contents (Elt F)),
    StableHlo.reshape main_v35 main_v36 rfl shapeCasts_S1x512_S512,
    StableHlo.unary main_arg5 main_v37 ((extractStridedSlice S1x512 ![1, 0] · slices_S9x512_S1x512_1_0) : (⟨S9x512, .f32⟩ : BufTy).Contents (Elt F) → (⟨S1x512, .f32⟩ : BufTy).Contents (Elt F)),
    StableHlo.reshape main_v37 main_v38 rfl shapeCasts_S1x512_S512,
    StableHlo.unary main_arg6 main_v39 ((extractStridedSlice S1x512 ![1, 0] · slices_S9x512_S1x512_1_0) : (⟨S9x512, .f32⟩ : BufTy).Contents (Elt F) → (⟨S1x512, .f32⟩ : BufTy).Contents (Elt F)),
    StableHlo.reshape main_v39 main_v40 rfl shapeCasts_S1x512_S512,
    StableHlo.unary main_v34 main_v41 ((transpose S1024x512 [1, 0] · transposes_S512x1024_S1024x512_1_0) : (⟨S512x1024, .f32⟩ : BufTy).Contents (Elt F) → (⟨S1024x512, .f32⟩ : BufTy).Contents (Elt F)),
    StableHlo.binary main_arg1 main_v41 main_v42 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v36 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S32768x512 ![0, 1] bcast_S1x512_S32768x512_0_1 : (⟨S1x512, .f32⟩ : BufTy).Contents (Elt F) → (⟨S32768x512, .f32⟩ : BufTy).Contents (Elt F)),
    StableHlo.binary main_v42 main_v44 main_v45 (addf : (⟨S32768x512, .f32⟩ : BufTy).Contents (Elt F) → (⟨S32768x512, .f32⟩ : BufTy).Contents (Elt F) → (⟨S32768x512, .f32⟩ : BufTy).Contents (Elt F)),
    StableHlo.nullary main_cst_2 (constant S_ .f32 0x00000000#32),
    StableHlo.binary main_v45 main_cst_2 main_v46 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_3 (constant S_ .f32 0x47000000#32),
    StableHlo.unary main_cst_3 main_v47 (broadcastInDim S512 ![] bcast_S_S512 : (⟨S_, .f32⟩ : BufTy).Contents (Elt F) → (⟨S512, .f32⟩ : BufTy).Contents (Elt F)),
    StableHlo.binary main_v46 main_v47 main_v48 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32),
    StableHlo.TRef.nullary main_call2.cst (constant S_ .f32 0x00000000#32),
    StableHlo.TRef.binary (.of main_v45 : StableHlo.TRef sig ⟨S32768x512, .f32⟩) main_call2.cst main_call2.v0 (fun x v => Host.reduceAdd x v reducesTo_S32768x512_S512_d0 h_S_),
    StableHlo.TRef.unary main_call2.v0 main_call2.v1 (broadcastInDim S1x512 ![1] bcast_S512_S1x512_1),
    StableHlo.TRef.nullary main_call2.cst_0 (constant S_ .f32 0x47000000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S32768x512 ![0, 1] bcast_S1x512_S32768x512_0_1),
    StableHlo.TRef.binary (.of main_v45 : StableHlo.TRef sig ⟨S32768x512, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32768x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v48 main_v50 (broadcastInDim S1x512 ![1] bcast_S512_S1x512_1 : (⟨S512, .f32⟩ : BufTy).Contents (Elt F) → (⟨S1x512, .f32⟩ : BufTy).Contents (Elt F)),
    StableHlo.unary main_v50 main_v51 (broadcastInDim S32768x512 ![0, 1] bcast_S1x512_S32768x512_0_1 : (⟨S1x512, .f32⟩ : BufTy).Contents (Elt F) → (⟨S32768x512, .f32⟩ : BufTy).Contents (Elt F)),
    StableHlo.binary main_v45 main_v51 main_v52 (subf : (⟨S32768x512, .f32⟩ : BufTy).Contents (Elt F) → (⟨S32768x512, .f32⟩ : BufTy).Contents (Elt F) → (⟨S32768x512, .f32⟩ : BufTy).Contents (Elt F)) ]

/-- The operations 105 … 189 of 606 of the reference (its window 1), each call's body listed in place over the call's buffers. -/
abbrev ops_part1 : List (HloOp τ sig (Elt F)) :=
  [ StableHlo.nullary main_cst_5 (constant S_ .f32 0x3727C5AC#32),
    StableHlo.unary main_cst_5 main_v53 (broadcastInDim S512 ![] bcast_S_S512 : (⟨S_, .f32⟩ : BufTy).Contents (Elt F) → (⟨S512, .f32⟩ : BufTy).Contents (Elt F)),
    StableHlo.binary main_v49 main_v53 main_v54 (addf : (⟨S512, .f32⟩ : BufTy).Contents (Elt F) → (⟨S512, .f32⟩ : BufTy).Contents (Elt F) → (⟨S512, .f32⟩ : BufTy).Contents (Elt F)),
    StableHlo.unary main_v54 main_v55 (Host.rsqrt : (⟨S512, .f32⟩ : BufTy).Contents (Elt F) → (⟨S512, .f32⟩ : BufTy).Contents (Elt F)),
    StableHlo.unary main_v55 main_v56 (broadcastInDim S1x512 ![1] bcast_S512_S1x512_1 : (⟨S512, .f32⟩ : BufTy).Contents (Elt F) → (⟨S1x512, .f32⟩ : BufTy).Contents (Elt F)),
    StableHlo.unary main_v56 main_v57 (broadcastInDim S32768x512 ![0, 1] bcast_S1x512_S32768x512_0_1 : (⟨S1x512, .f32⟩ : BufTy).Contents (Elt F) → (⟨S32768x512, .f32⟩ : BufTy).Contents (Elt F)),
    StableHlo.binary main_v52 main_v57 main_v58 (mulf : (⟨S32768x512, .f32⟩ : BufTy).Contents (Elt F) → (⟨S32768x512, .f32⟩ : BufTy).Contents (Elt F) → (⟨S32768x512, .f32⟩ : BufTy).Contents (Elt F)),
    StableHlo.unary main_v38 main_v59 (broadcastInDim S1x512 ![1] bcast_S512_S1x512_1 : (⟨S512, .f32⟩ : BufTy).Contents (Elt F) → (⟨S1x512, .f32⟩ : BufTy).Contents (Elt F)),
    StableHlo.unary main_v59 main_v60 (broadcastInDim S32768x512 ![0, 1] bcast_S1x512_S32768x512_0_1 : (⟨S1x512, .f32⟩ : BufTy).Contents (Elt F) → (⟨S32768x512, .f32⟩ : BufTy).Contents (Elt F)),
    StableHlo.binary main_v58 main_v60 main_v61 (mulf : (⟨S32768x512, .f32⟩ : BufTy).Contents (Elt F) → (⟨S32768x512, .f32⟩ : BufTy).Contents (Elt F) → (⟨S32768x512, .f32⟩ : BufTy).Contents (Elt F)),
    StableHlo.unary main_v40 main_v62 (broadcastInDim S1x512 ![1] bcast_S512_S1x512_1 : (⟨S512, .f32⟩ : BufTy).Contents (Elt F) → (⟨S1x512, .f32⟩ : BufTy).Contents (Elt F)),
    StableHlo.unary main_v62 main_v63 (broadcastInDim S32768x512 ![0, 1] bcast_S1x512_S32768x512_0_1 : (⟨S1x512, .f32⟩ : BufTy).Contents (Elt F) → (⟨S32768x512, .f32⟩ : BufTy).Contents (Elt F)),
    StableHlo.binary main_v61 main_v63 main_v64 (addf : (⟨S32768x512, .f32⟩ : BufTy).Contents (Elt F) → (⟨S32768x512, .f32⟩ : BufTy).Contents (Elt F) → (⟨S32768x512, .f32⟩ : BufTy).Contents (Elt F)),
    StableHlo.TRef.nullary main_call3.cst (constant S_ .f32 0x00000000#32),
    StableHlo.TRef.unary main_call3.cst main_call3.v0 (broadcastInDim S32768x512 ![] bcast_S_S32768x512),
    StableHlo.TRef.binary (.of main_v64 : StableHlo.TRef sig ⟨S32768x512, .f32⟩) main_call3.v0 main_call3.v1 maximumf,
    StableHlo.unary main_arg3 main_v66 ((extractStridedSlice S1x512x1024 ![2, 0, 0] · slices_S9x512x1024_S1x512x1024_2_0_0) : (⟨S9x512x1024, .f32⟩ : BufTy).Contents (Elt F) → (⟨S1x512x1024, .f32⟩ : BufTy).Contents (Elt F)),
    StableHlo.reshape main_v66 main_v67 rfl shapeCasts_S1x512x1024_S512x1024,
    StableHlo.unary main_arg4 main_v68 ((extractStridedSlice S1x512 ![2, 0] · slices_S9x512_S1x512_2_0) : (⟨S9x512, .f32⟩ : BufTy).Contents (Elt F) → (⟨S1x512, .f32⟩ : BufTy).Contents (Elt F)),
    StableHlo.reshape main_v68 main_v69 rfl shapeCasts_S1x512_S512,
    StableHlo.unary main_arg5 main_v70 ((extractStridedSlice S1x512 ![2, 0] · slices_S9x512_S1x512_2_0) : (⟨S9x512, .f32⟩ : BufTy).Contents (Elt F) → (⟨S1x512, .f32⟩ : BufTy).Contents (Elt F)),
    StableHlo.reshape main_v70 main_v71 rfl shapeCasts_S1x512_S512,
    StableHlo.unary main_arg6 main_v72 ((extractStridedSlice S1x512 ![2, 0] · slices_S9x512_S1x512_2_0) : (⟨S9x512, .f32⟩ : BufTy).Contents (Elt F) → (⟨S1x512, .f32⟩ : BufTy).Contents (Elt F)),
    StableHlo.reshape main_v72 main_v73 rfl shapeCasts_S1x512_S512,
    StableHlo.unary main_v67 main_v74 ((transpose S1024x512 [1, 0] · transposes_S512x1024_S1024x512_1_0) : (⟨S512x1024, .f32⟩ : BufTy).Contents (Elt F) → (⟨S1024x512, .f32⟩ : BufTy).Contents (Elt F)),
    StableHlo.binary main_arg1 main_v74 main_v75 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v69 main_v76 (broadcastInDim S1x512 ![1] bcast_S512_S1x512_1 : (⟨S512, .f32⟩ : BufTy).Contents (Elt F) → (⟨S1x512, .f32⟩ : BufTy).Contents (Elt F)),
    StableHlo.unary main_v76 main_v77 (broadcastInDim S32768x512 ![0, 1] bcast_S1x512_S32768x512_0_1 : (⟨S1x512, .f32⟩ : BufTy).Contents (Elt F) → (⟨S32768x512, .f32⟩ : BufTy).Contents (Elt F)),
    StableHlo.binary main_v75 main_v77 main_v78 (addf : (⟨S32768x512, .f32⟩ : BufTy).Contents (Elt F) → (⟨S32768x512, .f32⟩ : BufTy).Contents (Elt F) → (⟨S32768x512, .f32⟩ : BufTy).Contents (Elt F)),
    StableHlo.nullary main_cst_6 (constant S_ .f32 0x00000000#32),
    StableHlo.binary main_v78 main_cst_6 main_v79 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_7 (constant S_ .f32 0x47000000#32),
    StableHlo.unary main_cst_7 main_v80 (broadcastInDim S512 ![] bcast_S_S512 : (⟨S_, .f32⟩ : BufTy).Contents (Elt F) → (⟨S512, .f32⟩ : BufTy).Contents (Elt F)),
    StableHlo.binary main_v79 main_v80 main_v81 (Host.divf : (⟨S512, .f32⟩ : BufTy).Contents (Elt F) → (⟨S512, .f32⟩ : BufTy).Contents (Elt F) → (⟨S512, .f32⟩ : BufTy).Contents (Elt F)),
    StableHlo.nullary main_c_8 (constantI S_ 32 0#32),
    StableHlo.TRef.nullary main_call4.cst (constant S_ .f32 0x00000000#32),
    StableHlo.TRef.binary (.of main_v78 : StableHlo.TRef sig ⟨S32768x512, .f32⟩) main_call4.cst main_call4.v0 (fun x v => Host.reduceAdd x v reducesTo_S32768x512_S512_d0 h_S_),
    StableHlo.TRef.unary main_call4.v0 main_call4.v1 (broadcastInDim S1x512 ![1] bcast_S512_S1x512_1),
    StableHlo.TRef.nullary main_call4.cst_0 (constant S_ .f32 0x47000000#32),
    StableHlo.TRef.unary main_call4.cst_0 main_call4.v2 (broadcastInDim S1x512 ![] bcast_S_S1x512),
    StableHlo.TRef.binary main_call4.v1 main_call4.v2 main_call4.v3 Host.divf,
    StableHlo.TRef.unary main_call4.v3 main_call4.v4 (broadcastInDim S32768x512 ![0, 1] bcast_S1x512_S32768x512_0_1),
    StableHlo.TRef.binary (.of main_v78 : StableHlo.TRef sig ⟨S32768x512, .f32⟩) main_call4.v4 main_call4.v5 subf,
    StableHlo.TRef.binary main_call4.v5 main_call4.v5 main_call4.v6 mulf,
    StableHlo.TRef.unary (.of main_c_8 : StableHlo.TRef sig ⟨S_, .i32⟩) main_call4.v7 (sitofp .f32),
    StableHlo.TRef.nullary main_call4.cst_1 (constant S_ .f32 0x47000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S32768x512_S512_d0 h_S_),
    StableHlo.TRef.unary main_call4.v8 main_call4.v10 (broadcastInDim S512 ![] bcast_S_S512),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512 ![] bcast_S_S512),
    StableHlo.TRef.ternary main_call4.v12 main_call4.v11 main_call4.call0.v1 main_call4.call0.v2 (fun p a b => select (broadcastInDim S512 ![] bcast_S_S512 p) a b),
    StableHlo.unary main_v81 main_v83 (broadcastInDim S1x512 ![1] bcast_S512_S1x512_1 : (⟨S512, .f32⟩ : BufTy).Contents (Elt F) → (⟨S1x512, .f32⟩ : BufTy).Contents (Elt F)),
    StableHlo.unary main_v83 main_v84 (broadcastInDim S32768x512 ![0, 1] bcast_S1x512_S32768x512_0_1 : (⟨S1x512, .f32⟩ : BufTy).Contents (Elt F) → (⟨S32768x512, .f32⟩ : BufTy).Contents (Elt F)),
    StableHlo.binary main_v78 main_v84 main_v85 (subf : (⟨S32768x512, .f32⟩ : BufTy).Contents (Elt F) → (⟨S32768x512, .f32⟩ : BufTy).Contents (Elt F) → (⟨S32768x512, .f32⟩ : BufTy).Contents (Elt F)),
    StableHlo.nullary main_cst_9 (constant S_ .f32 0x3727C5AC#32),
    StableHlo.unary main_cst_9 main_v86 (broadcastInDim S512 ![] bcast_S_S512 : (⟨S_, .f32⟩ : BufTy).Contents (Elt F) → (⟨S512, .f32⟩ : BufTy).Contents (Elt F)),
    StableHlo.binary main_v82 main_v86 main_v87 (addf : (⟨S512, .f32⟩ : BufTy).Contents (Elt F) → (⟨S512, .f32⟩ : BufTy).Contents (Elt F) → (⟨S512, .f32⟩ : BufTy).Contents (Elt F)),
    StableHlo.unary main_v87 main_v88 (Host.rsqrt : (⟨S512, .f32⟩ : BufTy).Contents (Elt F) → (⟨S512, .f32⟩ : BufTy).Contents (Elt F)),
    StableHlo.unary main_v88 main_v89 (broadcastInDim S1x512 ![1] bcast_S512_S1x512_1 : (⟨S512, .f32⟩ : BufTy).Contents (Elt F) → (⟨S1x512, .f32⟩ : BufTy).Contents (Elt F)),
    StableHlo.unary main_v89 main_v90 (broadcastInDim S32768x512 ![0, 1] bcast_S1x512_S32768x512_0_1 : (⟨S1x512, .f32⟩ : BufTy).Contents (Elt F) → (⟨S32768x512, .f32⟩ : BufTy).Contents (Elt F)),
    StableHlo.binary main_v85 main_v90 main_v91 (mulf : (⟨S32768x512, .f32⟩ : BufTy).Contents (Elt F) → (⟨S32768x512, .f32⟩ : BufTy).Contents (Elt F) → (⟨S32768x512, .f32⟩ : BufTy).Contents (Elt F)),
    StableHlo.unary main_v71 main_v92 (broadcastInDim S1x512 ![1] bcast_S512_S1x512_1 : (⟨S512, .f32⟩ : BufTy).Contents (Elt F) → (⟨S1x512, .f32⟩ : BufTy).Contents (Elt F)),
    StableHlo.unary main_v92 main_v93 (broadcastInDim S32768x512 ![0, 1] bcast_S1x512_S32768x512_0_1 : (⟨S1x512, .f32⟩ : BufTy).Contents (Elt F) → (⟨S32768x512, .f32⟩ : BufTy).Contents (Elt F)),
    StableHlo.binary main_v91 main_v93 main_v94 (mulf : (⟨S32768x512, .f32⟩ : BufTy).Contents (Elt F) → (⟨S32768x512, .f32⟩ : BufTy).Contents (Elt F) → (⟨S32768x512, .f32⟩ : BufTy).Contents (Elt F)),
    StableHlo.unary main_v73 main_v95 (broadcastInDim S1x512 ![1] bcast_S512_S1x512_1 : (⟨S512, .f32⟩ : BufTy).Contents (Elt F) → (⟨S1x512, .f32⟩ : BufTy).Contents (Elt F)),
    StableHlo.unary main_v95 main_v96 (broadcastInDim S32768x512 ![0, 1] bcast_S1x512_S32768x512_0_1 : (⟨S1x512, .f32⟩ : BufTy).Contents (Elt F) → (⟨S32768x512, .f32⟩ : BufTy).Contents (Elt F)),
    StableHlo.binary main_v94 main_v96 main_v97 (addf : (⟨S32768x512, .f32⟩ : BufTy).Contents (Elt F) → (⟨S32768x512, .f32⟩ : BufTy).Contents (Elt F) → (⟨S32768x512, .f32⟩ : BufTy).Contents (Elt F)),
    StableHlo.TRef.nullary main_call5.cst (constant S_ .f32 0x00000000#32),
    StableHlo.TRef.unary main_call5.cst main_call5.v0 (broadcastInDim S32768x512 ![] bcast_S_S32768x512),
    StableHlo.TRef.binary (.of main_v97 : StableHlo.TRef sig ⟨S32768x512, .f32⟩) main_call5.v0 main_call5.v1 maximumf,
    StableHlo.unary main_v32 main_v99 ((transpose S512x32768 [1, 0] · transposes_S32768x512_S512x32768_1_0) : (⟨S32768x512, .f32⟩ : BufTy).Contents (Elt F) → (⟨S512x32768, .f32⟩ : BufTy).Contents (Elt F)),
    StableHlo.binary main_v99 main_v65 main_v100 ((fun l r => Host.dotGeneral dot_S512x32768_S32768x512_S512x512_1_0_0_1_n_n none l r) : (⟨S512x32768, .f32⟩ : BufTy).Contents (Elt F) → (⟨S32768x512, .f32⟩ : BufTy).Contents (Elt F) → (⟨S512x512, .f32⟩ : BufTy).Contents (Elt F)),
    StableHlo.nullary main_cst_10 (constant S_ .f32 0x44800000#32),
    StableHlo.unary main_cst_10 main_v101 (Host.sqrt : (⟨S_, .f32⟩ : BufTy).Contents (Elt F) → (⟨S_, .f32⟩ : BufTy).Contents (Elt F)),
    StableHlo.unary main_v101 main_v102 (broadcastInDim S512x512 ![] bcast_S_S512x512 : (⟨S_, .f32⟩ : BufTy).Contents (Elt F) → (⟨S512x512, .f32⟩ : BufTy).Contents (Elt F)),
    StableHlo.binary main_v100 main_v102 main_v103 (Host.divf : (⟨S512x512, .f32⟩ : BufTy).Contents (Elt F) → (⟨S512x512, .f32⟩ : BufTy).Contents (Elt F) → (⟨S512x512, .f32⟩ : BufTy).Contents (Elt F)),
    StableHlo.nullary main_cst_11 (constant S_ .f32 0xFF800000#32),
    StableHlo.binary main_v103 main_cst_11 main_v104 ((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.nullary main_cst_12 (constant S_ .f32 0xFF800000#32) ]

/-- The operations 190 … 272 of 606 of the reference (its window 2), each call's body listed in place over the call's buffers. -/
abbrev ops_part2 : List (HloOp τ sig (Elt F)) :=
  [ StableHlo.unary main_cst_12 main_v105 (broadcastInDim S512 ![] bcast_S_S512 : (⟨S_, .f32⟩ : BufTy).Contents (Elt F) → (⟨S512, .f32⟩ : BufTy).Contents (Elt F)),
    StableHlo.binary main_v105 main_v104 main_v106 (maximumf : (⟨S512, .f32⟩ : BufTy).Contents (Elt F) → (⟨S512, .f32⟩ : BufTy).Contents (Elt F) → (⟨S512, .f32⟩ : BufTy).Contents (Elt F)),
    StableHlo.unary main_v106 main_v107 (broadcastInDim S512x1 ![0] bcast_S512_S512x1_0 : (⟨S512, .f32⟩ : BufTy).Contents (Elt F) → (⟨S512x1, .f32⟩ : BufTy).Contents (Elt F)),
    StableHlo.unary main_v107 main_v108 (broadcastInDim S512x512 ![0, 1] bcast_S512x1_S512x512_0_1 : (⟨S512x1, .f32⟩ : BufTy).Contents (Elt F) → (⟨S512x512, .f32⟩ : BufTy).Contents (Elt F)),
    StableHlo.binary main_v103 main_v108 main_v109 (subf : (⟨S512x512, .f32⟩ : BufTy).Contents (Elt F) → (⟨S512x512, .f32⟩ : BufTy).Contents (Elt F) → (⟨S512x512, .f32⟩ : BufTy).Contents (Elt F)),
    StableHlo.unary main_v109 main_v110 (Host.exp : (⟨S512x512, .f32⟩ : BufTy).Contents (Elt F) → (⟨S512x512, .f32⟩ : BufTy).Contents (Elt F)),
    StableHlo.nullary main_cst_13 (constant S_ .f32 0x00000000#32),
    StableHlo.binary main_v110 main_cst_13 main_v111 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v111 main_v112 (broadcastInDim S512x1 ![0] bcast_S512_S512x1_0 : (⟨S512, .f32⟩ : BufTy).Contents (Elt F) → (⟨S512x1, .f32⟩ : BufTy).Contents (Elt F)),
    StableHlo.unary main_v112 main_v113 (broadcastInDim S512x512 ![0, 1] bcast_S512x1_S512x512_0_1 : (⟨S512x1, .f32⟩ : BufTy).Contents (Elt F) → (⟨S512x512, .f32⟩ : BufTy).Contents (Elt F)),
    StableHlo.binary main_v110 main_v113 main_v114 (Host.divf : (⟨S512x512, .f32⟩ : BufTy).Contents (Elt F) → (⟨S512x512, .f32⟩ : BufTy).Contents (Elt F) → (⟨S512x512, .f32⟩ : BufTy).Contents (Elt F)),
    StableHlo.unary main_v114 main_v115 ((transpose S512x512 [1, 0] · transposes_S512x512_S512x512_1_0) : (⟨S512x512, .f32⟩ : BufTy).Contents (Elt F) → (⟨S512x512, .f32⟩ : BufTy).Contents (Elt F)),
    StableHlo.binary main_v98 main_v115 main_v116 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    StableHlo.unary main_arg3 main_v117 ((extractStridedSlice S1x512x1024 ![3, 0, 0] · slices_S9x512x1024_S1x512x1024_3_0_0) : (⟨S9x512x1024, .f32⟩ : BufTy).Contents (Elt F) → (⟨S1x512x1024, .f32⟩ : BufTy).Contents (Elt F)),
    StableHlo.reshape main_v117 main_v118 rfl shapeCasts_S1x512x1024_S512x1024,
    StableHlo.unary main_arg4 main_v119 ((extractStridedSlice S1x512 ![3, 0] · slices_S9x512_S1x512_3_0) : (⟨S9x512, .f32⟩ : BufTy).Contents (Elt F) → (⟨S1x512, .f32⟩ : BufTy).Contents (Elt F)),
    StableHlo.reshape main_v119 main_v120 rfl shapeCasts_S1x512_S512,
    StableHlo.unary main_arg5 main_v121 ((extractStridedSlice S1x512 ![3, 0] · slices_S9x512_S1x512_3_0) : (⟨S9x512, .f32⟩ : BufTy).Contents (Elt F) → (⟨S1x512, .f32⟩ : BufTy).Contents (Elt F)),
    StableHlo.reshape main_v121 main_v122 rfl shapeCasts_S1x512_S512,
    StableHlo.unary main_arg6 main_v123 ((extractStridedSlice S1x512 ![3, 0] · slices_S9x512_S1x512_3_0) : (⟨S9x512, .f32⟩ : BufTy).Contents (Elt F) → (⟨S1x512, .f32⟩ : BufTy).Contents (Elt F)),
    StableHlo.reshape main_v123 main_v124 rfl shapeCasts_S1x512_S512,
    StableHlo.unary main_v118 main_v125 ((transpose S1024x512 [1, 0] · transposes_S512x1024_S1024x512_1_0) : (⟨S512x1024, .f32⟩ : BufTy).Contents (Elt F) → (⟨S1024x512, .f32⟩ : BufTy).Contents (Elt F)),
    StableHlo.binary main_arg1 main_v125 main_v126 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v120 main_v127 (broadcastInDim S1x512 ![1] bcast_S512_S1x512_1 : (⟨S512, .f32⟩ : BufTy).Contents (Elt F) → (⟨S1x512, .f32⟩ : BufTy).Contents (Elt F)),
    StableHlo.unary main_v127 main_v128 (broadcastInDim S32768x512 ![0, 1] bcast_S1x512_S32768x512_0_1 : (⟨S1x512, .f32⟩ : BufTy).Contents (Elt F) → (⟨S32768x512, .f32⟩ : BufTy).Contents (Elt F)),
    StableHlo.binary main_v126 main_v128 main_v129 (addf : (⟨S32768x512, .f32⟩ : BufTy).Contents (Elt F) → (⟨S32768x512, .f32⟩ : BufTy).Contents (Elt F) → (⟨S32768x512, .f32⟩ : BufTy).Contents (Elt F)),
    StableHlo.nullary main_cst_14 (constant S_ .f32 0x00000000#32),
    StableHlo.binary main_v129 main_cst_14 main_v130 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_15 (constant S_ .f32 0x47000000#32),
    StableHlo.unary main_cst_15 main_v131 (broadcastInDim S512 ![] bcast_S_S512 : (⟨S_, .f32⟩ : BufTy).Contents (Elt F) → (⟨S512, .f32⟩ : BufTy).Contents (Elt F)),
    StableHlo.binary main_v130 main_v131 main_v132 (Host.divf : (⟨S512, .f32⟩ : BufTy).Contents (Elt F) → (⟨S512, .f32⟩ : BufTy).Contents (Elt F) → (⟨S512, .f32⟩ : BufTy).Contents (Elt F)),
    StableHlo.nullary main_c_16 (constantI S_ 32 0#32),
    StableHlo.TRef.nullary main_call6.cst (constant S_ .f32 0x00000000#32),
    StableHlo.TRef.binary (.of main_v129 : StableHlo.TRef sig ⟨S32768x512, .f32⟩) main_call6.cst main_call6.v0 (fun x v => Host.reduceAdd x v reducesTo_S32768x512_S512_d0 h_S_),
    StableHlo.TRef.unary main_call6.v0 main_call6.v1 (broadcastInDim S1x512 ![1] bcast_S512_S1x512_1),
    StableHlo.TRef.nullary main_call6.cst_0 (constant S_ .f32 0x47000000#32),
    StableHlo.TRef.unary main_call6.cst_0 main_call6.v2 (broadcastInDim S1x512 ![] bcast_S_S1x512),
    StableHlo.TRef.binary main_call6.v1 main_call6.v2 main_call6.v3 Host.divf,
    StableHlo.TRef.unary main_call6.v3 main_call6.v4 (broadcastInDim S32768x512 ![0, 1] bcast_S1x512_S32768x512_0_1),
    StableHlo.TRef.binary (.of main_v129 : StableHlo.TRef sig ⟨S32768x512, .f32⟩) main_call6.v4 main_call6.v5 subf,
    StableHlo.TRef.binary main_call6.v5 main_call6.v5 main_call6.v6 mulf,
    StableHlo.TRef.unary (.of main_c_16 : StableHlo.TRef sig ⟨S_, .i32⟩) main_call6.v7 (sitofp .f32),
    StableHlo.TRef.nullary main_call6.cst_1 (constant S_ .f32 0x47000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S32768x512_S512_d0 h_S_),
    StableHlo.TRef.unary main_call6.v8 main_call6.v10 (broadcastInDim S512 ![] bcast_S_S512),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S512 ![] bcast_S_S512),
    StableHlo.TRef.ternary main_call6.v12 main_call6.v11 main_call6.call0.v1 main_call6.call0.v2 (fun p a b => select (broadcastInDim S512 ![] bcast_S_S512 p) a b),
    StableHlo.unary main_v132 main_v134 (broadcastInDim S1x512 ![1] bcast_S512_S1x512_1 : (⟨S512, .f32⟩ : BufTy).Contents (Elt F) → (⟨S1x512, .f32⟩ : BufTy).Contents (Elt F)),
    StableHlo.unary main_v134 main_v135 (broadcastInDim S32768x512 ![0, 1] bcast_S1x512_S32768x512_0_1 : (⟨S1x512, .f32⟩ : BufTy).Contents (Elt F) → (⟨S32768x512, .f32⟩ : BufTy).Contents (Elt F)),
    StableHlo.binary main_v129 main_v135 main_v136 (subf : (⟨S32768x512, .f32⟩ : BufTy).Contents (Elt F) → (⟨S32768x512, .f32⟩ : BufTy).Contents (Elt F) → (⟨S32768x512, .f32⟩ : BufTy).Contents (Elt F)),
    StableHlo.nullary main_cst_17 (constant S_ .f32 0x3727C5AC#32),
    StableHlo.unary main_cst_17 main_v137 (broadcastInDim S512 ![] bcast_S_S512 : (⟨S_, .f32⟩ : BufTy).Contents (Elt F) → (⟨S512, .f32⟩ : BufTy).Contents (Elt F)),
    StableHlo.binary main_v133 main_v137 main_v138 (addf : (⟨S512, .f32⟩ : BufTy).Contents (Elt F) → (⟨S512, .f32⟩ : BufTy).Contents (Elt F) → (⟨S512, .f32⟩ : BufTy).Contents (Elt F)),
    StableHlo.unary main_v138 main_v139 (Host.rsqrt : (⟨S512, .f32⟩ : BufTy).Contents (Elt F) → (⟨S512, .f32⟩ : BufTy).Contents (Elt F)),
    StableHlo.unary main_v139 main_v140 (broadcastInDim S1x512 ![1] bcast_S512_S1x512_1 : (⟨S512, .f32⟩ : BufTy).Contents (Elt F) → (⟨S1x512, .f32⟩ : BufTy).Contents (Elt F)),
    StableHlo.unary main_v140 main_v141 (broadcastInDim S32768x512 ![0, 1] bcast_S1x512_S32768x512_0_1 : (⟨S1x512, .f32⟩ : BufTy).Contents (Elt F) → (⟨S32768x512, .f32⟩ : BufTy).Contents (Elt F)),
    StableHlo.binary main_v136 main_v141 main_v142 (mulf : (⟨S32768x512, .f32⟩ : BufTy).Contents (Elt F) → (⟨S32768x512, .f32⟩ : BufTy).Contents (Elt F) → (⟨S32768x512, .f32⟩ : BufTy).Contents (Elt F)),
    StableHlo.unary main_v122 main_v143 (broadcastInDim S1x512 ![1] bcast_S512_S1x512_1 : (⟨S512, .f32⟩ : BufTy).Contents (Elt F) → (⟨S1x512, .f32⟩ : BufTy).Contents (Elt F)),
    StableHlo.unary main_v143 main_v144 (broadcastInDim S32768x512 ![0, 1] bcast_S1x512_S32768x512_0_1 : (⟨S1x512, .f32⟩ : BufTy).Contents (Elt F) → (⟨S32768x512, .f32⟩ : BufTy).Contents (Elt F)),
    StableHlo.binary main_v142 main_v144 main_v145 (mulf : (⟨S32768x512, .f32⟩ : BufTy).Contents (Elt F) → (⟨S32768x512, .f32⟩ : BufTy).Contents (Elt F) → (⟨S32768x512, .f32⟩ : BufTy).Contents (Elt F)),
    StableHlo.unary main_v124 main_v146 (broadcastInDim S1x512 ![1] bcast_S512_S1x512_1 : (⟨S512, .f32⟩ : BufTy).Contents (Elt F) → (⟨S1x512, .f32⟩ : BufTy).Contents (Elt F)),
    StableHlo.unary main_v146 main_v147 (broadcastInDim S32768x512 ![0, 1] bcast_S1x512_S32768x512_0_1 : (⟨S1x512, .f32⟩ : BufTy).Contents (Elt F) → (⟨S32768x512, .f32⟩ : BufTy).Contents (Elt F)),
    StableHlo.binary main_v145 main_v147 main_v148 (addf : (⟨S32768x512, .f32⟩ : BufTy).Contents (Elt F) → (⟨S32768x512, .f32⟩ : BufTy).Contents (Elt F) → (⟨S32768x512, .f32⟩ : BufTy).Contents (Elt F)),
    StableHlo.TRef.nullary main_call7.cst (constant S_ .f32 0x00000000#32),
    StableHlo.TRef.unary main_call7.cst main_call7.v0 (broadcastInDim S32768x512 ![] bcast_S_S32768x512),
    StableHlo.TRef.binary (.of main_v148 : StableHlo.TRef sig ⟨S32768x512, .f32⟩) main_call7.v0 main_call7.v1 maximumf,
    StableHlo.unary main_arg3 main_v150 ((extractStridedSlice S1x512x1024 ![4, 0, 0] · slices_S9x512x1024_S1x512x1024_4_0_0) : (⟨S9x512x1024, .f32⟩ : BufTy).Contents (Elt F) → (⟨S1x512x1024, .f32⟩ : BufTy).Contents (Elt F)),
    StableHlo.reshape main_v150 main_v151 rfl shapeCasts_S1x512x1024_S512x1024,
    StableHlo.unary main_arg4 main_v152 ((extractStridedSlice S1x512 ![4, 0] · slices_S9x512_S1x512_4_0) : (⟨S9x512, .f32⟩ : BufTy).Contents (Elt F) → (⟨S1x512, .f32⟩ : BufTy).Contents (Elt F)),
    StableHlo.reshape main_v152 main_v153 rfl shapeCasts_S1x512_S512,
    StableHlo.unary main_arg5 main_v154 ((extractStridedSlice S1x512 ![4, 0] · slices_S9x512_S1x512_4_0) : (⟨S9x512, .f32⟩ : BufTy).Contents (Elt F) → (⟨S1x512, .f32⟩ : BufTy).Contents (Elt F)),
    StableHlo.reshape main_v154 main_v155 rfl shapeCasts_S1x512_S512,
    StableHlo.unary main_arg6 main_v156 ((extractStridedSlice S1x512 ![4, 0] · slices_S9x512_S1x512_4_0) : (⟨S9x512, .f32⟩ : BufTy).Contents (Elt F) → (⟨S1x512, .f32⟩ : BufTy).Contents (Elt F)),
    StableHlo.reshape main_v156 main_v157 rfl shapeCasts_S1x512_S512,
    StableHlo.unary main_v151 main_v158 ((transpose S1024x512 [1, 0] · transposes_S512x1024_S1024x512_1_0) : (⟨S512x1024, .f32⟩ : BufTy).Contents (Elt F) → (⟨S1024x512, .f32⟩ : BufTy).Contents (Elt F)),
    StableHlo.binary main_arg2 main_v158 main_v159 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)) ]

/-- The operations 273 … 376 of 606 of the reference (its window 3), each call's body listed in place over the call's buffers. -/
abbrev ops_part3 : List (HloOp τ sig (Elt F)) :=
  [ StableHlo.unary main_v153 main_v160 (broadcastInDim S1x512 ![1] bcast_S512_S1x512_1 : (⟨S512, .f32⟩ : BufTy).Contents (Elt F) → (⟨S1x512, .f32⟩ : BufTy).Contents (Elt F)),
    StableHlo.unary main_v160 main_v161 (broadcastInDim S32768x512 ![0, 1] bcast_S1x512_S32768x512_0_1 : (⟨S1x512, .f32⟩ : BufTy).Contents (Elt F) → (⟨S32768x512, .f32⟩ : BufTy).Contents (Elt F)),
    StableHlo.binary main_v159 main_v161 main_v162 (addf : (⟨S32768x512, .f32⟩ : BufTy).Contents (Elt F) → (⟨S32768x512, .f32⟩ : BufTy).Contents (Elt F) → (⟨S32768x512, .f32⟩ : BufTy).Contents (Elt F)),
    StableHlo.nullary main_cst_18 (constant S_ .f32 0x00000000#32),
    StableHlo.binary main_v162 main_cst_18 main_v163 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_19 (constant S_ .f32 0x47000000#32),
    StableHlo.unary main_cst_19 main_v164 (broadcastInDim S512 ![] bcast_S_S512 : (⟨S_, .f32⟩ : BufTy).Contents (Elt F) → (⟨S512, .f32⟩ : BufTy).Contents (Elt F)),
    StableHlo.binary main_v163 main_v164 main_v165 (Host.divf : (⟨S512, .f32⟩ : BufTy).Contents (Elt F) → (⟨S512, .f32⟩ : BufTy).Contents (Elt F) → (⟨S512, .f32⟩ : BufTy).Contents (Elt F)),
    StableHlo.nullary main_c_20 (constantI S_ 32 0#32),
    StableHlo.TRef.nullary main_call8.cst (constant S_ .f32 0x00000000#32),
    StableHlo.TRef.binary (.of main_v162 : StableHlo.TRef sig ⟨S32768x512, .f32⟩) main_call8.cst main_call8.v0 (fun x v => Host.reduceAdd x v reducesTo_S32768x512_S512_d0 h_S_),
    StableHlo.TRef.unary main_call8.v0 main_call8.v1 (broadcastInDim S1x512 ![1] bcast_S512_S1x512_1),
    StableHlo.TRef.nullary main_call8.cst_0 (constant S_ .f32 0x47000000#32),
    StableHlo.TRef.unary main_call8.cst_0 main_call8.v2 (broadcastInDim S1x512 ![] bcast_S_S1x512),
    StableHlo.TRef.binary main_call8.v1 main_call8.v2 main_call8.v3 Host.divf,
    StableHlo.TRef.unary main_call8.v3 main_call8.v4 (broadcastInDim S32768x512 ![0, 1] bcast_S1x512_S32768x512_0_1),
    StableHlo.TRef.binary (.of main_v162 : StableHlo.TRef sig ⟨S32768x512, .f32⟩) main_call8.v4 main_call8.v5 subf,
    StableHlo.TRef.binary main_call8.v5 main_call8.v5 main_call8.v6 mulf,
    StableHlo.TRef.unary (.of main_c_20 : StableHlo.TRef sig ⟨S_, .i32⟩) main_call8.v7 (sitofp .f32),
    StableHlo.TRef.nullary main_call8.cst_1 (constant S_ .f32 0x47000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S32768x512_S512_d0 h_S_),
    StableHlo.TRef.unary main_call8.v8 main_call8.v10 (broadcastInDim S512 ![] bcast_S_S512),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S512 ![] bcast_S_S512),
    StableHlo.TRef.ternary main_call8.v12 main_call8.v11 main_call8.call0.v1 main_call8.call0.v2 (fun p a b => select (broadcastInDim S512 ![] bcast_S_S512 p) a b),
    StableHlo.unary main_v165 main_v167 (broadcastInDim S1x512 ![1] bcast_S512_S1x512_1 : (⟨S512, .f32⟩ : BufTy).Contents (Elt F) → (⟨S1x512, .f32⟩ : BufTy).Contents (Elt F)),
    StableHlo.unary main_v167 main_v168 (broadcastInDim S32768x512 ![0, 1] bcast_S1x512_S32768x512_0_1 : (⟨S1x512, .f32⟩ : BufTy).Contents (Elt F) → (⟨S32768x512, .f32⟩ : BufTy).Contents (Elt F)),
    StableHlo.binary main_v162 main_v168 main_v169 (subf : (⟨S32768x512, .f32⟩ : BufTy).Contents (Elt F) → (⟨S32768x512, .f32⟩ : BufTy).Contents (Elt F) → (⟨S32768x512, .f32⟩ : BufTy).Contents (Elt F)),
    StableHlo.nullary main_cst_21 (constant S_ .f32 0x3727C5AC#32),
    StableHlo.unary main_cst_21 main_v170 (broadcastInDim S512 ![] bcast_S_S512 : (⟨S_, .f32⟩ : BufTy).Contents (Elt F) → (⟨S512, .f32⟩ : BufTy).Contents (Elt F)),
    StableHlo.binary main_v166 main_v170 main_v171 (addf : (⟨S512, .f32⟩ : BufTy).Contents (Elt F) → (⟨S512, .f32⟩ : BufTy).Contents (Elt F) → (⟨S512, .f32⟩ : BufTy).Contents (Elt F)),
    StableHlo.unary main_v171 main_v172 (Host.rsqrt : (⟨S512, .f32⟩ : BufTy).Contents (Elt F) → (⟨S512, .f32⟩ : BufTy).Contents (Elt F)),
    StableHlo.unary main_v172 main_v173 (broadcastInDim S1x512 ![1] bcast_S512_S1x512_1 : (⟨S512, .f32⟩ : BufTy).Contents (Elt F) → (⟨S1x512, .f32⟩ : BufTy).Contents (Elt F)),
    StableHlo.unary main_v173 main_v174 (broadcastInDim S32768x512 ![0, 1] bcast_S1x512_S32768x512_0_1 : (⟨S1x512, .f32⟩ : BufTy).Contents (Elt F) → (⟨S32768x512, .f32⟩ : BufTy).Contents (Elt F)),
    StableHlo.binary main_v169 main_v174 main_v175 (mulf : (⟨S32768x512, .f32⟩ : BufTy).Contents (Elt F) → (⟨S32768x512, .f32⟩ : BufTy).Contents (Elt F) → (⟨S32768x512, .f32⟩ : BufTy).Contents (Elt F)),
    StableHlo.unary main_v155 main_v176 (broadcastInDim S1x512 ![1] bcast_S512_S1x512_1 : (⟨S512, .f32⟩ : BufTy).Contents (Elt F) → (⟨S1x512, .f32⟩ : BufTy).Contents (Elt F)),
    StableHlo.unary main_v176 main_v177 (broadcastInDim S32768x512 ![0, 1] bcast_S1x512_S32768x512_0_1 : (⟨S1x512, .f32⟩ : BufTy).Contents (Elt F) → (⟨S32768x512, .f32⟩ : BufTy).Contents (Elt F)),
    StableHlo.binary main_v175 main_v177 main_v178 (mulf : (⟨S32768x512, .f32⟩ : BufTy).Contents (Elt F) → (⟨S32768x512, .f32⟩ : BufTy).Contents (Elt F) → (⟨S32768x512, .f32⟩ : BufTy).Contents (Elt F)),
    StableHlo.unary main_v157 main_v179 (broadcastInDim S1x512 ![1] bcast_S512_S1x512_1 : (⟨S512, .f32⟩ : BufTy).Contents (Elt F) → (⟨S1x512, .f32⟩ : BufTy).Contents (Elt F)),
    StableHlo.unary main_v179 main_v180 (broadcastInDim S32768x512 ![0, 1] bcast_S1x512_S32768x512_0_1 : (⟨S1x512, .f32⟩ : BufTy).Contents (Elt F) → (⟨S32768x512, .f32⟩ : BufTy).Contents (Elt F)),
    StableHlo.binary main_v178 main_v180 main_v181 (addf : (⟨S32768x512, .f32⟩ : BufTy).Contents (Elt F) → (⟨S32768x512, .f32⟩ : BufTy).Contents (Elt F) → (⟨S32768x512, .f32⟩ : BufTy).Contents (Elt F)),
    StableHlo.TRef.nullary main_call9.cst (constant S_ .f32 0x00000000#32),
    StableHlo.TRef.unary main_call9.cst main_call9.v0 (broadcastInDim S32768x512 ![] bcast_S_S32768x512),
    StableHlo.TRef.binary (.of main_v181 : StableHlo.TRef sig ⟨S32768x512, .f32⟩) main_call9.v0 main_call9.v1 maximumf,
    StableHlo.unary main_arg3 main_v183 ((extractStridedSlice S1x512x1024 ![5, 0, 0] · slices_S9x512x1024_S1x512x1024_5_0_0) : (⟨S9x512x1024, .f32⟩ : BufTy).Contents (Elt F) → (⟨S1x512x1024, .f32⟩ : BufTy).Contents (Elt F)),
    StableHlo.reshape main_v183 main_v184 rfl shapeCasts_S1x512x1024_S512x1024,
    StableHlo.unary main_arg4 main_v185 ((extractStridedSlice S1x512 ![5, 0] · slices_S9x512_S1x512_5_0) : (⟨S9x512, .f32⟩ : BufTy).Contents (Elt F) → (⟨S1x512, .f32⟩ : BufTy).Contents (Elt F)),
    StableHlo.reshape main_v185 main_v186 rfl shapeCasts_S1x512_S512,
    StableHlo.unary main_arg5 main_v187 ((extractStridedSlice S1x512 ![5, 0] · slices_S9x512_S1x512_5_0) : (⟨S9x512, .f32⟩ : BufTy).Contents (Elt F) → (⟨S1x512, .f32⟩ : BufTy).Contents (Elt F)),
    StableHlo.reshape main_v187 main_v188 rfl shapeCasts_S1x512_S512,
    StableHlo.unary main_arg6 main_v189 ((extractStridedSlice S1x512 ![5, 0] · slices_S9x512_S1x512_5_0) : (⟨S9x512, .f32⟩ : BufTy).Contents (Elt F) → (⟨S1x512, .f32⟩ : BufTy).Contents (Elt F)),
    StableHlo.reshape main_v189 main_v190 rfl shapeCasts_S1x512_S512,
    StableHlo.unary main_v184 main_v191 ((transpose S1024x512 [1, 0] · transposes_S512x1024_S1024x512_1_0) : (⟨S512x1024, .f32⟩ : BufTy).Contents (Elt F) → (⟨S1024x512, .f32⟩ : BufTy).Contents (Elt F)),
    StableHlo.binary main_arg2 main_v191 main_v192 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v186 main_v193 (broadcastInDim S1x512 ![1] bcast_S512_S1x512_1 : (⟨S512, .f32⟩ : BufTy).Contents (Elt F) → (⟨S1x512, .f32⟩ : BufTy).Contents (Elt F)),
    StableHlo.unary main_v193 main_v194 (broadcastInDim S32768x512 ![0, 1] bcast_S1x512_S32768x512_0_1 : (⟨S1x512, .f32⟩ : BufTy).Contents (Elt F) → (⟨S32768x512, .f32⟩ : BufTy).Contents (Elt F)),
    StableHlo.binary main_v192 main_v194 main_v195 (addf : (⟨S32768x512, .f32⟩ : BufTy).Contents (Elt F) → (⟨S32768x512, .f32⟩ : BufTy).Contents (Elt F) → (⟨S32768x512, .f32⟩ : BufTy).Contents (Elt F)),
    StableHlo.nullary main_cst_22 (constant S_ .f32 0x00000000#32),
    StableHlo.binary main_v195 main_cst_22 main_v196 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_23 (constant S_ .f32 0x47000000#32),
    StableHlo.unary main_cst_23 main_v197 (broadcastInDim S512 ![] bcast_S_S512 : (⟨S_, .f32⟩ : BufTy).Contents (Elt F) → (⟨S512, .f32⟩ : BufTy).Contents (Elt F)),
    StableHlo.binary main_v196 main_v197 main_v198 (Host.divf : (⟨S512, .f32⟩ : BufTy).Contents (Elt F) → (⟨S512, .f32⟩ : BufTy).Contents (Elt F) → (⟨S512, .f32⟩ : BufTy).Contents (Elt F)),
    StableHlo.nullary main_c_24 (constantI S_ 32 0#32),
    StableHlo.TRef.nullary main_call10.cst (constant S_ .f32 0x00000000#32),
    StableHlo.TRef.binary (.of main_v195 : StableHlo.TRef sig ⟨S32768x512, .f32⟩) main_call10.cst main_call10.v0 (fun x v => Host.reduceAdd x v reducesTo_S32768x512_S512_d0 h_S_),
    StableHlo.TRef.unary main_call10.v0 main_call10.v1 (broadcastInDim S1x512 ![1] bcast_S512_S1x512_1),
    StableHlo.TRef.nullary main_call10.cst_0 (constant S_ .f32 0x47000000#32),
    StableHlo.TRef.unary main_call10.cst_0 main_call10.v2 (broadcastInDim S1x512 ![] bcast_S_S1x512),
    StableHlo.TRef.binary main_call10.v1 main_call10.v2 main_call10.v3 Host.divf,
    StableHlo.TRef.unary main_call10.v3 main_call10.v4 (broadcastInDim S32768x512 ![0, 1] bcast_S1x512_S32768x512_0_1),
    StableHlo.TRef.binary (.of main_v195 : StableHlo.TRef sig ⟨S32768x512, .f32⟩) main_call10.v4 main_call10.v5 subf,
    StableHlo.TRef.binary main_call10.v5 main_call10.v5 main_call10.v6 mulf,
    StableHlo.TRef.unary (.of main_c_24 : StableHlo.TRef sig ⟨S_, .i32⟩) main_call10.v7 (sitofp .f32),
    StableHlo.TRef.nullary main_call10.cst_1 (constant S_ .f32 0x47000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S32768x512_S512_d0 h_S_),
    StableHlo.TRef.unary main_call10.v8 main_call10.v10 (broadcastInDim S512 ![] bcast_S_S512),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S512 ![] bcast_S_S512),
    StableHlo.TRef.ternary main_call10.v12 main_call10.v11 main_call10.call0.v1 main_call10.call0.v2 (fun p a b => select (broadcastInDim S512 ![] bcast_S_S512 p) a b),
    StableHlo.unary main_v198 main_v200 (broadcastInDim S1x512 ![1] bcast_S512_S1x512_1 : (⟨S512, .f32⟩ : BufTy).Contents (Elt F) → (⟨S1x512, .f32⟩ : BufTy).Contents (Elt F)),
    StableHlo.unary main_v200 main_v201 (broadcastInDim S32768x512 ![0, 1] bcast_S1x512_S32768x512_0_1 : (⟨S1x512, .f32⟩ : BufTy).Contents (Elt F) → (⟨S32768x512, .f32⟩ : BufTy).Contents (Elt F)),
    StableHlo.binary main_v195 main_v201 main_v202 (subf : (⟨S32768x512, .f32⟩ : BufTy).Contents (Elt F) → (⟨S32768x512, .f32⟩ : BufTy).Contents (Elt F) → (⟨S32768x512, .f32⟩ : BufTy).Contents (Elt F)),
    StableHlo.nullary main_cst_25 (constant S_ .f32 0x3727C5AC#32),
    StableHlo.unary main_cst_25 main_v203 (broadcastInDim S512 ![] bcast_S_S512 : (⟨S_, .f32⟩ : BufTy).Contents (Elt F) → (⟨S512, .f32⟩ : BufTy).Contents (Elt F)),
    StableHlo.binary main_v199 main_v203 main_v204 (addf : (⟨S512, .f32⟩ : BufTy).Contents (Elt F) → (⟨S512, .f32⟩ : BufTy).Contents (Elt F) → (⟨S512, .f32⟩ : BufTy).Contents (Elt F)),
    StableHlo.unary main_v204 main_v205 (Host.rsqrt : (⟨S512, .f32⟩ : BufTy).Contents (Elt F) → (⟨S512, .f32⟩ : BufTy).Contents (Elt F)),
    StableHlo.unary main_v205 main_v206 (broadcastInDim S1x512 ![1] bcast_S512_S1x512_1 : (⟨S512, .f32⟩ : BufTy).Contents (Elt F) → (⟨S1x512, .f32⟩ : BufTy).Contents (Elt F)),
    StableHlo.unary main_v206 main_v207 (broadcastInDim S32768x512 ![0, 1] bcast_S1x512_S32768x512_0_1 : (⟨S1x512, .f32⟩ : BufTy).Contents (Elt F) → (⟨S32768x512, .f32⟩ : BufTy).Contents (Elt F)),
    StableHlo.binary main_v202 main_v207 main_v208 (mulf : (⟨S32768x512, .f32⟩ : BufTy).Contents (Elt F) → (⟨S32768x512, .f32⟩ : BufTy).Contents (Elt F) → (⟨S32768x512, .f32⟩ : BufTy).Contents (Elt F)),
    StableHlo.unary main_v188 main_v209 (broadcastInDim S1x512 ![1] bcast_S512_S1x512_1 : (⟨S512, .f32⟩ : BufTy).Contents (Elt F) → (⟨S1x512, .f32⟩ : BufTy).Contents (Elt F)),
    StableHlo.unary main_v209 main_v210 (broadcastInDim S32768x512 ![0, 1] bcast_S1x512_S32768x512_0_1 : (⟨S1x512, .f32⟩ : BufTy).Contents (Elt F) → (⟨S32768x512, .f32⟩ : BufTy).Contents (Elt F)),
    StableHlo.binary main_v208 main_v210 main_v211 (mulf : (⟨S32768x512, .f32⟩ : BufTy).Contents (Elt F) → (⟨S32768x512, .f32⟩ : BufTy).Contents (Elt F) → (⟨S32768x512, .f32⟩ : BufTy).Contents (Elt F)) ]

/-- The operations 377 … 459 of 606 of the reference (its window 4), each call's body listed in place over the call's buffers. -/
abbrev ops_part4 : List (HloOp τ sig (Elt F)) :=
  [ StableHlo.unary main_v190 main_v212 (broadcastInDim S1x512 ![1] bcast_S512_S1x512_1 : (⟨S512, .f32⟩ : BufTy).Contents (Elt F) → (⟨S1x512, .f32⟩ : BufTy).Contents (Elt F)),
    StableHlo.unary main_v212 main_v213 (broadcastInDim S32768x512 ![0, 1] bcast_S1x512_S32768x512_0_1 : (⟨S1x512, .f32⟩ : BufTy).Contents (Elt F) → (⟨S32768x512, .f32⟩ : BufTy).Contents (Elt F)),
    StableHlo.binary main_v211 main_v213 main_v214 (addf : (⟨S32768x512, .f32⟩ : BufTy).Contents (Elt F) → (⟨S32768x512, .f32⟩ : BufTy).Contents (Elt F) → (⟨S32768x512, .f32⟩ : BufTy).Contents (Elt F)),
    StableHlo.TRef.nullary main_call11.cst (constant S_ .f32 0x00000000#32),
    StableHlo.TRef.unary main_call11.cst main_call11.v0 (broadcastInDim S32768x512 ![] bcast_S_S32768x512),
    StableHlo.TRef.binary (.of main_v214 : StableHlo.TRef sig ⟨S32768x512, .f32⟩) main_call11.v0 main_call11.v1 maximumf,
    StableHlo.unary main_v149 main_v216 ((transpose S512x32768 [1, 0] · transposes_S32768x512_S512x32768_1_0) : (⟨S32768x512, .f32⟩ : BufTy).Contents (Elt F) → (⟨S512x32768, .f32⟩ : BufTy).Contents (Elt F)),
    StableHlo.binary main_v216 main_v182 main_v217 ((fun l r => Host.dotGeneral dot_S512x32768_S32768x512_S512x512_1_0_0_1_n_n none l r) : (⟨S512x32768, .f32⟩ : BufTy).Contents (Elt F) → (⟨S32768x512, .f32⟩ : BufTy).Contents (Elt F) → (⟨S512x512, .f32⟩ : BufTy).Contents (Elt F)),
    StableHlo.nullary main_cst_26 (constant S_ .f32 0x44800000#32),
    StableHlo.unary main_cst_26 main_v218 (Host.sqrt : (⟨S_, .f32⟩ : BufTy).Contents (Elt F) → (⟨S_, .f32⟩ : BufTy).Contents (Elt F)),
    StableHlo.unary main_v218 main_v219 (broadcastInDim S512x512 ![] bcast_S_S512x512 : (⟨S_, .f32⟩ : BufTy).Contents (Elt F) → (⟨S512x512, .f32⟩ : BufTy).Contents (Elt F)),
    StableHlo.binary main_v217 main_v219 main_v220 (Host.divf : (⟨S512x512, .f32⟩ : BufTy).Contents (Elt F) → (⟨S512x512, .f32⟩ : BufTy).Contents (Elt F) → (⟨S512x512, .f32⟩ : BufTy).Contents (Elt F)),
    StableHlo.nullary main_cst_27 (constant S_ .f32 0xFF800000#32),
    StableHlo.binary main_v220 main_cst_27 main_v221 ((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.nullary main_cst_28 (constant S_ .f32 0xFF800000#32),
    StableHlo.unary main_cst_28 main_v222 (broadcastInDim S512 ![] bcast_S_S512 : (⟨S_, .f32⟩ : BufTy).Contents (Elt F) → (⟨S512, .f32⟩ : BufTy).Contents (Elt F)),
    StableHlo.binary main_v222 main_v221 main_v223 (maximumf : (⟨S512, .f32⟩ : BufTy).Contents (Elt F) → (⟨S512, .f32⟩ : BufTy).Contents (Elt F) → (⟨S512, .f32⟩ : BufTy).Contents (Elt F)),
    StableHlo.unary main_v223 main_v224 (broadcastInDim S512x1 ![0] bcast_S512_S512x1_0 : (⟨S512, .f32⟩ : BufTy).Contents (Elt F) → (⟨S512x1, .f32⟩ : BufTy).Contents (Elt F)),
    StableHlo.unary main_v224 main_v225 (broadcastInDim S512x512 ![0, 1] bcast_S512x1_S512x512_0_1 : (⟨S512x1, .f32⟩ : BufTy).Contents (Elt F) → (⟨S512x512, .f32⟩ : BufTy).Contents (Elt F)),
    StableHlo.binary main_v220 main_v225 main_v226 (subf : (⟨S512x512, .f32⟩ : BufTy).Contents (Elt F) → (⟨S512x512, .f32⟩ : BufTy).Contents (Elt F) → (⟨S512x512, .f32⟩ : BufTy).Contents (Elt F)),
    StableHlo.unary main_v226 main_v227 (Host.exp : (⟨S512x512, .f32⟩ : BufTy).Contents (Elt F) → (⟨S512x512, .f32⟩ : BufTy).Contents (Elt F)),
    StableHlo.nullary main_cst_29 (constant S_ .f32 0x00000000#32),
    StableHlo.binary main_v227 main_cst_29 main_v228 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v228 main_v229 (broadcastInDim S512x1 ![0] bcast_S512_S512x1_0 : (⟨S512, .f32⟩ : BufTy).Contents (Elt F) → (⟨S512x1, .f32⟩ : BufTy).Contents (Elt F)),
    StableHlo.unary main_v229 main_v230 (broadcastInDim S512x512 ![0, 1] bcast_S512x1_S512x512_0_1 : (⟨S512x1, .f32⟩ : BufTy).Contents (Elt F) → (⟨S512x512, .f32⟩ : BufTy).Contents (Elt F)),
    StableHlo.binary main_v227 main_v230 main_v231 (Host.divf : (⟨S512x512, .f32⟩ : BufTy).Contents (Elt F) → (⟨S512x512, .f32⟩ : BufTy).Contents (Elt F) → (⟨S512x512, .f32⟩ : BufTy).Contents (Elt F)),
    StableHlo.unary main_v231 main_v232 ((transpose S512x512 [1, 0] · transposes_S512x512_S512x512_1_0) : (⟨S512x512, .f32⟩ : BufTy).Contents (Elt F) → (⟨S512x512, .f32⟩ : BufTy).Contents (Elt F)),
    StableHlo.binary main_v215 main_v232 main_v233 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    StableHlo.unary main_arg3 main_v234 ((extractStridedSlice S1x512x1024 ![6, 0, 0] · slices_S9x512x1024_S1x512x1024_6_0_0) : (⟨S9x512x1024, .f32⟩ : BufTy).Contents (Elt F) → (⟨S1x512x1024, .f32⟩ : BufTy).Contents (Elt F)),
    StableHlo.reshape main_v234 main_v235 rfl shapeCasts_S1x512x1024_S512x1024,
    StableHlo.unary main_arg4 main_v236 ((extractStridedSlice S1x512 ![6, 0] · slices_S9x512_S1x512_6_0) : (⟨S9x512, .f32⟩ : BufTy).Contents (Elt F) → (⟨S1x512, .f32⟩ : BufTy).Contents (Elt F)),
    StableHlo.reshape main_v236 main_v237 rfl shapeCasts_S1x512_S512,
    StableHlo.unary main_arg5 main_v238 ((extractStridedSlice S1x512 ![6, 0] · slices_S9x512_S1x512_6_0) : (⟨S9x512, .f32⟩ : BufTy).Contents (Elt F) → (⟨S1x512, .f32⟩ : BufTy).Contents (Elt F)),
    StableHlo.reshape main_v238 main_v239 rfl shapeCasts_S1x512_S512,
    StableHlo.unary main_arg6 main_v240 ((extractStridedSlice S1x512 ![6, 0] · slices_S9x512_S1x512_6_0) : (⟨S9x512, .f32⟩ : BufTy).Contents (Elt F) → (⟨S1x512, .f32⟩ : BufTy).Contents (Elt F)),
    StableHlo.reshape main_v240 main_v241 rfl shapeCasts_S1x512_S512,
    StableHlo.unary main_v235 main_v242 ((transpose S1024x512 [1, 0] · transposes_S512x1024_S1024x512_1_0) : (⟨S512x1024, .f32⟩ : BufTy).Contents (Elt F) → (⟨S1024x512, .f32⟩ : BufTy).Contents (Elt F)),
    StableHlo.binary main_arg2 main_v242 main_v243 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v237 main_v244 (broadcastInDim S1x512 ![1] bcast_S512_S1x512_1 : (⟨S512, .f32⟩ : BufTy).Contents (Elt F) → (⟨S1x512, .f32⟩ : BufTy).Contents (Elt F)),
    StableHlo.unary main_v244 main_v245 (broadcastInDim S32768x512 ![0, 1] bcast_S1x512_S32768x512_0_1 : (⟨S1x512, .f32⟩ : BufTy).Contents (Elt F) → (⟨S32768x512, .f32⟩ : BufTy).Contents (Elt F)),
    StableHlo.binary main_v243 main_v245 main_v246 (addf : (⟨S32768x512, .f32⟩ : BufTy).Contents (Elt F) → (⟨S32768x512, .f32⟩ : BufTy).Contents (Elt F) → (⟨S32768x512, .f32⟩ : BufTy).Contents (Elt F)),
    StableHlo.nullary main_cst_30 (constant S_ .f32 0x00000000#32),
    StableHlo.binary main_v246 main_cst_30 main_v247 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_31 (constant S_ .f32 0x47000000#32),
    StableHlo.unary main_cst_31 main_v248 (broadcastInDim S512 ![] bcast_S_S512 : (⟨S_, .f32⟩ : BufTy).Contents (Elt F) → (⟨S512, .f32⟩ : BufTy).Contents (Elt F)),
    StableHlo.binary main_v247 main_v248 main_v249 (Host.divf : (⟨S512, .f32⟩ : BufTy).Contents (Elt F) → (⟨S512, .f32⟩ : BufTy).Contents (Elt F) → (⟨S512, .f32⟩ : BufTy).Contents (Elt F)),
    StableHlo.nullary main_c_32 (constantI S_ 32 0#32),
    StableHlo.TRef.nullary main_call12.cst (constant S_ .f32 0x00000000#32),
    StableHlo.TRef.binary (.of main_v246 : StableHlo.TRef sig ⟨S32768x512, .f32⟩) main_call12.cst main_call12.v0 (fun x v => Host.reduceAdd x v reducesTo_S32768x512_S512_d0 h_S_),
    StableHlo.TRef.unary main_call12.v0 main_call12.v1 (broadcastInDim S1x512 ![1] bcast_S512_S1x512_1),
    StableHlo.TRef.nullary main_call12.cst_0 (constant S_ .f32 0x47000000#32),
    StableHlo.TRef.unary main_call12.cst_0 main_call12.v2 (broadcastInDim S1x512 ![] bcast_S_S1x512),
    StableHlo.TRef.binary main_call12.v1 main_call12.v2 main_call12.v3 Host.divf,
    StableHlo.TRef.unary main_call12.v3 main_call12.v4 (broadcastInDim S32768x512 ![0, 1] bcast_S1x512_S32768x512_0_1),
    StableHlo.TRef.binary (.of main_v246 : StableHlo.TRef sig ⟨S32768x512, .f32⟩) main_call12.v4 main_call12.v5 subf,
    StableHlo.TRef.binary main_call12.v5 main_call12.v5 main_call12.v6 mulf,
    StableHlo.TRef.unary (.of main_c_32 : StableHlo.TRef sig ⟨S_, .i32⟩) main_call12.v7 (sitofp .f32),
    StableHlo.TRef.nullary main_call12.cst_1 (constant S_ .f32 0x47000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S32768x512_S512_d0 h_S_),
    StableHlo.TRef.unary main_call12.v8 main_call12.v10 (broadcastInDim S512 ![] bcast_S_S512),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S512 ![] bcast_S_S512),
    StableHlo.TRef.ternary main_call12.v12 main_call12.v11 main_call12.call0.v1 main_call12.call0.v2 (fun p a b => select (broadcastInDim S512 ![] bcast_S_S512 p) a b),
    StableHlo.unary main_v249 main_v251 (broadcastInDim S1x512 ![1] bcast_S512_S1x512_1 : (⟨S512, .f32⟩ : BufTy).Contents (Elt F) → (⟨S1x512, .f32⟩ : BufTy).Contents (Elt F)),
    StableHlo.unary main_v251 main_v252 (broadcastInDim S32768x512 ![0, 1] bcast_S1x512_S32768x512_0_1 : (⟨S1x512, .f32⟩ : BufTy).Contents (Elt F) → (⟨S32768x512, .f32⟩ : BufTy).Contents (Elt F)),
    StableHlo.binary main_v246 main_v252 main_v253 (subf : (⟨S32768x512, .f32⟩ : BufTy).Contents (Elt F) → (⟨S32768x512, .f32⟩ : BufTy).Contents (Elt F) → (⟨S32768x512, .f32⟩ : BufTy).Contents (Elt F)),
    StableHlo.nullary main_cst_33 (constant S_ .f32 0x3727C5AC#32),
    StableHlo.unary main_cst_33 main_v254 (broadcastInDim S512 ![] bcast_S_S512 : (⟨S_, .f32⟩ : BufTy).Contents (Elt F) → (⟨S512, .f32⟩ : BufTy).Contents (Elt F)),
    StableHlo.binary main_v250 main_v254 main_v255 (addf : (⟨S512, .f32⟩ : BufTy).Contents (Elt F) → (⟨S512, .f32⟩ : BufTy).Contents (Elt F) → (⟨S512, .f32⟩ : BufTy).Contents (Elt F)),
    StableHlo.unary main_v255 main_v256 (Host.rsqrt : (⟨S512, .f32⟩ : BufTy).Contents (Elt F) → (⟨S512, .f32⟩ : BufTy).Contents (Elt F)),
    StableHlo.unary main_v256 main_v257 (broadcastInDim S1x512 ![1] bcast_S512_S1x512_1 : (⟨S512, .f32⟩ : BufTy).Contents (Elt F) → (⟨S1x512, .f32⟩ : BufTy).Contents (Elt F)),
    StableHlo.unary main_v257 main_v258 (broadcastInDim S32768x512 ![0, 1] bcast_S1x512_S32768x512_0_1 : (⟨S1x512, .f32⟩ : BufTy).Contents (Elt F) → (⟨S32768x512, .f32⟩ : BufTy).Contents (Elt F)),
    StableHlo.binary main_v253 main_v258 main_v259 (mulf : (⟨S32768x512, .f32⟩ : BufTy).Contents (Elt F) → (⟨S32768x512, .f32⟩ : BufTy).Contents (Elt F) → (⟨S32768x512, .f32⟩ : BufTy).Contents (Elt F)),
    StableHlo.unary main_v239 main_v260 (broadcastInDim S1x512 ![1] bcast_S512_S1x512_1 : (⟨S512, .f32⟩ : BufTy).Contents (Elt F) → (⟨S1x512, .f32⟩ : BufTy).Contents (Elt F)),
    StableHlo.unary main_v260 main_v261 (broadcastInDim S32768x512 ![0, 1] bcast_S1x512_S32768x512_0_1 : (⟨S1x512, .f32⟩ : BufTy).Contents (Elt F) → (⟨S32768x512, .f32⟩ : BufTy).Contents (Elt F)),
    StableHlo.binary main_v259 main_v261 main_v262 (mulf : (⟨S32768x512, .f32⟩ : BufTy).Contents (Elt F) → (⟨S32768x512, .f32⟩ : BufTy).Contents (Elt F) → (⟨S32768x512, .f32⟩ : BufTy).Contents (Elt F)),
    StableHlo.unary main_v241 main_v263 (broadcastInDim S1x512 ![1] bcast_S512_S1x512_1 : (⟨S512, .f32⟩ : BufTy).Contents (Elt F) → (⟨S1x512, .f32⟩ : BufTy).Contents (Elt F)) ]

/-- The operations 460 … 565 of 606 of the reference (its window 5), each call's body listed in place over the call's buffers. -/
abbrev ops_part5 : List (HloOp τ sig (Elt F)) :=
  [ StableHlo.unary main_v263 main_v264 (broadcastInDim S32768x512 ![0, 1] bcast_S1x512_S32768x512_0_1 : (⟨S1x512, .f32⟩ : BufTy).Contents (Elt F) → (⟨S32768x512, .f32⟩ : BufTy).Contents (Elt F)),
    StableHlo.binary main_v262 main_v264 main_v265 (addf : (⟨S32768x512, .f32⟩ : BufTy).Contents (Elt F) → (⟨S32768x512, .f32⟩ : BufTy).Contents (Elt F) → (⟨S32768x512, .f32⟩ : BufTy).Contents (Elt F)),
    StableHlo.TRef.nullary main_call13.cst (constant S_ .f32 0x00000000#32),
    StableHlo.TRef.unary main_call13.cst main_call13.v0 (broadcastInDim S32768x512 ![] bcast_S_S32768x512),
    StableHlo.TRef.binary (.of main_v265 : StableHlo.TRef sig ⟨S32768x512, .f32⟩) main_call13.v0 main_call13.v1 maximumf,
    StableHlo.unary main_arg3 main_v267 ((extractStridedSlice S1x512x1024 ![7, 0, 0] · slices_S9x512x1024_S1x512x1024_7_0_0) : (⟨S9x512x1024, .f32⟩ : BufTy).Contents (Elt F) → (⟨S1x512x1024, .f32⟩ : BufTy).Contents (Elt F)),
    StableHlo.reshape main_v267 main_v268 rfl shapeCasts_S1x512x1024_S512x1024,
    StableHlo.unary main_arg4 main_v269 ((extractStridedSlice S1x512 ![7, 0] · slices_S9x512_S1x512_7_0) : (⟨S9x512, .f32⟩ : BufTy).Contents (Elt F) → (⟨S1x512, .f32⟩ : BufTy).Contents (Elt F)),
    StableHlo.reshape main_v269 main_v270 rfl shapeCasts_S1x512_S512,
    StableHlo.unary main_arg5 main_v271 ((extractStridedSlice S1x512 ![7, 0] · slices_S9x512_S1x512_7_0) : (⟨S9x512, .f32⟩ : BufTy).Contents (Elt F) → (⟨S1x512, .f32⟩ : BufTy).Contents (Elt F)),
    StableHlo.reshape main_v271 main_v272 rfl shapeCasts_S1x512_S512,
    StableHlo.unary main_arg6 main_v273 ((extractStridedSlice S1x512 ![7, 0] · slices_S9x512_S1x512_7_0) : (⟨S9x512, .f32⟩ : BufTy).Contents (Elt F) → (⟨S1x512, .f32⟩ : BufTy).Contents (Elt F)),
    StableHlo.reshape main_v273 main_v274 rfl shapeCasts_S1x512_S512,
    StableHlo.unary main_v268 main_v275 ((transpose S1024x512 [1, 0] · transposes_S512x1024_S1024x512_1_0) : (⟨S512x1024, .f32⟩ : BufTy).Contents (Elt F) → (⟨S1024x512, .f32⟩ : BufTy).Contents (Elt F)),
    StableHlo.binary main_arg0 main_v275 main_v276 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v270 main_v277 (broadcastInDim S1x512 ![1] bcast_S512_S1x512_1 : (⟨S512, .f32⟩ : BufTy).Contents (Elt F) → (⟨S1x512, .f32⟩ : BufTy).Contents (Elt F)),
    StableHlo.unary main_v277 main_v278 (broadcastInDim S32768x512 ![0, 1] bcast_S1x512_S32768x512_0_1 : (⟨S1x512, .f32⟩ : BufTy).Contents (Elt F) → (⟨S32768x512, .f32⟩ : BufTy).Contents (Elt F)),
    StableHlo.binary main_v276 main_v278 main_v279 (addf : (⟨S32768x512, .f32⟩ : BufTy).Contents (Elt F) → (⟨S32768x512, .f32⟩ : BufTy).Contents (Elt F) → (⟨S32768x512, .f32⟩ : BufTy).Contents (Elt F)),
    StableHlo.nullary main_cst_34 (constant S_ .f32 0x00000000#32),
    StableHlo.binary main_v279 main_cst_34 main_v280 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_35 (constant S_ .f32 0x47000000#32),
    StableHlo.unary main_cst_35 main_v281 (broadcastInDim S512 ![] bcast_S_S512 : (⟨S_, .f32⟩ : BufTy).Contents (Elt F) → (⟨S512, .f32⟩ : BufTy).Contents (Elt F)),
    StableHlo.binary main_v280 main_v281 main_v282 (Host.divf : (⟨S512, .f32⟩ : BufTy).Contents (Elt F) → (⟨S512, .f32⟩ : BufTy).Contents (Elt F) → (⟨S512, .f32⟩ : BufTy).Contents (Elt F)),
    StableHlo.nullary main_c_36 (constantI S_ 32 0#32),
    StableHlo.TRef.nullary main_call14.cst (constant S_ .f32 0x00000000#32),
    StableHlo.TRef.binary (.of main_v279 : StableHlo.TRef sig ⟨S32768x512, .f32⟩) main_call14.cst main_call14.v0 (fun x v => Host.reduceAdd x v reducesTo_S32768x512_S512_d0 h_S_),
    StableHlo.TRef.unary main_call14.v0 main_call14.v1 (broadcastInDim S1x512 ![1] bcast_S512_S1x512_1),
    StableHlo.TRef.nullary main_call14.cst_0 (constant S_ .f32 0x47000000#32),
    StableHlo.TRef.unary main_call14.cst_0 main_call14.v2 (broadcastInDim S1x512 ![] bcast_S_S1x512),
    StableHlo.TRef.binary main_call14.v1 main_call14.v2 main_call14.v3 Host.divf,
    StableHlo.TRef.unary main_call14.v3 main_call14.v4 (broadcastInDim S32768x512 ![0, 1] bcast_S1x512_S32768x512_0_1),
    StableHlo.TRef.binary (.of main_v279 : StableHlo.TRef sig ⟨S32768x512, .f32⟩) main_call14.v4 main_call14.v5 subf,
    StableHlo.TRef.binary main_call14.v5 main_call14.v5 main_call14.v6 mulf,
    StableHlo.TRef.unary (.of main_c_36 : StableHlo.TRef sig ⟨S_, .i32⟩) main_call14.v7 (sitofp .f32),
    StableHlo.TRef.nullary main_call14.cst_1 (constant S_ .f32 0x47000000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S32768x512_S512_d0 h_S_),
    StableHlo.TRef.unary main_call14.v8 main_call14.v10 (broadcastInDim S512 ![] bcast_S_S512),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S512 ![] bcast_S_S512),
    StableHlo.TRef.ternary main_call14.v12 main_call14.v11 main_call14.call0.v1 main_call14.call0.v2 (fun p a b => select (broadcastInDim S512 ![] bcast_S_S512 p) a b),
    StableHlo.unary main_v282 main_v284 (broadcastInDim S1x512 ![1] bcast_S512_S1x512_1 : (⟨S512, .f32⟩ : BufTy).Contents (Elt F) → (⟨S1x512, .f32⟩ : BufTy).Contents (Elt F)),
    StableHlo.unary main_v284 main_v285 (broadcastInDim S32768x512 ![0, 1] bcast_S1x512_S32768x512_0_1 : (⟨S1x512, .f32⟩ : BufTy).Contents (Elt F) → (⟨S32768x512, .f32⟩ : BufTy).Contents (Elt F)),
    StableHlo.binary main_v279 main_v285 main_v286 (subf : (⟨S32768x512, .f32⟩ : BufTy).Contents (Elt F) → (⟨S32768x512, .f32⟩ : BufTy).Contents (Elt F) → (⟨S32768x512, .f32⟩ : BufTy).Contents (Elt F)),
    StableHlo.nullary main_cst_37 (constant S_ .f32 0x3727C5AC#32),
    StableHlo.unary main_cst_37 main_v287 (broadcastInDim S512 ![] bcast_S_S512 : (⟨S_, .f32⟩ : BufTy).Contents (Elt F) → (⟨S512, .f32⟩ : BufTy).Contents (Elt F)),
    StableHlo.binary main_v283 main_v287 main_v288 (addf : (⟨S512, .f32⟩ : BufTy).Contents (Elt F) → (⟨S512, .f32⟩ : BufTy).Contents (Elt F) → (⟨S512, .f32⟩ : BufTy).Contents (Elt F)),
    StableHlo.unary main_v288 main_v289 (Host.rsqrt : (⟨S512, .f32⟩ : BufTy).Contents (Elt F) → (⟨S512, .f32⟩ : BufTy).Contents (Elt F)),
    StableHlo.unary main_v289 main_v290 (broadcastInDim S1x512 ![1] bcast_S512_S1x512_1 : (⟨S512, .f32⟩ : BufTy).Contents (Elt F) → (⟨S1x512, .f32⟩ : BufTy).Contents (Elt F)),
    StableHlo.unary main_v290 main_v291 (broadcastInDim S32768x512 ![0, 1] bcast_S1x512_S32768x512_0_1 : (⟨S1x512, .f32⟩ : BufTy).Contents (Elt F) → (⟨S32768x512, .f32⟩ : BufTy).Contents (Elt F)),
    StableHlo.binary main_v286 main_v291 main_v292 (mulf : (⟨S32768x512, .f32⟩ : BufTy).Contents (Elt F) → (⟨S32768x512, .f32⟩ : BufTy).Contents (Elt F) → (⟨S32768x512, .f32⟩ : BufTy).Contents (Elt F)),
    StableHlo.unary main_v272 main_v293 (broadcastInDim S1x512 ![1] bcast_S512_S1x512_1 : (⟨S512, .f32⟩ : BufTy).Contents (Elt F) → (⟨S1x512, .f32⟩ : BufTy).Contents (Elt F)),
    StableHlo.unary main_v293 main_v294 (broadcastInDim S32768x512 ![0, 1] bcast_S1x512_S32768x512_0_1 : (⟨S1x512, .f32⟩ : BufTy).Contents (Elt F) → (⟨S32768x512, .f32⟩ : BufTy).Contents (Elt F)),
    StableHlo.binary main_v292 main_v294 main_v295 (mulf : (⟨S32768x512, .f32⟩ : BufTy).Contents (Elt F) → (⟨S32768x512, .f32⟩ : BufTy).Contents (Elt F) → (⟨S32768x512, .f32⟩ : BufTy).Contents (Elt F)),
    StableHlo.unary main_v274 main_v296 (broadcastInDim S1x512 ![1] bcast_S512_S1x512_1 : (⟨S512, .f32⟩ : BufTy).Contents (Elt F) → (⟨S1x512, .f32⟩ : BufTy).Contents (Elt F)),
    StableHlo.unary main_v296 main_v297 (broadcastInDim S32768x512 ![0, 1] bcast_S1x512_S32768x512_0_1 : (⟨S1x512, .f32⟩ : BufTy).Contents (Elt F) → (⟨S32768x512, .f32⟩ : BufTy).Contents (Elt F)),
    StableHlo.binary main_v295 main_v297 main_v298 (addf : (⟨S32768x512, .f32⟩ : BufTy).Contents (Elt F) → (⟨S32768x512, .f32⟩ : BufTy).Contents (Elt F) → (⟨S32768x512, .f32⟩ : BufTy).Contents (Elt F)),
    StableHlo.TRef.nullary main_call15.cst (constant S_ .f32 0x00000000#32),
    StableHlo.TRef.unary main_call15.cst main_call15.v0 (broadcastInDim S32768x512 ![] bcast_S_S32768x512),
    StableHlo.TRef.binary (.of main_v298 : StableHlo.TRef sig ⟨S32768x512, .f32⟩) main_call15.v0 main_call15.v1 maximumf,
    StableHlo.unary main_arg3 main_v300 ((extractStridedSlice S1x512x1024 ![8, 0, 0] · slices_S9x512x1024_S1x512x1024_8_0_0) : (⟨S9x512x1024, .f32⟩ : BufTy).Contents (Elt F) → (⟨S1x512x1024, .f32⟩ : BufTy).Contents (Elt F)),
    StableHlo.reshape main_v300 main_v301 rfl shapeCasts_S1x512x1024_S512x1024,
    StableHlo.unary main_arg4 main_v302 ((extractStridedSlice S1x512 ![8, 0] · slices_S9x512_S1x512_8_0) : (⟨S9x512, .f32⟩ : BufTy).Contents (Elt F) → (⟨S1x512, .f32⟩ : BufTy).Contents (Elt F)),
    StableHlo.reshape main_v302 main_v303 rfl shapeCasts_S1x512_S512,
    StableHlo.unary main_arg5 main_v304 ((extractStridedSlice S1x512 ![8, 0] · slices_S9x512_S1x512_8_0) : (⟨S9x512, .f32⟩ : BufTy).Contents (Elt F) → (⟨S1x512, .f32⟩ : BufTy).Contents (Elt F)),
    StableHlo.reshape main_v304 main_v305 rfl shapeCasts_S1x512_S512,
    StableHlo.unary main_arg6 main_v306 ((extractStridedSlice S1x512 ![8, 0] · slices_S9x512_S1x512_8_0) : (⟨S9x512, .f32⟩ : BufTy).Contents (Elt F) → (⟨S1x512, .f32⟩ : BufTy).Contents (Elt F)),
    StableHlo.reshape main_v306 main_v307 rfl shapeCasts_S1x512_S512,
    StableHlo.unary main_v301 main_v308 ((transpose S1024x512 [1, 0] · transposes_S512x1024_S1024x512_1_0) : (⟨S512x1024, .f32⟩ : BufTy).Contents (Elt F) → (⟨S1024x512, .f32⟩ : BufTy).Contents (Elt F)),
    StableHlo.binary main_arg0 main_v308 main_v309 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v303 main_v310 (broadcastInDim S1x512 ![1] bcast_S512_S1x512_1 : (⟨S512, .f32⟩ : BufTy).Contents (Elt F) → (⟨S1x512, .f32⟩ : BufTy).Contents (Elt F)),
    StableHlo.unary main_v310 main_v311 (broadcastInDim S32768x512 ![0, 1] bcast_S1x512_S32768x512_0_1 : (⟨S1x512, .f32⟩ : BufTy).Contents (Elt F) → (⟨S32768x512, .f32⟩ : BufTy).Contents (Elt F)),
    StableHlo.binary main_v309 main_v311 main_v312 (addf : (⟨S32768x512, .f32⟩ : BufTy).Contents (Elt F) → (⟨S32768x512, .f32⟩ : BufTy).Contents (Elt F) → (⟨S32768x512, .f32⟩ : BufTy).Contents (Elt F)),
    StableHlo.nullary main_cst_38 (constant S_ .f32 0x00000000#32),
    StableHlo.binary main_v312 main_cst_38 main_v313 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_39 (constant S_ .f32 0x47000000#32),
    StableHlo.unary main_cst_39 main_v314 (broadcastInDim S512 ![] bcast_S_S512 : (⟨S_, .f32⟩ : BufTy).Contents (Elt F) → (⟨S512, .f32⟩ : BufTy).Contents (Elt F)),
    StableHlo.binary main_v313 main_v314 main_v315 (Host.divf : (⟨S512, .f32⟩ : BufTy).Contents (Elt F) → (⟨S512, .f32⟩ : BufTy).Contents (Elt F) → (⟨S512, .f32⟩ : BufTy).Contents (Elt F)),
    StableHlo.nullary main_c_40 (constantI S_ 32 0#32),
    StableHlo.TRef.nullary main_call16.cst (constant S_ .f32 0x00000000#32),
    StableHlo.TRef.binary (.of main_v312 : StableHlo.TRef sig ⟨S32768x512, .f32⟩) main_call16.cst main_call16.v0 (fun x v => Host.reduceAdd x v reducesTo_S32768x512_S512_d0 h_S_),
    StableHlo.TRef.unary main_call16.v0 main_call16.v1 (broadcastInDim S1x512 ![1] bcast_S512_S1x512_1),
    StableHlo.TRef.nullary main_call16.cst_0 (constant S_ .f32 0x47000000#32),
    StableHlo.TRef.unary main_call16.cst_0 main_call16.v2 (broadcastInDim S1x512 ![] bcast_S_S1x512),
    StableHlo.TRef.binary main_call16.v1 main_call16.v2 main_call16.v3 Host.divf,
    StableHlo.TRef.unary main_call16.v3 main_call16.v4 (broadcastInDim S32768x512 ![0, 1] bcast_S1x512_S32768x512_0_1),
    StableHlo.TRef.binary (.of main_v312 : StableHlo.TRef sig ⟨S32768x512, .f32⟩) main_call16.v4 main_call16.v5 subf,
    StableHlo.TRef.binary main_call16.v5 main_call16.v5 main_call16.v6 mulf,
    StableHlo.TRef.unary (.of main_c_40 : StableHlo.TRef sig ⟨S_, .i32⟩) main_call16.v7 (sitofp .f32),
    StableHlo.TRef.nullary main_call16.cst_1 (constant S_ .f32 0x47000000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S32768x512_S512_d0 h_S_),
    StableHlo.TRef.unary main_call16.v8 main_call16.v10 (broadcastInDim S512 ![] bcast_S_S512),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S512 ![] bcast_S_S512),
    StableHlo.TRef.ternary main_call16.v12 main_call16.v11 main_call16.call0.v1 main_call16.call0.v2 (fun p a b => select (broadcastInDim S512 ![] bcast_S_S512 p) a b) ]

/-- The operations 566 … 606 of 606 of the reference (its window 6), each call's body listed in place over the call's buffers. -/
abbrev ops_part6 : List (HloOp τ sig (Elt F)) :=
  [ StableHlo.unary main_v315 main_v317 (broadcastInDim S1x512 ![1] bcast_S512_S1x512_1 : (⟨S512, .f32⟩ : BufTy).Contents (Elt F) → (⟨S1x512, .f32⟩ : BufTy).Contents (Elt F)),
    StableHlo.unary main_v317 main_v318 (broadcastInDim S32768x512 ![0, 1] bcast_S1x512_S32768x512_0_1 : (⟨S1x512, .f32⟩ : BufTy).Contents (Elt F) → (⟨S32768x512, .f32⟩ : BufTy).Contents (Elt F)),
    StableHlo.binary main_v312 main_v318 main_v319 (subf : (⟨S32768x512, .f32⟩ : BufTy).Contents (Elt F) → (⟨S32768x512, .f32⟩ : BufTy).Contents (Elt F) → (⟨S32768x512, .f32⟩ : BufTy).Contents (Elt F)),
    StableHlo.nullary main_cst_41 (constant S_ .f32 0x3727C5AC#32),
    StableHlo.unary main_cst_41 main_v320 (broadcastInDim S512 ![] bcast_S_S512 : (⟨S_, .f32⟩ : BufTy).Contents (Elt F) → (⟨S512, .f32⟩ : BufTy).Contents (Elt F)),
    StableHlo.binary main_v316 main_v320 main_v321 (addf : (⟨S512, .f32⟩ : BufTy).Contents (Elt F) → (⟨S512, .f32⟩ : BufTy).Contents (Elt F) → (⟨S512, .f32⟩ : BufTy).Contents (Elt F)),
    StableHlo.unary main_v321 main_v322 (Host.rsqrt : (⟨S512, .f32⟩ : BufTy).Contents (Elt F) → (⟨S512, .f32⟩ : BufTy).Contents (Elt F)),
    StableHlo.unary main_v322 main_v323 (broadcastInDim S1x512 ![1] bcast_S512_S1x512_1 : (⟨S512, .f32⟩ : BufTy).Contents (Elt F) → (⟨S1x512, .f32⟩ : BufTy).Contents (Elt F)),
    StableHlo.unary main_v323 main_v324 (broadcastInDim S32768x512 ![0, 1] bcast_S1x512_S32768x512_0_1 : (⟨S1x512, .f32⟩ : BufTy).Contents (Elt F) → (⟨S32768x512, .f32⟩ : BufTy).Contents (Elt F)),
    StableHlo.binary main_v319 main_v324 main_v325 (mulf : (⟨S32768x512, .f32⟩ : BufTy).Contents (Elt F) → (⟨S32768x512, .f32⟩ : BufTy).Contents (Elt F) → (⟨S32768x512, .f32⟩ : BufTy).Contents (Elt F)),
    StableHlo.unary main_v305 main_v326 (broadcastInDim S1x512 ![1] bcast_S512_S1x512_1 : (⟨S512, .f32⟩ : BufTy).Contents (Elt F) → (⟨S1x512, .f32⟩ : BufTy).Contents (Elt F)),
    StableHlo.unary main_v326 main_v327 (broadcastInDim S32768x512 ![0, 1] bcast_S1x512_S32768x512_0_1 : (⟨S1x512, .f32⟩ : BufTy).Contents (Elt F) → (⟨S32768x512, .f32⟩ : BufTy).Contents (Elt F)),
    StableHlo.binary main_v325 main_v327 main_v328 (mulf : (⟨S32768x512, .f32⟩ : BufTy).Contents (Elt F) → (⟨S32768x512, .f32⟩ : BufTy).Contents (Elt F) → (⟨S32768x512, .f32⟩ : BufTy).Contents (Elt F)),
    StableHlo.unary main_v307 main_v329 (broadcastInDim S1x512 ![1] bcast_S512_S1x512_1 : (⟨S512, .f32⟩ : BufTy).Contents (Elt F) → (⟨S1x512, .f32⟩ : BufTy).Contents (Elt F)),
    StableHlo.unary main_v329 main_v330 (broadcastInDim S32768x512 ![0, 1] bcast_S1x512_S32768x512_0_1 : (⟨S1x512, .f32⟩ : BufTy).Contents (Elt F) → (⟨S32768x512, .f32⟩ : BufTy).Contents (Elt F)),
    StableHlo.binary main_v328 main_v330 main_v331 (addf : (⟨S32768x512, .f32⟩ : BufTy).Contents (Elt F) → (⟨S32768x512, .f32⟩ : BufTy).Contents (Elt F) → (⟨S32768x512, .f32⟩ : BufTy).Contents (Elt F)),
    StableHlo.TRef.nullary main_call17.cst (constant S_ .f32 0x00000000#32),
    StableHlo.TRef.unary main_call17.cst main_call17.v0 (broadcastInDim S32768x512 ![] bcast_S_S32768x512),
    StableHlo.TRef.binary (.of main_v331 : StableHlo.TRef sig ⟨S32768x512, .f32⟩) main_call17.v0 main_call17.v1 maximumf,
    StableHlo.unary main_v266 main_v333 ((transpose S512x32768 [1, 0] · transposes_S32768x512_S512x32768_1_0) : (⟨S32768x512, .f32⟩ : BufTy).Contents (Elt F) → (⟨S512x32768, .f32⟩ : BufTy).Contents (Elt F)),
    StableHlo.binary main_v333 main_v299 main_v334 ((fun l r => Host.dotGeneral dot_S512x32768_S32768x512_S512x512_1_0_0_1_n_n none l r) : (⟨S512x32768, .f32⟩ : BufTy).Contents (Elt F) → (⟨S32768x512, .f32⟩ : BufTy).Contents (Elt F) → (⟨S512x512, .f32⟩ : BufTy).Contents (Elt F)),
    StableHlo.nullary main_cst_42 (constant S_ .f32 0x44800000#32),
    StableHlo.unary main_cst_42 main_v335 (Host.sqrt : (⟨S_, .f32⟩ : BufTy).Contents (Elt F) → (⟨S_, .f32⟩ : BufTy).Contents (Elt F)),
    StableHlo.unary main_v335 main_v336 (broadcastInDim S512x512 ![] bcast_S_S512x512 : (⟨S_, .f32⟩ : BufTy).Contents (Elt F) → (⟨S512x512, .f32⟩ : BufTy).Contents (Elt F)),
    StableHlo.binary main_v334 main_v336 main_v337 (Host.divf : (⟨S512x512, .f32⟩ : BufTy).Contents (Elt F) → (⟨S512x512, .f32⟩ : BufTy).Contents (Elt F) → (⟨S512x512, .f32⟩ : BufTy).Contents (Elt F)),
    StableHlo.nullary main_cst_43 (constant S_ .f32 0xFF800000#32),
    StableHlo.binary main_v337 main_cst_43 main_v338 ((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.nullary main_cst_44 (constant S_ .f32 0xFF800000#32),
    StableHlo.unary main_cst_44 main_v339 (broadcastInDim S512 ![] bcast_S_S512 : (⟨S_, .f32⟩ : BufTy).Contents (Elt F) → (⟨S512, .f32⟩ : BufTy).Contents (Elt F)),
    StableHlo.binary main_v339 main_v338 main_v340 (maximumf : (⟨S512, .f32⟩ : BufTy).Contents (Elt F) → (⟨S512, .f32⟩ : BufTy).Contents (Elt F) → (⟨S512, .f32⟩ : BufTy).Contents (Elt F)),
    StableHlo.unary main_v340 main_v341 (broadcastInDim S512x1 ![0] bcast_S512_S512x1_0 : (⟨S512, .f32⟩ : BufTy).Contents (Elt F) → (⟨S512x1, .f32⟩ : BufTy).Contents (Elt F)),
    StableHlo.unary main_v341 main_v342 (broadcastInDim S512x512 ![0, 1] bcast_S512x1_S512x512_0_1 : (⟨S512x1, .f32⟩ : BufTy).Contents (Elt F) → (⟨S512x512, .f32⟩ : BufTy).Contents (Elt F)),
    StableHlo.binary main_v337 main_v342 main_v343 (subf : (⟨S512x512, .f32⟩ : BufTy).Contents (Elt F) → (⟨S512x512, .f32⟩ : BufTy).Contents (Elt F) → (⟨S512x512, .f32⟩ : BufTy).Contents (Elt F)),
    StableHlo.unary main_v343 main_v344 (Host.exp : (⟨S512x512, .f32⟩ : BufTy).Contents (Elt F) → (⟨S512x512, .f32⟩ : BufTy).Contents (Elt F)),
    StableHlo.nullary main_cst_45 (constant S_ .f32 0x00000000#32),
    StableHlo.binary main_v344 main_cst_45 main_v345 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v345 main_v346 (broadcastInDim S512x1 ![0] bcast_S512_S512x1_0 : (⟨S512, .f32⟩ : BufTy).Contents (Elt F) → (⟨S512x1, .f32⟩ : BufTy).Contents (Elt F)),
    StableHlo.unary main_v346 main_v347 (broadcastInDim S512x512 ![0, 1] bcast_S512x1_S512x512_0_1 : (⟨S512x1, .f32⟩ : BufTy).Contents (Elt F) → (⟨S512x512, .f32⟩ : BufTy).Contents (Elt F)),
    StableHlo.binary main_v344 main_v347 main_v348 (Host.divf : (⟨S512x512, .f32⟩ : BufTy).Contents (Elt F) → (⟨S512x512, .f32⟩ : BufTy).Contents (Elt F) → (⟨S512x512, .f32⟩ : BufTy).Contents (Elt F)),
    StableHlo.unary main_v348 main_v349 ((transpose S512x512 [1, 0] · transposes_S512x512_S512x512_1_0) : (⟨S512x512, .f32⟩ : BufTy).Contents (Elt F) → (⟨S512x512, .f32⟩ : BufTy).Contents (Elt F)),
    StableHlo.binary main_v332 main_v349 main_v350 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)) ]

/-- The reference's 606 operations, in order. -/
abbrev ops : List (HloOp τ sig (Elt F)) :=
  ops_part0 ++ (ops_part1 ++ (ops_part2 ++ (ops_part3 ++ (ops_part4 ++ (ops_part5 ++ (ops_part6))))))

end Cert.ReferenceIdeal.Hand

end
-- ==== Proof.Ref.MainEq.lean ====
/-
  The reference's entry function IS that line of operations (piece by piece: the callees unfolded, sequencing reassociated); every
  operation touches TensorCore buffers only and determines what it writes; hence the run: every execution terminates with each
  buffer at the fold of the operations' results over the launch contents.
-/
import proofs.«100284_j64536178590158_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Window 0 of the reference is that line of operations: the called functions unfolded at their calls, sequencing reassociated. -/
theorem main_part0_eq (c : Dev nD) : main_part0 (F := F) c = seq ops_part0 := by
  simp only [main_part0, fn_var.body, fn_where.body, fn_relu.body, seq, bind_assoc, pure_bind] <;> rfl
set_option maxRecDepth 8192 in
/-- Window 1 of the reference is that line of operations: the called functions unfolded at their calls, sequencing reassociated. -/
theorem main_part1_eq (c : Dev nD) : main_part1 (F := F) c = seq ops_part1 := by
  simp only [main_part1, fn_var.body, fn_where.body, fn_relu.body, seq, bind_assoc, pure_bind] <;> rfl
set_option maxRecDepth 8192 in
/-- Window 2 of the reference is that line of operations: the called functions unfolded at their calls, sequencing reassociated. -/
theorem main_part2_eq (c : Dev nD) : main_part2 (F := F) c = seq ops_part2 := by
  simp only [main_part2, fn_var.body, fn_where.body, fn_relu.body, seq, bind_assoc, pure_bind] <;> rfl
set_option maxRecDepth 8192 in
/-- Window 3 of the reference is that line of operations: the called functions unfolded at their calls, sequencing reassociated. -/
theorem main_part3_eq (c : Dev nD) : main_part3 (F := F) c = seq ops_part3 := by
  simp only [main_part3, fn_var.body, fn_where.body, fn_relu.body, seq, bind_assoc, pure_bind] <;> rfl
set_option maxRecDepth 8192 in
/-- Window 4 of the reference is that line of operations: the called functions unfolded at their calls, sequencing reassociated. -/
theorem main_part4_eq (c : Dev nD) : main_part4 (F := F) c = seq ops_part4 := by
  simp only [main_part4, fn_var.body, fn_where.body, fn_relu.body, seq, bind_assoc, pure_bind] <;> rfl
set_option maxRecDepth 8192 in
/-- Window 5 of the reference is that line of operations: the called functions unfolded at their calls, sequencing reassociated. -/
theorem main_part5_eq (c : Dev nD) : main_part5 (F := F) c = seq ops_part5 := by
  simp only [main_part5, fn_var.body, fn_where.body, fn_relu.body, seq, bind_assoc, pure_bind] <;> rfl
set_option maxRecDepth 8192 in
/-- Window 6 of the reference is that line of operations: the called functions unfolded at their calls, sequencing reassociated. -/
theorem main_part6_eq (c : Dev nD) : main_part6 (F := F) c = seq ops_part6 := by
  simp only [main_part6, fn_var.body, fn_where.body, fn_relu.body, seq, bind_assoc, pure_bind] <;> rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., unary_bufs_sub .., unary_bufs_sub .., binary_bufs_sub .., nullary_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_sub : (ops_part5 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part6_sub : (ops_part6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub ..⟩
set_option maxRecDepth 8192 in
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h]
theorem ops_fresh : ∀ op ∈ (ops : List (HloOp τ sig (Elt F))), op.fresh = ∅ := fun op h => by
    simp only [ops, List.mem_append] at h
    rcases h with h | h | h | h | h | h | h
    exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h]

/-- From any memory with zero counters, every weakly fair execution of the reference terminates, and every buffer ends at the fold of
    the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.Ref.Chunks.lean ====
/-
  The same 606 operations cut where the mathematics cuts them: nine projection blocks of 60 operations (row j of the stacked
  parameters: slices, x · Wᵀ + b, column mean and variance, normalise, scale, shift, rectify) and, after each three, an attention of
  22 operations (QᵀK scaled, row softmax, V · Aᵀ).
-/
import proofs.«100284_j64536178590158_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60: the projection block of parameter row ![0, 0, 0] (slices, product, bias, batch statistics, normalisation, rectification); it ends in main_v32. -/
abbrev fcOps0 : List (HloOp τ sig (Elt F)) :=
  [ StableHlo.unary main_arg3 main_v0 ((extractStridedSlice S1x512x1024 ![0, 0, 0] · slices_S9x512x1024_S1x512x1024_0_0_0) : (⟨S9x512x1024, .f32⟩ : BufTy).Contents (Elt F) → (⟨S1x512x1024, .f32⟩ : BufTy).Contents (Elt F)),
    StableHlo.reshape main_v0 main_v1 rfl shapeCasts_S1x512x1024_S512x1024,
    StableHlo.unary main_arg4 main_v2 ((extractStridedSlice S1x512 ![0, 0] · slices_S9x512_S1x512_0_0) : (⟨S9x512, .f32⟩ : BufTy).Contents (Elt F) → (⟨S1x512, .f32⟩ : BufTy).Contents (Elt F)),
    StableHlo.reshape main_v2 main_v3 rfl shapeCasts_S1x512_S512,
    StableHlo.unary main_arg5 main_v4 ((extractStridedSlice S1x512 ![0, 0] · slices_S9x512_S1x512_0_0) : (⟨S9x512, .f32⟩ : BufTy).Contents (Elt F) → (⟨S1x512, .f32⟩ : BufTy).Contents (Elt F)),
    StableHlo.reshape main_v4 main_v5 rfl shapeCasts_S1x512_S512,
    StableHlo.unary main_arg6 main_v6 ((extractStridedSlice S1x512 ![0, 0] · slices_S9x512_S1x512_0_0) : (⟨S9x512, .f32⟩ : BufTy).Contents (Elt F) → (⟨S1x512, .f32⟩ : BufTy).Contents (Elt F)),
    StableHlo.reshape main_v6 main_v7 rfl shapeCasts_S1x512_S512,
    StableHlo.unary main_v1 main_v8 ((transpose S1024x512 [1, 0] · transposes_S512x1024_S1024x512_1_0) : (⟨S512x1024, .f32⟩ : BufTy).Contents (Elt F) → (⟨S1024x512, .f32⟩ : BufTy).Contents (Elt F)),
    StableHlo.binary main_arg0 main_v8 main_v9 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v3 main_v10 (broadcastInDim S1x512 ![1] bcast_S512_S1x512_1 : (⟨S512, .f32⟩ : BufTy).Contents (Elt F) → (⟨S1x512, .f32⟩ : BufTy).Contents (Elt F)),
    StableHlo.unary main_v10 main_v11 (broadcastInDim S32768x512 ![0, 1] bcast_S1x512_S32768x512_0_1 : (⟨S1x512, .f32⟩ : BufTy).Contents (Elt F) → (⟨S32768x512, .f32⟩ : BufTy).Contents (Elt F)),
    StableHlo.binary main_v9 main_v11 main_v12 (addf : (⟨S32768x512, .f32⟩ : BufTy).Contents (Elt F) → (⟨S32768x512, .f32⟩ : BufTy).Contents (Elt F) → (⟨S32768x512, .f32⟩ : BufTy).Contents (Elt F)),
    StableHlo.nullary main_cst (constant S_ .f32 0x00000000#32),
    StableHlo.binary main_v12 main_cst main_v13 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_0 (constant S_ .f32 0x47000000#32),
    StableHlo.unary main_cst_0 main_v14 (broadcastInDim S512 ![] bcast_S_S512 : (⟨S_, .f32⟩ : BufTy).Contents (Elt F) → (⟨S512, .f32⟩ : BufTy).Contents (Elt F)),
    StableHlo.binary main_v13 main_v14 main_v15 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call0.cst (constant S_ .f32 0x00000000#32),
    StableHlo.TRef.binary (.of main_v12 : StableHlo.TRef sig ⟨S32768x512, .f32⟩) main_call0.cst main_call0.v0 (fun x v => Host.reduceAdd x v reducesTo_S32768x512_S512_d0 h_S_),
    StableHlo.TRef.unary main_call0.v0 main_call0.v1 (broadcastInDim S1x512 ![1] bcast_S512_S1x512_1),
    StableHlo.TRef.nullary main_call0.cst_0 (constant S_ .f32 0x47000000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S32768x512 ![0, 1] bcast_S1x512_S32768x512_0_1),
    StableHlo.TRef.binary (.of main_v12 : StableHlo.TRef sig ⟨S32768x512, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32768x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v15 main_v17 (broadcastInDim S1x512 ![1] bcast_S512_S1x512_1 : (⟨S512, .f32⟩ : BufTy).Contents (Elt F) → (⟨S1x512, .f32⟩ : BufTy).Contents (Elt F)),
    StableHlo.unary main_v17 main_v18 (broadcastInDim S32768x512 ![0, 1] bcast_S1x512_S32768x512_0_1 : (⟨S1x512, .f32⟩ : BufTy).Contents (Elt F) → (⟨S32768x512, .f32⟩ : BufTy).Contents (Elt F)),
    StableHlo.binary main_v12 main_v18 main_v19 (subf : (⟨S32768x512, .f32⟩ : BufTy).Contents (Elt F) → (⟨S32768x512, .f32⟩ : BufTy).Contents (Elt F) → (⟨S32768x512, .f32⟩ : BufTy).Contents (Elt F)),
    StableHlo.nullary main_cst_1 (constant S_ .f32 0x3727C5AC#32),
    StableHlo.unary main_cst_1 main_v20 (broadcastInDim S512 ![] bcast_S_S512 : (⟨S_, .f32⟩ : BufTy).Contents (Elt F) → (⟨S512, .f32⟩ : BufTy).Contents (Elt F)),
    StableHlo.binary main_v16 main_v20 main_v21 (addf : (⟨S512, .f32⟩ : BufTy).Contents (Elt F) → (⟨S512, .f32⟩ : BufTy).Contents (Elt F) → (⟨S512, .f32⟩ : BufTy).Contents (Elt F)),
    StableHlo.unary main_v21 main_v22 (Host.rsqrt : (⟨S512, .f32⟩ : BufTy).Contents (Elt F) → (⟨S512, .f32⟩ : BufTy).Contents (Elt F)),
    StableHlo.unary main_v22 main_v23 (broadcastInDim S1x512 ![1] bcast_S512_S1x512_1 : (⟨S512, .f32⟩ : BufTy).Contents (Elt F) → (⟨S1x512, .f32⟩ : BufTy).Contents (Elt F)),
    StableHlo.unary main_v23 main_v24 (broadcastInDim S32768x512 ![0, 1] bcast_S1x512_S32768x512_0_1 : (⟨S1x512, .f32⟩ : BufTy).Contents (Elt F) → (⟨S32768x512, .f32⟩ : BufTy).Contents (Elt F)),
    StableHlo.binary main_v19 main_v24 main_v25 (mulf : (⟨S32768x512, .f32⟩ : BufTy).Contents (Elt F) → (⟨S32768x512, .f32⟩ : BufTy).Contents (Elt F) → (⟨S32768x512, .f32⟩ : BufTy).Contents (Elt F)),
    StableHlo.unary main_v5 main_v26 (broadcastInDim S1x512 ![1] bcast_S512_S1x512_1 : (⟨S512, .f32⟩ : BufTy).Contents (Elt F) → (⟨S1x512, .f32⟩ : BufTy).Contents (Elt F)),
    StableHlo.unary main_v26 main_v27 (broadcastInDim S32768x512 ![0, 1] bcast_S1x512_S32768x512_0_1 : (⟨S1x512, .f32⟩ : BufTy).Contents (Elt F) → (⟨S32768x512, .f32⟩ : BufTy).Contents (Elt F)),
    StableHlo.binary main_v25 main_v27 main_v28 (mulf : (⟨S32768x512, .f32⟩ : BufTy).Contents (Elt F) → (⟨S32768x512, .f32⟩ : BufTy).Contents (Elt F) → (⟨S32768x512, .f32⟩ : BufTy).Contents (Elt F)),
    StableHlo.unary main_v7 main_v29 (broadcastInDim S1x512 ![1] bcast_S512_S1x512_1 : (⟨S512, .f32⟩ : BufTy).Contents (Elt F) → (⟨S1x512, .f32⟩ : BufTy).Contents (Elt F)),
    StableHlo.unary main_v29 main_v30 (broadcastInDim S32768x512 ![0, 1] bcast_S1x512_S32768x512_0_1 : (⟨S1x512, .f32⟩ : BufTy).Contents (Elt F) → (⟨S32768x512, .f32⟩ : BufTy).Contents (Elt F)),
    StableHlo.binary main_v28 main_v30 main_v31 (addf : (⟨S32768x512, .f32⟩ : BufTy).Contents (Elt F) → (⟨S32768x512, .f32⟩ : BufTy).Contents (Elt F) → (⟨S32768x512, .f32⟩ : BufTy).Contents (Elt F)),
    StableHlo.TRef.nullary main_call1.cst (constant S_ .f32 0x00000000#32),
    StableHlo.TRef.unary main_call1.cst main_call1.v0 (broadcastInDim S32768x512 ![] bcast_S_S32768x512),
    StableHlo.TRef.binary (.of main_v31 : StableHlo.TRef sig ⟨S32768x512, .f32⟩) main_call1.v0 main_call1.v1 maximumf ]

/-- Operations 61 … 120: the projection block of parameter row ![1, 0, 0] (slices, product, bias, batch statistics, normalisation, rectification); it ends in main_v65. -/
abbrev fcOps1 : List (HloOp τ sig (Elt F)) :=
  [ StableHlo.unary main_arg3 main_v33 ((extractStridedSlice S1x512x1024 ![1, 0, 0] · slices_S9x512x1024_S1x512x1024_1_0_0) : (⟨S9x512x1024, .f32⟩ : BufTy).Contents (Elt F) → (⟨S1x512x1024, .f32⟩ : BufTy).Contents (Elt F)),
    StableHlo.reshape main_v33 main_v34 rfl shapeCasts_S1x512x1024_S512x1024,
    StableHlo.unary main_arg4 main_v35 ((extractStridedSlice S1x512 ![1, 0] · slices_S9x512_S1x512_1_0) : (⟨S9x512, .f32⟩ : BufTy).Contents (Elt F) → (⟨S1x512, .f32⟩ : BufTy).Contents (Elt F)),
    StableHlo.reshape main_v35 main_v36 rfl shapeCasts_S1x512_S512,
    StableHlo.unary main_arg5 main_v37 ((extractStridedSlice S1x512 ![1, 0] · slices_S9x512_S1x512_1_0) : (⟨S9x512, .f32⟩ : BufTy).Contents (Elt F) → (⟨S1x512, .f32⟩ : BufTy).Contents (Elt F)),
    StableHlo.reshape main_v37 main_v38 rfl shapeCasts_S1x512_S512,
    StableHlo.unary main_arg6 main_v39 ((extractStridedSlice S1x512 ![1, 0] · slices_S9x512_S1x512_1_0) : (⟨S9x512, .f32⟩ : BufTy).Contents (Elt F) → (⟨S1x512, .f32⟩ : BufTy).Contents (Elt F)),
    StableHlo.reshape main_v39 main_v40 rfl shapeCasts_S1x512_S512,
    StableHlo.unary main_v34 main_v41 ((transpose S1024x512 [1, 0] · transposes_S512x1024_S1024x512_1_0) : (⟨S512x1024, .f32⟩ : BufTy).Contents (Elt F) → (⟨S1024x512, .f32⟩ : BufTy).Contents (Elt F)),
    StableHlo.binary main_arg1 main_v41 main_v42 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v36 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S32768x512 ![0, 1] bcast_S1x512_S32768x512_0_1 : (⟨S1x512, .f32⟩ : BufTy).Contents (Elt F) → (⟨S32768x512, .f32⟩ : BufTy).Contents (Elt F)),
    StableHlo.binary main_v42 main_v44 main_v45 (addf : (⟨S32768x512, .f32⟩ : BufTy).Contents (Elt F) → (⟨S32768x512, .f32⟩ : BufTy).Contents (Elt F) → (⟨S32768x512, .f32⟩ : BufTy).Contents (Elt F)),
    StableHlo.nullary main_cst_2 (constant S_ .f32 0x00000000#32),
    StableHlo.binary main_v45 main_cst_2 main_v46 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_3 (constant S_ .f32 0x47000000#32),
    StableHlo.unary main_cst_3 main_v47 (broadcastInDim S512 ![] bcast_S_S512 : (⟨S_, .f32⟩ : BufTy).Contents (Elt F) → (⟨S512, .f32⟩ : BufTy).Contents (Elt F)),
    StableHlo.binary main_v46 main_v47 main_v48 (Host.divf : (⟨S512, .f32⟩ : BufTy).Contents (Elt F) → (⟨S512, .f32⟩ : BufTy).Contents (Elt F) → (⟨S512, .f32⟩ : BufTy).Contents (Elt F)),
    StableHlo.nullary main_c_4 (constantI S_ 32 0#32),
    StableHlo.TRef.nullary main_call2.cst (constant S_ .f32 0x00000000#32),
    StableHlo.TRef.binary (.of main_v45 : StableHlo.TRef sig ⟨S32768x512, .f32⟩) main_call2.cst main_call2.v0 (fun x v => Host.reduceAdd x v reducesTo_S32768x512_S512_d0 h_S_),
    StableHlo.TRef.unary main_call2.v0 main_call2.v1 (broadcastInDim S1x512 ![1] bcast_S512_S1x512_1),
    StableHlo.TRef.nullary main_call2.cst_0 (constant S_ .f32 0x47000000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S32768x512 ![0, 1] bcast_S1x512_S32768x512_0_1),
    StableHlo.TRef.binary (.of main_v45 : StableHlo.TRef sig ⟨S32768x512, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32768x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v48 main_v50 (broadcastInDim S1x512 ![1] bcast_S512_S1x512_1 : (⟨S512, .f32⟩ : BufTy).Contents (Elt F) → (⟨S1x512, .f32⟩ : BufTy).Contents (Elt F)),
    StableHlo.unary main_v50 main_v51 (broadcastInDim S32768x512 ![0, 1] bcast_S1x512_S32768x512_0_1 : (⟨S1x512, .f32⟩ : BufTy).Contents (Elt F) → (⟨S32768x512, .f32⟩ : BufTy).Contents (Elt F)),
    StableHlo.binary main_v45 main_v51 main_v52 (subf : (⟨S32768x512, .f32⟩ : BufTy).Contents (Elt F) → (⟨S32768x512, .f32⟩ : BufTy).Contents (Elt F) → (⟨S32768x512, .f32⟩ : BufTy).Contents (Elt F)),
    StableHlo.nullary main_cst_5 (constant S_ .f32 0x3727C5AC#32),
    StableHlo.unary main_cst_5 main_v53 (broadcastInDim S512 ![] bcast_S_S512 : (⟨S_, .f32⟩ : BufTy).Contents (Elt F) → (⟨S512, .f32⟩ : BufTy).Contents (Elt F)),
    StableHlo.binary main_v49 main_v53 main_v54 (addf : (⟨S512, .f32⟩ : BufTy).Contents (Elt F) → (⟨S512, .f32⟩ : BufTy).Contents (Elt F) → (⟨S512, .f32⟩ : BufTy).Contents (Elt F)),
    StableHlo.unary main_v54 main_v55 (Host.rsqrt : (⟨S512, .f32⟩ : BufTy).Contents (Elt F) → (⟨S512, .f32⟩ : BufTy).Contents (Elt F)),
    StableHlo.unary main_v55 main_v56 (broadcastInDim S1x512 ![1] bcast_S512_S1x512_1 : (⟨S512, .f32⟩ : BufTy).Contents (Elt F) → (⟨S1x512, .f32⟩ : BufTy).Contents (Elt F)),
    StableHlo.unary main_v56 main_v57 (broadcastInDim S32768x512 ![0, 1] bcast_S1x512_S32768x512_0_1 : (⟨S1x512, .f32⟩ : BufTy).Contents (Elt F) → (⟨S32768x512, .f32⟩ : BufTy).Contents (Elt F)),
    StableHlo.binary main_v52 main_v57 main_v58 (mulf : (⟨S32768x512, .f32⟩ : BufTy).Contents (Elt F) → (⟨S32768x512, .f32⟩ : BufTy).Contents (Elt F) → (⟨S32768x512, .f32⟩ : BufTy).Contents (Elt F)),
    StableHlo.unary main_v38 main_v59 (broadcastInDim S1x512 ![1] bcast_S512_S1x512_1 : (⟨S512, .f32⟩ : BufTy).Contents (Elt F) → (⟨S1x512, .f32⟩ : BufTy).Contents (Elt F)),
    StableHlo.unary main_v59 main_v60 (broadcastInDim S32768x512 ![0, 1] bcast_S1x512_S32768x512_0_1 : (⟨S1x512, .f32⟩ : BufTy).Contents (Elt F) → (⟨S32768x512, .f32⟩ : BufTy).Contents (Elt F)),
    StableHlo.binary main_v58 main_v60 main_v61 (mulf : (⟨S32768x512, .f32⟩ : BufTy).Contents (Elt F) → (⟨S32768x512, .f32⟩ : BufTy).Contents (Elt F) → (⟨S32768x512, .f32⟩ : BufTy).Contents (Elt F)),
    StableHlo.unary main_v40 main_v62 (broadcastInDim S1x512 ![1] bcast_S512_S1x512_1 : (⟨S512, .f32⟩ : BufTy).Contents (Elt F) → (⟨S1x512, .f32⟩ : BufTy).Contents (Elt F)),
    StableHlo.unary main_v62 main_v63 (broadcastInDim S32768x512 ![0, 1] bcast_S1x512_S32768x512_0_1 : (⟨S1x512, .f32⟩ : BufTy).Contents (Elt F) → (⟨S32768x512, .f32⟩ : BufTy).Contents (Elt F)),
    StableHlo.binary main_v61 main_v63 main_v64 (addf : (⟨S32768x512, .f32⟩ : BufTy).Contents (Elt F) → (⟨S32768x512, .f32⟩ : BufTy).Contents (Elt F) → (⟨S32768x512, .f32⟩ : BufTy).Contents (Elt F)),
    StableHlo.TRef.nullary main_call3.cst (constant S_ .f32 0x00000000#32),
    StableHlo.TRef.unary main_call3.cst main_call3.v0 (broadcastInDim S32768x512 ![] bcast_S_S32768x512),
    StableHlo.TRef.binary (.of main_v64 : StableHlo.TRef sig ⟨S32768x512, .f32⟩) main_call3.v0 main_call3.v1 maximumf ]

/-- Operations 121 … 180: the projection block of parameter row ![2, 0, 0] (slices, product, bias, batch statistics, normalisation, rectification); it ends in main_v98. -/
abbrev fcOps2 : List (HloOp τ sig (Elt F)) :=
  [ StableHlo.unary main_arg3 main_v66 ((extractStridedSlice S1x512x1024 ![2, 0, 0] · slices_S9x512x1024_S1x512x1024_2_0_0) : (⟨S9x512x1024, .f32⟩ : BufTy).Contents (Elt F) → (⟨S1x512x1024, .f32⟩ : BufTy).Contents (Elt F)),
    StableHlo.reshape main_v66 main_v67 rfl shapeCasts_S1x512x1024_S512x1024,
    StableHlo.unary main_arg4 main_v68 ((extractStridedSlice S1x512 ![2, 0] · slices_S9x512_S1x512_2_0) : (⟨S9x512, .f32⟩ : BufTy).Contents (Elt F) → (⟨S1x512, .f32⟩ : BufTy).Contents (Elt F)),
    StableHlo.reshape main_v68 main_v69 rfl shapeCasts_S1x512_S512,
    StableHlo.unary main_arg5 main_v70 ((extractStridedSlice S1x512 ![2, 0] · slices_S9x512_S1x512_2_0) : (⟨S9x512, .f32⟩ : BufTy).Contents (Elt F) → (⟨S1x512, .f32⟩ : BufTy).Contents (Elt F)),
    StableHlo.reshape main_v70 main_v71 rfl shapeCasts_S1x512_S512,
    StableHlo.unary main_arg6 main_v72 ((extractStridedSlice S1x512 ![2, 0] · slices_S9x512_S1x512_2_0) : (⟨S9x512, .f32⟩ : BufTy).Contents (Elt F) → (⟨S1x512, .f32⟩ : BufTy).Contents (Elt F)),
    StableHlo.reshape main_v72 main_v73 rfl shapeCasts_S1x512_S512,
    StableHlo.unary main_v67 main_v74 ((transpose S1024x512 [1, 0] · transposes_S512x1024_S1024x512_1_0) : (⟨S512x1024, .f32⟩ : BufTy).Contents (Elt F) → (⟨S1024x512, .f32⟩ : BufTy).Contents (Elt F)),
    StableHlo.binary main_arg1 main_v74 main_v75 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v69 main_v76 (broadcastInDim S1x512 ![1] bcast_S512_S1x512_1 : (⟨S512, .f32⟩ : BufTy).Contents (Elt F) → (⟨S1x512, .f32⟩ : BufTy).Contents (Elt F)),
    StableHlo.unary main_v76 main_v77 (broadcastInDim S32768x512 ![0, 1] bcast_S1x512_S32768x512_0_1 : (⟨S1x512, .f32⟩ : BufTy).Contents (Elt F) → (⟨S32768x512, .f32⟩ : BufTy).Contents (Elt F)),
    StableHlo.binary main_v75 main_v77 main_v78 (addf : (⟨S32768x512, .f32⟩ : BufTy).Contents (Elt F) → (⟨S32768x512, .f32⟩ : BufTy).Contents (Elt F) → (⟨S32768x512, .f32⟩ : BufTy).Contents (Elt F)),
    StableHlo.nullary main_cst_6 (constant S_ .f32 0x00000000#32),
    StableHlo.binary main_v78 main_cst_6 main_v79 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_7 (constant S_ .f32 0x47000000#32),
    StableHlo.unary main_cst_7 main_v80 (broadcastInDim S512 ![] bcast_S_S512 : (⟨S_, .f32⟩ : BufTy).Contents (Elt F) → (⟨S512, .f32⟩ : BufTy).Contents (Elt F)),
    StableHlo.binary main_v79 main_v80 main_v81 (Host.divf : (⟨S512, .f32⟩ : BufTy).Contents (Elt F) → (⟨S512, .f32⟩ : BufTy).Contents (Elt F) → (⟨S512, .f32⟩ : BufTy).Contents (Elt F)),
    StableHlo.nullary main_c_8 (constantI S_ 32 0#32),
    StableHlo.TRef.nullary main_call4.cst (constant S_ .f32 0x00000000#32),
    StableHlo.TRef.binary (.of main_v78 : StableHlo.TRef sig ⟨S32768x512, .f32⟩) main_call4.cst main_call4.v0 (fun x v => Host.reduceAdd x v reducesTo_S32768x512_S512_d0 h_S_),
    StableHlo.TRef.unary main_call4.v0 main_call4.v1 (broadcastInDim S1x512 ![1] bcast_S512_S1x512_1),
    StableHlo.TRef.nullary main_call4.cst_0 (constant S_ .f32 0x47000000#32),
    StableHlo.TRef.unary main_call4.cst_0 main_call4.v2 (broadcastInDim S1x512 ![] bcast_S_S1x512),
    StableHlo.TRef.binary main_call4.v1 main_call4.v2 main_call4.v3 Host.divf,
    StableHlo.TRef.unary main_call4.v3 main_call4.v4 (broadcastInDim S32768x512 ![0, 1] bcast_S1x512_S32768x512_0_1),
    StableHlo.TRef.binary (.of main_v78 : StableHlo.TRef sig ⟨S32768x512, .f32⟩) main_call4.v4 main_call4.v5 subf,
    StableHlo.TRef.binary main_call4.v5 main_call4.v5 main_call4.v6 mulf,
    StableHlo.TRef.unary (.of main_c_8 : StableHlo.TRef sig ⟨S_, .i32⟩) main_call4.v7 (sitofp .f32),
    StableHlo.TRef.nullary main_call4.cst_1 (constant S_ .f32 0x47000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S32768x512_S512_d0 h_S_),
    StableHlo.TRef.unary main_call4.v8 main_call4.v10 (broadcastInDim S512 ![] bcast_S_S512),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512 ![] bcast_S_S512),
    StableHlo.TRef.ternary main_call4.v12 main_call4.v11 main_call4.call0.v1 main_call4.call0.v2 (fun p a b => select (broadcastInDim S512 ![] bcast_S_S512 p) a b),
    StableHlo.unary main_v81 main_v83 (broadcastInDim S1x512 ![1] bcast_S512_S1x512_1 : (⟨S512, .f32⟩ : BufTy).Contents (Elt F) → (⟨S1x512, .f32⟩ : BufTy).Contents (Elt F)),
    StableHlo.unary main_v83 main_v84 (broadcastInDim S32768x512 ![0, 1] bcast_S1x512_S32768x512_0_1 : (⟨S1x512, .f32⟩ : BufTy).Contents (Elt F) → (⟨S32768x512, .f32⟩ : BufTy).Contents (Elt F)),
    StableHlo.binary main_v78 main_v84 main_v85 (subf : (⟨S32768x512, .f32⟩ : BufTy).Contents (Elt F) → (⟨S32768x512, .f32⟩ : BufTy).Contents (Elt F) → (⟨S32768x512, .f32⟩ : BufTy).Contents (Elt F)),
    StableHlo.nullary main_cst_9 (constant S_ .f32 0x3727C5AC#32),
    StableHlo.unary main_cst_9 main_v86 (broadcastInDim S512 ![] bcast_S_S512 : (⟨S_, .f32⟩ : BufTy).Contents (Elt F) → (⟨S512, .f32⟩ : BufTy).Contents (Elt F)),
    StableHlo.binary main_v82 main_v86 main_v87 (addf : (⟨S512, .f32⟩ : BufTy).Contents (Elt F) → (⟨S512, .f32⟩ : BufTy).Contents (Elt F) → (⟨S512, .f32⟩ : BufTy).Contents (Elt F)),
    StableHlo.unary main_v87 main_v88 (Host.rsqrt : (⟨S512, .f32⟩ : BufTy).Contents (Elt F) → (⟨S512, .f32⟩ : BufTy).Contents (Elt F)),
    StableHlo.unary main_v88 main_v89 (broadcastInDim S1x512 ![1] bcast_S512_S1x512_1 : (⟨S512, .f32⟩ : BufTy).Contents (Elt F) → (⟨S1x512, .f32⟩ : BufTy).Contents (Elt F)),
    StableHlo.unary main_v89 main_v90 (broadcastInDim S32768x512 ![0, 1] bcast_S1x512_S32768x512_0_1 : (⟨S1x512, .f32⟩ : BufTy).Contents (Elt F) → (⟨S32768x512, .f32⟩ : BufTy).Contents (Elt F)),
    StableHlo.binary main_v85 main_v90 main_v91 (mulf : (⟨S32768x512, .f32⟩ : BufTy).Contents (Elt F) → (⟨S32768x512, .f32⟩ : BufTy).Contents (Elt F) → (⟨S32768x512, .f32⟩ : BufTy).Contents (Elt F)),
    StableHlo.unary main_v71 main_v92 (broadcastInDim S1x512 ![1] bcast_S512_S1x512_1 : (⟨S512, .f32⟩ : BufTy).Contents (Elt F) → (⟨S1x512, .f32⟩ : BufTy).Contents (Elt F)),
    StableHlo.unary main_v92 main_v93 (broadcastInDim S32768x512 ![0, 1] bcast_S1x512_S32768x512_0_1 : (⟨S1x512, .f32⟩ : BufTy).Contents (Elt F) → (⟨S32768x512, .f32⟩ : BufTy).Contents (Elt F)),
    StableHlo.binary main_v91 main_v93 main_v94 (mulf : (⟨S32768x512, .f32⟩ : BufTy).Contents (Elt F) → (⟨S32768x512, .f32⟩ : BufTy).Contents (Elt F) → (⟨S32768x512, .f32⟩ : BufTy).Contents (Elt F)),
    StableHlo.unary main_v73 main_v95 (broadcastInDim S1x512 ![1] bcast_S512_S1x512_1 : (⟨S512, .f32⟩ : BufTy).Contents (Elt F) → (⟨S1x512, .f32⟩ : BufTy).Contents (Elt F)),
    StableHlo.unary main_v95 main_v96 (broadcastInDim S32768x512 ![0, 1] bcast_S1x512_S32768x512_0_1 : (⟨S1x512, .f32⟩ : BufTy).Contents (Elt F) → (⟨S32768x512, .f32⟩ : BufTy).Contents (Elt F)),
    StableHlo.binary main_v94 main_v96 main_v97 (addf : (⟨S32768x512, .f32⟩ : BufTy).Contents (Elt F) → (⟨S32768x512, .f32⟩ : BufTy).Contents (Elt F) → (⟨S32768x512, .f32⟩ : BufTy).Contents (Elt F)),
    StableHlo.TRef.nullary main_call5.cst (constant S_ .f32 0x00000000#32),
    StableHlo.TRef.unary main_call5.cst main_call5.v0 (broadcastInDim S32768x512 ![] bcast_S_S32768x512),
    StableHlo.TRef.binary (.of main_v97 : StableHlo.TRef sig ⟨S32768x512, .f32⟩) main_call5.v0 main_call5.v1 maximumf ]

/-- Operations 181 … 202: an attention (logits, row softmax, product with the values); it ends in main_v116. -/
abbrev attOps0 : List (HloOp τ sig (Elt F)) :=
  [ StableHlo.unary main_v32 main_v99 ((transpose S512x32768 [1, 0] · transposes_S32768x512_S512x32768_1_0) : (⟨S32768x512, .f32⟩ : BufTy).Contents (Elt F) → (⟨S512x32768, .f32⟩ : BufTy).Contents (Elt F)),
    StableHlo.binary main_v99 main_v65 main_v100 ((fun l r => Host.dotGeneral dot_S512x32768_S32768x512_S512x512_1_0_0_1_n_n none l r) : (⟨S512x32768, .f32⟩ : BufTy).Contents (Elt F) → (⟨S32768x512, .f32⟩ : BufTy).Contents (Elt F) → (⟨S512x512, .f32⟩ : BufTy).Contents (Elt F)),
    StableHlo.nullary main_cst_10 (constant S_ .f32 0x44800000#32),
    StableHlo.unary main_cst_10 main_v101 (Host.sqrt : (⟨S_, .f32⟩ : BufTy).Contents (Elt F) → (⟨S_, .f32⟩ : BufTy).Contents (Elt F)),
    StableHlo.unary main_v101 main_v102 (broadcastInDim S512x512 ![] bcast_S_S512x512 : (⟨S_, .f32⟩ : BufTy).Contents (Elt F) → (⟨S512x512, .f32⟩ : BufTy).Contents (Elt F)),
    StableHlo.binary main_v100 main_v102 main_v103 (Host.divf : (⟨S512x512, .f32⟩ : BufTy).Contents (Elt F) → (⟨S512x512, .f32⟩ : BufTy).Contents (Elt F) → (⟨S512x512, .f32⟩ : BufTy).Contents (Elt F)),
    StableHlo.nullary main_cst_11 (constant S_ .f32 0xFF800000#32),
    StableHlo.binary main_v103 main_cst_11 main_v104 ((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.nullary main_cst_12 (constant S_ .f32 0xFF800000#32),
    StableHlo.unary main_cst_12 main_v105 (broadcastInDim S512 ![] bcast_S_S512 : (⟨S_, .f32⟩ : BufTy).Contents (Elt F) → (⟨S512, .f32⟩ : BufTy).Contents (Elt F)),
    StableHlo.binary main_v105 main_v104 main_v106 (maximumf : (⟨S512, .f32⟩ : BufTy).Contents (Elt F) → (⟨S512, .f32⟩ : BufTy).Contents (Elt F) → (⟨S512, .f32⟩ : BufTy).Contents (Elt F)),
    StableHlo.unary main_v106 main_v107 (broadcastInDim S512x1 ![0] bcast_S512_S512x1_0 : (⟨S512, .f32⟩ : BufTy).Contents (Elt F) → (⟨S512x1, .f32⟩ : BufTy).Contents (Elt F)),
    StableHlo.unary main_v107 main_v108 (broadcastInDim S512x512 ![0, 1] bcast_S512x1_S512x512_0_1 : (⟨S512x1, .f32⟩ : BufTy).Contents (Elt F) → (⟨S512x512, .f32⟩ : BufTy).Contents (Elt F)),
    StableHlo.binary main_v103 main_v108 main_v109 (subf : (⟨S512x512, .f32⟩ : BufTy).Contents (Elt F) → (⟨S512x512, .f32⟩ : BufTy).Contents (Elt F) → (⟨S512x512, .f32⟩ : BufTy).Contents (Elt F)),
    StableHlo.unary main_v109 main_v110 (Host.exp : (⟨S512x512, .f32⟩ : BufTy).Contents (Elt F) → (⟨S512x512, .f32⟩ : BufTy).Contents (Elt F)),
    StableHlo.nullary main_cst_13 (constant S_ .f32 0x00000000#32),
    StableHlo.binary main_v110 main_cst_13 main_v111 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v111 main_v112 (broadcastInDim S512x1 ![0] bcast_S512_S512x1_0 : (⟨S512, .f32⟩ : BufTy).Contents (Elt F) → (⟨S512x1, .f32⟩ : BufTy).Contents (Elt F)),
    StableHlo.unary main_v112 main_v113 (broadcastInDim S512x512 ![0, 1] bcast_S512x1_S512x512_0_1 : (⟨S512x1, .f32⟩ : BufTy).Contents (Elt F) → (⟨S512x512, .f32⟩ : BufTy).Contents (Elt F)),
    StableHlo.binary main_v110 main_v113 main_v114 (Host.divf : (⟨S512x512, .f32⟩ : BufTy).Contents (Elt F) → (⟨S512x512, .f32⟩ : BufTy).Contents (Elt F) → (⟨S512x512, .f32⟩ : BufTy).Contents (Elt F)),
    StableHlo.unary main_v114 main_v115 ((transpose S512x512 [1, 0] · transposes_S512x512_S512x512_1_0) : (⟨S512x512, .f32⟩ : BufTy).Contents (Elt F) → (⟨S512x512, .f32⟩ : BufTy).Contents (Elt F)),
    StableHlo.binary main_v98 main_v115 main_v116 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)) ]

/-- Operations 203 … 262: the projection block of parameter row ![3, 0, 0] (slices, product, bias, batch statistics, normalisation, rectification); it ends in main_v149. -/
abbrev fcOps3 : List (HloOp τ sig (Elt F)) :=
  [ StableHlo.unary main_arg3 main_v117 ((extractStridedSlice S1x512x1024 ![3, 0, 0] · slices_S9x512x1024_S1x512x1024_3_0_0) : (⟨S9x512x1024, .f32⟩ : BufTy).Contents (Elt F) → (⟨S1x512x1024, .f32⟩ : BufTy).Contents (Elt F)),
    StableHlo.reshape main_v117 main_v118 rfl shapeCasts_S1x512x1024_S512x1024,
    StableHlo.unary main_arg4 main_v119 ((extractStridedSlice S1x512 ![3, 0] · slices_S9x512_S1x512_3_0) : (⟨S9x512, .f32⟩ : BufTy).Contents (Elt F) → (⟨S1x512, .f32⟩ : BufTy).Contents (Elt F)),
    StableHlo.reshape main_v119 main_v120 rfl shapeCasts_S1x512_S512,
    StableHlo.unary main_arg5 main_v121 ((extractStridedSlice S1x512 ![3, 0] · slices_S9x512_S1x512_3_0) : (⟨S9x512, .f32⟩ : BufTy).Contents (Elt F) → (⟨S1x512, .f32⟩ : BufTy).Contents (Elt F)),
    StableHlo.reshape main_v121 main_v122 rfl shapeCasts_S1x512_S512,
    StableHlo.unary main_arg6 main_v123 ((extractStridedSlice S1x512 ![3, 0] · slices_S9x512_S1x512_3_0) : (⟨S9x512, .f32⟩ : BufTy).Contents (Elt F) → (⟨S1x512, .f32⟩ : BufTy).Contents (Elt F)),
    StableHlo.reshape main_v123 main_v124 rfl shapeCasts_S1x512_S512,
    StableHlo.unary main_v118 main_v125 ((transpose S1024x512 [1, 0] · transposes_S512x1024_S1024x512_1_0) : (⟨S512x1024, .f32⟩ : BufTy).Contents (Elt F) → (⟨S1024x512, .f32⟩ : BufTy).Contents (Elt F)),
    StableHlo.binary main_arg1 main_v125 main_v126 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v120 main_v127 (broadcastInDim S1x512 ![1] bcast_S512_S1x512_1 : (⟨S512, .f32⟩ : BufTy).Contents (Elt F) → (⟨S1x512, .f32⟩ : BufTy).Contents (Elt F)),
    StableHlo.unary main_v127 main_v128 (broadcastInDim S32768x512 ![0, 1] bcast_S1x512_S32768x512_0_1 : (⟨S1x512, .f32⟩ : BufTy).Contents (Elt F) → (⟨S32768x512, .f32⟩ : BufTy).Contents (Elt F)),
    StableHlo.binary main_v126 main_v128 main_v129 (addf : (⟨S32768x512, .f32⟩ : BufTy).Contents (Elt F) → (⟨S32768x512, .f32⟩ : BufTy).Contents (Elt F) → (⟨S32768x512, .f32⟩ : BufTy).Contents (Elt F)),
    StableHlo.nullary main_cst_14 (constant S_ .f32 0x00000000#32),
    StableHlo.binary main_v129 main_cst_14 main_v130 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_15 (constant S_ .f32 0x47000000#32),
    StableHlo.unary main_cst_15 main_v131 (broadcastInDim S512 ![] bcast_S_S512 : (⟨S_, .f32⟩ : BufTy).Contents (Elt F) → (⟨S512, .f32⟩ : BufTy).Contents (Elt F)),
    StableHlo.binary main_v130 main_v131 main_v132 (Host.divf : (⟨S512, .f32⟩ : BufTy).Contents (Elt F) → (⟨S512, .f32⟩ : BufTy).Contents (Elt F) → (⟨S512, .f32⟩ : BufTy).Contents (Elt F)),
    StableHlo.nullary main_c_16 (constantI S_ 32 0#32),
    StableHlo.TRef.nullary main_call6.cst (constant S_ .f32 0x00000000#32),
    StableHlo.TRef.binary (.of main_v129 : StableHlo.TRef sig ⟨S32768x512, .f32⟩) main_call6.cst main_call6.v0 (fun x v => Host.reduceAdd x v reducesTo_S32768x512_S512_d0 h_S_),
    StableHlo.TRef.unary main_call6.v0 main_call6.v1 (broadcastInDim S1x512 ![1] bcast_S512_S1x512_1),
    StableHlo.TRef.nullary main_call6.cst_0 (constant S_ .f32 0x47000000#32),
    StableHlo.TRef.unary main_call6.cst_0 main_call6.v2 (broadcastInDim S1x512 ![] bcast_S_S1x512),
    StableHlo.TRef.binary main_call6.v1 main_call6.v2 main_call6.v3 Host.divf,
    StableHlo.TRef.unary main_call6.v3 main_call6.v4 (broadcastInDim S32768x512 ![0, 1] bcast_S1x512_S32768x512_0_1),
    StableHlo.TRef.binary (.of main_v129 : StableHlo.TRef sig ⟨S32768x512, .f32⟩) main_call6.v4 main_call6.v5 subf,
    StableHlo.TRef.binary main_call6.v5 main_call6.v5 main_call6.v6 mulf,
    StableHlo.TRef.unary (.of main_c_16 : StableHlo.TRef sig ⟨S_, .i32⟩) main_call6.v7 (sitofp .f32),
    StableHlo.TRef.nullary main_call6.cst_1 (constant S_ .f32 0x47000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S32768x512_S512_d0 h_S_),
    StableHlo.TRef.unary main_call6.v8 main_call6.v10 (broadcastInDim S512 ![] bcast_S_S512),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S512 ![] bcast_S_S512),
    StableHlo.TRef.ternary main_call6.v12 main_call6.v11 main_call6.call0.v1 main_call6.call0.v2 (fun p a b => select (broadcastInDim S512 ![] bcast_S_S512 p) a b),
    StableHlo.unary main_v132 main_v134 (broadcastInDim S1x512 ![1] bcast_S512_S1x512_1 : (⟨S512, .f32⟩ : BufTy).Contents (Elt F) → (⟨S1x512, .f32⟩ : BufTy).Contents (Elt F)),
    StableHlo.unary main_v134 main_v135 (broadcastInDim S32768x512 ![0, 1] bcast_S1x512_S32768x512_0_1 : (⟨S1x512, .f32⟩ : BufTy).Contents (Elt F) → (⟨S32768x512, .f32⟩ : BufTy).Contents (Elt F)),
    StableHlo.binary main_v129 main_v135 main_v136 (subf : (⟨S32768x512, .f32⟩ : BufTy).Contents (Elt F) → (⟨S32768x512, .f32⟩ : BufTy).Contents (Elt F) → (⟨S32768x512, .f32⟩ : BufTy).Contents (Elt F)),
    StableHlo.nullary main_cst_17 (constant S_ .f32 0x3727C5AC#32),
    StableHlo.unary main_cst_17 main_v137 (broadcastInDim S512 ![] bcast_S_S512 : (⟨S_, .f32⟩ : BufTy).Contents (Elt F) → (⟨S512, .f32⟩ : BufTy).Contents (Elt F)),
    StableHlo.binary main_v133 main_v137 main_v138 (addf : (⟨S512, .f32⟩ : BufTy).Contents (Elt F) → (⟨S512, .f32⟩ : BufTy).Contents (Elt F) → (⟨S512, .f32⟩ : BufTy).Contents (Elt F)),
    StableHlo.unary main_v138 main_v139 (Host.rsqrt : (⟨S512, .f32⟩ : BufTy).Contents (Elt F) → (⟨S512, .f32⟩ : BufTy).Contents (Elt F)),
    StableHlo.unary main_v139 main_v140 (broadcastInDim S1x512 ![1] bcast_S512_S1x512_1 : (⟨S512, .f32⟩ : BufTy).Contents (Elt F) → (⟨S1x512, .f32⟩ : BufTy).Contents (Elt F)),
    StableHlo.unary main_v140 main_v141 (broadcastInDim S32768x512 ![0, 1] bcast_S1x512_S32768x512_0_1 : (⟨S1x512, .f32⟩ : BufTy).Contents (Elt F) → (⟨S32768x512, .f32⟩ : BufTy).Contents (Elt F)),
    StableHlo.binary main_v136 main_v141 main_v142 (mulf : (⟨S32768x512, .f32⟩ : BufTy).Contents (Elt F) → (⟨S32768x512, .f32⟩ : BufTy).Contents (Elt F) → (⟨S32768x512, .f32⟩ : BufTy).Contents (Elt F)),
    StableHlo.unary main_v122 main_v143 (broadcastInDim S1x512 ![1] bcast_S512_S1x512_1 : (⟨S512, .f32⟩ : BufTy).Contents (Elt F) → (⟨S1x512, .f32⟩ : BufTy).Contents (Elt F)),
    StableHlo.unary main_v143 main_v144 (broadcastInDim S32768x512 ![0, 1] bcast_S1x512_S32768x512_0_1 : (⟨S1x512, .f32⟩ : BufTy).Contents (Elt F) → (⟨S32768x512, .f32⟩ : BufTy).Contents (Elt F)),
    StableHlo.binary main_v142 main_v144 main_v145 (mulf : (⟨S32768x512, .f32⟩ : BufTy).Contents (Elt F) → (⟨S32768x512, .f32⟩ : BufTy).Contents (Elt F) → (⟨S32768x512, .f32⟩ : BufTy).Contents (Elt F)),
    StableHlo.unary main_v124 main_v146 (broadcastInDim S1x512 ![1] bcast_S512_S1x512_1 : (⟨S512, .f32⟩ : BufTy).Contents (Elt F) → (⟨S1x512, .f32⟩ : BufTy).Contents (Elt F)),
    StableHlo.unary main_v146 main_v147 (broadcastInDim S32768x512 ![0, 1] bcast_S1x512_S32768x512_0_1 : (⟨S1x512, .f32⟩ : BufTy).Contents (Elt F) → (⟨S32768x512, .f32⟩ : BufTy).Contents (Elt F)),
    StableHlo.binary main_v145 main_v147 main_v148 (addf : (⟨S32768x512, .f32⟩ : BufTy).Contents (Elt F) → (⟨S32768x512, .f32⟩ : BufTy).Contents (Elt F) → (⟨S32768x512, .f32⟩ : BufTy).Contents (Elt F)),
    StableHlo.TRef.nullary main_call7.cst (constant S_ .f32 0x00000000#32),
    StableHlo.TRef.unary main_call7.cst main_call7.v0 (broadcastInDim S32768x512 ![] bcast_S_S32768x512),
    StableHlo.TRef.binary (.of main_v148 : StableHlo.TRef sig ⟨S32768x512, .f32⟩) main_call7.v0 main_call7.v1 maximumf ]

/-- Operations 263 … 322: the projection block of parameter row ![4, 0, 0] (slices, product, bias, batch statistics, normalisation, rectification); it ends in main_v182. -/
abbrev fcOps4 : List (HloOp τ sig (Elt F)) :=
  [ StableHlo.unary main_arg3 main_v150 ((extractStridedSlice S1x512x1024 ![4, 0, 0] · slices_S9x512x1024_S1x512x1024_4_0_0) : (⟨S9x512x1024, .f32⟩ : BufTy).Contents (Elt F) → (⟨S1x512x1024, .f32⟩ : BufTy).Contents (Elt F)),
    StableHlo.reshape main_v150 main_v151 rfl shapeCasts_S1x512x1024_S512x1024,
    StableHlo.unary main_arg4 main_v152 ((extractStridedSlice S1x512 ![4, 0] · slices_S9x512_S1x512_4_0) : (⟨S9x512, .f32⟩ : BufTy).Contents (Elt F) → (⟨S1x512, .f32⟩ : BufTy).Contents (Elt F)),
    StableHlo.reshape main_v152 main_v153 rfl shapeCasts_S1x512_S512,
    StableHlo.unary main_arg5 main_v154 ((extractStridedSlice S1x512 ![4, 0] · slices_S9x512_S1x512_4_0) : (⟨S9x512, .f32⟩ : BufTy).Contents (Elt F) → (⟨S1x512, .f32⟩ : BufTy).Contents (Elt F)),
    StableHlo.reshape main_v154 main_v155 rfl shapeCasts_S1x512_S512,
    StableHlo.unary main_arg6 main_v156 ((extractStridedSlice S1x512 ![4, 0] · slices_S9x512_S1x512_4_0) : (⟨S9x512, .f32⟩ : BufTy).Contents (Elt F) → (⟨S1x512, .f32⟩ : BufTy).Contents (Elt F)),
    StableHlo.reshape main_v156 main_v157 rfl shapeCasts_S1x512_S512,
    StableHlo.unary main_v151 main_v158 ((transpose S1024x512 [1, 0] · transposes_S512x1024_S1024x512_1_0) : (⟨S512x1024, .f32⟩ : BufTy).Contents (Elt F) → (⟨S1024x512, .f32⟩ : BufTy).Contents (Elt F)),
    StableHlo.binary main_arg2 main_v158 main_v159 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v153 main_v160 (broadcastInDim S1x512 ![1] bcast_S512_S1x512_1 : (⟨S512, .f32⟩ : BufTy).Contents (Elt F) → (⟨S1x512, .f32⟩ : BufTy).Contents (Elt F)),
    StableHlo.unary main_v160 main_v161 (broadcastInDim S32768x512 ![0, 1] bcast_S1x512_S32768x512_0_1 : (⟨S1x512, .f32⟩ : BufTy).Contents (Elt F) → (⟨S32768x512, .f32⟩ : BufTy).Contents (Elt F)),
    StableHlo.binary main_v159 main_v161 main_v162 (addf : (⟨S32768x512, .f32⟩ : BufTy).Contents (Elt F) → (⟨S32768x512, .f32⟩ : BufTy).Contents (Elt F) → (⟨S32768x512, .f32⟩ : BufTy).Contents (Elt F)),
    StableHlo.nullary main_cst_18 (constant S_ .f32 0x00000000#32),
    StableHlo.binary main_v162 main_cst_18 main_v163 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_19 (constant S_ .f32 0x47000000#32),
    StableHlo.unary main_cst_19 main_v164 (broadcastInDim S512 ![] bcast_S_S512 : (⟨S_, .f32⟩ : BufTy).Contents (Elt F) → (⟨S512, .f32⟩ : BufTy).Contents (Elt F)),
    StableHlo.binary main_v163 main_v164 main_v165 (Host.divf : (⟨S512, .f32⟩ : BufTy).Contents (Elt F) → (⟨S512, .f32⟩ : BufTy).Contents (Elt F) → (⟨S512, .f32⟩ : BufTy).Contents (Elt F)),
    StableHlo.nullary main_c_20 (constantI S_ 32 0#32),
    StableHlo.TRef.nullary main_call8.cst (constant S_ .f32 0x00000000#32),
    StableHlo.TRef.binary (.of main_v162 : StableHlo.TRef sig ⟨S32768x512, .f32⟩) main_call8.cst main_call8.v0 (fun x v => Host.reduceAdd x v reducesTo_S32768x512_S512_d0 h_S_),
    StableHlo.TRef.unary main_call8.v0 main_call8.v1 (broadcastInDim S1x512 ![1] bcast_S512_S1x512_1),
    StableHlo.TRef.nullary main_call8.cst_0 (constant S_ .f32 0x47000000#32),
    StableHlo.TRef.unary main_call8.cst_0 main_call8.v2 (broadcastInDim S1x512 ![] bcast_S_S1x512),
    StableHlo.TRef.binary main_call8.v1 main_call8.v2 main_call8.v3 Host.divf,
    StableHlo.TRef.unary main_call8.v3 main_call8.v4 (broadcastInDim S32768x512 ![0, 1] bcast_S1x512_S32768x512_0_1),
    StableHlo.TRef.binary (.of main_v162 : StableHlo.TRef sig ⟨S32768x512, .f32⟩) main_call8.v4 main_call8.v5 subf,
    StableHlo.TRef.binary main_call8.v5 main_call8.v5 main_call8.v6 mulf,
    StableHlo.TRef.unary (.of main_c_20 : StableHlo.TRef sig ⟨S_, .i32⟩) main_call8.v7 (sitofp .f32),
    StableHlo.TRef.nullary main_call8.cst_1 (constant S_ .f32 0x47000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S32768x512_S512_d0 h_S_),
    StableHlo.TRef.unary main_call8.v8 main_call8.v10 (broadcastInDim S512 ![] bcast_S_S512),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S512 ![] bcast_S_S512),
    StableHlo.TRef.ternary main_call8.v12 main_call8.v11 main_call8.call0.v1 main_call8.call0.v2 (fun p a b => select (broadcastInDim S512 ![] bcast_S_S512 p) a b),
    StableHlo.unary main_v165 main_v167 (broadcastInDim S1x512 ![1] bcast_S512_S1x512_1 : (⟨S512, .f32⟩ : BufTy).Contents (Elt F) → (⟨S1x512, .f32⟩ : BufTy).Contents (Elt F)),
    StableHlo.unary main_v167 main_v168 (broadcastInDim S32768x512 ![0, 1] bcast_S1x512_S32768x512_0_1 : (⟨S1x512, .f32⟩ : BufTy).Contents (Elt F) → (⟨S32768x512, .f32⟩ : BufTy).Contents (Elt F)),
    StableHlo.binary main_v162 main_v168 main_v169 (subf : (⟨S32768x512, .f32⟩ : BufTy).Contents (Elt F) → (⟨S32768x512, .f32⟩ : BufTy).Contents (Elt F) → (⟨S32768x512, .f32⟩ : BufTy).Contents (Elt F)),
    StableHlo.nullary main_cst_21 (constant S_ .f32 0x3727C5AC#32),
    StableHlo.unary main_cst_21 main_v170 (broadcastInDim S512 ![] bcast_S_S512 : (⟨S_, .f32⟩ : BufTy).Contents (Elt F) → (⟨S512, .f32⟩ : BufTy).Contents (Elt F)),
    StableHlo.binary main_v166 main_v170 main_v171 (addf : (⟨S512, .f32⟩ : BufTy).Contents (Elt F) → (⟨S512, .f32⟩ : BufTy).Contents (Elt F) → (⟨S512, .f32⟩ : BufTy).Contents (Elt F)),
    StableHlo.unary main_v171 main_v172 (Host.rsqrt : (⟨S512, .f32⟩ : BufTy).Contents (Elt F) → (⟨S512, .f32⟩ : BufTy).Contents (Elt F)),
    StableHlo.unary main_v172 main_v173 (broadcastInDim S1x512 ![1] bcast_S512_S1x512_1 : (⟨S512, .f32⟩ : BufTy).Contents (Elt F) → (⟨S1x512, .f32⟩ : BufTy).Contents (Elt F)),
    StableHlo.unary main_v173 main_v174 (broadcastInDim S32768x512 ![0, 1] bcast_S1x512_S32768x512_0_1 : (⟨S1x512, .f32⟩ : BufTy).Contents (Elt F) → (⟨S32768x512, .f32⟩ : BufTy).Contents (Elt F)),
    StableHlo.binary main_v169 main_v174 main_v175 (mulf : (⟨S32768x512, .f32⟩ : BufTy).Contents (Elt F) → (⟨S32768x512, .f32⟩ : BufTy).Contents (Elt F) → (⟨S32768x512, .f32⟩ : BufTy).Contents (Elt F)),
    StableHlo.unary main_v155 main_v176 (broadcastInDim S1x512 ![1] bcast_S512_S1x512_1 : (⟨S512, .f32⟩ : BufTy).Contents (Elt F) → (⟨S1x512, .f32⟩ : BufTy).Contents (Elt F)),
    StableHlo.unary main_v176 main_v177 (broadcastInDim S32768x512 ![0, 1] bcast_S1x512_S32768x512_0_1 : (⟨S1x512, .f32⟩ : BufTy).Contents (Elt F) → (⟨S32768x512, .f32⟩ : BufTy).Contents (Elt F)),
    StableHlo.binary main_v175 main_v177 main_v178 (mulf : (⟨S32768x512, .f32⟩ : BufTy).Contents (Elt F) → (⟨S32768x512, .f32⟩ : BufTy).Contents (Elt F) → (⟨S32768x512, .f32⟩ : BufTy).Contents (Elt F)),
    StableHlo.unary main_v157 main_v179 (broadcastInDim S1x512 ![1] bcast_S512_S1x512_1 : (⟨S512, .f32⟩ : BufTy).Contents (Elt F) → (⟨S1x512, .f32⟩ : BufTy).Contents (Elt F)),
    StableHlo.unary main_v179 main_v180 (broadcastInDim S32768x512 ![0, 1] bcast_S1x512_S32768x512_0_1 : (⟨S1x512, .f32⟩ : BufTy).Contents (Elt F) → (⟨S32768x512, .f32⟩ : BufTy).Contents (Elt F)),
    StableHlo.binary main_v178 main_v180 main_v181 (addf : (⟨S32768x512, .f32⟩ : BufTy).Contents (Elt F) → (⟨S32768x512, .f32⟩ : BufTy).Contents (Elt F) → (⟨S32768x512, .f32⟩ : BufTy).Contents (Elt F)),
    StableHlo.TRef.nullary main_call9.cst (constant S_ .f32 0x00000000#32),
    StableHlo.TRef.unary main_call9.cst main_call9.v0 (broadcastInDim S32768x512 ![] bcast_S_S32768x512),
    StableHlo.TRef.binary (.of main_v181 : StableHlo.TRef sig ⟨S32768x512, .f32⟩) main_call9.v0 main_call9.v1 maximumf ]

/-- Operations 323 … 382: the projection block of parameter row ![5, 0, 0] (slices, product, bias, batch statistics, normalisation, rectification); it ends in main_v215. -/
abbrev fcOps5 : List (HloOp τ sig (Elt F)) :=
  [ StableHlo.unary main_arg3 main_v183 ((extractStridedSlice S1x512x1024 ![5, 0, 0] · slices_S9x512x1024_S1x512x1024_5_0_0) : (⟨S9x512x1024, .f32⟩ : BufTy).Contents (Elt F) → (⟨S1x512x1024, .f32⟩ : BufTy).Contents (Elt F)),
    StableHlo.reshape main_v183 main_v184 rfl shapeCasts_S1x512x1024_S512x1024,
    StableHlo.unary main_arg4 main_v185 ((extractStridedSlice S1x512 ![5, 0] · slices_S9x512_S1x512_5_0) : (⟨S9x512, .f32⟩ : BufTy).Contents (Elt F) → (⟨S1x512, .f32⟩ : BufTy).Contents (Elt F)),
    StableHlo.reshape main_v185 main_v186 rfl shapeCasts_S1x512_S512,
    StableHlo.unary main_arg5 main_v187 ((extractStridedSlice S1x512 ![5, 0] · slices_S9x512_S1x512_5_0) : (⟨S9x512, .f32⟩ : BufTy).Contents (Elt F) → (⟨S1x512, .f32⟩ : BufTy).Contents (Elt F)),
    StableHlo.reshape main_v187 main_v188 rfl shapeCasts_S1x512_S512,
    StableHlo.unary main_arg6 main_v189 ((extractStridedSlice S1x512 ![5, 0] · slices_S9x512_S1x512_5_0) : (⟨S9x512, .f32⟩ : BufTy).Contents (Elt F) → (⟨S1x512, .f32⟩ : BufTy).Contents (Elt F)),
    StableHlo.reshape main_v189 main_v190 rfl shapeCasts_S1x512_S512,
    StableHlo.unary main_v184 main_v191 ((transpose S1024x512 [1, 0] · transposes_S512x1024_S1024x512_1_0) : (⟨S512x1024, .f32⟩ : BufTy).Contents (Elt F) → (⟨S1024x512, .f32⟩ : BufTy).Contents (Elt F)),
    StableHlo.binary main_arg2 main_v191 main_v192 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v186 main_v193 (broadcastInDim S1x512 ![1] bcast_S512_S1x512_1 : (⟨S512, .f32⟩ : BufTy).Contents (Elt F) → (⟨S1x512, .f32⟩ : BufTy).Contents (Elt F)),
    StableHlo.unary main_v193 main_v194 (broadcastInDim S32768x512 ![0, 1] bcast_S1x512_S32768x512_0_1 : (⟨S1x512, .f32⟩ : BufTy).Contents (Elt F) → (⟨S32768x512, .f32⟩ : BufTy).Contents (Elt F)),
    StableHlo.binary main_v192 main_v194 main_v195 (addf : (⟨S32768x512, .f32⟩ : BufTy).Contents (Elt F) → (⟨S32768x512, .f32⟩ : BufTy).Contents (Elt F) → (⟨S32768x512, .f32⟩ : BufTy).Contents (Elt F)),
    StableHlo.nullary main_cst_22 (constant S_ .f32 0x00000000#32),
    StableHlo.binary main_v195 main_cst_22 main_v196 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_23 (constant S_ .f32 0x47000000#32),
    StableHlo.unary main_cst_23 main_v197 (broadcastInDim S512 ![] bcast_S_S512 : (⟨S_, .f32⟩ : BufTy).Contents (Elt F) → (⟨S512, .f32⟩ : BufTy).Contents (Elt F)),
    StableHlo.binary main_v196 main_v197 main_v198 (Host.divf : (⟨S512, .f32⟩ : BufTy).Contents (Elt F) → (⟨S512, .f32⟩ : BufTy).Contents (Elt F) → (⟨S512, .f32⟩ : BufTy).Contents (Elt F)),
    StableHlo.nullary main_c_24 (constantI S_ 32 0#32),
    StableHlo.TRef.nullary main_call10.cst (constant S_ .f32 0x00000000#32),
    StableHlo.TRef.binary (.of main_v195 : StableHlo.TRef sig ⟨S32768x512, .f32⟩) main_call10.cst main_call10.v0 (fun x v => Host.reduceAdd x v reducesTo_S32768x512_S512_d0 h_S_),
    StableHlo.TRef.unary main_call10.v0 main_call10.v1 (broadcastInDim S1x512 ![1] bcast_S512_S1x512_1),
    StableHlo.TRef.nullary main_call10.cst_0 (constant S_ .f32 0x47000000#32),
    StableHlo.TRef.unary main_call10.cst_0 main_call10.v2 (broadcastInDim S1x512 ![] bcast_S_S1x512),
    StableHlo.TRef.binary main_call10.v1 main_call10.v2 main_call10.v3 Host.divf,
    StableHlo.TRef.unary main_call10.v3 main_call10.v4 (broadcastInDim S32768x512 ![0, 1] bcast_S1x512_S32768x512_0_1),
    StableHlo.TRef.binary (.of main_v195 : StableHlo.TRef sig ⟨S32768x512, .f32⟩) main_call10.v4 main_call10.v5 subf,
    StableHlo.TRef.binary main_call10.v5 main_call10.v5 main_call10.v6 mulf,
    StableHlo.TRef.unary (.of main_c_24 : StableHlo.TRef sig ⟨S_, .i32⟩) main_call10.v7 (sitofp .f32),
    StableHlo.TRef.nullary main_call10.cst_1 (constant S_ .f32 0x47000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S32768x512_S512_d0 h_S_),
    StableHlo.TRef.unary main_call10.v8 main_call10.v10 (broadcastInDim S512 ![] bcast_S_S512),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S512 ![] bcast_S_S512),
    StableHlo.TRef.ternary main_call10.v12 main_call10.v11 main_call10.call0.v1 main_call10.call0.v2 (fun p a b => select (broadcastInDim S512 ![] bcast_S_S512 p) a b),
    StableHlo.unary main_v198 main_v200 (broadcastInDim S1x512 ![1] bcast_S512_S1x512_1 : (⟨S512, .f32⟩ : BufTy).Contents (Elt F) → (⟨S1x512, .f32⟩ : BufTy).Contents (Elt F)),
    StableHlo.unary main_v200 main_v201 (broadcastInDim S32768x512 ![0, 1] bcast_S1x512_S32768x512_0_1 : (⟨S1x512, .f32⟩ : BufTy).Contents (Elt F) → (⟨S32768x512, .f32⟩ : BufTy).Contents (Elt F)),
    StableHlo.binary main_v195 main_v201 main_v202 (subf : (⟨S32768x512, .f32⟩ : BufTy).Contents (Elt F) → (⟨S32768x512, .f32⟩ : BufTy).Contents (Elt F) → (⟨S32768x512, .f32⟩ : BufTy).Contents (Elt F)),
    StableHlo.nullary main_cst_25 (constant S_ .f32 0x3727C5AC#32),
    StableHlo.unary main_cst_25 main_v203 (broadcastInDim S512 ![] bcast_S_S512 : (⟨S_, .f32⟩ : BufTy).Contents (Elt F) → (⟨S512, .f32⟩ : BufTy).Contents (Elt F)),
    StableHlo.binary main_v199 main_v203 main_v204 (addf : (⟨S512, .f32⟩ : BufTy).Contents (Elt F) → (⟨S512, .f32⟩ : BufTy).Contents (Elt F) → (⟨S512, .f32⟩ : BufTy).Contents (Elt F)),
    StableHlo.unary main_v204 main_v205 (Host.rsqrt : (⟨S512, .f32⟩ : BufTy).Contents (Elt F) → (⟨S512, .f32⟩ : BufTy).Contents (Elt F)),
    StableHlo.unary main_v205 main_v206 (broadcastInDim S1x512 ![1] bcast_S512_S1x512_1 : (⟨S512, .f32⟩ : BufTy).Contents (Elt F) → (⟨S1x512, .f32⟩ : BufTy).Contents (Elt F)),
    StableHlo.unary main_v206 main_v207 (broadcastInDim S32768x512 ![0, 1] bcast_S1x512_S32768x512_0_1 : (⟨S1x512, .f32⟩ : BufTy).Contents (Elt F) → (⟨S32768x512, .f32⟩ : BufTy).Contents (Elt F)),
    StableHlo.binary main_v202 main_v207 main_v208 (mulf : (⟨S32768x512, .f32⟩ : BufTy).Contents (Elt F) → (⟨S32768x512, .f32⟩ : BufTy).Contents (Elt F) → (⟨S32768x512, .f32⟩ : BufTy).Contents (Elt F)),
    StableHlo.unary main_v188 main_v209 (broadcastInDim S1x512 ![1] bcast_S512_S1x512_1 : (⟨S512, .f32⟩ : BufTy).Contents (Elt F) → (⟨S1x512, .f32⟩ : BufTy).Contents (Elt F)),
    StableHlo.unary main_v209 main_v210 (broadcastInDim S32768x512 ![0, 1] bcast_S1x512_S32768x512_0_1 : (⟨S1x512, .f32⟩ : BufTy).Contents (Elt F) → (⟨S32768x512, .f32⟩ : BufTy).Contents (Elt F)),
    StableHlo.binary main_v208 main_v210 main_v211 (mulf : (⟨S32768x512, .f32⟩ : BufTy).Contents (Elt F) → (⟨S32768x512, .f32⟩ : BufTy).Contents (Elt F) → (⟨S32768x512, .f32⟩ : BufTy).Contents (Elt F)),
    StableHlo.unary main_v190 main_v212 (broadcastInDim S1x512 ![1] bcast_S512_S1x512_1 : (⟨S512, .f32⟩ : BufTy).Contents (Elt F) → (⟨S1x512, .f32⟩ : BufTy).Contents (Elt F)),
    StableHlo.unary main_v212 main_v213 (broadcastInDim S32768x512 ![0, 1] bcast_S1x512_S32768x512_0_1 : (⟨S1x512, .f32⟩ : BufTy).Contents (Elt F) → (⟨S32768x512, .f32⟩ : BufTy).Contents (Elt F)),
    StableHlo.binary main_v211 main_v213 main_v214 (addf : (⟨S32768x512, .f32⟩ : BufTy).Contents (Elt F) → (⟨S32768x512, .f32⟩ : BufTy).Contents (Elt F) → (⟨S32768x512, .f32⟩ : BufTy).Contents (Elt F)),
    StableHlo.TRef.nullary main_call11.cst (constant S_ .f32 0x00000000#32),
    StableHlo.TRef.unary main_call11.cst main_call11.v0 (broadcastInDim S32768x512 ![] bcast_S_S32768x512),
    StableHlo.TRef.binary (.of main_v214 : StableHlo.TRef sig ⟨S32768x512, .f32⟩) main_call11.v0 main_call11.v1 maximumf ]

/-- Operations 383 … 404: an attention (logits, row softmax, product with the values); it ends in main_v233. -/
abbrev attOps1 : List (HloOp τ sig (Elt F)) :=
  [ StableHlo.unary main_v149 main_v216 ((transpose S512x32768 [1, 0] · transposes_S32768x512_S512x32768_1_0) : (⟨S32768x512, .f32⟩ : BufTy).Contents (Elt F) → (⟨S512x32768, .f32⟩ : BufTy).Contents (Elt F)),
    StableHlo.binary main_v216 main_v182 main_v217 ((fun l r => Host.dotGeneral dot_S512x32768_S32768x512_S512x512_1_0_0_1_n_n none l r) : (⟨S512x32768, .f32⟩ : BufTy).Contents (Elt F) → (⟨S32768x512, .f32⟩ : BufTy).Contents (Elt F) → (⟨S512x512, .f32⟩ : BufTy).Contents (Elt F)),
    StableHlo.nullary main_cst_26 (constant S_ .f32 0x44800000#32),
    StableHlo.unary main_cst_26 main_v218 (Host.sqrt : (⟨S_, .f32⟩ : BufTy).Contents (Elt F) → (⟨S_, .f32⟩ : BufTy).Contents (Elt F)),
    StableHlo.unary main_v218 main_v219 (broadcastInDim S512x512 ![] bcast_S_S512x512 : (⟨S_, .f32⟩ : BufTy).Contents (Elt F) → (⟨S512x512, .f32⟩ : BufTy).Contents (Elt F)),
    StableHlo.binary main_v217 main_v219 main_v220 (Host.divf : (⟨S512x512, .f32⟩ : BufTy).Contents (Elt F) → (⟨S512x512, .f32⟩ : BufTy).Contents (Elt F) → (⟨S512x512, .f32⟩ : BufTy).Contents (Elt F)),
    StableHlo.nullary main_cst_27 (constant S_ .f32 0xFF800000#32),
    StableHlo.binary main_v220 main_cst_27 main_v221 ((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.nullary main_cst_28 (constant S_ .f32 0xFF800000#32),
    StableHlo.unary main_cst_28 main_v222 (broadcastInDim S512 ![] bcast_S_S512 : (⟨S_, .f32⟩ : BufTy).Contents (Elt F) → (⟨S512, .f32⟩ : BufTy).Contents (Elt F)),
    StableHlo.binary main_v222 main_v221 main_v223 (maximumf : (⟨S512, .f32⟩ : BufTy).Contents (Elt F) → (⟨S512, .f32⟩ : BufTy).Contents (Elt F) → (⟨S512, .f32⟩ : BufTy).Contents (Elt F)),
    StableHlo.unary main_v223 main_v224 (broadcastInDim S512x1 ![0] bcast_S512_S512x1_0 : (⟨S512, .f32⟩ : BufTy).Contents (Elt F) → (⟨S512x1, .f32⟩ : BufTy).Contents (Elt F)),
    StableHlo.unary main_v224 main_v225 (broadcastInDim S512x512 ![0, 1] bcast_S512x1_S512x512_0_1 : (⟨S512x1, .f32⟩ : BufTy).Contents (Elt F) → (⟨S512x512, .f32⟩ : BufTy).Contents (Elt F)),
    StableHlo.binary main_v220 main_v225 main_v226 (subf : (⟨S512x512, .f32⟩ : BufTy).Contents (Elt F) → (⟨S512x512, .f32⟩ : BufTy).Contents (Elt F) → (⟨S512x512, .f32⟩ : BufTy).Contents (Elt F)),
    StableHlo.unary main_v226 main_v227 (Host.exp : (⟨S512x512, .f32⟩ : BufTy).Contents (Elt F) → (⟨S512x512, .f32⟩ : BufTy).Contents (Elt F)),
    StableHlo.nullary main_cst_29 (constant S_ .f32 0x00000000#32),
    StableHlo.binary main_v227 main_cst_29 main_v228 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v228 main_v229 (broadcastInDim S512x1 ![0] bcast_S512_S512x1_0 : (⟨S512, .f32⟩ : BufTy).Contents (Elt F) → (⟨S512x1, .f32⟩ : BufTy).Contents (Elt F)),
    StableHlo.unary main_v229 main_v230 (broadcastInDim S512x512 ![0, 1] bcast_S512x1_S512x512_0_1 : (⟨S512x1, .f32⟩ : BufTy).Contents (Elt F) → (⟨S512x512, .f32⟩ : BufTy).Contents (Elt F)),
    StableHlo.binary main_v227 main_v230 main_v231 (Host.divf : (⟨S512x512, .f32⟩ : BufTy).Contents (Elt F) → (⟨S512x512, .f32⟩ : BufTy).Contents (Elt F) → (⟨S512x512, .f32⟩ : BufTy).Contents (Elt F)),
    StableHlo.unary main_v231 main_v232 ((transpose S512x512 [1, 0] · transposes_S512x512_S512x512_1_0) : (⟨S512x512, .f32⟩ : BufTy).Contents (Elt F) → (⟨S512x512, .f32⟩ : BufTy).Contents (Elt F)),
    StableHlo.binary main_v215 main_v232 main_v233 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)) ]

/-- Operations 405 … 464: the projection block of parameter row ![6, 0, 0] (slices, product, bias, batch statistics, normalisation, rectification); it ends in main_v266. -/
abbrev fcOps6 : List (HloOp τ sig (Elt F)) :=
  [ StableHlo.unary main_arg3 main_v234 ((extractStridedSlice S1x512x1024 ![6, 0, 0] · slices_S9x512x1024_S1x512x1024_6_0_0) : (⟨S9x512x1024, .f32⟩ : BufTy).Contents (Elt F) → (⟨S1x512x1024, .f32⟩ : BufTy).Contents (Elt F)),
    StableHlo.reshape main_v234 main_v235 rfl shapeCasts_S1x512x1024_S512x1024,
    StableHlo.unary main_arg4 main_v236 ((extractStridedSlice S1x512 ![6, 0] · slices_S9x512_S1x512_6_0) : (⟨S9x512, .f32⟩ : BufTy).Contents (Elt F) → (⟨S1x512, .f32⟩ : BufTy).Contents (Elt F)),
    StableHlo.reshape main_v236 main_v237 rfl shapeCasts_S1x512_S512,
    StableHlo.unary main_arg5 main_v238 ((extractStridedSlice S1x512 ![6, 0] · slices_S9x512_S1x512_6_0) : (⟨S9x512, .f32⟩ : BufTy).Contents (Elt F) → (⟨S1x512, .f32⟩ : BufTy).Contents (Elt F)),
    StableHlo.reshape main_v238 main_v239 rfl shapeCasts_S1x512_S512,
    StableHlo.unary main_arg6 main_v240 ((extractStridedSlice S1x512 ![6, 0] · slices_S9x512_S1x512_6_0) : (⟨S9x512, .f32⟩ : BufTy).Contents (Elt F) → (⟨S1x512, .f32⟩ : BufTy).Contents (Elt F)),
    StableHlo.reshape main_v240 main_v241 rfl shapeCasts_S1x512_S512,
    StableHlo.unary main_v235 main_v242 ((transpose S1024x512 [1, 0] · transposes_S512x1024_S1024x512_1_0) : (⟨S512x1024, .f32⟩ : BufTy).Contents (Elt F) → (⟨S1024x512, .f32⟩ : BufTy).Contents (Elt F)),
    StableHlo.binary main_arg2 main_v242 main_v243 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v237 main_v244 (broadcastInDim S1x512 ![1] bcast_S512_S1x512_1 : (⟨S512, .f32⟩ : BufTy).Contents (Elt F) → (⟨S1x512, .f32⟩ : BufTy).Contents (Elt F)),
    StableHlo.unary main_v244 main_v245 (broadcastInDim S32768x512 ![0, 1] bcast_S1x512_S32768x512_0_1 : (⟨S1x512, .f32⟩ : BufTy).Contents (Elt F) → (⟨S32768x512, .f32⟩ : BufTy).Contents (Elt F)),
    StableHlo.binary main_v243 main_v245 main_v246 (addf : (⟨S32768x512, .f32⟩ : BufTy).Contents (Elt F) → (⟨S32768x512, .f32⟩ : BufTy).Contents (Elt F) → (⟨S32768x512, .f32⟩ : BufTy).Contents (Elt F)),
    StableHlo.nullary main_cst_30 (constant S_ .f32 0x00000000#32),
    StableHlo.binary main_v246 main_cst_30 main_v247 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_31 (constant S_ .f32 0x47000000#32),
    StableHlo.unary main_cst_31 main_v248 (broadcastInDim S512 ![] bcast_S_S512 : (⟨S_, .f32⟩ : BufTy).Contents (Elt F) → (⟨S512, .f32⟩ : BufTy).Contents (Elt F)),
    StableHlo.binary main_v247 main_v248 main_v249 (Host.divf : (⟨S512, .f32⟩ : BufTy).Contents (Elt F) → (⟨S512, .f32⟩ : BufTy).Contents (Elt F) → (⟨S512, .f32⟩ : BufTy).Contents (Elt F)),
    StableHlo.nullary main_c_32 (constantI S_ 32 0#32),
    StableHlo.TRef.nullary main_call12.cst (constant S_ .f32 0x00000000#32),
    StableHlo.TRef.binary (.of main_v246 : StableHlo.TRef sig ⟨S32768x512, .f32⟩) main_call12.cst main_call12.v0 (fun x v => Host.reduceAdd x v reducesTo_S32768x512_S512_d0 h_S_),
    StableHlo.TRef.unary main_call12.v0 main_call12.v1 (broadcastInDim S1x512 ![1] bcast_S512_S1x512_1),
    StableHlo.TRef.nullary main_call12.cst_0 (constant S_ .f32 0x47000000#32),
    StableHlo.TRef.unary main_call12.cst_0 main_call12.v2 (broadcastInDim S1x512 ![] bcast_S_S1x512),
    StableHlo.TRef.binary main_call12.v1 main_call12.v2 main_call12.v3 Host.divf,
    StableHlo.TRef.unary main_call12.v3 main_call12.v4 (broadcastInDim S32768x512 ![0, 1] bcast_S1x512_S32768x512_0_1),
    StableHlo.TRef.binary (.of main_v246 : StableHlo.TRef sig ⟨S32768x512, .f32⟩) main_call12.v4 main_call12.v5 subf,
    StableHlo.TRef.binary main_call12.v5 main_call12.v5 main_call12.v6 mulf,
    StableHlo.TRef.unary (.of main_c_32 : StableHlo.TRef sig ⟨S_, .i32⟩) main_call12.v7 (sitofp .f32),
    StableHlo.TRef.nullary main_call12.cst_1 (constant S_ .f32 0x47000000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S32768x512_S512_d0 h_S_),
    StableHlo.TRef.unary main_call12.v8 main_call12.v10 (broadcastInDim S512 ![] bcast_S_S512),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S512 ![] bcast_S_S512),
    StableHlo.TRef.ternary main_call12.v12 main_call12.v11 main_call12.call0.v1 main_call12.call0.v2 (fun p a b => select (broadcastInDim S512 ![] bcast_S_S512 p) a b),
    StableHlo.unary main_v249 main_v251 (broadcastInDim S1x512 ![1] bcast_S512_S1x512_1 : (⟨S512, .f32⟩ : BufTy).Contents (Elt F) → (⟨S1x512, .f32⟩ : BufTy).Contents (Elt F)),
    StableHlo.unary main_v251 main_v252 (broadcastInDim S32768x512 ![0, 1] bcast_S1x512_S32768x512_0_1 : (⟨S1x512, .f32⟩ : BufTy).Contents (Elt F) → (⟨S32768x512, .f32⟩ : BufTy).Contents (Elt F)),
    StableHlo.binary main_v246 main_v252 main_v253 (subf : (⟨S32768x512, .f32⟩ : BufTy).Contents (Elt F) → (⟨S32768x512, .f32⟩ : BufTy).Contents (Elt F) → (⟨S32768x512, .f32⟩ : BufTy).Contents (Elt F)),
    StableHlo.nullary main_cst_33 (constant S_ .f32 0x3727C5AC#32),
    StableHlo.unary main_cst_33 main_v254 (broadcastInDim S512 ![] bcast_S_S512 : (⟨S_, .f32⟩ : BufTy).Contents (Elt F) → (⟨S512, .f32⟩ : BufTy).Contents (Elt F)),
    StableHlo.binary main_v250 main_v254 main_v255 (addf : (⟨S512, .f32⟩ : BufTy).Contents (Elt F) → (⟨S512, .f32⟩ : BufTy).Contents (Elt F) → (⟨S512, .f32⟩ : BufTy).Contents (Elt F)),
    StableHlo.unary main_v255 main_v256 (Host.rsqrt : (⟨S512, .f32⟩ : BufTy).Contents (Elt F) → (⟨S512, .f32⟩ : BufTy).Contents (Elt F)),
    StableHlo.unary main_v256 main_v257 (broadcastInDim S1x512 ![1] bcast_S512_S1x512_1 : (⟨S512, .f32⟩ : BufTy).Contents (Elt F) → (⟨S1x512, .f32⟩ : BufTy).Contents (Elt F)),
    StableHlo.unary main_v257 main_v258 (broadcastInDim S32768x512 ![0, 1] bcast_S1x512_S32768x512_0_1 : (⟨S1x512, .f32⟩ : BufTy).Contents (Elt F) → (⟨S32768x512, .f32⟩ : BufTy).Contents (Elt F)),
    StableHlo.binary main_v253 main_v258 main_v259 (mulf : (⟨S32768x512, .f32⟩ : BufTy).Contents (Elt F) → (⟨S32768x512, .f32⟩ : BufTy).Contents (Elt F) → (⟨S32768x512, .f32⟩ : BufTy).Contents (Elt F)),
    StableHlo.unary main_v239 main_v260 (broadcastInDim S1x512 ![1] bcast_S512_S1x512_1 : (⟨S512, .f32⟩ : BufTy).Contents (Elt F) → (⟨S1x512, .f32⟩ : BufTy).Contents (Elt F)),
    StableHlo.unary main_v260 main_v261 (broadcastInDim S32768x512 ![0, 1] bcast_S1x512_S32768x512_0_1 : (⟨S1x512, .f32⟩ : BufTy).Contents (Elt F) → (⟨S32768x512, .f32⟩ : BufTy).Contents (Elt F)),
    StableHlo.binary main_v259 main_v261 main_v262 (mulf : (⟨S32768x512, .f32⟩ : BufTy).Contents (Elt F) → (⟨S32768x512, .f32⟩ : BufTy).Contents (Elt F) → (⟨S32768x512, .f32⟩ : BufTy).Contents (Elt F)),
    StableHlo.unary main_v241 main_v263 (broadcastInDim S1x512 ![1] bcast_S512_S1x512_1 : (⟨S512, .f32⟩ : BufTy).Contents (Elt F) → (⟨S1x512, .f32⟩ : BufTy).Contents (Elt F)),
    StableHlo.unary main_v263 main_v264 (broadcastInDim S32768x512 ![0, 1] bcast_S1x512_S32768x512_0_1 : (⟨S1x512, .f32⟩ : BufTy).Contents (Elt F) → (⟨S32768x512, .f32⟩ : BufTy).Contents (Elt F)),
    StableHlo.binary main_v262 main_v264 main_v265 (addf : (⟨S32768x512, .f32⟩ : BufTy).Contents (Elt F) → (⟨S32768x512, .f32⟩ : BufTy).Contents (Elt F) → (⟨S32768x512, .f32⟩ : BufTy).Contents (Elt F)),
    StableHlo.TRef.nullary main_call13.cst (constant S_ .f32 0x00000000#32),
    StableHlo.TRef.unary main_call13.cst main_call13.v0 (broadcastInDim S32768x512 ![] bcast_S_S32768x512),
    StableHlo.TRef.binary (.of main_v265 : StableHlo.TRef sig ⟨S32768x512, .f32⟩) main_call13.v0 main_call13.v1 maximumf ]

/-- Operations 465 … 524: the projection block of parameter row ![7, 0, 0] (slices, product, bias, batch statistics, normalisation, rectification); it ends in main_v299. -/
abbrev fcOps7 : List (HloOp τ sig (Elt F)) :=
  [ StableHlo.unary main_arg3 main_v267 ((extractStridedSlice S1x512x1024 ![7, 0, 0] · slices_S9x512x1024_S1x512x1024_7_0_0) : (⟨S9x512x1024, .f32⟩ : BufTy).Contents (Elt F) → (⟨S1x512x1024, .f32⟩ : BufTy).Contents (Elt F)),
    StableHlo.reshape main_v267 main_v268 rfl shapeCasts_S1x512x1024_S512x1024,
    StableHlo.unary main_arg4 main_v269 ((extractStridedSlice S1x512 ![7, 0] · slices_S9x512_S1x512_7_0) : (⟨S9x512, .f32⟩ : BufTy).Contents (Elt F) → (⟨S1x512, .f32⟩ : BufTy).Contents (Elt F)),
    StableHlo.reshape main_v269 main_v270 rfl shapeCasts_S1x512_S512,
    StableHlo.unary main_arg5 main_v271 ((extractStridedSlice S1x512 ![7, 0] · slices_S9x512_S1x512_7_0) : (⟨S9x512, .f32⟩ : BufTy).Contents (Elt F) → (⟨S1x512, .f32⟩ : BufTy).Contents (Elt F)),
    StableHlo.reshape main_v271 main_v272 rfl shapeCasts_S1x512_S512,
    StableHlo.unary main_arg6 main_v273 ((extractStridedSlice S1x512 ![7, 0] · slices_S9x512_S1x512_7_0) : (⟨S9x512, .f32⟩ : BufTy).Contents (Elt F) → (⟨S1x512, .f32⟩ : BufTy).Contents (Elt F)),
    StableHlo.reshape main_v273 main_v274 rfl shapeCasts_S1x512_S512,
    StableHlo.unary main_v268 main_v275 ((transpose S1024x512 [1, 0] · transposes_S512x1024_S1024x512_1_0) : (⟨S512x1024, .f32⟩ : BufTy).Contents (Elt F) → (⟨S1024x512, .f32⟩ : BufTy).Contents (Elt F)),
    StableHlo.binary main_arg0 main_v275 main_v276 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v270 main_v277 (broadcastInDim S1x512 ![1] bcast_S512_S1x512_1 : (⟨S512, .f32⟩ : BufTy).Contents (Elt F) → (⟨S1x512, .f32⟩ : BufTy).Contents (Elt F)),
    StableHlo.unary main_v277 main_v278 (broadcastInDim S32768x512 ![0, 1] bcast_S1x512_S32768x512_0_1 : (⟨S1x512, .f32⟩ : BufTy).Contents (Elt F) → (⟨S32768x512, .f32⟩ : BufTy).Contents (Elt F)),
    StableHlo.binary main_v276 main_v278 main_v279 (addf : (⟨S32768x512, .f32⟩ : BufTy).Contents (Elt F) → (⟨S32768x512, .f32⟩ : BufTy).Contents (Elt F) → (⟨S32768x512, .f32⟩ : BufTy).Contents (Elt F)),
    StableHlo.nullary main_cst_34 (constant S_ .f32 0x00000000#32),
    StableHlo.binary main_v279 main_cst_34 main_v280 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_35 (constant S_ .f32 0x47000000#32),
    StableHlo.unary main_cst_35 main_v281 (broadcastInDim S512 ![] bcast_S_S512 : (⟨S_, .f32⟩ : BufTy).Contents (Elt F) → (⟨S512, .f32⟩ : BufTy).Contents (Elt F)),
    StableHlo.binary main_v280 main_v281 main_v282 (Host.divf : (⟨S512, .f32⟩ : BufTy).Contents (Elt F) → (⟨S512, .f32⟩ : BufTy).Contents (Elt F) → (⟨S512, .f32⟩ : BufTy).Contents (Elt F)),
    StableHlo.nullary main_c_36 (constantI S_ 32 0#32),
    StableHlo.TRef.nullary main_call14.cst (constant S_ .f32 0x00000000#32),
    StableHlo.TRef.binary (.of main_v279 : StableHlo.TRef sig ⟨S32768x512, .f32⟩) main_call14.cst main_call14.v0 (fun x v => Host.reduceAdd x v reducesTo_S32768x512_S512_d0 h_S_),
    StableHlo.TRef.unary main_call14.v0 main_call14.v1 (broadcastInDim S1x512 ![1] bcast_S512_S1x512_1),
    StableHlo.TRef.nullary main_call14.cst_0 (constant S_ .f32 0x47000000#32),
    StableHlo.TRef.unary main_call14.cst_0 main_call14.v2 (broadcastInDim S1x512 ![] bcast_S_S1x512),
    StableHlo.TRef.binary main_call14.v1 main_call14.v2 main_call14.v3 Host.divf,
    StableHlo.TRef.unary main_call14.v3 main_call14.v4 (broadcastInDim S32768x512 ![0, 1] bcast_S1x512_S32768x512_0_1),
    StableHlo.TRef.binary (.of main_v279 : StableHlo.TRef sig ⟨S32768x512, .f32⟩) main_call14.v4 main_call14.v5 subf,
    StableHlo.TRef.binary main_call14.v5 main_call14.v5 main_call14.v6 mulf,
    StableHlo.TRef.unary (.of main_c_36 : StableHlo.TRef sig ⟨S_, .i32⟩) main_call14.v7 (sitofp .f32),
    StableHlo.TRef.nullary main_call14.cst_1 (constant S_ .f32 0x47000000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S32768x512_S512_d0 h_S_),
    StableHlo.TRef.unary main_call14.v8 main_call14.v10 (broadcastInDim S512 ![] bcast_S_S512),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S512 ![] bcast_S_S512),
    StableHlo.TRef.ternary main_call14.v12 main_call14.v11 main_call14.call0.v1 main_call14.call0.v2 (fun p a b => select (broadcastInDim S512 ![] bcast_S_S512 p) a b),
    StableHlo.unary main_v282 main_v284 (broadcastInDim S1x512 ![1] bcast_S512_S1x512_1 : (⟨S512, .f32⟩ : BufTy).Contents (Elt F) → (⟨S1x512, .f32⟩ : BufTy).Contents (Elt F)),
    StableHlo.unary main_v284 main_v285 (broadcastInDim S32768x512 ![0, 1] bcast_S1x512_S32768x512_0_1 : (⟨S1x512, .f32⟩ : BufTy).Contents (Elt F) → (⟨S32768x512, .f32⟩ : BufTy).Contents (Elt F)),
    StableHlo.binary main_v279 main_v285 main_v286 (subf : (⟨S32768x512, .f32⟩ : BufTy).Contents (Elt F) → (⟨S32768x512, .f32⟩ : BufTy).Contents (Elt F) → (⟨S32768x512, .f32⟩ : BufTy).Contents (Elt F)),
    StableHlo.nullary main_cst_37 (constant S_ .f32 0x3727C5AC#32),
    StableHlo.unary main_cst_37 main_v287 (broadcastInDim S512 ![] bcast_S_S512 : (⟨S_, .f32⟩ : BufTy).Contents (Elt F) → (⟨S512, .f32⟩ : BufTy).Contents (Elt F)),
    StableHlo.binary main_v283 main_v287 main_v288 (addf : (⟨S512, .f32⟩ : BufTy).Contents (Elt F) → (⟨S512, .f32⟩ : BufTy).Contents (Elt F) → (⟨S512, .f32⟩ : BufTy).Contents (Elt F)),
    StableHlo.unary main_v288 main_v289 (Host.rsqrt : (⟨S512, .f32⟩ : BufTy).Contents (Elt F) → (⟨S512, .f32⟩ : BufTy).Contents (Elt F)),
    StableHlo.unary main_v289 main_v290 (broadcastInDim S1x512 ![1] bcast_S512_S1x512_1 : (⟨S512, .f32⟩ : BufTy).Contents (Elt F) → (⟨S1x512, .f32⟩ : BufTy).Contents (Elt F)),
    StableHlo.unary main_v290 main_v291 (broadcastInDim S32768x512 ![0, 1] bcast_S1x512_S32768x512_0_1 : (⟨S1x512, .f32⟩ : BufTy).Contents (Elt F) → (⟨S32768x512, .f32⟩ : BufTy).Contents (Elt F)),
    StableHlo.binary main_v286 main_v291 main_v292 (mulf : (⟨S32768x512, .f32⟩ : BufTy).Contents (Elt F) → (⟨S32768x512, .f32⟩ : BufTy).Contents (Elt F) → (⟨S32768x512, .f32⟩ : BufTy).Contents (Elt F)),
    StableHlo.unary main_v272 main_v293 (broadcastInDim S1x512 ![1] bcast_S512_S1x512_1 : (⟨S512, .f32⟩ : BufTy).Contents (Elt F) → (⟨S1x512, .f32⟩ : BufTy).Contents (Elt F)),
    StableHlo.unary main_v293 main_v294 (broadcastInDim S32768x512 ![0, 1] bcast_S1x512_S32768x512_0_1 : (⟨S1x512, .f32⟩ : BufTy).Contents (Elt F) → (⟨S32768x512, .f32⟩ : BufTy).Contents (Elt F)),
    StableHlo.binary main_v292 main_v294 main_v295 (mulf : (⟨S32768x512, .f32⟩ : BufTy).Contents (Elt F) → (⟨S32768x512, .f32⟩ : BufTy).Contents (Elt F) → (⟨S32768x512, .f32⟩ : BufTy).Contents (Elt F)),
    StableHlo.unary main_v274 main_v296 (broadcastInDim S1x512 ![1] bcast_S512_S1x512_1 : (⟨S512, .f32⟩ : BufTy).Contents (Elt F) → (⟨S1x512, .f32⟩ : BufTy).Contents (Elt F)),
    StableHlo.unary main_v296 main_v297 (broadcastInDim S32768x512 ![0, 1] bcast_S1x512_S32768x512_0_1 : (⟨S1x512, .f32⟩ : BufTy).Contents (Elt F) → (⟨S32768x512, .f32⟩ : BufTy).Contents (Elt F)),
    StableHlo.binary main_v295 main_v297 main_v298 (addf : (⟨S32768x512, .f32⟩ : BufTy).Contents (Elt F) → (⟨S32768x512, .f32⟩ : BufTy).Contents (Elt F) → (⟨S32768x512, .f32⟩ : BufTy).Contents (Elt F)),
    StableHlo.TRef.nullary main_call15.cst (constant S_ .f32 0x00000000#32),
    StableHlo.TRef.unary main_call15.cst main_call15.v0 (broadcastInDim S32768x512 ![] bcast_S_S32768x512),
    StableHlo.TRef.binary (.of main_v298 : StableHlo.TRef sig ⟨S32768x512, .f32⟩) main_call15.v0 main_call15.v1 maximumf ]

/-- Operations 525 … 584: the projection block of parameter row ![8, 0, 0] (slices, product, bias, batch statistics, normalisation, rectification); it ends in main_v332. -/
abbrev fcOps8 : List (HloOp τ sig (Elt F)) :=
  [ StableHlo.unary main_arg3 main_v300 ((extractStridedSlice S1x512x1024 ![8, 0, 0] · slices_S9x512x1024_S1x512x1024_8_0_0) : (⟨S9x512x1024, .f32⟩ : BufTy).Contents (Elt F) → (⟨S1x512x1024, .f32⟩ : BufTy).Contents (Elt F)),
    StableHlo.reshape main_v300 main_v301 rfl shapeCasts_S1x512x1024_S512x1024,
    StableHlo.unary main_arg4 main_v302 ((extractStridedSlice S1x512 ![8, 0] · slices_S9x512_S1x512_8_0) : (⟨S9x512, .f32⟩ : BufTy).Contents (Elt F) → (⟨S1x512, .f32⟩ : BufTy).Contents (Elt F)),
    StableHlo.reshape main_v302 main_v303 rfl shapeCasts_S1x512_S512,
    StableHlo.unary main_arg5 main_v304 ((extractStridedSlice S1x512 ![8, 0] · slices_S9x512_S1x512_8_0) : (⟨S9x512, .f32⟩ : BufTy).Contents (Elt F) → (⟨S1x512, .f32⟩ : BufTy).Contents (Elt F)),
    StableHlo.reshape main_v304 main_v305 rfl shapeCasts_S1x512_S512,
    StableHlo.unary main_arg6 main_v306 ((extractStridedSlice S1x512 ![8, 0] · slices_S9x512_S1x512_8_0) : (⟨S9x512, .f32⟩ : BufTy).Contents (Elt F) → (⟨S1x512, .f32⟩ : BufTy).Contents (Elt F)),
    StableHlo.reshape main_v306 main_v307 rfl shapeCasts_S1x512_S512,
    StableHlo.unary main_v301 main_v308 ((transpose S1024x512 [1, 0] · transposes_S512x1024_S1024x512_1_0) : (⟨S512x1024, .f32⟩ : BufTy).Contents (Elt F) → (⟨S1024x512, .f32⟩ : BufTy).Contents (Elt F)),
    StableHlo.binary main_arg0 main_v308 main_v309 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_v303 main_v310 (broadcastInDim S1x512 ![1] bcast_S512_S1x512_1 : (⟨S512, .f32⟩ : BufTy).Contents (Elt F) → (⟨S1x512, .f32⟩ : BufTy).Contents (Elt F)),
    StableHlo.unary main_v310 main_v311 (broadcastInDim S32768x512 ![0, 1] bcast_S1x512_S32768x512_0_1 : (⟨S1x512, .f32⟩ : BufTy).Contents (Elt F) → (⟨S32768x512, .f32⟩ : BufTy).Contents (Elt F)),
    StableHlo.binary main_v309 main_v311 main_v312 (addf : (⟨S32768x512, .f32⟩ : BufTy).Contents (Elt F) → (⟨S32768x512, .f32⟩ : BufTy).Contents (Elt F) → (⟨S32768x512, .f32⟩ : BufTy).Contents (Elt F)),
    StableHlo.nullary main_cst_38 (constant S_ .f32 0x00000000#32),
    StableHlo.binary main_v312 main_cst_38 main_v313 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_39 (constant S_ .f32 0x47000000#32),
    StableHlo.unary main_cst_39 main_v314 (broadcastInDim S512 ![] bcast_S_S512 : (⟨S_, .f32⟩ : BufTy).Contents (Elt F) → (⟨S512, .f32⟩ : BufTy).Contents (Elt F)),
    StableHlo.binary main_v313 main_v314 main_v315 (Host.divf : (⟨S512, .f32⟩ : BufTy).Contents (Elt F) → (⟨S512, .f32⟩ : BufTy).Contents (Elt F) → (⟨S512, .f32⟩ : BufTy).Contents (Elt F)),
    StableHlo.nullary main_c_40 (constantI S_ 32 0#32),
    StableHlo.TRef.nullary main_call16.cst (constant S_ .f32 0x00000000#32),
    StableHlo.TRef.binary (.of main_v312 : StableHlo.TRef sig ⟨S32768x512, .f32⟩) main_call16.cst main_call16.v0 (fun x v => Host.reduceAdd x v reducesTo_S32768x512_S512_d0 h_S_),
    StableHlo.TRef.unary main_call16.v0 main_call16.v1 (broadcastInDim S1x512 ![1] bcast_S512_S1x512_1),
    StableHlo.TRef.nullary main_call16.cst_0 (constant S_ .f32 0x47000000#32),
    StableHlo.TRef.unary main_call16.cst_0 main_call16.v2 (broadcastInDim S1x512 ![] bcast_S_S1x512),
    StableHlo.TRef.binary main_call16.v1 main_call16.v2 main_call16.v3 Host.divf,
    StableHlo.TRef.unary main_call16.v3 main_call16.v4 (broadcastInDim S32768x512 ![0, 1] bcast_S1x512_S32768x512_0_1),
    StableHlo.TRef.binary (.of main_v312 : StableHlo.TRef sig ⟨S32768x512, .f32⟩) main_call16.v4 main_call16.v5 subf,
    StableHlo.TRef.binary main_call16.v5 main_call16.v5 main_call16.v6 mulf,
    StableHlo.TRef.unary (.of main_c_40 : StableHlo.TRef sig ⟨S_, .i32⟩) main_call16.v7 (sitofp .f32),
    StableHlo.TRef.nullary main_call16.cst_1 (constant S_ .f32 0x47000000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S32768x512_S512_d0 h_S_),
    StableHlo.TRef.unary main_call16.v8 main_call16.v10 (broadcastInDim S512 ![] bcast_S_S512),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S512 ![] bcast_S_S512),
    StableHlo.TRef.ternary main_call16.v12 main_call16.v11 main_call16.call0.v1 main_call16.call0.v2 (fun p a b => select (broadcastInDim S512 ![] bcast_S_S512 p) a b),
    StableHlo.unary main_v315 main_v317 (broadcastInDim S1x512 ![1] bcast_S512_S1x512_1 : (⟨S512, .f32⟩ : BufTy).Contents (Elt F) → (⟨S1x512, .f32⟩ : BufTy).Contents (Elt F)),
    StableHlo.unary main_v317 main_v318 (broadcastInDim S32768x512 ![0, 1] bcast_S1x512_S32768x512_0_1 : (⟨S1x512, .f32⟩ : BufTy).Contents (Elt F) → (⟨S32768x512, .f32⟩ : BufTy).Contents (Elt F)),
    StableHlo.binary main_v312 main_v318 main_v319 (subf : (⟨S32768x512, .f32⟩ : BufTy).Contents (Elt F) → (⟨S32768x512, .f32⟩ : BufTy).Contents (Elt F) → (⟨S32768x512, .f32⟩ : BufTy).Contents (Elt F)),
    StableHlo.nullary main_cst_41 (constant S_ .f32 0x3727C5AC#32),
    StableHlo.unary main_cst_41 main_v320 (broadcastInDim S512 ![] bcast_S_S512 : (⟨S_, .f32⟩ : BufTy).Contents (Elt F) → (⟨S512, .f32⟩ : BufTy).Contents (Elt F)),
    StableHlo.binary main_v316 main_v320 main_v321 (addf : (⟨S512, .f32⟩ : BufTy).Contents (Elt F) → (⟨S512, .f32⟩ : BufTy).Contents (Elt F) → (⟨S512, .f32⟩ : BufTy).Contents (Elt F)),
    StableHlo.unary main_v321 main_v322 (Host.rsqrt : (⟨S512, .f32⟩ : BufTy).Contents (Elt F) → (⟨S512, .f32⟩ : BufTy).Contents (Elt F)),
    StableHlo.unary main_v322 main_v323 (broadcastInDim S1x512 ![1] bcast_S512_S1x512_1 : (⟨S512, .f32⟩ : BufTy).Contents (Elt F) → (⟨S1x512, .f32⟩ : BufTy).Contents (Elt F)),
    StableHlo.unary main_v323 main_v324 (broadcastInDim S32768x512 ![0, 1] bcast_S1x512_S32768x512_0_1 : (⟨S1x512, .f32⟩ : BufTy).Contents (Elt F) → (⟨S32768x512, .f32⟩ : BufTy).Contents (Elt F)),
    StableHlo.binary main_v319 main_v324 main_v325 (mulf : (⟨S32768x512, .f32⟩ : BufTy).Contents (Elt F) → (⟨S32768x512, .f32⟩ : BufTy).Contents (Elt F) → (⟨S32768x512, .f32⟩ : BufTy).Contents (Elt F)),
    StableHlo.unary main_v305 main_v326 (broadcastInDim S1x512 ![1] bcast_S512_S1x512_1 : (⟨S512, .f32⟩ : BufTy).Contents (Elt F) → (⟨S1x512, .f32⟩ : BufTy).Contents (Elt F)),
    StableHlo.unary main_v326 main_v327 (broadcastInDim S32768x512 ![0, 1] bcast_S1x512_S32768x512_0_1 : (⟨S1x512, .f32⟩ : BufTy).Contents (Elt F) → (⟨S32768x512, .f32⟩ : BufTy).Contents (Elt F)),
    StableHlo.binary main_v325 main_v327 main_v328 (mulf : (⟨S32768x512, .f32⟩ : BufTy).Contents (Elt F) → (⟨S32768x512, .f32⟩ : BufTy).Contents (Elt F) → (⟨S32768x512, .f32⟩ : BufTy).Contents (Elt F)),
    StableHlo.unary main_v307 main_v329 (broadcastInDim S1x512 ![1] bcast_S512_S1x512_1 : (⟨S512, .f32⟩ : BufTy).Contents (Elt F) → (⟨S1x512, .f32⟩ : BufTy).Contents (Elt F)),
    StableHlo.unary main_v329 main_v330 (broadcastInDim S32768x512 ![0, 1] bcast_S1x512_S32768x512_0_1 : (⟨S1x512, .f32⟩ : BufTy).Contents (Elt F) → (⟨S32768x512, .f32⟩ : BufTy).Contents (Elt F)),
    StableHlo.binary main_v328 main_v330 main_v331 (addf : (⟨S32768x512, .f32⟩ : BufTy).Contents (Elt F) → (⟨S32768x512, .f32⟩ : BufTy).Contents (Elt F) → (⟨S32768x512, .f32⟩ : BufTy).Contents (Elt F)),
    StableHlo.TRef.nullary main_call17.cst (constant S_ .f32 0x00000000#32),
    StableHlo.TRef.unary main_call17.cst main_call17.v0 (broadcastInDim S32768x512 ![] bcast_S_S32768x512),
    StableHlo.TRef.binary (.of main_v331 : StableHlo.TRef sig ⟨S32768x512, .f32⟩) main_call17.v0 main_call17.v1 maximumf ]

/-- Operations 585 … 606: an attention (logits, row softmax, product with the values); it ends in main_v350. -/
abbrev attOps2 : List (HloOp τ sig (Elt F)) :=
  [ StableHlo.unary main_v266 main_v333 ((transpose S512x32768 [1, 0] · transposes_S32768x512_S512x32768_1_0) : (⟨S32768x512, .f32⟩ : BufTy).Contents (Elt F) → (⟨S512x32768, .f32⟩ : BufTy).Contents (Elt F)),
    StableHlo.binary main_v333 main_v299 main_v334 ((fun l r => Host.dotGeneral dot_S512x32768_S32768x512_S512x512_1_0_0_1_n_n none l r) : (⟨S512x32768, .f32⟩ : BufTy).Contents (Elt F) → (⟨S32768x512, .f32⟩ : BufTy).Contents (Elt F) → (⟨S512x512, .f32⟩ : BufTy).Contents (Elt F)),
    StableHlo.nullary main_cst_42 (constant S_ .f32 0x44800000#32),
    StableHlo.unary main_cst_42 main_v335 (Host.sqrt : (⟨S_, .f32⟩ : BufTy).Contents (Elt F) → (⟨S_, .f32⟩ : BufTy).Contents (Elt F)),
    StableHlo.unary main_v335 main_v336 (broadcastInDim S512x512 ![] bcast_S_S512x512 : (⟨S_, .f32⟩ : BufTy).Contents (Elt F) → (⟨S512x512, .f32⟩ : BufTy).Contents (Elt F)),
    StableHlo.binary main_v334 main_v336 main_v337 (Host.divf : (⟨S512x512, .f32⟩ : BufTy).Contents (Elt F) → (⟨S512x512, .f32⟩ : BufTy).Contents (Elt F) → (⟨S512x512, .f32⟩ : BufTy).Contents (Elt F)),
    StableHlo.nullary main_cst_43 (constant S_ .f32 0xFF800000#32),
    StableHlo.binary main_v337 main_cst_43 main_v338 ((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.nullary main_cst_44 (constant S_ .f32 0xFF800000#32),
    StableHlo.unary main_cst_44 main_v339 (broadcastInDim S512 ![] bcast_S_S512 : (⟨S_, .f32⟩ : BufTy).Contents (Elt F) → (⟨S512, .f32⟩ : BufTy).Contents (Elt F)),
    StableHlo.binary main_v339 main_v338 main_v340 (maximumf : (⟨S512, .f32⟩ : BufTy).Contents (Elt F) → (⟨S512, .f32⟩ : BufTy).Contents (Elt F) → (⟨S512, .f32⟩ : BufTy).Contents (Elt F)),
    StableHlo.unary main_v340 main_v341 (broadcastInDim S512x1 ![0] bcast_S512_S512x1_0 : (⟨S512, .f32⟩ : BufTy).Contents (Elt F) → (⟨S512x1, .f32⟩ : BufTy).Contents (Elt F)),
    StableHlo.unary main_v341 main_v342 (broadcastInDim S512x512 ![0, 1] bcast_S512x1_S512x512_0_1 : (⟨S512x1, .f32⟩ : BufTy).Contents (Elt F) → (⟨S512x512, .f32⟩ : BufTy).Contents (Elt F)),
    StableHlo.binary main_v337 main_v342 main_v343 (subf : (⟨S512x512, .f32⟩ : BufTy).Contents (Elt F) → (⟨S512x512, .f32⟩ : BufTy).Contents (Elt F) → (⟨S512x512, .f32⟩ : BufTy).Contents (Elt F)),
    StableHlo.unary main_v343 main_v344 (Host.exp : (⟨S512x512, .f32⟩ : BufTy).Contents (Elt F) → (⟨S512x512, .f32⟩ : BufTy).Contents (Elt F)),
    StableHlo.nullary main_cst_45 (constant S_ .f32 0x00000000#32),
    StableHlo.binary main_v344 main_cst_45 main_v345 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    StableHlo.unary main_v345 main_v346 (broadcastInDim S512x1 ![0] bcast_S512_S512x1_0 : (⟨S512, .f32⟩ : BufTy).Contents (Elt F) → (⟨S512x1, .f32⟩ : BufTy).Contents (Elt F)),
    StableHlo.unary main_v346 main_v347 (broadcastInDim S512x512 ![0, 1] bcast_S512x1_S512x512_0_1 : (⟨S512x1, .f32⟩ : BufTy).Contents (Elt F) → (⟨S512x512, .f32⟩ : BufTy).Contents (Elt F)),
    StableHlo.binary main_v344 main_v347 main_v348 (Host.divf : (⟨S512x512, .f32⟩ : BufTy).Contents (Elt F) → (⟨S512x512, .f32⟩ : BufTy).Contents (Elt F) → (⟨S512x512, .f32⟩ : BufTy).Contents (Elt F)),
    StableHlo.unary main_v348 main_v349 ((transpose S512x512 [1, 0] · transposes_S512x512_S512x512_1_0) : (⟨S512x512, .f32⟩ : BufTy).Contents (Elt F) → (⟨S512x512, .f32⟩ : BufTy).Contents (Elt F)),
    StableHlo.binary main_v332 main_v349 main_v350 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)) ]

set_option maxRecDepth 65536 in
/-- The reference's operations are the twelve blocks in order. -/
theorem ops_eq_chunks : (ops : List (HloOp τ sig (Elt F))) = fcOps0 ++ (fcOps1 ++ (fcOps2 ++ (attOps0 ++ (fcOps3 ++ (fcOps4 ++ (fcOps5 ++ (attOps1 ++ (fcOps6 ++ (fcOps7 ++ (fcOps8 ++ (attOps2))))))))))) := by
  simp only [ops, ops_part0, ops_part1, ops_part2, ops_part3, ops_part4, ops_part5, ops_part6, fcOps0, fcOps1, fcOps2, attOps0, fcOps3, fcOps4, fcOps5, attOps1, fcOps6, fcOps7, fcOps8, attOps2, List.cons_append, List.nil_append]

end Cert.ReferenceIdeal.Hand

end
-- ==== Proof.Ref.Terms.lean ====
/-
  The reference's stages as pure terms of its seven argument arrays, spelt with the printed operations in program
  order: one projection–normalisation–rectification pattern (used nine times, the weight row a parameter) and one
  attention pattern (used three times).
-/
import proofs.«100284_j64536178590158_2_alg».proof.Proof.Gen.ReferenceIdeal
import Idealize.ShloMosaic.PureOps.Ideal

noncomputable section

namespace Cert.ReferenceIdeal.Hand

open Cert.ReferenceIdeal Idealize.ShloMosaic
open Cert.ReferenceIdeal.Facts₀

/-- An f32 array of shape `S` at the ideal instance. -/
abbrev C (S : Shape) : Type := FVec Ideal S .f32

/-! ## Rows of the stacked parameters -/

/-- Row `off 0` of the stacked weights, transposed to [1024, 512]: slice, reshape, transpose. -/
def wT (Ws : C S9x512x1024) (off : Fin S9x512x1024.rank → Nat) (h : S9x512x1024.Slices off S1x512x1024) : C S1024x512 :=
  transpose S1024x512 [1, 0]
    (shapeCast S512x1024 (extractStridedSlice S1x512x1024 off Ws h) shapeCasts_S1x512x1024_S512x1024)
    transposes_S512x1024_S1024x512_1_0

/-- Row `off 0` of a stacked [9, 512] parameter as a vector: slice, reshape. -/
def row (v : C S9x512) (off : Fin S9x512.rank → Nat) (h : S9x512.Slices off S1x512) : C S512 :=
  shapeCast S512 (extractStridedSlice S1x512 off v h) shapeCasts_S1x512_S512

/-- A [512] vector repeated down the 32768 rows (through [1, 512]). -/
def rows (v : C S512) : C S32768x512 :=
  broadcastInDim S32768x512 ![0, 1] bcast_S1x512_S32768x512_0_1 (broadcastInDim S1x512 ![1] bcast_S512_S1x512_1 v)

/-! ## Linear → batch normalisation → rectification -/

/-- `x · Wᵀ + b`. -/
def lin (x : C S32768x1024) (wt : C S1024x512) (b : C S512) : C S32768x512 :=
  addf (F := Ideal) (Host.dotGeneral (F := Ideal) dot_S32768x1024_S1024x512_S32768x512_1_0_0_1_n_n none x wt) (rows b)

/-- The column mean: the column sum divided by 32768. -/
def mean (h : C S32768x512) : C S512 :=
  Host.divf (F := Ideal) (Host.reduceAdd (F := Ideal) h (constant (F := Ideal) S_ .f32 0x00000000#32) reducesTo_S32768x512_S512_d0 h_S_)
    (broadcastInDim S512 ![] bcast_S_S512 (constant (F := Ideal) S_ .f32 0x47000000#32))

/-- The deviations from the column mean, as the variance computes them (the mean kept as a [1, 512] row). -/
def dev (h : C S32768x512) : C S32768x512 :=
  subf (F := Ideal) h (broadcastInDim S32768x512 ![0, 1] bcast_S1x512_S32768x512_0_1
    (Host.divf
      (broadcastInDim S1x512 ![1] bcast_S512_S1x512_1
        (Host.reduceAdd (F := Ideal) h (constant (F := Ideal) S_ .f32 0x00000000#32) reducesTo_S32768x512_S512_d0 h_S_))
      (broadcastInDim S1x512 ![] bcast_S_S1x512 (constant (F := Ideal) S_ .f32 0x47000000#32))))

/-- The divisor of the variance: 32768 less the correction (the integer 0 converted). -/
def ddof : C S_ :=
  subf (F := Ideal) (constant (F := Ideal) S_ .f32 0x47000000#32) (sitofp (F := Ideal) .f32 (constantI S_ 32 0#32))

/-- The biased column variance: the mean of squared deviations where the divisor is positive, a NaN elsewhere. -/
def var (h : C S32768x512) : C S512 :=
  select
    (broadcastInDim S512 ![] bcast_S_S512 (cmpf (F := Ideal) .ogt ddof (constant (F := Ideal) S_ .f32 0x00000000#32)))
    (Host.divf
      (Host.reduceAdd (F := Ideal) (mulf (F := Ideal) (dev h) (dev h)) (constant (F := Ideal) S_ .f32 0x00000000#32) reducesTo_S32768x512_S512_d0 h_S_)
      (broadcastInDim S512 ![] bcast_S_S512 ddof))
    (broadcastInDim S512 ![] bcast_S_S512 (id (constant (F := Ideal) S_ .f32 0x7FC00000#32)))

/-- Normalise by the batch statistics, scale, shift, rectify. -/
def bnRelu (h : C S32768x512) (g beta : C S512) : C S32768x512 :=
  maximumf
    (addf
      (mulf
        (mulf (F := Ideal) (subf (F := Ideal) h (rows (mean h)))
          (rows (Host.rsqrt (F := Ideal) (addf (F := Ideal) (var h) (broadcastInDim S512 ![] bcast_S_S512 (constant (F := Ideal) S_ .f32 0x3727C5AC#32))))))
        (rows g))
      (rows beta))
    (broadcastInDim S32768x512 ![] bcast_S_S32768x512 (constant (F := Ideal) S_ .f32 0x00000000#32))

/-- One projection: row `offW 0` of the parameters applied to `x`. -/
def fc (x : C S32768x1024) (Ws : C S9x512x1024) (bs gammas betas : C S9x512)
    (offW : Fin S9x512x1024.rank → Nat) (hW : S9x512x1024.Slices offW S1x512x1024)
    (offB : Fin S9x512.rank → Nat) (hB : S9x512.Slices offB S1x512) : C S32768x512 :=
  bnRelu (lin x (wT Ws offW hW) (row bs offB hB)) (row gammas offB hB) (row betas offB hB)

/-! ## Attention -/

/-- `Qᵀ K / √1024`. -/
def logits (Q K : C S32768x512) : C S512x512 :=
  Host.divf
    (Host.dotGeneral (F := Ideal) dot_S512x32768_S32768x512_S512x512_1_0_0_1_n_n none
      (transpose S512x32768 [1, 0] Q transposes_S32768x512_S512x32768_1_0) K)
    (broadcastInDim S512x512 ![] bcast_S_S512x512 (Host.sqrt (F := Ideal) (constant (F := Ideal) S_ .f32 0x44800000#32)))

/-- A [512] vector repeated along the columns (through [512, 1]). -/
def cols (v : C S512) : C S512x512 :=
  broadcastInDim S512x512 ![0, 1] bcast_S512x1_S512x512_0_1 (broadcastInDim S512x1 ![0] bcast_S512_S512x1_0 v)

/-- The exponentials of the logits less their row maximum. -/
def expo (L : C S512x512) : C S512x512 :=
  Host.exp (F := Ideal) (subf (F := Ideal) L (cols (maximumf
    (broadcastInDim S512 ![] bcast_S_S512 (constant (F := Ideal) S_ .f32 0xFF800000#32))
    (Host.reduce (FloatOps.maximumf (F := Ideal) (φ := .f32)) L (constant (F := Ideal) S_ .f32 0xFF800000#32) reducesTo_S512x512_S512_d1 h_S_))))

/-- The row softmax. -/
def soft (L : C S512x512) : C S512x512 :=
  Host.divf (F := Ideal) (expo L)
    (cols (Host.reduceAdd (F := Ideal) (expo L) (constant (F := Ideal) S_ .f32 0x00000000#32) reducesTo_S512x512_S512_d1 h_S_))

/-- One attention: `V · softmax(Qᵀ K / √1024)ᵀ`. -/
def attn (Q K V : C S32768x512) : C S32768x512 :=
  Host.dotGeneral (F := Ideal) dot_S32768x512_S512x512_S32768x512_1_0_0_1_n_n none V
    (transpose S512x512 [1, 0] (soft (logits Q K)) transposes_S512x512_S512x512_1_0)

/-! ## The nine projections and the three results -/

section
variable (cx gx wx : C S32768x1024) (Ws : C S9x512x1024) (bs gammas betas : C S9x512)

def fc0 : C S32768x512 := fc cx Ws bs gammas betas ![0, 0, 0] slices_S9x512x1024_S1x512x1024_0_0_0 ![0, 0] slices_S9x512_S1x512_0_0
def fc1 : C S32768x512 := fc gx Ws bs gammas betas ![1, 0, 0] slices_S9x512x1024_S1x512x1024_1_0_0 ![1, 0] slices_S9x512_S1x512_1_0
def fc2 : C S32768x512 := fc gx Ws bs gammas betas ![2, 0, 0] slices_S9x512x1024_S1x512x1024_2_0_0 ![2, 0] slices_S9x512_S1x512_2_0
def fc3 : C S32768x512 := fc gx Ws bs gammas betas ![3, 0, 0] slices_S9x512x1024_S1x512x1024_3_0_0 ![3, 0] slices_S9x512_S1x512_3_0
def fc4 : C S32768x512 := fc wx Ws bs gammas betas ![4, 0, 0] slices_S9x512x1024_S1x512x1024_4_0_0 ![4, 0] slices_S9x512_S1x512_4_0
def fc5 : C S32768x512 := fc wx Ws bs gammas betas ![5, 0, 0] slices_S9x512x1024_S1x512x1024_5_0_0 ![5, 0] slices_S9x512_S1x512_5_0
def fc6 : C S32768x512 := fc wx Ws bs gammas betas ![6, 0, 0] slices_S9x512x1024_S1x512x1024_6_0_0 ![6, 0] slices_S9x512_S1x512_6_0
def fc7 : C S32768x512 := fc cx Ws bs gammas betas ![7, 0, 0] slices_S9x512x1024_S1x512x1024_7_0_0 ![7, 0] slices_S9x512_S1x512_7_0
def fc8 : C S32768x512 := fc cx Ws bs gammas betas ![8, 0, 0] slices_S9x512x1024_S1x512x1024_8_0_0 ![8, 0] slices_S9x512_S1x512_8_0

end

/-- The three results (`main_v116`, `main_v233`, `main_v350`). -/
def out0 (cx gx wx : C S32768x1024) (Ws : C S9x512x1024) (bs gammas betas : C S9x512) : C S32768x512 :=
  attn (fc0 cx Ws bs gammas betas) (fc1 gx Ws bs gammas betas) (fc2 gx Ws bs gammas betas)
def out1 (cx gx wx : C S32768x1024) (Ws : C S9x512x1024) (bs gammas betas : C S9x512) : C S32768x512 :=
  attn (fc3 gx Ws bs gammas betas) (fc4 wx Ws bs gammas betas) (fc5 wx Ws bs gammas betas)
def out2 (cx gx wx : C S32768x1024) (Ws : C S9x512x1024) (bs gammas betas : C S9x512) : C S32768x512 :=
  attn (fc6 wx Ws bs gammas betas) (fc7 cx Ws bs gammas betas) (fc8 cx Ws bs gammas betas)

end Cert.ReferenceIdeal.Hand

end
-- ==== Proof.Ref.Val.lean ====
/-
  Each block's result as the stage it computes, read off the fold of its operations; what a block does not write it keeps; and so,
  block after block, the three results as the stages of the seven arguments, and the arguments untouched.
-/
import proofs.«100284_j64536178590158_2_alg».proof.Proof.Ref.Chunks
import proofs.«100284_j64536178590158_2_alg».proof.Proof.Ref.Terms
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

local notation "𝕍" => Valuation τ sig (Elt Ideal)

attribute [local irreducible] Host.reduce Host.reduceAdd transpose shapeCast extractStridedSlice broadcastInDim select

/-- The contents before the first block. -/
def val0 (V0 : 𝕍) : 𝕍 := V0
theorem val0_main_arg0 (V0 : 𝕍) : val0 V0 (no_index (Proc.devRef .tc main_arg0)) = V0 (Proc.devRef .tc main_arg0) := rfl
theorem val0_main_arg1 (V0 : 𝕍) : val0 V0 (no_index (Proc.devRef .tc main_arg1)) = V0 (Proc.devRef .tc main_arg1) := rfl
theorem val0_main_arg2 (V0 : 𝕍) : val0 V0 (no_index (Proc.devRef .tc main_arg2)) = V0 (Proc.devRef .tc main_arg2) := rfl
theorem val0_main_arg3 (V0 : 𝕍) : val0 V0 (no_index (Proc.devRef .tc main_arg3)) = V0 (Proc.devRef .tc main_arg3) := rfl
theorem val0_main_arg4 (V0 : 𝕍) : val0 V0 (no_index (Proc.devRef .tc main_arg4)) = V0 (Proc.devRef .tc main_arg4) := rfl
theorem val0_main_arg5 (V0 : 𝕍) : val0 V0 (no_index (Proc.devRef .tc main_arg5)) = V0 (Proc.devRef .tc main_arg5) := rfl
theorem val0_main_arg6 (V0 : 𝕍) : val0 V0 (no_index (Proc.devRef .tc main_arg6)) = V0 (Proc.devRef .tc main_arg6) := rfl

set_option maxRecDepth 65536 in
set_option maxHeartbeats 4000000 in
/-- The block's result is its stage of the contents it starts from. -/
theorem fcOps0_out (V : 𝕍) : after (fcOps0 (F := Ideal)) V (no_index (Proc.devRef .tc main_v32)) = fc (V (Proc.devRef .tc main_arg0)) (V (Proc.devRef .tc main_arg3)) (V (Proc.devRef .tc main_arg4)) (V (Proc.devRef .tc main_arg5)) (V (Proc.devRef .tc main_arg6)) ![0, 0, 0] slices_S9x512x1024_S1x512x1024_0_0_0 ![0, 0] slices_S9x512_S1x512_0_0 := by
  simp only [fcOps0]
  after_results_simp
  rfl
/-- The buffers the block writes. -/
abbrev fcOps0_W : List (Ref sig .tc) := [main_v0, main_v1, main_v2, main_v3, main_v4, main_v5, main_v6, main_v7, main_v8, main_v9, main_v10, main_v11, main_v12, main_cst, main_v13, main_cst_0, main_v14, main_v15, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v16, main_v17, main_v18, main_v19, main_cst_1, main_v20, main_v21, main_v22, main_v23, main_v24, main_v25, main_v26, main_v27, main_v28, main_v29, main_v30, main_v31, main_call1_cst, main_call1_v0, main_v32]
set_option maxRecDepth 65536 in
theorem fcOps0_writes : (fcOps0 : List (HloOp τ sig (Elt Ideal))).Forall fun op => op.writes ⊆ (fcOps0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 1 blocks. -/
def val1 (V0 : 𝕍) : 𝕍 := after fcOps0 (val0 V0)
theorem val1_keep (V0 : 𝕍) (r : Ref sig .tc) (h : r ∉ fcOps0_W) : val1 V0 (Proc.devRef .tc r) = val0 V0 (Proc.devRef .tc r) :=
  after_of_writes_sub fcOps0 _ fcOps0_writes h
theorem val1_main_arg0 (V0 : 𝕍) : val1 V0 (no_index (Proc.devRef .tc main_arg0)) = V0 (Proc.devRef .tc main_arg0) :=
  (val1_keep V0 main_arg0 (by decide)).trans (val0_main_arg0 V0)
theorem val1_main_arg1 (V0 : 𝕍) : val1 V0 (no_index (Proc.devRef .tc main_arg1)) = V0 (Proc.devRef .tc main_arg1) :=
  (val1_keep V0 main_arg1 (by decide)).trans (val0_main_arg1 V0)
theorem val1_main_arg2 (V0 : 𝕍) : val1 V0 (no_index (Proc.devRef .tc main_arg2)) = V0 (Proc.devRef .tc main_arg2) :=
  (val1_keep V0 main_arg2 (by decide)).trans (val0_main_arg2 V0)
theorem val1_main_arg3 (V0 : 𝕍) : val1 V0 (no_index (Proc.devRef .tc main_arg3)) = V0 (Proc.devRef .tc main_arg3) :=
  (val1_keep V0 main_arg3 (by decide)).trans (val0_main_arg3 V0)
theorem val1_main_arg4 (V0 : 𝕍) : val1 V0 (no_index (Proc.devRef .tc main_arg4)) = V0 (Proc.devRef .tc main_arg4) :=
  (val1_keep V0 main_arg4 (by decide)).trans (val0_main_arg4 V0)
theorem val1_main_arg5 (V0 : 𝕍) : val1 V0 (no_index (Proc.devRef .tc main_arg5)) = V0 (Proc.devRef .tc main_arg5) :=
  (val1_keep V0 main_arg5 (by decide)).trans (val0_main_arg5 V0)
theorem val1_main_arg6 (V0 : 𝕍) : val1 V0 (no_index (Proc.devRef .tc main_arg6)) = V0 (Proc.devRef .tc main_arg6) :=
  (val1_keep V0 main_arg6 (by decide)).trans (val0_main_arg6 V0)
theorem val1_main_v32 (V0 : 𝕍) : val1 V0 (no_index (Proc.devRef .tc main_v32)) = fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0 :=
  (fcOps0_out (val0 V0)).trans (by rw [val0_main_arg0 V0, val0_main_arg3 V0, val0_main_arg4 V0, val0_main_arg5 V0, val0_main_arg6 V0])

set_option maxRecDepth 65536 in
set_option maxHeartbeats 4000000 in
/-- The block's result is its stage of the contents it starts from. -/
theorem fcOps1_out (V : 𝕍) : after (fcOps1 (F := Ideal)) V (no_index (Proc.devRef .tc main_v65)) = fc (V (Proc.devRef .tc main_arg1)) (V (Proc.devRef .tc main_arg3)) (V (Proc.devRef .tc main_arg4)) (V (Proc.devRef .tc main_arg5)) (V (Proc.devRef .tc main_arg6)) ![1, 0, 0] slices_S9x512x1024_S1x512x1024_1_0_0 ![1, 0] slices_S9x512_S1x512_1_0 := by
  simp only [fcOps1]
  after_results_simp
  rfl
/-- The buffers the block writes. -/
abbrev fcOps1_W : List (Ref sig .tc) := [main_v33, main_v34, main_v35, main_v36, main_v37, main_v38, main_v39, main_v40, main_v41, main_v42, main_v43, main_v44, main_v45, main_cst_2, main_v46, main_cst_3, main_v47, main_v48, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v49, main_v50, main_v51, main_v52, main_cst_5, main_v53, main_v54, main_v55, main_v56, main_v57, main_v58, main_v59, main_v60, main_v61, main_v62, main_v63, main_v64, main_call3_cst, main_call3_v0, main_v65]
set_option maxRecDepth 65536 in
theorem fcOps1_writes : (fcOps1 : List (HloOp τ sig (Elt Ideal))).Forall fun op => op.writes ⊆ (fcOps1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 2 blocks. -/
def val2 (V0 : 𝕍) : 𝕍 := after fcOps1 (val1 V0)
theorem val2_keep (V0 : 𝕍) (r : Ref sig .tc) (h : r ∉ fcOps1_W) : val2 V0 (Proc.devRef .tc r) = val1 V0 (Proc.devRef .tc r) :=
  after_of_writes_sub fcOps1 _ fcOps1_writes h
theorem val2_main_arg0 (V0 : 𝕍) : val2 V0 (no_index (Proc.devRef .tc main_arg0)) = V0 (Proc.devRef .tc main_arg0) :=
  (val2_keep V0 main_arg0 (by decide)).trans (val1_main_arg0 V0)
theorem val2_main_arg1 (V0 : 𝕍) : val2 V0 (no_index (Proc.devRef .tc main_arg1)) = V0 (Proc.devRef .tc main_arg1) :=
  (val2_keep V0 main_arg1 (by decide)).trans (val1_main_arg1 V0)
theorem val2_main_arg2 (V0 : 𝕍) : val2 V0 (no_index (Proc.devRef .tc main_arg2)) = V0 (Proc.devRef .tc main_arg2) :=
  (val2_keep V0 main_arg2 (by decide)).trans (val1_main_arg2 V0)
theorem val2_main_arg3 (V0 : 𝕍) : val2 V0 (no_index (Proc.devRef .tc main_arg3)) = V0 (Proc.devRef .tc main_arg3) :=
  (val2_keep V0 main_arg3 (by decide)).trans (val1_main_arg3 V0)
theorem val2_main_arg4 (V0 : 𝕍) : val2 V0 (no_index (Proc.devRef .tc main_arg4)) = V0 (Proc.devRef .tc main_arg4) :=
  (val2_keep V0 main_arg4 (by decide)).trans (val1_main_arg4 V0)
theorem val2_main_arg5 (V0 : 𝕍) : val2 V0 (no_index (Proc.devRef .tc main_arg5)) = V0 (Proc.devRef .tc main_arg5) :=
  (val2_keep V0 main_arg5 (by decide)).trans (val1_main_arg5 V0)
theorem val2_main_arg6 (V0 : 𝕍) : val2 V0 (no_index (Proc.devRef .tc main_arg6)) = V0 (Proc.devRef .tc main_arg6) :=
  (val2_keep V0 main_arg6 (by decide)).trans (val1_main_arg6 V0)
theorem val2_main_v32 (V0 : 𝕍) : val2 V0 (no_index (Proc.devRef .tc main_v32)) = fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0 :=
  (val2_keep V0 main_v32 (by decide)).trans (val1_main_v32 V0)
theorem val2_main_v65 (V0 : 𝕍) : val2 V0 (no_index (Proc.devRef .tc main_v65)) = fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0 :=
  (fcOps1_out (val1 V0)).trans (by rw [val1_main_arg1 V0, val1_main_arg3 V0, val1_main_arg4 V0, val1_main_arg5 V0, val1_main_arg6 V0])

set_option maxRecDepth 65536 in
set_option maxHeartbeats 4000000 in
/-- The block's result is its stage of the contents it starts from. -/
theorem fcOps2_out (V : 𝕍) : after (fcOps2 (F := Ideal)) V (no_index (Proc.devRef .tc main_v98)) = fc (V (Proc.devRef .tc main_arg1)) (V (Proc.devRef .tc main_arg3)) (V (Proc.devRef .tc main_arg4)) (V (Proc.devRef .tc main_arg5)) (V (Proc.devRef .tc main_arg6)) ![2, 0, 0] slices_S9x512x1024_S1x512x1024_2_0_0 ![2, 0] slices_S9x512_S1x512_2_0 := by
  simp only [fcOps2]
  after_results_simp
  rfl
/-- The buffers the block writes. -/
abbrev fcOps2_W : List (Ref sig .tc) := [main_v66, main_v67, main_v68, main_v69, main_v70, main_v71, main_v72, main_v73, main_v74, main_v75, main_v76, main_v77, main_v78, main_cst_6, main_v79, main_cst_7, main_v80, main_v81, main_c_8, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v82, main_v83, main_v84, main_v85, main_cst_9, main_v86, main_v87, main_v88, main_v89, main_v90, main_v91, main_v92, main_v93, main_v94, main_v95, main_v96, main_v97, main_call5_cst, main_call5_v0, main_v98]
set_option maxRecDepth 65536 in
theorem fcOps2_writes : (fcOps2 : List (HloOp τ sig (Elt Ideal))).Forall fun op => op.writes ⊆ (fcOps2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 3 blocks. -/
def val3 (V0 : 𝕍) : 𝕍 := after fcOps2 (val2 V0)
theorem val3_keep (V0 : 𝕍) (r : Ref sig .tc) (h : r ∉ fcOps2_W) : val3 V0 (Proc.devRef .tc r) = val2 V0 (Proc.devRef .tc r) :=
  after_of_writes_sub fcOps2 _ fcOps2_writes h
theorem val3_main_arg0 (V0 : 𝕍) : val3 V0 (no_index (Proc.devRef .tc main_arg0)) = V0 (Proc.devRef .tc main_arg0) :=
  (val3_keep V0 main_arg0 (by decide)).trans (val2_main_arg0 V0)
theorem val3_main_arg1 (V0 : 𝕍) : val3 V0 (no_index (Proc.devRef .tc main_arg1)) = V0 (Proc.devRef .tc main_arg1) :=
  (val3_keep V0 main_arg1 (by decide)).trans (val2_main_arg1 V0)
theorem val3_main_arg2 (V0 : 𝕍) : val3 V0 (no_index (Proc.devRef .tc main_arg2)) = V0 (Proc.devRef .tc main_arg2) :=
  (val3_keep V0 main_arg2 (by decide)).trans (val2_main_arg2 V0)
theorem val3_main_arg3 (V0 : 𝕍) : val3 V0 (no_index (Proc.devRef .tc main_arg3)) = V0 (Proc.devRef .tc main_arg3) :=
  (val3_keep V0 main_arg3 (by decide)).trans (val2_main_arg3 V0)
theorem val3_main_arg4 (V0 : 𝕍) : val3 V0 (no_index (Proc.devRef .tc main_arg4)) = V0 (Proc.devRef .tc main_arg4) :=
  (val3_keep V0 main_arg4 (by decide)).trans (val2_main_arg4 V0)
theorem val3_main_arg5 (V0 : 𝕍) : val3 V0 (no_index (Proc.devRef .tc main_arg5)) = V0 (Proc.devRef .tc main_arg5) :=
  (val3_keep V0 main_arg5 (by decide)).trans (val2_main_arg5 V0)
theorem val3_main_arg6 (V0 : 𝕍) : val3 V0 (no_index (Proc.devRef .tc main_arg6)) = V0 (Proc.devRef .tc main_arg6) :=
  (val3_keep V0 main_arg6 (by decide)).trans (val2_main_arg6 V0)
theorem val3_main_v32 (V0 : 𝕍) : val3 V0 (no_index (Proc.devRef .tc main_v32)) = fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0 :=
  (val3_keep V0 main_v32 (by decide)).trans (val2_main_v32 V0)
theorem val3_main_v65 (V0 : 𝕍) : val3 V0 (no_index (Proc.devRef .tc main_v65)) = fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0 :=
  (val3_keep V0 main_v65 (by decide)).trans (val2_main_v65 V0)
theorem val3_main_v98 (V0 : 𝕍) : val3 V0 (no_index (Proc.devRef .tc main_v98)) = fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0 :=
  (fcOps2_out (val2 V0)).trans (by rw [val2_main_arg1 V0, val2_main_arg3 V0, val2_main_arg4 V0, val2_main_arg5 V0, val2_main_arg6 V0])

set_option maxRecDepth 65536 in
set_option maxHeartbeats 4000000 in
/-- The block's result is its stage of the contents it starts from. -/
theorem attOps0_out (V : 𝕍) : after (attOps0 (F := Ideal)) V (no_index (Proc.devRef .tc main_v116)) = attn (V (Proc.devRef .tc main_v32)) (V (Proc.devRef .tc main_v65)) (V (Proc.devRef .tc main_v98)) := by
  simp only [attOps0]
  after_results_simp
  rfl
/-- The buffers the block writes. -/
abbrev attOps0_W : List (Ref sig .tc) := [main_v99, main_v100, main_cst_10, main_v101, main_v102, main_v103, main_cst_11, main_v104, main_cst_12, main_v105, main_v106, main_v107, main_v108, main_v109, main_v110, main_cst_13, main_v111, main_v112, main_v113, main_v114, main_v115, main_v116]
set_option maxRecDepth 65536 in
theorem attOps0_writes : (attOps0 : List (HloOp τ sig (Elt Ideal))).Forall fun op => op.writes ⊆ (attOps0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 4 blocks. -/
def val4 (V0 : 𝕍) : 𝕍 := after attOps0 (val3 V0)
theorem val4_keep (V0 : 𝕍) (r : Ref sig .tc) (h : r ∉ attOps0_W) : val4 V0 (Proc.devRef .tc r) = val3 V0 (Proc.devRef .tc r) :=
  after_of_writes_sub attOps0 _ attOps0_writes h
theorem val4_main_arg0 (V0 : 𝕍) : val4 V0 (no_index (Proc.devRef .tc main_arg0)) = V0 (Proc.devRef .tc main_arg0) :=
  (val4_keep V0 main_arg0 (by decide)).trans (val3_main_arg0 V0)
theorem val4_main_arg1 (V0 : 𝕍) : val4 V0 (no_index (Proc.devRef .tc main_arg1)) = V0 (Proc.devRef .tc main_arg1) :=
  (val4_keep V0 main_arg1 (by decide)).trans (val3_main_arg1 V0)
theorem val4_main_arg2 (V0 : 𝕍) : val4 V0 (no_index (Proc.devRef .tc main_arg2)) = V0 (Proc.devRef .tc main_arg2) :=
  (val4_keep V0 main_arg2 (by decide)).trans (val3_main_arg2 V0)
theorem val4_main_arg3 (V0 : 𝕍) : val4 V0 (no_index (Proc.devRef .tc main_arg3)) = V0 (Proc.devRef .tc main_arg3) :=
  (val4_keep V0 main_arg3 (by decide)).trans (val3_main_arg3 V0)
theorem val4_main_arg4 (V0 : 𝕍) : val4 V0 (no_index (Proc.devRef .tc main_arg4)) = V0 (Proc.devRef .tc main_arg4) :=
  (val4_keep V0 main_arg4 (by decide)).trans (val3_main_arg4 V0)
theorem val4_main_arg5 (V0 : 𝕍) : val4 V0 (no_index (Proc.devRef .tc main_arg5)) = V0 (Proc.devRef .tc main_arg5) :=
  (val4_keep V0 main_arg5 (by decide)).trans (val3_main_arg5 V0)
theorem val4_main_arg6 (V0 : 𝕍) : val4 V0 (no_index (Proc.devRef .tc main_arg6)) = V0 (Proc.devRef .tc main_arg6) :=
  (val4_keep V0 main_arg6 (by decide)).trans (val3_main_arg6 V0)
theorem val4_main_v32 (V0 : 𝕍) : val4 V0 (no_index (Proc.devRef .tc main_v32)) = fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0 :=
  (val4_keep V0 main_v32 (by decide)).trans (val3_main_v32 V0)
theorem val4_main_v65 (V0 : 𝕍) : val4 V0 (no_index (Proc.devRef .tc main_v65)) = fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0 :=
  (val4_keep V0 main_v65 (by decide)).trans (val3_main_v65 V0)
theorem val4_main_v98 (V0 : 𝕍) : val4 V0 (no_index (Proc.devRef .tc main_v98)) = fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0 :=
  (val4_keep V0 main_v98 (by decide)).trans (val3_main_v98 V0)
theorem val4_main_v116 (V0 : 𝕍) : val4 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (attOps0_out (val3 V0)).trans (by rw [val3_main_v32 V0, val3_main_v65 V0, val3_main_v98 V0])

set_option maxRecDepth 65536 in
set_option maxHeartbeats 4000000 in
/-- The block's result is its stage of the contents it starts from. -/
theorem fcOps3_out (V : 𝕍) : after (fcOps3 (F := Ideal)) V (no_index (Proc.devRef .tc main_v149)) = fc (V (Proc.devRef .tc main_arg1)) (V (Proc.devRef .tc main_arg3)) (V (Proc.devRef .tc main_arg4)) (V (Proc.devRef .tc main_arg5)) (V (Proc.devRef .tc main_arg6)) ![3, 0, 0] slices_S9x512x1024_S1x512x1024_3_0_0 ![3, 0] slices_S9x512_S1x512_3_0 := by
  simp only [fcOps3]
  after_results_simp
  rfl
/-- The buffers the block writes. -/
abbrev fcOps3_W : List (Ref sig .tc) := [main_v117, main_v118, main_v119, main_v120, main_v121, main_v122, main_v123, main_v124, main_v125, main_v126, main_v127, main_v128, main_v129, main_cst_14, main_v130, main_cst_15, main_v131, main_v132, main_c_16, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v133, main_v134, main_v135, main_v136, main_cst_17, main_v137, main_v138, main_v139, main_v140, main_v141, main_v142, main_v143, main_v144, main_v145, main_v146, main_v147, main_v148, main_call7_cst, main_call7_v0, main_v149]
set_option maxRecDepth 65536 in
theorem fcOps3_writes : (fcOps3 : List (HloOp τ sig (Elt Ideal))).Forall fun op => op.writes ⊆ (fcOps3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 5 blocks. -/
def val5 (V0 : 𝕍) : 𝕍 := after fcOps3 (val4 V0)
theorem val5_keep (V0 : 𝕍) (r : Ref sig .tc) (h : r ∉ fcOps3_W) : val5 V0 (Proc.devRef .tc r) = val4 V0 (Proc.devRef .tc r) :=
  after_of_writes_sub fcOps3 _ fcOps3_writes h
theorem val5_main_arg0 (V0 : 𝕍) : val5 V0 (no_index (Proc.devRef .tc main_arg0)) = V0 (Proc.devRef .tc main_arg0) :=
  (val5_keep V0 main_arg0 (by decide)).trans (val4_main_arg0 V0)
theorem val5_main_arg1 (V0 : 𝕍) : val5 V0 (no_index (Proc.devRef .tc main_arg1)) = V0 (Proc.devRef .tc main_arg1) :=
  (val5_keep V0 main_arg1 (by decide)).trans (val4_main_arg1 V0)
theorem val5_main_arg2 (V0 : 𝕍) : val5 V0 (no_index (Proc.devRef .tc main_arg2)) = V0 (Proc.devRef .tc main_arg2) :=
  (val5_keep V0 main_arg2 (by decide)).trans (val4_main_arg2 V0)
theorem val5_main_arg3 (V0 : 𝕍) : val5 V0 (no_index (Proc.devRef .tc main_arg3)) = V0 (Proc.devRef .tc main_arg3) :=
  (val5_keep V0 main_arg3 (by decide)).trans (val4_main_arg3 V0)
theorem val5_main_arg4 (V0 : 𝕍) : val5 V0 (no_index (Proc.devRef .tc main_arg4)) = V0 (Proc.devRef .tc main_arg4) :=
  (val5_keep V0 main_arg4 (by decide)).trans (val4_main_arg4 V0)
theorem val5_main_arg5 (V0 : 𝕍) : val5 V0 (no_index (Proc.devRef .tc main_arg5)) = V0 (Proc.devRef .tc main_arg5) :=
  (val5_keep V0 main_arg5 (by decide)).trans (val4_main_arg5 V0)
theorem val5_main_arg6 (V0 : 𝕍) : val5 V0 (no_index (Proc.devRef .tc main_arg6)) = V0 (Proc.devRef .tc main_arg6) :=
  (val5_keep V0 main_arg6 (by decide)).trans (val4_main_arg6 V0)
theorem val5_main_v116 (V0 : 𝕍) : val5 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val5_keep V0 main_v116 (by decide)).trans (val4_main_v116 V0)
theorem val5_main_v149 (V0 : 𝕍) : val5 V0 (no_index (Proc.devRef .tc main_v149)) = fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0 :=
  (fcOps3_out (val4 V0)).trans (by rw [val4_main_arg1 V0, val4_main_arg3 V0, val4_main_arg4 V0, val4_main_arg5 V0, val4_main_arg6 V0])

set_option maxRecDepth 65536 in
set_option maxHeartbeats 4000000 in
/-- The block's result is its stage of the contents it starts from. -/
theorem fcOps4_out (V : 𝕍) : after (fcOps4 (F := Ideal)) V (no_index (Proc.devRef .tc main_v182)) = fc (V (Proc.devRef .tc main_arg2)) (V (Proc.devRef .tc main_arg3)) (V (Proc.devRef .tc main_arg4)) (V (Proc.devRef .tc main_arg5)) (V (Proc.devRef .tc main_arg6)) ![4, 0, 0] slices_S9x512x1024_S1x512x1024_4_0_0 ![4, 0] slices_S9x512_S1x512_4_0 := by
  simp only [fcOps4]
  after_results_simp
  rfl
/-- The buffers the block writes. -/
abbrev fcOps4_W : List (Ref sig .tc) := [main_v150, main_v151, main_v152, main_v153, main_v154, main_v155, main_v156, main_v157, main_v158, main_v159, main_v160, main_v161, main_v162, main_cst_18, main_v163, main_cst_19, main_v164, main_v165, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v166, main_v167, main_v168, main_v169, main_cst_21, main_v170, main_v171, main_v172, main_v173, main_v174, main_v175, main_v176, main_v177, main_v178, main_v179, main_v180, main_v181, main_call9_cst, main_call9_v0, main_v182]
set_option maxRecDepth 65536 in
theorem fcOps4_writes : (fcOps4 : List (HloOp τ sig (Elt Ideal))).Forall fun op => op.writes ⊆ (fcOps4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 6 blocks. -/
def val6 (V0 : 𝕍) : 𝕍 := after fcOps4 (val5 V0)
theorem val6_keep (V0 : 𝕍) (r : Ref sig .tc) (h : r ∉ fcOps4_W) : val6 V0 (Proc.devRef .tc r) = val5 V0 (Proc.devRef .tc r) :=
  after_of_writes_sub fcOps4 _ fcOps4_writes h
theorem val6_main_arg0 (V0 : 𝕍) : val6 V0 (no_index (Proc.devRef .tc main_arg0)) = V0 (Proc.devRef .tc main_arg0) :=
  (val6_keep V0 main_arg0 (by decide)).trans (val5_main_arg0 V0)
theorem val6_main_arg1 (V0 : 𝕍) : val6 V0 (no_index (Proc.devRef .tc main_arg1)) = V0 (Proc.devRef .tc main_arg1) :=
  (val6_keep V0 main_arg1 (by decide)).trans (val5_main_arg1 V0)
theorem val6_main_arg2 (V0 : 𝕍) : val6 V0 (no_index (Proc.devRef .tc main_arg2)) = V0 (Proc.devRef .tc main_arg2) :=
  (val6_keep V0 main_arg2 (by decide)).trans (val5_main_arg2 V0)
theorem val6_main_arg3 (V0 : 𝕍) : val6 V0 (no_index (Proc.devRef .tc main_arg3)) = V0 (Proc.devRef .tc main_arg3) :=
  (val6_keep V0 main_arg3 (by decide)).trans (val5_main_arg3 V0)
theorem val6_main_arg4 (V0 : 𝕍) : val6 V0 (no_index (Proc.devRef .tc main_arg4)) = V0 (Proc.devRef .tc main_arg4) :=
  (val6_keep V0 main_arg4 (by decide)).trans (val5_main_arg4 V0)
theorem val6_main_arg5 (V0 : 𝕍) : val6 V0 (no_index (Proc.devRef .tc main_arg5)) = V0 (Proc.devRef .tc main_arg5) :=
  (val6_keep V0 main_arg5 (by decide)).trans (val5_main_arg5 V0)
theorem val6_main_arg6 (V0 : 𝕍) : val6 V0 (no_index (Proc.devRef .tc main_arg6)) = V0 (Proc.devRef .tc main_arg6) :=
  (val6_keep V0 main_arg6 (by decide)).trans (val5_main_arg6 V0)
theorem val6_main_v116 (V0 : 𝕍) : val6 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val6_keep V0 main_v116 (by decide)).trans (val5_main_v116 V0)
theorem val6_main_v149 (V0 : 𝕍) : val6 V0 (no_index (Proc.devRef .tc main_v149)) = fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0 :=
  (val6_keep V0 main_v149 (by decide)).trans (val5_main_v149 V0)
theorem val6_main_v182 (V0 : 𝕍) : val6 V0 (no_index (Proc.devRef .tc main_v182)) = fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0 :=
  (fcOps4_out (val5 V0)).trans (by rw [val5_main_arg2 V0, val5_main_arg3 V0, val5_main_arg4 V0, val5_main_arg5 V0, val5_main_arg6 V0])

set_option maxRecDepth 65536 in
set_option maxHeartbeats 4000000 in
/-- The block's result is its stage of the contents it starts from. -/
theorem fcOps5_out (V : 𝕍) : after (fcOps5 (F := Ideal)) V (no_index (Proc.devRef .tc main_v215)) = fc (V (Proc.devRef .tc main_arg2)) (V (Proc.devRef .tc main_arg3)) (V (Proc.devRef .tc main_arg4)) (V (Proc.devRef .tc main_arg5)) (V (Proc.devRef .tc main_arg6)) ![5, 0, 0] slices_S9x512x1024_S1x512x1024_5_0_0 ![5, 0] slices_S9x512_S1x512_5_0 := by
  simp only [fcOps5]
  after_results_simp
  rfl
/-- The buffers the block writes. -/
abbrev fcOps5_W : List (Ref sig .tc) := [main_v183, main_v184, main_v185, main_v186, main_v187, main_v188, main_v189, main_v190, main_v191, main_v192, main_v193, main_v194, main_v195, main_cst_22, main_v196, main_cst_23, main_v197, main_v198, main_c_24, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v199, main_v200, main_v201, main_v202, main_cst_25, main_v203, main_v204, main_v205, main_v206, main_v207, main_v208, main_v209, main_v210, main_v211, main_v212, main_v213, main_v214, main_call11_cst, main_call11_v0, main_v215]
set_option maxRecDepth 65536 in
theorem fcOps5_writes : (fcOps5 : List (HloOp τ sig (Elt Ideal))).Forall fun op => op.writes ⊆ (fcOps5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 7 blocks. -/
def val7 (V0 : 𝕍) : 𝕍 := after fcOps5 (val6 V0)
theorem val7_keep (V0 : 𝕍) (r : Ref sig .tc) (h : r ∉ fcOps5_W) : val7 V0 (Proc.devRef .tc r) = val6 V0 (Proc.devRef .tc r) :=
  after_of_writes_sub fcOps5 _ fcOps5_writes h
theorem val7_main_arg0 (V0 : 𝕍) : val7 V0 (no_index (Proc.devRef .tc main_arg0)) = V0 (Proc.devRef .tc main_arg0) :=
  (val7_keep V0 main_arg0 (by decide)).trans (val6_main_arg0 V0)
theorem val7_main_arg1 (V0 : 𝕍) : val7 V0 (no_index (Proc.devRef .tc main_arg1)) = V0 (Proc.devRef .tc main_arg1) :=
  (val7_keep V0 main_arg1 (by decide)).trans (val6_main_arg1 V0)
theorem val7_main_arg2 (V0 : 𝕍) : val7 V0 (no_index (Proc.devRef .tc main_arg2)) = V0 (Proc.devRef .tc main_arg2) :=
  (val7_keep V0 main_arg2 (by decide)).trans (val6_main_arg2 V0)
theorem val7_main_arg3 (V0 : 𝕍) : val7 V0 (no_index (Proc.devRef .tc main_arg3)) = V0 (Proc.devRef .tc main_arg3) :=
  (val7_keep V0 main_arg3 (by decide)).trans (val6_main_arg3 V0)
theorem val7_main_arg4 (V0 : 𝕍) : val7 V0 (no_index (Proc.devRef .tc main_arg4)) = V0 (Proc.devRef .tc main_arg4) :=
  (val7_keep V0 main_arg4 (by decide)).trans (val6_main_arg4 V0)
theorem val7_main_arg5 (V0 : 𝕍) : val7 V0 (no_index (Proc.devRef .tc main_arg5)) = V0 (Proc.devRef .tc main_arg5) :=
  (val7_keep V0 main_arg5 (by decide)).trans (val6_main_arg5 V0)
theorem val7_main_arg6 (V0 : 𝕍) : val7 V0 (no_index (Proc.devRef .tc main_arg6)) = V0 (Proc.devRef .tc main_arg6) :=
  (val7_keep V0 main_arg6 (by decide)).trans (val6_main_arg6 V0)
theorem val7_main_v116 (V0 : 𝕍) : val7 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val7_keep V0 main_v116 (by decide)).trans (val6_main_v116 V0)
theorem val7_main_v149 (V0 : 𝕍) : val7 V0 (no_index (Proc.devRef .tc main_v149)) = fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0 :=
  (val7_keep V0 main_v149 (by decide)).trans (val6_main_v149 V0)
theorem val7_main_v182 (V0 : 𝕍) : val7 V0 (no_index (Proc.devRef .tc main_v182)) = fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0 :=
  (val7_keep V0 main_v182 (by decide)).trans (val6_main_v182 V0)
theorem val7_main_v215 (V0 : 𝕍) : val7 V0 (no_index (Proc.devRef .tc main_v215)) = fc (V0 (Proc.devRef .tc main_arg2)) (V0 (Proc.devRef .tc main_arg3)) (V0 (Proc.devRef .tc main_arg4)) (V0 (Proc.devRef .tc main_arg5)) (V0 (Proc.devRef .tc main_arg6)) ![5, 0, 0] slices_S9x512x1024_S1x512x1024_5_0_0 ![5, 0] slices_S9x512_S1x512_5_0 :=
  (fcOps5_out (val6 V0)).trans (by rw [val6_main_arg2 V0, val6_main_arg3 V0, val6_main_arg4 V0, val6_main_arg5 V0, val6_main_arg6 V0])

set_option maxRecDepth 65536 in
set_option maxHeartbeats 4000000 in
/-- The block's result is its stage of the contents it starts from. -/
theorem attOps1_out (V : 𝕍) : after (attOps1 (F := Ideal)) V (no_index (Proc.devRef .tc main_v233)) = attn (V (Proc.devRef .tc main_v149)) (V (Proc.devRef .tc main_v182)) (V (Proc.devRef .tc main_v215)) := by
  simp only [attOps1]
  after_results_simp
  rfl
/-- The buffers the block writes. -/
abbrev attOps1_W : List (Ref sig .tc) := [main_v216, main_v217, main_cst_26, main_v218, main_v219, main_v220, main_cst_27, main_v221, main_cst_28, main_v222, main_v223, main_v224, main_v225, main_v226, main_v227, main_cst_29, main_v228, main_v229, main_v230, main_v231, main_v232, main_v233]
set_option maxRecDepth 65536 in
theorem attOps1_writes : (attOps1 : List (HloOp τ sig (Elt Ideal))).Forall fun op => op.writes ⊆ (attOps1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 8 blocks. -/
def val8 (V0 : 𝕍) : 𝕍 := after attOps1 (val7 V0)
theorem val8_keep (V0 : 𝕍) (r : Ref sig .tc) (h : r ∉ attOps1_W) : val8 V0 (Proc.devRef .tc r) = val7 V0 (Proc.devRef .tc r) :=
  after_of_writes_sub attOps1 _ attOps1_writes h
theorem val8_main_arg0 (V0 : 𝕍) : val8 V0 (no_index (Proc.devRef .tc main_arg0)) = V0 (Proc.devRef .tc main_arg0) :=
  (val8_keep V0 main_arg0 (by decide)).trans (val7_main_arg0 V0)
theorem val8_main_arg1 (V0 : 𝕍) : val8 V0 (no_index (Proc.devRef .tc main_arg1)) = V0 (Proc.devRef .tc main_arg1) :=
  (val8_keep V0 main_arg1 (by decide)).trans (val7_main_arg1 V0)
theorem val8_main_arg2 (V0 : 𝕍) : val8 V0 (no_index (Proc.devRef .tc main_arg2)) = V0 (Proc.devRef .tc main_arg2) :=
  (val8_keep V0 main_arg2 (by decide)).trans (val7_main_arg2 V0)
theorem val8_main_arg3 (V0 : 𝕍) : val8 V0 (no_index (Proc.devRef .tc main_arg3)) = V0 (Proc.devRef .tc main_arg3) :=
  (val8_keep V0 main_arg3 (by decide)).trans (val7_main_arg3 V0)
theorem val8_main_arg4 (V0 : 𝕍) : val8 V0 (no_index (Proc.devRef .tc main_arg4)) = V0 (Proc.devRef .tc main_arg4) :=
  (val8_keep V0 main_arg4 (by decide)).trans (val7_main_arg4 V0)
theorem val8_main_arg5 (V0 : 𝕍) : val8 V0 (no_index (Proc.devRef .tc main_arg5)) = V0 (Proc.devRef .tc main_arg5) :=
  (val8_keep V0 main_arg5 (by decide)).trans (val7_main_arg5 V0)
theorem val8_main_arg6 (V0 : 𝕍) : val8 V0 (no_index (Proc.devRef .tc main_arg6)) = V0 (Proc.devRef .tc main_arg6) :=
  (val8_keep V0 main_arg6 (by decide)).trans (val7_main_arg6 V0)
theorem val8_main_v116 (V0 : 𝕍) : val8 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val8_keep V0 main_v116 (by decide)).trans (val7_main_v116 V0)
theorem val8_main_v149 (V0 : 𝕍) : val8 V0 (no_index (Proc.devRef .tc main_v149)) = fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0 :=
  (val8_keep V0 main_v149 (by decide)).trans (val7_main_v149 V0)
theorem val8_main_v182 (V0 : 𝕍) : val8 V0 (no_index (Proc.devRef .tc main_v182)) = fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0 :=
  (val8_keep V0 main_v182 (by decide)).trans (val7_main_v182 V0)
theorem val8_main_v215 (V0 : 𝕍) : val8 V0 (no_index (Proc.devRef .tc main_v215)) = fc (V0 (Proc.devRef .tc main_arg2)) (V0 (Proc.devRef .tc main_arg3)) (V0 (Proc.devRef .tc main_arg4)) (V0 (Proc.devRef .tc main_arg5)) (V0 (Proc.devRef .tc main_arg6)) ![5, 0, 0] slices_S9x512x1024_S1x512x1024_5_0_0 ![5, 0] slices_S9x512_S1x512_5_0 :=
  (val8_keep V0 main_v215 (by decide)).trans (val7_main_v215 V0)
theorem val8_main_v233 (V0 : 𝕍) : val8 V0 (no_index (Proc.devRef .tc main_v233)) = attn (fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0) (fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0) (fc (V0 (Proc.devRef .tc main_arg2)) (V0 (Proc.devRef .tc main_arg3)) (V0 (Proc.devRef .tc main_arg4)) (V0 (Proc.devRef .tc main_arg5)) (V0 (Proc.devRef .tc main_arg6)) ![5, 0, 0] slices_S9x512x1024_S1x512x1024_5_0_0 ![5, 0] slices_S9x512_S1x512_5_0) :=
  (attOps1_out (val7 V0)).trans (by rw [val7_main_v149 V0, val7_main_v182 V0, val7_main_v215 V0])

set_option maxRecDepth 65536 in
set_option maxHeartbeats 4000000 in
/-- The block's result is its stage of the contents it starts from. -/
theorem fcOps6_out (V : 𝕍) : after (fcOps6 (F := Ideal)) V (no_index (Proc.devRef .tc main_v266)) = fc (V (Proc.devRef .tc main_arg2)) (V (Proc.devRef .tc main_arg3)) (V (Proc.devRef .tc main_arg4)) (V (Proc.devRef .tc main_arg5)) (V (Proc.devRef .tc main_arg6)) ![6, 0, 0] slices_S9x512x1024_S1x512x1024_6_0_0 ![6, 0] slices_S9x512_S1x512_6_0 := by
  simp only [fcOps6]
  after_results_simp
  rfl
/-- The buffers the block writes. -/
abbrev fcOps6_W : List (Ref sig .tc) := [main_v234, main_v235, main_v236, main_v237, main_v238, main_v239, main_v240, main_v241, main_v242, main_v243, main_v244, main_v245, main_v246, main_cst_30, main_v247, main_cst_31, main_v248, main_v249, main_c_32, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v250, main_v251, main_v252, main_v253, main_cst_33, main_v254, main_v255, main_v256, main_v257, main_v258, main_v259, main_v260, main_v261, main_v262, main_v263, main_v264, main_v265, main_call13_cst, main_call13_v0, main_v266]
set_option maxRecDepth 65536 in
theorem fcOps6_writes : (fcOps6 : List (HloOp τ sig (Elt Ideal))).Forall fun op => op.writes ⊆ (fcOps6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 9 blocks. -/
def val9 (V0 : 𝕍) : 𝕍 := after fcOps6 (val8 V0)
theorem val9_keep (V0 : 𝕍) (r : Ref sig .tc) (h : r ∉ fcOps6_W) : val9 V0 (Proc.devRef .tc r) = val8 V0 (Proc.devRef .tc r) :=
  after_of_writes_sub fcOps6 _ fcOps6_writes h
theorem val9_main_arg0 (V0 : 𝕍) : val9 V0 (no_index (Proc.devRef .tc main_arg0)) = V0 (Proc.devRef .tc main_arg0) :=
  (val9_keep V0 main_arg0 (by decide)).trans (val8_main_arg0 V0)
theorem val9_main_arg1 (V0 : 𝕍) : val9 V0 (no_index (Proc.devRef .tc main_arg1)) = V0 (Proc.devRef .tc main_arg1) :=
  (val9_keep V0 main_arg1 (by decide)).trans (val8_main_arg1 V0)
theorem val9_main_arg2 (V0 : 𝕍) : val9 V0 (no_index (Proc.devRef .tc main_arg2)) = V0 (Proc.devRef .tc main_arg2) :=
  (val9_keep V0 main_arg2 (by decide)).trans (val8_main_arg2 V0)
theorem val9_main_arg3 (V0 : 𝕍) : val9 V0 (no_index (Proc.devRef .tc main_arg3)) = V0 (Proc.devRef .tc main_arg3) :=
  (val9_keep V0 main_arg3 (by decide)).trans (val8_main_arg3 V0)
theorem val9_main_arg4 (V0 : 𝕍) : val9 V0 (no_index (Proc.devRef .tc main_arg4)) = V0 (Proc.devRef .tc main_arg4) :=
  (val9_keep V0 main_arg4 (by decide)).trans (val8_main_arg4 V0)
theorem val9_main_arg5 (V0 : 𝕍) : val9 V0 (no_index (Proc.devRef .tc main_arg5)) = V0 (Proc.devRef .tc main_arg5) :=
  (val9_keep V0 main_arg5 (by decide)).trans (val8_main_arg5 V0)
theorem val9_main_arg6 (V0 : 𝕍) : val9 V0 (no_index (Proc.devRef .tc main_arg6)) = V0 (Proc.devRef .tc main_arg6) :=
  (val9_keep V0 main_arg6 (by decide)).trans (val8_main_arg6 V0)
theorem val9_main_v116 (V0 : 𝕍) : val9 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val9_keep V0 main_v116 (by decide)).trans (val8_main_v116 V0)
theorem val9_main_v233 (V0 : 𝕍) : val9 V0 (no_index (Proc.devRef .tc main_v233)) = attn (fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0) (fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0) (fc (V0 (Proc.devRef .tc main_arg2)) (V0 (Proc.devRef .tc main_arg3)) (V0 (Proc.devRef .tc main_arg4)) (V0 (Proc.devRef .tc main_arg5)) (V0 (Proc.devRef .tc main_arg6)) ![5, 0, 0] slices_S9x512x1024_S1x512x1024_5_0_0 ![5, 0] slices_S9x512_S1x512_5_0) :=
  (val9_keep V0 main_v233 (by decide)).trans (val8_main_v233 V0)
theorem val9_main_v266 (V0 : 𝕍) : val9 V0 (no_index (Proc.devRef .tc main_v266)) = fc (V0 (Proc.devRef .tc main_arg2)) (V0 (Proc.devRef .tc main_arg3)) (V0 (Proc.devRef .tc main_arg4)) (V0 (Proc.devRef .tc main_arg5)) (V0 (Proc.devRef .tc main_arg6)) ![6, 0, 0] slices_S9x512x1024_S1x512x1024_6_0_0 ![6, 0] slices_S9x512_S1x512_6_0 :=
  (fcOps6_out (val8 V0)).trans (by rw [val8_main_arg2 V0, val8_main_arg3 V0, val8_main_arg4 V0, val8_main_arg5 V0, val8_main_arg6 V0])

set_option maxRecDepth 65536 in
set_option maxHeartbeats 4000000 in
/-- The block's result is its stage of the contents it starts from. -/
theorem fcOps7_out (V : 𝕍) : after (fcOps7 (F := Ideal)) V (no_index (Proc.devRef .tc main_v299)) = fc (V (Proc.devRef .tc main_arg0)) (V (Proc.devRef .tc main_arg3)) (V (Proc.devRef .tc main_arg4)) (V (Proc.devRef .tc main_arg5)) (V (Proc.devRef .tc main_arg6)) ![7, 0, 0] slices_S9x512x1024_S1x512x1024_7_0_0 ![7, 0] slices_S9x512_S1x512_7_0 := by
  simp only [fcOps7]
  after_results_simp
  rfl
/-- The buffers the block writes. -/
abbrev fcOps7_W : List (Ref sig .tc) := [main_v267, main_v268, main_v269, main_v270, main_v271, main_v272, main_v273, main_v274, main_v275, main_v276, main_v277, main_v278, main_v279, main_cst_34, main_v280, main_cst_35, main_v281, main_v282, main_c_36, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v283, main_v284, main_v285, main_v286, main_cst_37, main_v287, main_v288, main_v289, main_v290, main_v291, main_v292, main_v293, main_v294, main_v295, main_v296, main_v297, main_v298, main_call15_cst, main_call15_v0, main_v299]
set_option maxRecDepth 65536 in
theorem fcOps7_writes : (fcOps7 : List (HloOp τ sig (Elt Ideal))).Forall fun op => op.writes ⊆ (fcOps7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 10 blocks. -/
def val10 (V0 : 𝕍) : 𝕍 := after fcOps7 (val9 V0)
theorem val10_keep (V0 : 𝕍) (r : Ref sig .tc) (h : r ∉ fcOps7_W) : val10 V0 (Proc.devRef .tc r) = val9 V0 (Proc.devRef .tc r) :=
  after_of_writes_sub fcOps7 _ fcOps7_writes h
theorem val10_main_arg0 (V0 : 𝕍) : val10 V0 (no_index (Proc.devRef .tc main_arg0)) = V0 (Proc.devRef .tc main_arg0) :=
  (val10_keep V0 main_arg0 (by decide)).trans (val9_main_arg0 V0)
theorem val10_main_arg1 (V0 : 𝕍) : val10 V0 (no_index (Proc.devRef .tc main_arg1)) = V0 (Proc.devRef .tc main_arg1) :=
  (val10_keep V0 main_arg1 (by decide)).trans (val9_main_arg1 V0)
theorem val10_main_arg2 (V0 : 𝕍) : val10 V0 (no_index (Proc.devRef .tc main_arg2)) = V0 (Proc.devRef .tc main_arg2) :=
  (val10_keep V0 main_arg2 (by decide)).trans (val9_main_arg2 V0)
theorem val10_main_arg3 (V0 : 𝕍) : val10 V0 (no_index (Proc.devRef .tc main_arg3)) = V0 (Proc.devRef .tc main_arg3) :=
  (val10_keep V0 main_arg3 (by decide)).trans (val9_main_arg3 V0)
theorem val10_main_arg4 (V0 : 𝕍) : val10 V0 (no_index (Proc.devRef .tc main_arg4)) = V0 (Proc.devRef .tc main_arg4) :=
  (val10_keep V0 main_arg4 (by decide)).trans (val9_main_arg4 V0)
theorem val10_main_arg5 (V0 : 𝕍) : val10 V0 (no_index (Proc.devRef .tc main_arg5)) = V0 (Proc.devRef .tc main_arg5) :=
  (val10_keep V0 main_arg5 (by decide)).trans (val9_main_arg5 V0)
theorem val10_main_arg6 (V0 : 𝕍) : val10 V0 (no_index (Proc.devRef .tc main_arg6)) = V0 (Proc.devRef .tc main_arg6) :=
  (val10_keep V0 main_arg6 (by decide)).trans (val9_main_arg6 V0)
theorem val10_main_v116 (V0 : 𝕍) : val10 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val10_keep V0 main_v116 (by decide)).trans (val9_main_v116 V0)
theorem val10_main_v233 (V0 : 𝕍) : val10 V0 (no_index (Proc.devRef .tc main_v233)) = attn (fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0) (fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0) (fc (V0 (Proc.devRef .tc main_arg2)) (V0 (Proc.devRef .tc main_arg3)) (V0 (Proc.devRef .tc main_arg4)) (V0 (Proc.devRef .tc main_arg5)) (V0 (Proc.devRef .tc main_arg6)) ![5, 0, 0] slices_S9x512x1024_S1x512x1024_5_0_0 ![5, 0] slices_S9x512_S1x512_5_0) :=
  (val10_keep V0 main_v233 (by decide)).trans (val9_main_v233 V0)
theorem val10_main_v266 (V0 : 𝕍) : val10 V0 (no_index (Proc.devRef .tc main_v266)) = fc (V0 (Proc.devRef .tc main_arg2)) (V0 (Proc.devRef .tc main_arg3)) (V0 (Proc.devRef .tc main_arg4)) (V0 (Proc.devRef .tc main_arg5)) (V0 (Proc.devRef .tc main_arg6)) ![6, 0, 0] slices_S9x512x1024_S1x512x1024_6_0_0 ![6, 0] slices_S9x512_S1x512_6_0 :=
  (val10_keep V0 main_v266 (by decide)).trans (val9_main_v266 V0)
theorem val10_main_v299 (V0 : 𝕍) : val10 V0 (no_index (Proc.devRef .tc main_v299)) = fc (V0 (Proc.devRef .tc main_arg0)) (V0 (Proc.devRef .tc main_arg3)) (V0 (Proc.devRef .tc main_arg4)) (V0 (Proc.devRef .tc main_arg5)) (V0 (Proc.devRef .tc main_arg6)) ![7, 0, 0] slices_S9x512x1024_S1x512x1024_7_0_0 ![7, 0] slices_S9x512_S1x512_7_0 :=
  (fcOps7_out (val9 V0)).trans (by rw [val9_main_arg0 V0, val9_main_arg3 V0, val9_main_arg4 V0, val9_main_arg5 V0, val9_main_arg6 V0])

set_option maxRecDepth 65536 in
set_option maxHeartbeats 4000000 in
/-- The block's result is its stage of the contents it starts from. -/
theorem fcOps8_out (V : 𝕍) : after (fcOps8 (F := Ideal)) V (no_index (Proc.devRef .tc main_v332)) = fc (V (Proc.devRef .tc main_arg0)) (V (Proc.devRef .tc main_arg3)) (V (Proc.devRef .tc main_arg4)) (V (Proc.devRef .tc main_arg5)) (V (Proc.devRef .tc main_arg6)) ![8, 0, 0] slices_S9x512x1024_S1x512x1024_8_0_0 ![8, 0] slices_S9x512_S1x512_8_0 := by
  simp only [fcOps8]
  after_results_simp
  rfl
/-- The buffers the block writes. -/
abbrev fcOps8_W : List (Ref sig .tc) := [main_v300, main_v301, main_v302, main_v303, main_v304, main_v305, main_v306, main_v307, main_v308, main_v309, main_v310, main_v311, main_v312, main_cst_38, main_v313, main_cst_39, main_v314, main_v315, main_c_40, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v316, main_v317, main_v318, main_v319, main_cst_41, main_v320, main_v321, main_v322, main_v323, main_v324, main_v325, main_v326, main_v327, main_v328, main_v329, main_v330, main_v331, main_call17_cst, main_call17_v0, main_v332]
set_option maxRecDepth 65536 in
theorem fcOps8_writes : (fcOps8 : List (HloOp τ sig (Elt Ideal))).Forall fun op => op.writes ⊆ (fcOps8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 11 blocks. -/
def val11 (V0 : 𝕍) : 𝕍 := after fcOps8 (val10 V0)
theorem val11_keep (V0 : 𝕍) (r : Ref sig .tc) (h : r ∉ fcOps8_W) : val11 V0 (Proc.devRef .tc r) = val10 V0 (Proc.devRef .tc r) :=
  after_of_writes_sub fcOps8 _ fcOps8_writes h
theorem val11_main_arg0 (V0 : 𝕍) : val11 V0 (no_index (Proc.devRef .tc main_arg0)) = V0 (Proc.devRef .tc main_arg0) :=
  (val11_keep V0 main_arg0 (by decide)).trans (val10_main_arg0 V0)
theorem val11_main_arg1 (V0 : 𝕍) : val11 V0 (no_index (Proc.devRef .tc main_arg1)) = V0 (Proc.devRef .tc main_arg1) :=
  (val11_keep V0 main_arg1 (by decide)).trans (val10_main_arg1 V0)
theorem val11_main_arg2 (V0 : 𝕍) : val11 V0 (no_index (Proc.devRef .tc main_arg2)) = V0 (Proc.devRef .tc main_arg2) :=
  (val11_keep V0 main_arg2 (by decide)).trans (val10_main_arg2 V0)
theorem val11_main_arg3 (V0 : 𝕍) : val11 V0 (no_index (Proc.devRef .tc main_arg3)) = V0 (Proc.devRef .tc main_arg3) :=
  (val11_keep V0 main_arg3 (by decide)).trans (val10_main_arg3 V0)
theorem val11_main_arg4 (V0 : 𝕍) : val11 V0 (no_index (Proc.devRef .tc main_arg4)) = V0 (Proc.devRef .tc main_arg4) :=
  (val11_keep V0 main_arg4 (by decide)).trans (val10_main_arg4 V0)
theorem val11_main_arg5 (V0 : 𝕍) : val11 V0 (no_index (Proc.devRef .tc main_arg5)) = V0 (Proc.devRef .tc main_arg5) :=
  (val11_keep V0 main_arg5 (by decide)).trans (val10_main_arg5 V0)
theorem val11_main_arg6 (V0 : 𝕍) : val11 V0 (no_index (Proc.devRef .tc main_arg6)) = V0 (Proc.devRef .tc main_arg6) :=
  (val11_keep V0 main_arg6 (by decide)).trans (val10_main_arg6 V0)
theorem val11_main_v116 (V0 : 𝕍) : val11 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val11_keep V0 main_v116 (by decide)).trans (val10_main_v116 V0)
theorem val11_main_v233 (V0 : 𝕍) : val11 V0 (no_index (Proc.devRef .tc main_v233)) = attn (fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0) (fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0) (fc (V0 (Proc.devRef .tc main_arg2)) (V0 (Proc.devRef .tc main_arg3)) (V0 (Proc.devRef .tc main_arg4)) (V0 (Proc.devRef .tc main_arg5)) (V0 (Proc.devRef .tc main_arg6)) ![5, 0, 0] slices_S9x512x1024_S1x512x1024_5_0_0 ![5, 0] slices_S9x512_S1x512_5_0) :=
  (val11_keep V0 main_v233 (by decide)).trans (val10_main_v233 V0)
theorem val11_main_v266 (V0 : 𝕍) : val11 V0 (no_index (Proc.devRef .tc main_v266)) = fc (V0 (Proc.devRef .tc main_arg2)) (V0 (Proc.devRef .tc main_arg3)) (V0 (Proc.devRef .tc main_arg4)) (V0 (Proc.devRef .tc main_arg5)) (V0 (Proc.devRef .tc main_arg6)) ![6, 0, 0] slices_S9x512x1024_S1x512x1024_6_0_0 ![6, 0] slices_S9x512_S1x512_6_0 :=
  (val11_keep V0 main_v266 (by decide)).trans (val10_main_v266 V0)
theorem val11_main_v299 (V0 : 𝕍) : val11 V0 (no_index (Proc.devRef .tc main_v299)) = fc (V0 (Proc.devRef .tc main_arg0)) (V0 (Proc.devRef .tc main_arg3)) (V0 (Proc.devRef .tc main_arg4)) (V0 (Proc.devRef .tc main_arg5)) (V0 (Proc.devRef .tc main_arg6)) ![7, 0, 0] slices_S9x512x1024_S1x512x1024_7_0_0 ![7, 0] slices_S9x512_S1x512_7_0 :=
  (val11_keep V0 main_v299 (by decide)).trans (val10_main_v299 V0)
theorem val11_main_v332 (V0 : 𝕍) : val11 V0 (no_index (Proc.devRef .tc main_v332)) = fc (V0 (Proc.devRef .tc main_arg0)) (V0 (Proc.devRef .tc main_arg3)) (V0 (Proc.devRef .tc main_arg4)) (V0 (Proc.devRef .tc main_arg5)) (V0 (Proc.devRef .tc main_arg6)) ![8, 0, 0] slices_S9x512x1024_S1x512x1024_8_0_0 ![8, 0] slices_S9x512_S1x512_8_0 :=
  (fcOps8_out (val10 V0)).trans (by rw [val10_main_arg0 V0, val10_main_arg3 V0, val10_main_arg4 V0, val10_main_arg5 V0, val10_main_arg6 V0])

set_option maxRecDepth 65536 in
set_option maxHeartbeats 4000000 in
/-- The block's result is its stage of the contents it starts from. -/
theorem attOps2_out (V : 𝕍) : after (attOps2 (F := Ideal)) V (no_index (Proc.devRef .tc main_v350)) = attn (V (Proc.devRef .tc main_v266)) (V (Proc.devRef .tc main_v299)) (V (Proc.devRef .tc main_v332)) := by
  simp only [attOps2]
  after_results_simp
  rfl
/-- The buffers the block writes. -/
abbrev attOps2_W : List (Ref sig .tc) := [main_v333, main_v334, main_cst_42, main_v335, main_v336, main_v337, main_cst_43, main_v338, main_cst_44, main_v339, main_v340, main_v341, main_v342, main_v343, main_v344, main_cst_45, main_v345, main_v346, main_v347, main_v348, main_v349, main_v350]
set_option maxRecDepth 65536 in
theorem attOps2_writes : (attOps2 : List (HloOp τ sig (Elt Ideal))).Forall fun op => op.writes ⊆ (attOps2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The contents after the first 12 blocks. -/
def val12 (V0 : 𝕍) : 𝕍 := after attOps2 (val11 V0)
theorem val12_keep (V0 : 𝕍) (r : Ref sig .tc) (h : r ∉ attOps2_W) : val12 V0 (Proc.devRef .tc r) = val11 V0 (Proc.devRef .tc r) :=
  after_of_writes_sub attOps2 _ attOps2_writes h
theorem val12_main_arg0 (V0 : 𝕍) : val12 V0 (no_index (Proc.devRef .tc main_arg0)) = V0 (Proc.devRef .tc main_arg0) :=
  (val12_keep V0 main_arg0 (by decide)).trans (val11_main_arg0 V0)
theorem val12_main_arg1 (V0 : 𝕍) : val12 V0 (no_index (Proc.devRef .tc main_arg1)) = V0 (Proc.devRef .tc main_arg1) :=
  (val12_keep V0 main_arg1 (by decide)).trans (val11_main_arg1 V0)
theorem val12_main_arg2 (V0 : 𝕍) : val12 V0 (no_index (Proc.devRef .tc main_arg2)) = V0 (Proc.devRef .tc main_arg2) :=
  (val12_keep V0 main_arg2 (by decide)).trans (val11_main_arg2 V0)
theorem val12_main_arg3 (V0 : 𝕍) : val12 V0 (no_index (Proc.devRef .tc main_arg3)) = V0 (Proc.devRef .tc main_arg3) :=
  (val12_keep V0 main_arg3 (by decide)).trans (val11_main_arg3 V0)
theorem val12_main_arg4 (V0 : 𝕍) : val12 V0 (no_index (Proc.devRef .tc main_arg4)) = V0 (Proc.devRef .tc main_arg4) :=
  (val12_keep V0 main_arg4 (by decide)).trans (val11_main_arg4 V0)
theorem val12_main_arg5 (V0 : 𝕍) : val12 V0 (no_index (Proc.devRef .tc main_arg5)) = V0 (Proc.devRef .tc main_arg5) :=
  (val12_keep V0 main_arg5 (by decide)).trans (val11_main_arg5 V0)
theorem val12_main_arg6 (V0 : 𝕍) : val12 V0 (no_index (Proc.devRef .tc main_arg6)) = V0 (Proc.devRef .tc main_arg6) :=
  (val12_keep V0 main_arg6 (by decide)).trans (val11_main_arg6 V0)
theorem val12_main_v116 (V0 : 𝕍) : val12 V0 (no_index (Proc.devRef .tc main_v116)) = attn (fc (V0 (Proc.devRef .tc main_arg0)) (V0 (Proc.devRef .tc main_arg3)) (V0 (Proc.devRef .tc main_arg4)) (V0 (Proc.devRef .tc main_arg5)) (V0 (Proc.devRef .tc main_arg6)) ![0, 0, 0] slices_S9x512x1024_S1x512x1024_0_0_0 ![0, 0] slices_S9x512_S1x512_0_0) (fc (V0 (Proc.devRef .tc main_arg1)) (V0 (Proc.devRef .tc main_arg3)) (V0 (Proc.devRef .tc main_arg4)) (V0 (Proc.devRef .tc main_arg5)) (V0 (Proc.devRef .tc main_arg6)) ![1, 0, 0] slices_S9x512x1024_S1x512x1024_1_0_0 ![1, 0] slices_S9x512_S1x512_1_0) (fc (V0 (Proc.devRef .tc main_arg1)) (V0 (Proc.devRef .tc main_arg3)) (V0 (Proc.devRef .tc main_arg4)) (V0 (Proc.devRef .tc main_arg5)) (V0 (Proc.devRef .tc main_arg6)) ![2, 0, 0] slices_S9x512x1024_S1x512x1024_2_0_0 ![2, 0] slices_S9x512_S1x512_2_0) :=
  (val12_keep V0 main_v116 (by decide)).trans (val11_main_v116 V0)
theorem val12_main_v233 (V0 : 𝕍) : val12 V0 (no_index (Proc.devRef .tc main_v233)) = attn (fc (V0 (Proc.devRef .tc main_arg1)) (V0 (Proc.devRef .tc main_arg3)) (V0 (Proc.devRef .tc main_arg4)) (V0 (Proc.devRef .tc main_arg5)) (V0 (Proc.devRef .tc main_arg6)) ![3, 0, 0] slices_S9x512x1024_S1x512x1024_3_0_0 ![3, 0] slices_S9x512_S1x512_3_0) (fc (V0 (Proc.devRef .tc main_arg2)) (V0 (Proc.devRef .tc main_arg3)) (V0 (Proc.devRef .tc main_arg4)) (V0 (Proc.devRef .tc main_arg5)) (V0 (Proc.devRef .tc main_arg6)) ![4, 0, 0] slices_S9x512x1024_S1x512x1024_4_0_0 ![4, 0] slices_S9x512_S1x512_4_0) (fc (V0 (Proc.devRef .tc main_arg2)) (V0 (Proc.devRef .tc main_arg3)) (V0 (Proc.devRef .tc main_arg4)) (V0 (Proc.devRef .tc main_arg5)) (V0 (Proc.devRef .tc main_arg6)) ![5, 0, 0] slices_S9x512x1024_S1x512x1024_5_0_0 ![5, 0] slices_S9x512_S1x512_5_0) :=
  (val12_keep V0 main_v233 (by decide)).trans (val11_main_v233 V0)
theorem val12_main_v266 (V0 : 𝕍) : val12 V0 (no_index (Proc.devRef .tc main_v266)) = fc (V0 (Proc.devRef .tc main_arg2)) (V0 (Proc.devRef .tc main_arg3)) (V0 (Proc.devRef .tc main_arg4)) (V0 (Proc.devRef .tc main_arg5)) (V0 (Proc.devRef .tc main_arg6)) ![6, 0, 0] slices_S9x512x1024_S1x512x1024_6_0_0 ![6, 0] slices_S9x512_S1x512_6_0 :=
  (val12_keep V0 main_v266 (by decide)).trans (val11_main_v266 V0)
theorem val12_main_v299 (V0 : 𝕍) : val12 V0 (no_index (Proc.devRef .tc main_v299)) = fc (V0 (Proc.devRef .tc main_arg0)) (V0 (Proc.devRef .tc main_arg3)) (V0 (Proc.devRef .tc main_arg4)) (V0 (Proc.devRef .tc main_arg5)) (V0 (Proc.devRef .tc main_arg6)) ![7, 0, 0] slices_S9x512x1024_S1x512x1024_7_0_0 ![7, 0] slices_S9x512_S1x512_7_0 :=
  (val12_keep V0 main_v299 (by decide)).trans (val11_main_v299 V0)
theorem val12_main_v332 (V0 : 𝕍) : val12 V0 (no_index (Proc.devRef .tc main_v332)) = fc (V0 (Proc.devRef .tc main_arg0)) (V0 (Proc.devRef .tc main_arg3)) (V0 (Proc.devRef .tc main_arg4)) (V0 (Proc.devRef .tc main_arg5)) (V0 (Proc.devRef .tc main_arg6)) ![8, 0, 0] slices_S9x512x1024_S1x512x1024_8_0_0 ![8, 0] slices_S9x512_S1x512_8_0 :=
  (val12_keep V0 main_v332 (by decide)).trans (val11_main_v332 V0)
theorem val12_main_v350 (V0 : 𝕍) : val12 V0 (no_index (Proc.devRef .tc main_v350)) = attn (fc (V0 (Proc.devRef .tc main_arg2)) (V0 (Proc.devRef .tc main_arg3)) (V0 (Proc.devRef .tc main_arg4)) (V0 (Proc.devRef .tc main_arg5)) (V0 (Proc.devRef .tc main_arg6)) ![6, 0, 0] slices_S9x512x1024_S1x512x1024_6_0_0 ![6, 0] slices_S9x512_S1x512_6_0) (fc (V0 (Proc.devRef .tc main_arg0)) (V0 (Proc.devRef .tc main_arg3)) (V0 (Proc.devRef .tc main_arg4)) (V0 (Proc.devRef .tc main_arg5)) (V0 (Proc.devRef .tc main_arg6)) ![7, 0, 0] slices_S9x512x1024_S1x512x1024_7_0_0 ![7, 0] slices_S9x512_S1x512_7_0) (fc (V0 (Proc.devRef .tc main_arg0)) (V0 (Proc.devRef .tc main_arg3)) (V0 (Proc.devRef .tc main_arg4)) (V0 (Proc.devRef .tc main_arg5)) (V0 (Proc.devRef .tc main_arg6)) ![8, 0, 0] slices_S9x512x1024_S1x512x1024_8_0_0 ![8, 0] slices_S9x512_S1x512_8_0) :=
  (attOps2_out (val11 V0)).trans (by rw [val11_main_v266 V0, val11_main_v299 V0, val11_main_v332 V0])

set_option maxRecDepth 65536 in
/-- The fold of all the operations is the fold block by block. -/
theorem after_ops (V0 : 𝕍) : after (ops (F := Ideal)) V0 = val12 V0 := by
  rw [ops_eq_chunks]
  simp only [StableHlo.after_append]
  rfl

/-- Result 0 of the reference is the stage out0 of the seven arguments. -/
theorem out0_eq (V : 𝕍) : after (ops (F := Ideal)) V (Proc.devRef .tc main_v116) = out0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]; exact (val12_main_v116 V).trans rfl
/-- Result 1 of the reference is the stage out1 of the seven arguments. -/
theorem out1_eq (V : 𝕍) : after (ops (F := Ideal)) V (Proc.devRef .tc main_v233) = out1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]; exact (val12_main_v233 V).trans rfl
/-- Result 2 of the reference is the stage out2 of the seven arguments. -/
theorem out2_eq (V : 𝕍) : after (ops (F := Ideal)) V (Proc.devRef .tc main_v350) = out2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]; exact (val12_main_v350 V).trans rfl
/-- Argument 0 is not written. -/
theorem arg0_eq (V : 𝕍) : after (ops (F := Ideal)) V (Proc.devRef .tc main_arg0) = V (Proc.devRef .tc main_arg0) := by
  rw [after_ops]; exact val12_main_arg0 V
/-- Argument 1 is not written. -/
theorem arg1_eq (V : 𝕍) : after (ops (F := Ideal)) V (Proc.devRef .tc main_arg1) = V (Proc.devRef .tc main_arg1) := by
  rw [after_ops]; exact val12_main_arg1 V
/-- Argument 2 is not written. -/
theorem arg2_eq (V : 𝕍) : after (ops (F := Ideal)) V (Proc.devRef .tc main_arg2) = V (Proc.devRef .tc main_arg2) := by
  rw [after_ops]; exact val12_main_arg2 V
/-- Argument 3 is not written. -/
theorem arg3_eq (V : 𝕍) : after (ops (F := Ideal)) V (Proc.devRef .tc main_arg3) = V (Proc.devRef .tc main_arg3) := by
  rw [after_ops]; exact val12_main_arg3 V
/-- Argument 4 is not written. -/
theorem arg4_eq (V : 𝕍) : after (ops (F := Ideal)) V (Proc.devRef .tc main_arg4) = V (Proc.devRef .tc main_arg4) := by
  rw [after_ops]; exact val12_main_arg4 V
/-- Argument 5 is not written. -/
theorem arg5_eq (V : 𝕍) : after (ops (F := Ideal)) V (Proc.devRef .tc main_arg5) = V (Proc.devRef .tc main_arg5) := by
  rw [after_ops]; exact val12_main_arg5 V
/-- Argument 6 is not written. -/
theorem arg6_eq (V : 𝕍) : after (ops (F := Ideal)) V (Proc.devRef .tc main_arg6) = V (Proc.devRef .tc main_arg6) := by
  rw [after_ops]; exact val12_main_arg6 V

end Cert.ReferenceIdeal.Hand

end
-- ==== Proof.Ref.Run.lean ====
import proofs.«100284_j64536178590158_2_alg».proof.Proof.Ref.MainEq
import proofs.«100284_j64536178590158_2_alg».proof.Proof.Ref.Val

noncomputable section

namespace Cert.ReferenceIdeal.Hand

open Cert.ReferenceIdeal Cert.ReferenceIdeal.Gen Idealize.ShloMosaic Idealize.ShloMosaic.TcCoe Idealize.SL.Sem Idealize.ShloMosaic.StableHlo

/-- From any memory with zero counters, every weakly fair execution of the reference terminates with each of the three results at
    the fold of the operations over the launch contents, and the seven arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v116) = after (ops (F := Ideal)) (launchContents m c) (Proc.devRef .tc main_v116)
      ∧ r.2.mem ((c.tc : Thread nD τ).loc main_v233) = after (ops (F := Ideal)) (launchContents m c) (Proc.devRef .tc main_v233)
      ∧ r.2.mem ((c.tc : Thread nD τ).loc main_v350) = after (ops (F := Ideal)) (launchContents m c) (Proc.devRef .tc main_v350)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c main_v116, h c main_v233, h c main_v350,
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_all m ρ)

/-- The reference runs and leaves its arguments as they were. -/
theorem frame (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2.2.2) (run m g)

/-- The same with each result as its stage of the arguments' launch contents. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v116) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v233) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v350) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (out0_eq (launchContents m c)), (h c).2.1.trans (out1_eq (launchContents m c)),
      (h c).2.2.1.trans (out2_eq (launchContents m c)), (h c).2.2.2⟩) (run m ρ)

end Cert.ReferenceIdeal.Hand

end
-- ==== Proof.LibBatchNormFold.lean ====
/-
  Batch normalisation folded into one multiply-add, on the extended reals.

  A layer  h ↦ ((h − μ) · r) · γ + β  with the batch statistics
      μ = (∑ h) / n,   v = (∑ (h − μ)²) / n,   r = (v + ε)^(−1/2)
  is often computed from the two running sums  s = ∑ h  and  q = ∑ h²  instead:
      μ = s / n,   v' = q / n − μ · μ,   r' = (v' + ε)^(−1/2),   a = γ · r',   b = β − μ · a,   h · a + b.
  For FINITE h, γ, β, a batch of n ≠ 0 elements and ε > 0 the two are one extended real. The lemmas below say so
  over the operations floats mean at the exact instance: the quotient `Ideal.div`, the inverse root
  `Ideal.rsqrt`, and the extended reals' own + − ·. Finiteness is what makes it true: with an infinite h the product
  (h − μ) · r · γ does not distribute over the difference. Also here: a quotient by √1024 is the product with 1/32
  at every extended real, and the three float words such a layer spells (1024, 32768, 1/32) as the reals they denote.
-/
import Idealize.ShloMosaic.PureOps.Ideal
import Mathlib.Tactic.Ring
import Mathlib.Tactic.FieldSimp
import Mathlib.Tactic.NormNum
import Mathlib.Tactic.Positivity

noncomputable section

namespace LibBatchNormFold

open Idealize.ShloMosaic
open scoped BigOperators

variable {ι : Type*}

/-! ## Finite sums and quotients of reals, read in the extended reals -/

/-- A finite sum of reals, read in the extended reals, is the sum of the readings. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (x y : ℝ) (hy : y ≠ 0) : Ideal.div (x : EReal) (y : EReal) = ((x / y : ℝ) : EReal) := by
  rw [Ideal.div_coe hy, ← EReal.coe_mul, mul_one_div]

/-! ## The variance from the two running sums -/

/-- Over the reals: the mean of the squared deviations from the mean is the mean of the squares less the squared
    mean (n is the number of elements, as a real). -/
theorem var_real [Fintype ι] (h : ι → ℝ) (n : ℝ) (hn : n ≠ 0) (hcard : (Fintype.card ι : ℝ) = n) :
    (∑ b, (h b - (∑ b, h b) / n) * (h b - (∑ b, h b) / n)) / n
      = (∑ b, h b * h b) / n - ((∑ b, h b) / n) * ((∑ b, h b) / n) := by
  have e : ∀ b, (h b - (∑ b, h b) / n) * (h b - (∑ b, h b) / n)
      = h b * h b - 2 * ((∑ b, h b) / n) * h b + ((∑ b, h b) / n) * ((∑ b, h b) / n) := fun b => by ring
  simp only [e, Finset.sum_add_distrib, Finset.sum_sub_distrib, ← Finset.mul_sum, Finset.sum_const,
    Finset.card_univ, nsmul_eq_mul, hcard]
  field_simp
  ring

/-- The mean of the squared deviations is not negative. -/
theorem var_real_nonneg [Fintype ι] (h : ι → ℝ) (n : ℝ) (hn : 0 < n) :
    0 ≤ (∑ b, (h b - (∑ b, h b) / n) * (h b - (∑ b, h b) / n)) / n :=
  div_nonneg (Finset.sum_nonneg fun b _ => mul_self_nonneg _) hn.le

/-- The same law on the extended reals, over the exact quotient: both variances of finite numbers are one value. -/
theorem var_fold [Fintype ι] (h : ι → ℝ) (n : ℝ) (hn : n ≠ 0) (hcard : (Fintype.card ι : ℝ) = n) :
    Ideal.div (∑ b, ((h b : EReal) - Ideal.div (∑ b, (h b : EReal)) (n : EReal))
        * ((h b : EReal) - Ideal.div (∑ b, (h b : EReal)) (n : EReal))) (n : EReal)
      = Ideal.div (∑ b, (h b : EReal) * (h b : EReal)) (n : EReal)
          - Ideal.div (∑ b, (h b : EReal)) (n : EReal) * Ideal.div (∑ b, (h b : EReal)) (n : EReal) := by
  rw [← coe_sum, div_coe_coe _ _ hn]
  simp only [← EReal.coe_sub, ← EReal.coe_mul, ← coe_sum]
  rw [div_coe_coe _ _ hn, div_coe_coe _ _ hn, ← EReal.coe_sub]
  exact congrArg _ (var_real h n hn hcard)

/-! ## The inverse root of a positive real -/

/-- The inverse root of a nonnegative real plus a positive one is a real: the reciprocal of the real root. -/
theorem rsqrt_add_pos (v ε : ℝ) (hv : 0 ≤ v) (hε : 0 < ε) :
    Ideal.rsqrt ((v : EReal) + (ε : EReal)) = (((Real.sqrt (v + ε))⁻¹ : ℝ) : EReal) := by
  have hpos : 0 < v + ε := by positivity
  rw [← EReal.coe_add, Ideal.rsqrt_coe, if_neg (not_lt.mpr hpos.le), if_neg hpos.ne']

/-! ## The fold -/

/-- Over finite numbers, normalise-scale-shift is one multiply-add with a folded scale and shift. -/
theorem affine_fold (h μ r g β : ℝ) :
    (((h : EReal) - (μ : EReal)) * (r : EReal)) * (g : EReal) + (β : EReal)
      = (h : EReal) * ((g : EReal) * (r : EReal)) + ((β : EReal) - (μ : EReal) * ((g : EReal) * (r : EReal))) := by
  simp only [← EReal.coe_sub, ← EReal.coe_mul, ← EReal.coe_add]
  exact congrArg _ (by ring)

/-- THE LAW. For a batch `h` of n finite numbers, finite γ and β, and ε > 0: the layer written with the two-pass
    variance, `((h − μ) · rsqrt (v + ε)) · γ + β`, is the layer written from the running sums,
    `h · (γ · rsqrt (q/n − μ·μ + ε)) + (β − μ · (γ · rsqrt (q/n − μ·μ + ε)))`, at every element. -/
theorem bn_fold [Fintype ι] (h : ι → ℝ) (n ε g β : ℝ) (hn : 0 < n) (hcard : (Fintype.card ι : ℝ) = n) (hε : 0 < ε)
    (b₀ : ι) :
    ((((h b₀ : ℝ) : EReal) - Ideal.div (∑ b, (h b : EReal)) (n : EReal))
        * Ideal.rsqrt (Ideal.div (∑ b, ((h b : EReal) - Ideal.div (∑ b, (h b : EReal)) (n : EReal))
            * ((h b : EReal) - Ideal.div (∑ b, (h b : EReal)) (n : EReal))) (n : EReal) + (ε : EReal)))
        * (g : EReal) + (β : EReal)
      = ((h b₀ : ℝ) : EReal) * ((g : EReal)
            * Ideal.rsqrt (Ideal.div (∑ b, (h b : EReal) * (h b : EReal)) (n : EReal)
                - Ideal.div (∑ b, (h b : EReal)) (n : EReal) * Ideal.div (∑ b, (h b : EReal)) (n : EReal) + (ε : EReal)))
          + ((β : EReal) - Ideal.div (∑ b, (h b : EReal)) (n : EReal) * ((g : EReal)
            * Ideal.rsqrt (Ideal.div (∑ b, (h b : EReal) * (h b : EReal)) (n : EReal)
                - Ideal.div (∑ b, (h b : EReal)) (n : EReal) * Ideal.div (∑ b, (h b : EReal)) (n : EReal) + (ε : EReal)))) := by
  rw [← var_fold h n hn.ne' hcard]
  have hμ : Ideal.div (∑ b, (h b : EReal)) (n : EReal) = (((∑ b, h b) / n : ℝ) : EReal) := by
    rw [← coe_sum, div_coe_coe _ _ hn.ne']
  have hv : Ideal.div (∑ b, ((h b : EReal) - Ideal.div (∑ b, (h b : EReal)) (n : EReal))
        * ((h b : EReal) - Ideal.div (∑ b, (h b : EReal)) (n : EReal))) (n : EReal)
      = (((∑ b, (h b - (∑ b, h b) / n) * (h b - (∑ b, h b) / n)) / n : ℝ) : EReal) := by
    rw [hμ]
    simp only [← EReal.coe_sub, ← EReal.coe_mul, ← coe_sum]
    rw [div_coe_coe _ _ hn.ne']
  rw [hv, rsqrt_add_pos _ _ (var_real_nonneg h n hn) hε, hμ]
  exact affine_fold _ _ _ _ _

/-! ## The attention scale and the words of the layer -/

/-- A quotient by the root of 1024 is the product with 1/32, at the infinities too. -/
theorem div_sqrt_1024 (x : EReal) : Ideal.div x (Ideal.sqrt ((1024 : ℝ) : EReal)) = x * ((1 / 32 : ℝ) : EReal) := by
  have h32 : Real.sqrt 1024 = 32 := by
    rw [show (1024 : ℝ) = 32 ^ 2 by norm_num]; exact Real.sqrt_sq (by norm_num)
  rw [Ideal.sqrt_coe, if_neg (by norm_num), h32, Ideal.div_coe (by norm_num)]

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `32768.0` denotes the real 32768. -/
theorem ofBits_32768 : Ideal.ofBits .f32 0x47000000#32 = ((32768 : ℝ) : EReal) := by
  simp [Ideal.ofBits, Ideal.ieee, -EReal.coe_mul]; norm_num

/-- The word of `0.03125` denotes the real 1/32. -/
theorem ofBits_inv32 : Ideal.ofBits .f32 0x3D000000#32 = ((1 / 32 : ℝ) : EReal) := by
  simp [Ideal.ofBits, Ideal.ieee, -EReal.coe_mul]; norm_num

end LibBatchNormFold

end
-- ==== Proof.Ref.Read.lean ====
/-
  The reference's stages read at an index (at the ideal values): each layout operation names the operand's index by
  coordinates, each reduction is the sum (or the supremum) over its axis, and the three results are the attention
  formulas of the specification over the two-pass batch normalisation.
-/
import proofs.«100284_j64536178590158_2_alg».proof.Proof.Ref.Terms
import proofs.«100284_j64536178590158_2_alg».proof.Proof.Spec
import proofs.«100284_j64536178590158_2_alg».proof.Proof.LibBatchNormFold
import Idealize.ShloMosaic.Lib.ValueIdx
import Idealize.ShloMosaic.Lib.Pipeline.Value
import Idealize.ShloMosaic.Lib.IdealHost
import Idealize.ShloMosaic.Lib.StackMember
import Idealize.ShloMosaic.PureOps.Ideal.Laws
import Idealize.ShloMosaic.PureOps.Reduce

noncomputable section

namespace Cert.ReferenceIdeal.Hand

open Cert.ReferenceIdeal Idealize.ShloMosaic Idealize.ShloMosaic.ValueIdx
open Cert.ReferenceIdeal.Facts₀
open scoped BigOperators

/-! ## Rows of the stacked parameters -/

/-- The transposed weight row at (d, k) is the stacked weights at (j, k, d). -/
theorem wT_apply (Ws : C S9x512x1024) (off : Fin S9x512x1024.rank → Nat) (h : S9x512x1024.Slices off S1x512x1024)
    (j : Fin 9) (h0 : off 0 = j.val) (h1 : off 1 = 0) (h2 : off 2 = 0) (d : Fin 1024) (k : Fin 512) :
    wT Ws off h (ix2 d k) = Ws (ix3 j k d) := by
  unfold wT
  refine (transpose_apply [1, 0] _ _ (ix2 d k) (ix2 k d) fun b => ?_).trans ?_
  · match b with
    | ⟨0, _⟩ => rfl
    | ⟨1, _⟩ => rfl
  refine (shapeCast_apply _ _ (ix2 k d) (ix3 (0 : Fin 1) k d) ?_).trans ?_
  · rw [Shape.rowMajor_val_three, Shape.rowMajor_val_two]
    show ((0 : Fin 1).val * 512 + k.val) * 1024 + d.val = k.val * 1024 + d.val
    simp
  refine extractStridedSlice_apply off Ws h _ (ix3 j k d) fun a => ?_
  match a with
  | ⟨0, _⟩ => show j.val = off 0 + 0; omega
  | ⟨1, _⟩ => show k.val = off 1 + k.val; omega
  | ⟨2, _⟩ => show d.val = off 2 + d.val; omega

/-- A parameter row at k is the stacked parameter at (j, k). -/
theorem row_apply (v : C S9x512) (off : Fin S9x512.rank → Nat) (h : S9x512.Slices off S1x512)
    (j : Fin 9) (h0 : off 0 = j.val) (h1 : off 1 = 0) (k : Fin 512) :
    row v off h (ix1 k) = v (ix2 j k) := by
  unfold row
  refine (shapeCast_apply _ _ (ix1 k) (ix2 (0 : Fin 1) k) ?_).trans ?_
  · rw [Shape.rowMajor_val_two, Shape.rowMajor_val_one]
    show (0 : Fin 1).val * 512 + k.val = k.val
    simp
  refine extractStridedSlice_apply off v h _ (ix2 j k) fun a => ?_
  match a with
  | ⟨0, _⟩ => show j.val = off 0 + 0; omega
  | ⟨1, _⟩ => show k.val = off 1 + k.val; omega

/-- A vector repeated down the rows reads its entry at the column. -/
theorem rows_apply (v : C S512) (b : Fin 32768) (k : Fin 512) : rows v (ix2 b k) = v (ix1 k) := by
  unfold rows
  refine (broadcastInDim_apply _ _ _ (ix2 b k) (ix2 (0 : Fin 1) k) fun a => ?_).trans ?_
  · match a with
    | ⟨0, _⟩ => rfl
    | ⟨1, _⟩ => rfl
  refine broadcastInDim_apply _ _ _ (ix2 (0 : Fin 1) k) (ix1 k) fun a => ?_
  match a with
  | ⟨0, _⟩ => rfl

/-- A vector repeated along the columns reads its entry at the row. -/
theorem cols_apply (v : C S512) (a k : Fin 512) : cols v (ix2 a k) = v (ix1 a) := by
  unfold cols
  refine (broadcastInDim_apply _ _ _ (ix2 a k) (ix2 a (0 : Fin 1)) fun c => ?_).trans ?_
  · match c with
    | ⟨0, _⟩ => rfl
    | ⟨1, _⟩ => rfl
  refine broadcastInDim_apply _ _ _ (ix2 a (0 : Fin 1)) (ix1 a) fun c => ?_
  match c with
  | ⟨0, _⟩ => rfl

/-! ## Reductions over one axis of a matrix -/

/-- A column index with the row put back. -/
theorem lift0_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- A row index with the column put back. -/
theorem lift1_ix2 {m n : Nat} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

/-- The sum down a column, from zero. -/
theorem colSum_apply (h : C S32768x512) (k : Fin 512) :
    Host.reduceAdd (F := Ideal) h (constant (F := Ideal) S_ .f32 0x00000000#32) reducesTo_S32768x512_S512_d0 h_S_ (ix1 k)
      = ∑ b : Fin 32768, h (ix2 b k) := by
  have hR : S32768x512.Reduces [0] S512 := by decide
  rw [hostReduceAdd_apply, Ideal.hostReduceAdd_single _ hR, constant_apply, Ideal.ofBits_zero_f32, zero_add]
  show ∑ b : Fin 32768, h (hR.lift (ix1 k) b) = _
  exact Finset.sum_congr rfl fun b _ => congrArg h (lift0_ix2 hR k b)

/-- The sum along a row, from zero. -/
theorem rowSum_apply (L : C S512x512) (a : Fin 512) :
    Host.reduceAdd (F := Ideal) L (constant (F := Ideal) S_ .f32 0x00000000#32) reducesTo_S512x512_S512_d1 h_S_ (ix1 a)
      = ∑ k : Fin 512, L (ix2 a k) := by
  have hR : S512x512.Reduces [1] S512 := by decide
  rw [hostReduceAdd_apply, Ideal.hostReduceAdd_single _ hR, constant_apply, Ideal.ofBits_zero_f32, zero_add]
  show ∑ k : Fin 512, L (hR.lift (ix1 a) k) = _
  exact Finset.sum_congr rfl fun k _ => congrArg L (lift1_ix2 hR a k)

/-- The word of −∞ is the least extended real. -/
theorem ofBits_neg_inf : Ideal.ofBits .f32 0xFF800000#32 = (⊥ : EReal) := by
  simp [Ideal.ofBits, Ideal.ieee]

/-- A fold of `max` from the least element is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- The maximum along a row, from −∞. -/
theorem rowMax_apply (L : C S512x512) (a : Fin 512) :
    Host.reduce (FloatOps.maximumf (F := Ideal) (φ := .f32)) L (constant (F := Ideal) S_ .f32 0xFF800000#32)
        reducesTo_S512x512_S512_d1 h_S_ (ix1 a)
      = Finset.univ.sup fun k : Fin 512 => L (ix2 a k) := by
  have hR : S512x512.Reduces [1] S512 := by decide
  rw [Host.reduce_eq_fold_single FloatOps.maximumf L _ reducesTo_S512x512_S512_d1 hR h_S_, constant_apply, ofBits_neg_inf]
  have hf : (L ∘ hR.lift (ix1 a)) = fun k : Fin 512 => L (ix2 a k) := funext fun k => congrArg L (lift1_ix2 hR a k)
  show Finset.fold max (⊥ : EReal) (L ∘ hR.lift (ix1 a)) (Finset.univ : Finset (Fin 512)) = _
  rw [hf]
  exact fold_max_bot _ _

/-! ## Linear → batch normalisation → rectification -/

/-- `x · Wᵀ + b` at (r, k). -/
theorem lin_apply (x : C S32768x1024) (wt : C S1024x512) (b : C S512) (r : Fin 32768) (k : Fin 512) :
    lin x wt b (ix2 r k) = (∑ d : Fin 1024, x (ix2 r d) * wt (ix2 d k)) + b (ix1 k) := by
  unfold lin
  rw [addf_apply, rows_apply]
  congr 1
  exact StackMember.dotGeneral_plain_apply (m := 32768) (n := 512) (k := 1024) none x wt r k

/-- The batch size as the reference writes it. -/
abbrev nB : EReal := Ideal.ofBits .f32 0x47000000#32
/-- The variance floor as the reference writes it. -/
abbrev epsB : EReal := Ideal.ofBits .f32 0x3727C5AC#32

/-- The column mean at k. -/
theorem mean_apply (h : C S32768x512) (k : Fin 512) :
    mean h (ix1 k) = Ideal.div (∑ b : Fin 32768, h (ix2 b k)) nB := by
  unfold mean
  rw [hostDivf_apply, colSum_apply, broadcastInDim_scalar_apply, constant_apply]

/-- The deviation from the column mean at (b, k). -/
theorem dev_apply (h : C S32768x512) (b : Fin 32768) (k : Fin 512) :
    dev h (ix2 b k) = h (ix2 b k) - Ideal.div (∑ b : Fin 32768, h (ix2 b k)) nB := by
  unfold dev
  rw [subf_apply]
  refine congrArg (fun z => h (ix2 b k) - z) ?_
  refine (broadcastInDim_apply _ _ _ (ix2 b k) (ix2 (0 : Fin 1) k) fun a => ?_).trans ?_
  · match a with
    | ⟨0, _⟩ => rfl
    | ⟨1, _⟩ => rfl
  rw [hostDivf_apply, broadcastInDim_scalar_apply, constant_apply]
  refine congrArg (fun z => Ideal.div z nB) ?_
  refine (broadcastInDim_apply _ _ _ (ix2 (0 : Fin 1) k) (ix1 k) fun a => ?_).trans (colSum_apply h k)
  match a with
  | ⟨0, _⟩ => rfl

/-- The variance's divisor is the batch size. -/
theorem ddof_apply : ddof ix0 = nB := by
  unfold ddof
  rw [subf_apply, constant_apply, sitofp_apply]
  show nB - (((0#32 : BitVec 32).toInt : ℝ) : EReal) = nB
  have : ((0#32 : BitVec 32).toInt : ℝ) = 0 := by simp
  rw [this, EReal.coe_zero, sub_zero]

/-- The batch size is positive. -/
theorem nB_pos : (0 : EReal) < nB := by
  show (0 : EReal) < Ideal.ofBits .f32 0x47000000#32
  rw [LibBatchNormFold.ofBits_32768]
  exact EReal.coe_pos.mpr (by norm_num)

/-- The column variance at k: the mean of the squared deviations (the positive divisor selects it). -/
theorem var_apply (h : C S32768x512) (k : Fin 512) :
    var h (ix1 k) = Cert.Spec.varR nB (fun b => h (ix2 b k)) := by
  unfold var
  rw [select_apply, broadcastInDim_scalar_apply, cmpf_apply, ddof_apply, constant_apply, Ideal.ofBits_zero_f32]
  have hc : FloatOps.cmpf (F := Ideal) (φ := .f32) .ogt nB 0 = 1#1 := by
    show Ideal.cmp .ogt nB 0 = 1#1
    simp [Ideal.cmp, nB_pos]
  rw [hc, select_one, hostDivf_apply, broadcastInDim_scalar_apply, ddof_apply, colSum_apply]
  unfold Cert.Spec.varR
  refine congrArg (fun z => Ideal.div z nB) ?_
  refine Finset.sum_congr rfl fun b _ => ?_
  rw [mulf_apply, dev_apply]

/-- Normalised, scaled, shifted, rectified: the two-pass formula of the specification. -/
theorem bnRelu_apply (h : C S32768x512) (g beta : C S512) (b : Fin 32768) (k : Fin 512) :
    bnRelu h g beta (ix2 b k) = Cert.Spec.actR nB epsB (fun b => h (ix2 b k)) (g (ix1 k)) (beta (ix1 k)) b := by
  unfold bnRelu
  rw [maximumf_apply, addf_apply, mulf_apply, mulf_apply, subf_apply, rows_apply, rows_apply, rows_apply, rows_apply,
    mean_apply, broadcastInDim_scalar_apply, constant_apply, Ideal.ofBits_zero_f32]
  show max (((h (ix2 b k) - _) * FloatOps.hostUnary .rsqrt (addf (F := Ideal) (var h) _ (ix1 k))) * g (ix1 k) + beta (ix1 k)) 0 = _
  rw [Ideal.hostUnary_rsqrt_def, addf_apply, var_apply, broadcastInDim_scalar_apply, constant_apply]
  rfl

/-- One projection at (r, k): the activation of the specification over the linear map's column. -/
theorem fc_apply (x : C S32768x1024) (Ws : C S9x512x1024) (bs gammas betas : C S9x512)
    (offW : Fin S9x512x1024.rank → Nat) (hW : S9x512x1024.Slices offW S1x512x1024)
    (offB : Fin S9x512.rank → Nat) (hB : S9x512.Slices offB S1x512)
    (j : Fin 9) (w0 : offW 0 = j.val) (w1 : offW 1 = 0) (w2 : offW 2 = 0) (b0 : offB 0 = j.val) (b1 : offB 1 = 0)
    (r : Fin 32768) (k : Fin 512) :
    fc x Ws bs gammas betas offW hW offB hB (ix2 r k)
      = Cert.Spec.actR nB epsB (fun r => (∑ d : Fin 1024, x (ix2 r d) * Ws (ix3 j k d)) + bs (ix2 j k))
          (gammas (ix2 j k)) (betas (ix2 j k)) r := by
  unfold fc
  rw [bnRelu_apply, row_apply gammas offB hB j b0 b1, row_apply betas offB hB j b0 b1]
  congr 1
  funext r'
  rw [lin_apply, row_apply bs offB hB j b0 b1]
  congr 1
  exact Finset.sum_congr rfl fun d _ => by rw [wT_apply Ws offW hW j w0 w1 w2]

/-! ## Attention -/

/-- The key dimension as the reference writes it. -/
abbrev dkB : EReal := Ideal.ofBits .f32 0x44800000#32

/-- The scaled logits at (a, k). -/
theorem logits_apply (Q K : C S32768x512) (a k : Fin 512) :
    logits Q K (ix2 a k) = Ideal.div (∑ b : Fin 32768, Q (ix2 b a) * K (ix2 b k)) (Ideal.sqrt dkB) := by
  unfold logits
  rw [hostDivf_apply, broadcastInDim_scalar_apply]
  have e1 : Host.dotGeneral (F := Ideal) dot_S512x32768_S32768x512_S512x512_1_0_0_1_n_n none
      (transpose S512x32768 [1, 0] Q transposes_S32768x512_S512x32768_1_0) K (ix2 a k)
        = ∑ b : Fin 32768, Q (ix2 b a) * K (ix2 b k) := by
    refine (StackMember.dotGeneral_plain_apply (m := 512) (n := 512) (k := 32768) none _ K a k).trans ?_
    refine Finset.sum_congr rfl fun b _ => ?_
    refine congrArg (fun z => z * K (ix2 b k)) ?_
    refine transpose_apply [1, 0] Q _ (ix2 a b) (ix2 b a) fun c => ?_
    match c with
    | ⟨0, _⟩ => rfl
    | ⟨1, _⟩ => rfl
  have e2 : Host.sqrt (F := Ideal) (constant (F := Ideal) S_ .f32 0x44800000#32) ix0 = Ideal.sqrt dkB := rfl
  exact congrArg₂ Ideal.div e1 e2

/-- The host's exponential at an index. -/
theorem hostExp_apply {s : Shape} {φ : FTy} (x : FVec Ideal s φ) (i : s.Idx) : Host.exp x i = Ideal.exp (x i) := rfl

/-- The exponential of a logit less its row's supremum. -/
theorem expo_apply (L : C S512x512) (a k : Fin 512) :
    expo L (ix2 a k) = Ideal.exp (L (ix2 a k) - Finset.univ.sup fun k' : Fin 512 => L (ix2 a k')) := by
  unfold expo
  rw [hostExp_apply, subf_apply, cols_apply, maximumf_apply, broadcastInDim_scalar_apply, constant_apply, rowMax_apply,
    ofBits_neg_inf, max_eq_right bot_le]

/-- The row softmax of the specification. -/
theorem soft_apply (L : C S512x512) (a k : Fin 512) :
    soft L (ix2 a k) = Cert.Spec.softmax (fun a k => L (ix2 a k)) a k := by
  unfold soft
  rw [hostDivf_apply, cols_apply, rowSum_apply, expo_apply]
  unfold Cert.Spec.softmax Cert.Spec.rowMax
  refine congrArg (fun z => Ideal.div _ z) ?_
  exact Finset.sum_congr rfl fun k' _ => expo_apply L a k'

/-- One attention at (b, o): the values against the transposed softmax. -/
theorem attn_apply (Q K V : C S32768x512) (b : Fin 32768) (o : Fin 512) :
    attn Q K V (ix2 b o) = ∑ k : Fin 512, V (ix2 b k) * soft (logits Q K) (ix2 o k) := by
  unfold attn
  refine (StackMember.dotGeneral_plain_apply (m := 32768) (n := 512) (k := 512) none V _ b o).trans ?_
  refine Finset.sum_congr rfl fun k _ => ?_
  refine congrArg (fun z => V (ix2 b k) * z) ?_
  refine transpose_apply [1, 0] _ _ (ix2 k o) (ix2 o k) fun c => ?_
  match c with
  | ⟨0, _⟩ => rfl
  | ⟨1, _⟩ => rfl

/-- One attention as the specification's formula over its three activations. -/
theorem attn_spec (Q K V : C S32768x512) (b : Fin 32768) (o : Fin 512) :
    attn Q K V (ix2 b o)
      = Cert.Spec.av (fun r k => V (ix2 r k))
          (Cert.Spec.softmax fun a k =>
            Ideal.div (Cert.Spec.qk (fun r k => Q (ix2 r k)) (fun r k => K (ix2 r k)) a k) (Ideal.sqrt dkB)) b o := by
  rw [attn_apply]
  unfold Cert.Spec.av
  refine Finset.sum_congr rfl fun k _ => ?_
  rw [soft_apply]
  have e : (fun a k => logits Q K (ix2 a k))
      = fun a k => Ideal.div (Cert.Spec.qk (fun r k => Q (ix2 r k)) (fun r k => K (ix2 r k)) a k) (Ideal.sqrt dkB) :=
    funext fun a => funext fun k => logits_apply Q K a k
  rw [e]

/-! ## The three results -/

/-- Projection `j`'s linear map over input `x`, at (r, k). -/
def hR (x : C S32768x1024) (Ws : C S9x512x1024) (bs : C S9x512) (j : Fin 9) (r : Fin 32768) (k : Fin 512) : EReal :=
  (∑ d : Fin 1024, x (ix2 r d) * Ws (ix3 j k d)) + bs (ix2 j k)

/-- Projection `j`'s activation over input `x`, at (r, k): two-pass batch normalisation of its column, rectified. -/
def act (x : C S32768x1024) (Ws : C S9x512x1024) (bs gammas betas : C S9x512) (j : Fin 9) (r : Fin 32768) (k : Fin 512) :
    EReal :=
  Cert.Spec.actR nB epsB (fun r => hR x Ws bs j r k) (gammas (ix2 j k)) (betas (ix2 j k)) r

section
variable (cx gx wx : C S32768x1024) (Ws : C S9x512x1024) (bs gammas betas : C S9x512)

theorem fc0_apply (r : Fin 32768) (k : Fin 512) : fc0 cx Ws bs gammas betas (ix2 r k) = act cx Ws bs gammas betas 0 r k :=
  fc_apply cx Ws bs gammas betas _ _ _ _ 0 rfl rfl rfl rfl rfl r k
theorem fc1_apply (r : Fin 32768) (k : Fin 512) : fc1 gx Ws bs gammas betas (ix2 r k) = act gx Ws bs gammas betas 1 r k :=
  fc_apply gx Ws bs gammas betas _ _ _ _ 1 rfl rfl rfl rfl rfl r k
theorem fc2_apply (r : Fin 32768) (k : Fin 512) : fc2 gx Ws bs gammas betas (ix2 r k) = act gx Ws bs gammas betas 2 r k :=
  fc_apply gx Ws bs gammas betas _ _ _ _ 2 rfl rfl rfl rfl rfl r k
theorem fc3_apply (r : Fin 32768) (k : Fin 512) : fc3 gx Ws bs gammas betas (ix2 r k) = act gx Ws bs gammas betas 3 r k :=
  fc_apply gx Ws bs gammas betas _ _ _ _ 3 rfl rfl rfl rfl rfl r k
theorem fc4_apply (r : Fin 32768) (k : Fin 512) : fc4 wx Ws bs gammas betas (ix2 r k) = act wx Ws bs gammas betas 4 r k :=
  fc_apply wx Ws bs gammas betas _ _ _ _ 4 rfl rfl rfl rfl rfl r k
theorem fc5_apply (r : Fin 32768) (k : Fin 512) : fc5 wx Ws bs gammas betas (ix2 r k) = act wx Ws bs gammas betas 5 r k :=
  fc_apply wx Ws bs gammas betas _ _ _ _ 5 rfl rfl rfl rfl rfl r k
theorem fc6_apply (r : Fin 32768) (k : Fin 512) : fc6 wx Ws bs gammas betas (ix2 r k) = act wx Ws bs gammas betas 6 r k :=
  fc_apply wx Ws bs gammas betas _ _ _ _ 6 rfl rfl rfl rfl rfl r k
theorem fc7_apply (r : Fin 32768) (k : Fin 512) : fc7 cx Ws bs gammas betas (ix2 r k) = act cx Ws bs gammas betas 7 r k :=
  fc_apply cx Ws bs gammas betas _ _ _ _ 7 rfl rfl rfl rfl rfl r k
theorem fc8_apply (r : Fin 32768) (k : Fin 512) : fc8 cx Ws bs gammas betas (ix2 r k) = act cx Ws bs gammas betas 8 r k :=
  fc_apply cx Ws bs gammas betas _ _ _ _ 8 rfl rfl rfl rfl rfl r k

/-- The attention formula of the specification over three activations. -/
def attnSpec (Q K V : Fin 32768 → Fin 512 → EReal) (b : Fin 32768) (o : Fin 512) : EReal :=
  Cert.Spec.av V (Cert.Spec.softmax fun a k => Ideal.div (Cert.Spec.qk Q K a k) (Ideal.sqrt dkB)) b o

/-- The first result: query row 0 over `cx`, key row 1 and value row 2 over `gx`. -/
theorem out0_apply (b : Fin 32768) (o : Fin 512) :
    out0 cx gx wx Ws bs gammas betas (ix2 b o)
      = attnSpec (act cx Ws bs gammas betas 0) (act gx Ws bs gammas betas 1) (act gx Ws bs gammas betas 2) b o := by
  unfold out0 attnSpec
  rw [attn_spec]
  have eQ : (fun r k => fc0 cx Ws bs gammas betas (ix2 r k)) = act cx Ws bs gammas betas 0 :=
    funext fun r => funext fun k => fc0_apply cx Ws bs gammas betas r k
  have eK : (fun r k => fc1 gx Ws bs gammas betas (ix2 r k)) = act gx Ws bs gammas betas 1 :=
    funext fun r => funext fun k => fc1_apply gx Ws bs gammas betas r k
  have eV : (fun r k => fc2 gx Ws bs gammas betas (ix2 r k)) = act gx Ws bs gammas betas 2 :=
    funext fun r => funext fun k => fc2_apply gx Ws bs gammas betas r k
  rw [eQ, eK, eV]

/-- The second result: query row 3 over `gx`, key row 4 and value row 5 over `wx`. -/
theorem out1_apply (b : Fin 32768) (o : Fin 512) :
    out1 cx gx wx Ws bs gammas betas (ix2 b o)
      = attnSpec (act gx Ws bs gammas betas 3) (act wx Ws bs gammas betas 4) (act wx Ws bs gammas betas 5) b o := by
  unfold out1 attnSpec
  rw [attn_spec]
  have eQ : (fun r k => fc3 gx Ws bs gammas betas (ix2 r k)) = act gx Ws bs gammas betas 3 :=
    funext fun r => funext fun k => fc3_apply gx Ws bs gammas betas r k
  have eK : (fun r k => fc4 wx Ws bs gammas betas (ix2 r k)) = act wx Ws bs gammas betas 4 :=
    funext fun r => funext fun k => fc4_apply wx Ws bs gammas betas r k
  have eV : (fun r k => fc5 wx Ws bs gammas betas (ix2 r k)) = act wx Ws bs gammas betas 5 :=
    funext fun r => funext fun k => fc5_apply wx Ws bs gammas betas r k
  rw [eQ, eK, eV]

/-- The third result: query row 6 over `wx`, key row 7 and value row 8 over `cx`. -/
theorem out2_apply (b : Fin 32768) (o : Fin 512) :
    out2 cx gx wx Ws bs gammas betas (ix2 b o)
      = attnSpec (act wx Ws bs gammas betas 6) (act cx Ws bs gammas betas 7) (act cx Ws bs gammas betas 8) b o := by
  unfold out2 attnSpec
  rw [attn_spec]
  have eQ : (fun r k => fc6 wx Ws bs gammas betas (ix2 r k)) = act wx Ws bs gammas betas 6 :=
    funext fun r => funext fun k => fc6_apply wx Ws bs gammas betas r k
  have eK : (fun r k => fc7 cx Ws bs gammas betas (ix2 r k)) = act cx Ws bs gammas betas 7 :=
    funext fun r => funext fun k => fc7_apply cx Ws bs gammas betas r k
  have eV : (fun r k => fc8 cx Ws bs gammas betas (ix2 r k)) = act cx Ws bs gammas betas 8 :=
    funext fun r => funext fun k => fc8_apply cx Ws bs gammas betas r k
  rw [eQ, eK, eV]

/-- The input feeding projection row `j`. -/
def inp (j : Fin 9) : C S32768x1024 := ![cx, gx, wx] (Cert.Spec.sel j)

/-- The three results as a family. -/
def out (g : Fin 3) : C S32768x512 :=
  ![out0 cx gx wx Ws bs gammas betas, out1 cx gx wx Ws bs gammas betas, out2 cx gx wx Ws bs gammas betas] g

/-- Result `g` at (b, o): the attention of the specification over the activations of rows 3g, 3g+1, 3g+2, each over
    the input the specification's selector names. -/
theorem out_apply (g : Fin 3) (b : Fin 32768) (o : Fin 512) :
    out cx gx wx Ws bs gammas betas g (ix2 b o)
      = attnSpec (act (inp cx gx wx (Cert.Spec.qrow g)) Ws bs gammas betas (Cert.Spec.qrow g))
          (act (inp cx gx wx (Cert.Spec.krow g)) Ws bs gammas betas (Cert.Spec.krow g))
          (act (inp cx gx wx (Cert.Spec.vrow g)) Ws bs gammas betas (Cert.Spec.vrow g)) b o := by
  match g with
  | ⟨0, _⟩ => exact out0_apply cx gx wx Ws bs gammas betas b o
  | ⟨1, _⟩ => exact out1_apply cx gx wx Ws bs gammas betas b o
  | ⟨2, _⟩ => exact out2_apply cx gx wx Ws bs gammas betas b o

end

end Cert.ReferenceIdeal.Hand

end
-- ==== Proof.Bridge.lean ====
/-
  The two spellings of the layer agree on finite inputs: the computation from the running sums with the folded scale
  and shift and the logits multiplied by 1/32 is, index by index, the two-pass batch normalisation with the logits
  divided by √1024.
-/
import proofs.«100284_j64536178590158_2_alg».proof.Proof.KSpec
import proofs.«100284_j64536178590158_2_alg».proof.Proof.Ref.Read
import proofs.«100284_j64536178590158_2_alg».proof.Proof.LibBatchNormFold

noncomputable section

namespace Cert.Bridge

open Cert.ReferenceIdeal Cert.ReferenceIdeal.Hand Idealize.ShloMosaic Idealize.ShloMosaic.ValueIdx
open scoped BigOperators

/-- The word of the variance floor denotes a positive real. -/
theorem eps_real : ∃ ε : ℝ, 0 < ε ∧ Ideal.ofBits .f32 0x3727C5AC#32 = (ε : EReal) := by
  refine ⟨10995116 * (2 : ℝ) ^ (-40 : ℤ), by positivity, ?_⟩
  simp [Ideal.ofBits, Ideal.ieee, -EReal.coe_mul]

/-- Multiplying by the word of 1/32 is dividing by the root of the word of 1024, at every extended real. -/
theorem scale_eq (x : EReal) : x * Cert.Spec.sclW = Ideal.div x (Ideal.sqrt dkB) := by
  show x * Ideal.ofBits .f32 0x3D000000#32 = Ideal.div x (Ideal.sqrt (Ideal.ofBits .f32 0x44800000#32))
  rw [LibBatchNormFold.ofBits_inv32, LibBatchNormFold.ofBits_1024, LibBatchNormFold.div_sqrt_1024]

section
variable (cx gx wx : C S32768x1024) (Ws : C S9x512x1024) (bs gammas betas : C S9x512)

/-- Every entry of the input feeding row `j` is a real when every entry of the three inputs is. -/
theorem inp_real (hcx : ∀ i, ∃ r : ℝ, cx i = (r : EReal)) (hgx : ∀ i, ∃ r : ℝ, gx i = (r : EReal))
    (hwx : ∀ i, ∃ r : ℝ, wx i = (r : EReal)) (j : Fin 9) : ∀ i, ∃ r : ℝ, inp cx gx wx j i = (r : EReal) := by
  unfold inp
  generalize Cert.Spec.sel j = t
  match t with
  | ⟨0, _⟩ => exact hcx
  | ⟨1, _⟩ => exact hgx
  | ⟨2, _⟩ => exact hwx

/-- The two texts' linear maps are one. -/
theorem hK_eq_hR (j : Fin 9) (r : Fin 32768) (k : Fin 512) :
    Cert.Spec.hK cx gx wx Ws bs j r k = hR (inp cx gx wx j) Ws bs j r k := rfl

/-- A column of a linear map of reals is a column of reals. -/
theorem hR_real (x : C S32768x1024) (hx : ∀ i, ∃ r : ℝ, x i = (r : EReal)) (hWs : ∀ i, ∃ r : ℝ, Ws i = (r : EReal))
    (hbs : ∀ i, ∃ r : ℝ, bs i = (r : EReal)) (j : Fin 9) (k : Fin 512) :
    ∃ f : Fin 32768 → ℝ, ∀ r, hR x Ws bs j r k = (f r : EReal) := by
  choose fx hfx using hx
  choose fW hfW using hWs
  choose fb hfb using hbs
  refine ⟨fun r => (∑ d : Fin 1024, fx (ix2 r d) * fW (ix3 j k d)) + fb (ix2 j k), fun r => ?_⟩
  unfold hR
  simp only [hfx, hfW, hfb]
  rw [EReal.coe_add, LibBatchNormFold.coe_sum]
  simp only [EReal.coe_mul]

/-- The activation from the running sums is the two-pass activation, on finite inputs. -/
theorem aK_eq_act (hcx : ∀ i, ∃ r : ℝ, cx i = (r : EReal)) (hgx : ∀ i, ∃ r : ℝ, gx i = (r : EReal))
    (hwx : ∀ i, ∃ r : ℝ, wx i = (r : EReal)) (hWs : ∀ i, ∃ r : ℝ, Ws i = (r : EReal))
    (hbs : ∀ i, ∃ r : ℝ, bs i = (r : EReal)) (hg : ∀ i, ∃ r : ℝ, gammas i = (r : EReal))
    (hb : ∀ i, ∃ r : ℝ, betas i = (r : EReal)) (j : Fin 9) (r : Fin 32768) (k : Fin 512) :
    Cert.Spec.aK cx gx wx Ws bs gammas betas j r k = act (inp cx gx wx j) Ws bs gammas betas j r k := by
  obtain ⟨f, hf⟩ := hR_real Ws bs (inp cx gx wx j) (inp_real cx gx wx hcx hgx hwx j) hWs hbs j k
  obtain ⟨gr, hgr⟩ := hg (ix2 j k)
  obtain ⟨br, hbr⟩ := hb (ix2 j k)
  obtain ⟨ε, hε, hεw⟩ := eps_real
  have hf' : ∀ r, Cert.Spec.hK cx gx wx Ws bs j r k = (f r : EReal) := hf
  have hn : Cert.Spec.nW = ((32768 : ℝ) : EReal) := LibBatchNormFold.ofBits_32768
  have hn' : nB = ((32768 : ℝ) : EReal) := LibBatchNormFold.ofBits_32768
  have he : Cert.Spec.epsW = (ε : EReal) := hεw
  have he' : epsB = (ε : EReal) := hεw
  unfold Cert.Spec.aK act Cert.Spec.actK Cert.Spec.actR Cert.Spec.scK Cert.Spec.shK Cert.Spec.scaleK Cert.Spec.shiftK
    Cert.Spec.varK Cert.Spec.meanK Cert.Spec.varR Cert.Spec.sK Cert.Spec.qK
  simp only [hf', hf, hgr, hbr, hn, hn', he, he']
  exact congrArg (fun z => max z 0)
    (LibBatchNormFold.bn_fold f 32768 ε gr br (by norm_num) (by simp) hε r).symm

/-- THE BRIDGE: on finite inputs the computation from the running sums is the reference's, at every index. -/
theorem bridge (hcx : ∀ i, ∃ r : ℝ, cx i = (r : EReal)) (hgx : ∀ i, ∃ r : ℝ, gx i = (r : EReal))
    (hwx : ∀ i, ∃ r : ℝ, wx i = (r : EReal)) (hWs : ∀ i, ∃ r : ℝ, Ws i = (r : EReal))
    (hbs : ∀ i, ∃ r : ℝ, bs i = (r : EReal)) (hg : ∀ i, ∃ r : ℝ, gammas i = (r : EReal))
    (hb : ∀ i, ∃ r : ℝ, betas i = (r : EReal)) (g : Fin 3) (b : Fin 32768) (o : Fin 512) :
    Cert.Spec.outK cx gx wx Ws bs gammas betas g b o = out cx gx wx Ws bs gammas betas g (ix2 b o) := by
  rw [out_apply]
  unfold Cert.Spec.outK attnSpec Cert.Spec.attnK
  have ea : ∀ j, Cert.Spec.aK cx gx wx Ws bs gammas betas j = act (inp cx gx wx j) Ws bs gammas betas j :=
    fun j => funext fun r => funext fun k => aK_eq_act cx gx wx Ws bs gammas betas hcx hgx hwx hWs hbs hg hb j r k
  simp only [ea, scale_eq]

end

end Cert.Bridge

end
-- ==== Proof.Finite.lean ====
import proofs.«100284_j64536178590158_2_alg».proof.Pre_finite_inputs
import proofs.«100284_j64536178590158_2_alg».proof.Proof.Gen.Pre_finite_inputs
import Idealize.ShloMosaic.Lib.ReduceAll
import Idealize.ShloMosaic.Lib.ValueIdx
import Idealize.ShloMosaic.PureOps.Ideal

/-!
  Finiteness of the inputs, read off the precondition.

  The precondition is the conjunction, over the seven float arguments, of "every entry `x` has
  `|x| < +∞`". At the ideal instance an entry is an extended real, `|x| = max x (-x)`, and the
  pattern `0x7F800000` denotes `⊤`; so `max x (-x) < ⊤` excludes both `x = ⊤` and `x = ⊥`, and
  `x` is a real number.
-/

noncomputable section

namespace Cert.Finite

open Idealize.ShloMosaic Cert.Pre_finite_inputs

instance : Subsingleton S_.Idx := ⟨fun a b => funext fun d => d.elim0⟩

/-- An extended real whose absolute value is below `+∞` is a real. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  induction x using EReal.rec with
  | bot => exfalso; revert h; simp [FloatOps.cmpf, FloatOps.hostAbsf, Ideal.cmp, Ideal.ofBits, Ideal.ieee]
  | coe r => exact ⟨r, rfl⟩
  | top => exfalso; revert h; simp [FloatOps.cmpf, FloatOps.hostAbsf, Ideal.cmp, Ideal.ofBits, Ideal.ieee]

/-- One `jnp.all(|a| < +∞)`: when it is 1, every entry of `a` is a real. -/
theorem all_real {s : Shape} {axes : List (Fin s.rank)} (a : FVec Ideal s .f32)
    (bc : S_.BroadcastsInDim s (![] : Fin 0 → Fin s.rank)) (rd : s.ReducesTo axes S_) (hu : 0 < S_.numel)
    (init : IVec S_ 1) (j : S_.Idx)
    (e : Host.reduce IntOp.andi
      (cmpf .olt (Host.absf a) (broadcastInDim s ![] bc (constant (F := Ideal) S_ .f32 0x7F800000#32))) init rd hu j = 1#1)
    (i : s.Idx) : ∃ r : ℝ, a i = (r : EReal) :=
  real_of_abs_lt_top (a i) (Host.reduce_andi_all _ init rd hu j e i)

variable [Facts]

theorem real_of_pre (a0 a1 a2 : FVec Ideal S32768x1024 .f32) (a3 : FVec Ideal S9x512x1024 .f32)
    (a4 a5 a6 : FVec Ideal S9x512 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) := by
  have h0 := congrFun h ValueIdx.ix0
  dsimp only [fn, fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ _ e0, all_real a1 _ _ _ _ _ e1, all_real a2 _ _ _ _ _ e2,
    all_real a3 _ _ _ _ _ e3, all_real a4 _ _ _ _ _ e4, all_real a5 _ _ _ _ _ e5, all_real a6 _ _ _ _ _ e6⟩

end Cert.Finite
-- ==== Proof.lean ====
/-
  Three cross-attentions over Linear → BatchNorm (batch statistics) → ReLU projections, B = 32768 rows, 1024 → 512 features.

  For each of the nine projections (row j of the stacked weights; its input is cx, gx or wx by the table
  [0, 1, 1, 1, 2, 2, 2, 0, 0]) let  h = x · W_jᵀ + b_j,  s = ∑_b h,  q = ∑_b h².
  The reference normalises with the two-pass variance,
      μ = s / B,  v = (∑_b (h − μ)²) / B,  y = max (((h − μ) · (v + ε)^(−1/2)) · γ + β) 0,
  the kernel from the running sums its first call accumulates over the 32 row tiles,
      μ = s / B,  v' = q / B − μ·μ,  a = γ · (v' + ε)^(−1/2),  c = β − μ·a,  y = max (h·a + c) 0.
  On finite inputs h is finite, v = v' ≥ 0 over the reals and ε > 0, so both are one extended real at every
  element (Proof/LibBatchNormFold.lean, `bn_fold`): this is where the precondition is used.
  For attention i (Q, K, V the projections 3i, 3i+1, 3i+2) the reference forms softmax over each row of
  (Qᵀ K) / √1024 and returns V · attnᵀ; the kernel accumulates Qᵀ K over 16 row tiles for each half of Q's
  features, scales by 1/32, takes the same row maximum, exponential, row sum and quotient at the last tile, and
  multiplies V's tiles by attnᵀ. √1024 = 32, and a quotient by 32 is the product with 1/32 at every extended real;
  the matrix products and sums agree at the exact instance whatever their tiling and order.
  The changes of format to bf16 are the identity there, so nothing was rewritten and `preserves` is `True`.

  The pieces: Proof/K/Run.lean and Proof/KI/Run.lean run the kernel's @main (three regions among host lines) at the
  word-level and at the exact instance; Proof/KI/Value.lean reads the three results of the exact run as the function
  `Cert.Spec.outK` of the arguments; Proof/Ref/Run.lean runs the reference and Proof/Ref/Read.lean reads its results;
  Proof/Bridge.lean joins the two functions on finite arguments; Proof/Finite.lean reads finiteness off the precondition.
-/
import proofs.«100284_j64536178590158_2_alg».proof.Defs
import proofs.«100284_j64536178590158_2_alg».proof.Proof.Gen.Kernel
import proofs.«100284_j64536178590158_2_alg».proof.Proof.Gen.KernelIdeal
import proofs.«100284_j64536178590158_2_alg».proof.Proof.Gen.ReferenceIdeal
import proofs.«100284_j64536178590158_2_alg».proof.Proof.Gen.Pre_finite_inputs
import proofs.«100284_j64536178590158_2_alg».proof.Proof.K.Run
import proofs.«100284_j64536178590158_2_alg».proof.Proof.KI.Run
import proofs.«100284_j64536178590158_2_alg».proof.Proof.KI.Value
import proofs.«100284_j64536178590158_2_alg».proof.Proof.Ref.Run
import proofs.«100284_j64536178590158_2_alg».proof.Proof.Bridge
import proofs.«100284_j64536178590158_2_alg».proof.Proof.Finite
import Idealize.ShloMosaic.Adequacy
import Idealize.ShloMosaic.Init

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame m ρ

/-- No operation of the kernel was rewritten on the way to the exact instance: nothing to preserve. -/
theorem preserves : Cert.preserves_Kernel_KernelIdeal := trivial

/-- Both exact runs end; the kernel's three results are `Cert.Spec.outK` of the arguments, the reference's are its own
    function of them, and on finite arguments the two functions agree at every index. -/
theorem algebraic : Cert.algebraic_KernelIdeal_ReferenceIdeal := by
  intro m ρ m' ρ' hpre hagree
  refine ⟨fun c => Cert.KernelIdeal.Hand.W6 m c (Proc.devRef .tc Cert.KernelIdeal.main_v25), fun c => Cert.KernelIdeal.Hand.W6 m c (Proc.devRef .tc Cert.KernelIdeal.main_v27),
    fun c => Cert.KernelIdeal.Hand.W6 m c (Proc.devRef .tc Cert.KernelIdeal.main_v29), Cert.KernelIdeal.Hand.run_results (F := Ideal) m ρ, ?_⟩
  refine (θ_run Cert.ReferenceIdeal.defs _ _).mono (fun r h c => ?_) (Cert.ReferenceIdeal.Hand.run_out m' ρ')
  obtain ⟨h0, h1, h2, hargs⟩ := h c
  obtain ⟨e0, e1, e2, e3, e4, e5, e6⟩ := hagree c
  obtain ⟨f0, f1, f2, f3, f4, f5, f6⟩ := Cert.Finite.real_of_pre _ _ _ _ _ _ _ (hpre c)
  refine ⟨h0.trans ?_, h1.trans ?_, h2.trans ?_, hargs⟩
  · rw [e0, e1, e2, e3, e4, e5, e6]
    funext i
    obtain ⟨b, o, rfl⟩ : ∃ (b : Fin 32768) (o : Fin 512), i = ix2 b o := ⟨i 0, i 1, eq_ix2 i⟩
    exact ((Cert.KernelIdeal.HandVal.res0 m c b o).trans (Cert.Bridge.bridge _ _ _ _ _ _ _ f0 f1 f2 f3 f4 f5 f6 0 b o)).symm
  · rw [e0, e1, e2, e3, e4, e5, e6]
    funext i
    obtain ⟨b, o, rfl⟩ : ∃ (b : Fin 32768) (o : Fin 512), i = ix2 b o := ⟨i 0, i 1, eq_ix2 i⟩
    exact ((Cert.KernelIdeal.HandVal.res1 m c b o).trans (Cert.Bridge.bridge _ _ _ _ _ _ _ f0 f1 f2 f3 f4 f5 f6 1 b o)).symm
  · rw [e0, e1, e2, e3, e4, e5, e6]
    funext i
    obtain ⟨b, o, rfl⟩ : ∃ (b : Fin 32768) (o : Fin 512), i = ix2 b o := ⟨i 0, i 1, eq_ix2 i⟩
    exact ((Cert.KernelIdeal.HandVal.res2 m c b o).trans (Cert.Bridge.bridge _ _ _ _ _ _ _ f0 f1 f2 f3 f4 f5 f6 2 b o)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
